-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v170)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v170) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x11x160x160 : Shape := ⟨4, ![64, 11, 160, 160]⟩
abbrev S64x11x80x80 : Shape := ⟨4, ![64, 11, 80, 80]⟩
abbrev S64x11x40x40 : Shape := ⟨4, ![64, 11, 40, 40]⟩
abbrev S5000x6 : Shape := ⟨2, ![5000, 6]⟩
abbrev S_ : Shape := ⟨0, ![]⟩

class Facts : Prop where
  bcast_S_S64x11x160x160 : S_.BroadcastsInDim S64x11x160x160 (![] : Fin 0 → Fin S64x11x160x160.rank)
  reducesTo_S64x11x160x160_S_d0_1_2_3 : S64x11x160x160.ReducesTo [0, 1, 2, 3] S_
  h_S_ : 0 < S_.numel
  bcast_S_S64x11x80x80 : S_.BroadcastsInDim S64x11x80x80 (![] : Fin 0 → Fin S64x11x80x80.rank)
  reducesTo_S64x11x80x80_S_d0_1_2_3 : S64x11x80x80.ReducesTo [0, 1, 2, 3] S_
  bcast_S_S64x11x40x40 : S_.BroadcastsInDim S64x11x40x40 (![] : Fin 0 → Fin S64x11x40x40.rank)
  reducesTo_S64x11x40x40_S_d0_1_2_3 : S64x11x40x40.ReducesTo [0, 1, 2, 3] S_
  bcast_S_S5000x6 : S_.BroadcastsInDim S5000x6 (![] : Fin 0 → Fin S5000x6.rank)
  reducesTo_S5000x6_S_d0_1 : S5000x6.ReducesTo [0, 1] S_

variable [Facts]

def fn_part1 {F : FTy → Type} [FloatOps F] (main_v13 : IVec S_ 1) (main_v16 : IVec S5000x6 1) : IVec S_ 1 :=
  let main_c_5 : IVec S_ 1 := constantI S_ 1 1#1
  let main_v17 : IVec S_ 1 := (fun x v => Host.reduce IntOp.andi x v reducesTo_S5000x6_S_d0_1 h_S_) main_v16 main_c_5
  let main_v18 : IVec S_ 1 := andi main_v13 main_v17
  main_v18

def fn {F : FTy → Type} [FloatOps F] (main_arg0 : FVec F S64x11x160x160 .f32) (main_arg1 : FVec F S64x11x80x80 .f32) (main_arg2 : FVec F S64x11x40x40 .f32) (main_arg3 : FVec F S5000x6 .f32) : IVec S_ 1 :=
  let main_v0 : FVec F S64x11x160x160 .f32 := Host.absf main_arg0
  let main_cst : FVec F S_ .f32 := constant S_ .f32 0x7F800000#32
  let main_v1 : FVec F S64x11x160x160 .f32 := broadcastInDim S64x11x160x160 ![] bcast_S_S64x11x160x160 main_cst
  let main_v2 : IVec S64x11x160x160 1 := cmpf .olt main_v0 main_v1
  let main_c : IVec S_ 1 := constantI S_ 1 1#1
  let main_v3 : IVec S_ 1 := (fun x v => Host.reduce IntOp.andi x v reducesTo_S64x11x160x160_S_d0_1_2_3 h_S_) main_v2 main_c
  let main_v4 : FVec F S64x11x80x80 .f32 := Host.absf main_arg1
  let main_cst_0 : FVec F S_ .f32 := constant S_ .f32 0x7F800000#32
  let main_v5 : FVec F S64x11x80x80 .f32 := broadcastInDim S64x11x80x80 ![] bcast_S_S64x11x80x80 main_cst_0
  let main_v6 : IVec S64x11x80x80 1 := cmpf .olt main_v4 main_v5
  let main_c_1 : IVec S_ 1 := constantI S_ 1 1#1
  let main_v7 : IVec S_ 1 := (fun x v => Host.reduce IntOp.andi x v reducesTo_S64x11x80x80_S_d0_1_2_3 h_S_) main_v6 main_c_1
  let main_v8 : IVec S_ 1 := andi main_v3 main_v7
  let main_v9 : FVec F S64x11x40x40 .f32 := Host.absf main_arg2
  let main_cst_2 : FVec F S_ .f32 := constant S_ .f32 0x7F800000#32
  let main_v10 : FVec F S64x11x40x40 .f32 := broadcastInDim S64x11x40x40 ![] bcast_S_S64x11x40x40 main_cst_2
  let main_v11 : IVec S64x11x40x40 1 := cmpf .olt main_v9 main_v10
  let main_c_3 : IVec S_ 1 := constantI S_ 1 1#1
  let main_v12 : IVec S_ 1 := (fun x v => Host.reduce IntOp.andi x v reducesTo_S64x11x40x40_S_d0_1_2_3 h_S_) main_v11 main_c_3
  let main_v13 : IVec S_ 1 := andi main_v8 main_v12
  let main_v14 : FVec F S5000x6 .f32 := Host.absf main_arg3
  let main_cst_4 : FVec F S_ .f32 := constant S_ .f32 0x7F800000#32
  let main_v15 : FVec F S5000x6 .f32 := broadcastInDim S5000x6 ![] bcast_S_S5000x6 main_cst_4
  let main_v16 : IVec S5000x6 1 := cmpf .olt main_v14 main_v15
  fn_part1 (F := F) main_v13 main_v16
-- ==== Kernel.lean ====
abbrev S64x11x160x160 : Shape := ⟨4, ![64, 11, 160, 160]⟩
abbrev S64x11x80x80 : Shape := ⟨4, ![64, 11, 80, 80]⟩
abbrev S64x11x40x40 : Shape := ⟨4, ![64, 11, 40, 40]⟩
abbrev S5000x6 : Shape := ⟨2, ![5000, 6]⟩
abbrev S5000x1 : Shape := ⟨2, ![5000, 1]⟩
abbrev S5000 : Shape := ⟨1, ![5000]⟩
abbrev S_ : Shape := ⟨0, ![]⟩
abbrev S64x1x160x160 : Shape := ⟨4, ![64, 1, 160, 160]⟩
abbrev S5000x4 : Shape := ⟨2, ![5000, 4]⟩
abbrev S64x1x80x80 : Shape := ⟨4, ![64, 1, 80, 80]⟩
abbrev S64x1x40x40 : Shape := ⟨4, ![64, 1, 40, 40]⟩
abbrev S1x1 : Shape := ⟨2, ![1, 1]⟩
abbrev S16x1x160x160 : Shape := ⟨4, ![16, 1, 160, 160]⟩
abbrev S1x16x1x160x160 : Shape := ⟨5, ![1, 16, 1, 160, 160]⟩
abbrev S1 : Shape := ⟨1, ![1]⟩
abbrev S1x1x1x1x1 : Shape := ⟨5, ![1, 1, 1, 1, 1]⟩
abbrev S32x1x80x80 : Shape := ⟨4, ![32, 1, 80, 80]⟩
abbrev S1x32x1x80x80 : Shape := ⟨5, ![1, 32, 1, 80, 80]⟩
abbrev S1x64x1x40x40 : Shape := ⟨5, ![1, 64, 1, 40, 40]⟩

abbrev nBuf : Space → Nat
  | .hbm => 236
  | .vmem => 16
  | .smem => 0
  | _ => 0

abbrev hbmTy0_0 (i : Nat) : BufTy := match i % 128 with
  | 0 => ⟨S64x11x160x160, .f32⟩
  | 1 => ⟨S64x11x80x80, .f32⟩
  | 2 => ⟨S64x11x40x40, .f32⟩
  | 3 => ⟨S5000x6, .f32⟩
  | 4 => ⟨S5000x1, .f32⟩
  | 5 => ⟨S5000, .f32⟩
  | 6 => ⟨S5000x1, .f32⟩
  | 7 => ⟨S5000, .f32⟩
  | 8 => ⟨S_, .f32⟩
  | 9 => ⟨S5000, .f32⟩
  | 10 => ⟨S5000, .f32⟩
  | 11 => ⟨S5000, .i32⟩
  | 12 => ⟨S5000x1, .f32⟩
  | 13 => ⟨S5000, .f32⟩
  | 14 => ⟨S_, .f32⟩
  | 15 => ⟨S5000, .f32⟩
  | 16 => ⟨S5000, .f32⟩
  | 17 => ⟨S5000, .i32⟩
  | 18 => ⟨S_, .f32⟩
  | 19 => ⟨S5000, .f32⟩
  | 20 => ⟨S5000, .i1⟩
  | 21 => ⟨S_, .i32⟩
  | 22 => ⟨S5000, .i32⟩
  | 23 => ⟨S5000, .i1⟩
  | 24 => ⟨S5000, .i1⟩
  | 25 => ⟨S_, .i32⟩
  | 26 => ⟨S5000, .i32⟩
  | 27 => ⟨S5000, .i1⟩
  | 28 => ⟨S5000, .i1⟩
  | 29 => ⟨S_, .i32⟩
  | 30 => ⟨S5000, .i32⟩
  | 31 => ⟨S5000, .i1⟩
  | 32 => ⟨S5000, .i1⟩
  | 33 => ⟨S_, .i32⟩
  | 34 => ⟨S5000, .i32⟩
  | 35 => ⟨S5000, .i1⟩
  | 36 => ⟨S5000, .i1⟩
  | 37 => ⟨S5000, .i32⟩
  | 38 => ⟨S_, .i32⟩
  | 39 => ⟨S_, .i32⟩
  | 40 => ⟨S5000, .i32⟩
  | 41 => ⟨S5000, .i32⟩
  | 42 => ⟨S_, .f32⟩
  | 43 => ⟨S64x1x160x160, .f32⟩
  | 44 => ⟨S_, .i32⟩
  | 45 => ⟨S5000, .i32⟩
  | 46 => ⟨S5000, .i1⟩
  | 47 => ⟨S_, .i32⟩
  | 48 => ⟨S5000, .i32⟩
  | 49 => ⟨S5000, .i32⟩
  | 50 => ⟨S5000, .i32⟩
  | 51 => ⟨S_, .i32⟩
  | 52 => ⟨S5000, .i32⟩
  | 53 => ⟨S5000, .i1⟩
  | 54 => ⟨S_, .i32⟩
  | 55 => ⟨S5000, .i32⟩
  | 56 => ⟨S5000, .i32⟩
  | 57 => ⟨S5000, .i32⟩
  | 58 => ⟨S_, .i32⟩
  | 59 => ⟨S5000, .i32⟩
  | 60 => ⟨S5000, .i1⟩
  | 61 => ⟨S_, .i32⟩
  | 62 => ⟨S5000, .i32⟩
  | 63 => ⟨S5000, .i32⟩
  | 64 => ⟨S5000, .i32⟩
  | 65 => ⟨S_, .i32⟩
  | 66 => ⟨S5000, .i32⟩
  | 67 => ⟨S5000, .i32⟩
  | 68 => ⟨S5000x1, .i32⟩
  | 69 => ⟨S5000x1, .i32⟩
  | 70 => ⟨S5000x1, .i32⟩
  | 71 => ⟨S5000x1, .i32⟩
  | 72 => ⟨S5000x4, .i32⟩
  | 73 => ⟨S_, .f32⟩
  | 74 => ⟨S5000, .f32⟩
  | 75 => ⟨S64x1x160x160, .f32⟩
  | 76 => ⟨S5000x1, .f32⟩
  | 77 => ⟨S5000, .f32⟩
  | 78 => ⟨S5000x1, .f32⟩
  | 79 => ⟨S5000, .f32⟩
  | 80 => ⟨S_, .f32⟩
  | 81 => ⟨S5000, .f32⟩
  | 82 => ⟨S5000, .f32⟩
  | 83 => ⟨S5000, .i32⟩
  | 84 => ⟨S5000x1, .f32⟩
  | 85 => ⟨S5000, .f32⟩
  | 86 => ⟨S_, .f32⟩
  | 87 => ⟨S5000, .f32⟩
  | 88 => ⟨S5000, .f32⟩
  | 89 => ⟨S5000, .i32⟩
  | 90 => ⟨S_, .f32⟩
  | 91 => ⟨S5000, .f32⟩
  | 92 => ⟨S5000, .i1⟩
  | 93 => ⟨S_, .i32⟩
  | 94 => ⟨S5000, .i32⟩
  | 95 => ⟨S5000, .i1⟩
  | 96 => ⟨S5000, .i1⟩
  | 97 => ⟨S_, .i32⟩
  | 98 => ⟨S5000, .i32⟩
  | 99 => ⟨S5000, .i1⟩
  | 100 => ⟨S5000, .i1⟩
  | 101 => ⟨S_, .i32⟩
  | 102 => ⟨S5000, .i32⟩
  | 103 => ⟨S5000, .i1⟩
  | 104 => ⟨S5000, .i1⟩
  | 105 => ⟨S_, .i32⟩
  | 106 => ⟨S5000, .i32⟩
  | 107 => ⟨S5000, .i1⟩
  | 108 => ⟨S5000, .i1⟩
  | 109 => ⟨S5000, .i32⟩
  | 110 => ⟨S_, .i32⟩
  | 111 => ⟨S_, .i32⟩
  | 112 => ⟨S5000, .i32⟩
  | 113 => ⟨S5000, .i32⟩
  | 114 => ⟨S_, .f32⟩
  | 115 => ⟨S64x1x80x80, .f32⟩
  | 116 => ⟨S_, .i32⟩
  | 117 => ⟨S5000, .i32⟩
  | 118 => ⟨S5000, .i1⟩
  | 119 => ⟨S_, .i32⟩
  | 120 => ⟨S5000, .i32⟩
  | 121 => ⟨S5000, .i32⟩
  | 122 => ⟨S5000, .i32⟩
  | 123 => ⟨S_, .i32⟩
  | 124 => ⟨S5000, .i32⟩
  | 125 => ⟨S5000, .i1⟩
  | 126 => ⟨S_, .i32⟩
  | 127 => ⟨S5000, .i32⟩
  | _ => ⟨S64x11x160x160, .f32⟩

abbrev hbmTy0_1 (i : Nat) : BufTy := match i % 128 with
  | 0 => ⟨S5000, .i32⟩
  | 1 => ⟨S5000, .i32⟩
  | 2 => ⟨S_, .i32⟩
  | 3 => ⟨S5000, .i32⟩
  | 4 => ⟨S5000, .i1⟩
  | 5 => ⟨S_, .i32⟩
  | 6 => ⟨S5000, .i32⟩
  | 7 => ⟨S5000, .i32⟩
  | 8 => ⟨S5000, .i32⟩
  | 9 => ⟨S_, .i32⟩
  | 10 => ⟨S5000, .i32⟩
  | 11 => ⟨S5000, .i32⟩
  | 12 => ⟨S5000x1, .i32⟩
  | 13 => ⟨S5000x1, .i32⟩
  | 14 => ⟨S5000x1, .i32⟩
  | 15 => ⟨S5000x1, .i32⟩
  | 16 => ⟨S5000x4, .i32⟩
  | 17 => ⟨S_, .f32⟩
  | 18 => ⟨S5000, .f32⟩
  | 19 => ⟨S64x1x80x80, .f32⟩
  | 20 => ⟨S5000x1, .f32⟩
  | 21 => ⟨S5000, .f32⟩
  | 22 => ⟨S5000x1, .f32⟩
  | 23 => ⟨S5000, .f32⟩
  | 24 => ⟨S_, .f32⟩
  | 25 => ⟨S5000, .f32⟩
  | 26 => ⟨S5000, .f32⟩
  | 27 => ⟨S5000, .i32⟩
  | 28 => ⟨S5000x1, .f32⟩
  | 29 => ⟨S5000, .f32⟩
  | 30 => ⟨S_, .f32⟩
  | 31 => ⟨S5000, .f32⟩
  | 32 => ⟨S5000, .f32⟩
  | 33 => ⟨S5000, .i32⟩
  | 34 => ⟨S_, .f32⟩
  | 35 => ⟨S5000, .f32⟩
  | 36 => ⟨S5000, .i1⟩
  | 37 => ⟨S_, .i32⟩
  | 38 => ⟨S5000, .i32⟩
  | 39 => ⟨S5000, .i1⟩
  | 40 => ⟨S5000, .i1⟩
  | 41 => ⟨S_, .i32⟩
  | 42 => ⟨S5000, .i32⟩
  | 43 => ⟨S5000, .i1⟩
  | 44 => ⟨S5000, .i1⟩
  | 45 => ⟨S_, .i32⟩
  | 46 => ⟨S5000, .i32⟩
  | 47 => ⟨S5000, .i1⟩
  | 48 => ⟨S5000, .i1⟩
  | 49 => ⟨S_, .i32⟩
  | 50 => ⟨S5000, .i32⟩
  | 51 => ⟨S5000, .i1⟩
  | 52 => ⟨S5000, .i1⟩
  | 53 => ⟨S5000, .i32⟩
  | 54 => ⟨S_, .i32⟩
  | 55 => ⟨S_, .i32⟩
  | 56 => ⟨S5000, .i32⟩
  | 57 => ⟨S5000, .i32⟩
  | 58 => ⟨S_, .f32⟩
  | 59 => ⟨S64x1x40x40, .f32⟩
  | 60 => ⟨S_, .i32⟩
  | 61 => ⟨S5000, .i32⟩
  | 62 => ⟨S5000, .i1⟩
  | 63 => ⟨S_, .i32⟩
  | 64 => ⟨S5000, .i32⟩
  | 65 => ⟨S5000, .i32⟩
  | 66 => ⟨S5000, .i32⟩
  | 67 => ⟨S_, .i32⟩
  | 68 => ⟨S5000, .i32⟩
  | 69 => ⟨S5000, .i1⟩
  | 70 => ⟨S_, .i32⟩
  | 71 => ⟨S5000, .i32⟩
  | 72 => ⟨S5000, .i32⟩
  | 73 => ⟨S5000, .i32⟩
  | 74 => ⟨S_, .i32⟩
  | 75 => ⟨S5000, .i32⟩
  | 76 => ⟨S5000, .i1⟩
  | 77 => ⟨S_, .i32⟩
  | 78 => ⟨S5000, .i32⟩
  | 79 => ⟨S5000, .i32⟩
  | 80 => ⟨S5000, .i32⟩
  | 81 => ⟨S_, .i32⟩
  | 82 => ⟨S5000, .i32⟩
  | 83 => ⟨S5000, .i32⟩
  | 84 => ⟨S5000x1, .i32⟩
  | 85 => ⟨S5000x1, .i32⟩
  | 86 => ⟨S5000x1, .i32⟩
  | 87 => ⟨S5000x1, .i32⟩
  | 88 => ⟨S5000x4, .i32⟩
  | 89 => ⟨S_, .f32⟩
  | 90 => ⟨S5000, .f32⟩
  | 91 => ⟨S64x1x40x40, .f32⟩
  | 92 => ⟨S1x1, .f32⟩
  | 93 => ⟨S_, .f32⟩
  | 94 => ⟨S_, .f32⟩
  | 95 => ⟨S_, .f32⟩
  | 96 => ⟨S1x1, .f32⟩
  | 97 => ⟨S_, .f32⟩
  | 98 => ⟨S_, .f32⟩
  | 99 => ⟨S_, .f32⟩
  | 100 => ⟨S1x1, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | _ => ⟨S64x11x160x160, .f32⟩

abbrev hbmTy (i : Nat) : BufTy := match i / 128 with
  | 0 => hbmTy0_0 i
  | 1 => hbmTy0_1 i
  | _ => ⟨S64x11x160x160, .f32⟩

abbrev bufTy : (tb : Table) → Fin (tcTables nBuf tb) → BufTy
  | .hbm, ⟨i, _⟩ => hbmTy i
  | .local _ .vmem, ⟨0, _⟩ => ⟨S16x1x160x160, .f32⟩
  | .local _ .vmem, ⟨1, _⟩ => ⟨S16x1x160x160, .f32⟩
  | .local _ .vmem, ⟨2, _⟩ => ⟨S16x1x160x160, .f32⟩
  | .local _ .vmem, ⟨3, _⟩ => ⟨S16x1x160x160, .f32⟩
  | .local _ .vmem, ⟨4, _⟩ => ⟨S1x1, .f32⟩
  | .local _ .vmem, ⟨5, _⟩ => ⟨S1x1, .f32⟩
  | .local _ .vmem, ⟨6, _⟩ => ⟨S32x1x80x80, .f32⟩
  | .local _ .vmem, ⟨7, _⟩ => ⟨S32x1x80x80, .f32⟩
  | .local _ .vmem, ⟨8, _⟩ => ⟨S32x1x80x80, .f32⟩
  | .local _ .vmem, ⟨9, _⟩ => ⟨S32x1x80x80, .f32⟩
  | .local _ .vmem, ⟨10, _⟩ => ⟨S1x1, .f32⟩
  | .local _ .vmem, ⟨11, _⟩ => ⟨S1x1, .f32⟩
  | .local _ .vmem, ⟨12, _⟩ => ⟨S64x1x40x40, .f32⟩
  | .local _ .vmem, ⟨13, _⟩ => ⟨S64x1x40x40, .f32⟩
  | .local _ .vmem, ⟨14, _⟩ => ⟨S1x1, .f32⟩
  | .local _ .vmem, ⟨15, _⟩ => ⟨S1x1, .f32⟩
  | _, _ => ⟨S64x11x160x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_call0_v0 : Ref sig .tc := ⟨.hbm, 39, rfl⟩
abbrev main_call0_v1 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_c_7 : Ref sig .tc := ⟨.hbm, 44, rfl⟩
abbrev main_v29 : Ref sig .tc := ⟨.hbm, 45, rfl⟩
abbrev main_v30 : Ref sig .tc := ⟨.hbm, 46, rfl⟩
abbrev main_c_8 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_11 : Ref sig .tc := ⟨.hbm, 58, rfl⟩
abbrev main_v39 : Ref sig .tc := ⟨.hbm, 59, rfl⟩
abbrev main_v40 : Ref sig .tc := ⟨.hbm, 60, rfl⟩
abbrev main_c_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_13 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_15 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_16 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_v65 : Ref sig .tc := ⟨.hbm, 91, rfl⟩
abbrev main_v66 : Ref sig .tc := ⟨.hbm, 92, rfl⟩
abbrev main_c_18 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_19 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_20 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_21 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_c_22 : Ref sig .tc := ⟨.hbm, 110, rfl⟩
abbrev main_call1_v0 : Ref sig .tc := ⟨.hbm, 111, rfl⟩
abbrev main_call1_v1 : Ref sig .tc := ⟨.hbm, 112, rfl⟩
abbrev main_v80 : Ref sig .tc := ⟨.hbm, 113, rfl⟩
abbrev main_cst_23 : Ref sig .tc := ⟨.hbm, 114, rfl⟩
abbrev main_v81 : Ref sig .tc := ⟨.hbm, 115, rfl⟩
abbrev main_c_24 : Ref sig .tc := ⟨.hbm, 116, rfl⟩
abbrev main_v82 : Ref sig .tc := ⟨.hbm, 117, rfl⟩
abbrev main_v83 : Ref sig .tc := ⟨.hbm, 118, rfl⟩
abbrev main_c_25 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_26 : Ref sig .tc := ⟨.hbm, 123, rfl⟩
abbrev main_v87 : Ref sig .tc := ⟨.hbm, 124, rfl⟩
abbrev main_v88 : Ref sig .tc := ⟨.hbm, 125, rfl⟩
abbrev main_c_27 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_c_28 : Ref sig .tc := ⟨.hbm, 130, rfl⟩
abbrev main_v92 : Ref sig .tc := ⟨.hbm, 131, rfl⟩
abbrev main_v93 : Ref sig .tc := ⟨.hbm, 132, rfl⟩
abbrev main_c_29 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_30 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_cst_31 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_cst_32 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_33 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_34 : Ref sig .tc := ⟨.hbm, 162, rfl⟩
abbrev main_v118 : Ref sig .tc := ⟨.hbm, 163, rfl⟩
abbrev main_v119 : Ref sig .tc := ⟨.hbm, 164, rfl⟩
abbrev main_c_35 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_36 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_c_37 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_c_38 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_c_39 : Ref sig .tc := ⟨.hbm, 182, rfl⟩
abbrev main_call2_v0 : Ref sig .tc := ⟨.hbm, 183, rfl⟩
abbrev main_call2_v1 : Ref sig .tc := ⟨.hbm, 184, rfl⟩
abbrev main_v133 : Ref sig .tc := ⟨.hbm, 185, rfl⟩
abbrev main_cst_40 : Ref sig .tc := ⟨.hbm, 186, rfl⟩
abbrev main_v134 : Ref sig .tc := ⟨.hbm, 187, rfl⟩
abbrev main_c_41 : Ref sig .tc := ⟨.hbm, 188, rfl⟩
abbrev main_v135 : Ref sig .tc := ⟨.hbm, 189, rfl⟩
abbrev main_v136 : Ref sig .tc := ⟨.hbm, 190, rfl⟩
abbrev main_c_42 : Ref sig .tc := ⟨.hbm, 191, rfl⟩
abbrev main_v137 : Ref sig .tc := ⟨.hbm, 192, rfl⟩
abbrev main_v138 : Ref sig .tc := ⟨.hbm, 193, rfl⟩
abbrev main_v139 : Ref sig .tc := ⟨.hbm, 194, rfl⟩
abbrev main_c_43 : Ref sig .tc := ⟨.hbm, 195, rfl⟩
abbrev main_v140 : Ref sig .tc := ⟨.hbm, 196, rfl⟩
abbrev main_v141 : Ref sig .tc := ⟨.hbm, 197, rfl⟩
abbrev main_c_44 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_c_45 : Ref sig .tc := ⟨.hbm, 202, rfl⟩
abbrev main_v145 : Ref sig .tc := ⟨.hbm, 203, rfl⟩
abbrev main_v146 : Ref sig .tc := ⟨.hbm, 204, rfl⟩
abbrev main_c_46 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_c_47 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_cst_48 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_cst_49 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_cst_50 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_cst_51 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_cst_52 : Ref sig .tc := ⟨.hbm, 234, rfl⟩
abbrev main_v170 : Ref sig .tc := ⟨.hbm, 235, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem1_0 : DmaSem sig := 11
abbrev cc2_sem2_0 : DmaSem sig := 12

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v32 : BitVec 1 := Scalar.cmpi .eq arg0 c3_i32
  let v33 : BitVec 32 := Scalar.extui v32
  let c0_i32_17 : BitVec 32 := 0#32
  let v34 : BitVec 1 := Scalar.cmpi .ne v33 c0_i32_17
  v34

def cc0_transform_0 (i : grid0.Coords) : Fin 4 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1x160x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1x160x160 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![2], ![false]⟩

def k1_cond2 (i : grid1.Coords) : BitVec 1 :=
  let arg0 : BitVec 32 := BitVec.ofNat 32 (i 0).val
  let c1_i32 : BitVec 32 := 1#32
  let v32 : BitVec 1 := Scalar.cmpi .eq arg0 c1_i32
  let v33 : BitVec 32 := Scalar.extui v32
  let c0_i32_17 : BitVec 32 := 0#32
  let v34 : BitVec 1 := Scalar.cmpi .ne v33 c0_i32_17
  v34

def cc1_transform_0 (i : grid1.Coords) : Fin 4 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S32x1x80x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S32x1x80x80 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def k2_cond2 (i : grid2.Coords) : BitVec 1 :=
  let arg0 : BitVec 32 := BitVec.ofNat 32 (i 0).val
  let c0_i32_17 : BitVec 32 := 0#32
  let v32 : BitVec 1 := Scalar.cmpi .eq arg0 c0_i32_17
  let v33 : BitVec 32 := Scalar.extui v32
  let c0_i32_18 : BitVec 32 := 0#32
  let v34 : BitVec 1 := Scalar.cmpi .ne v33 c0_i32_18
  v34

def cc2_transform_0 (i : grid2.Coords) : Fin 4 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x1x40x40 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S64x1x40x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

class Facts₀ : Prop where
  slices_S5000x6_S5000x1_0_0 : S5000x6.Slices ![0, 0] S5000x1
  shapeCasts_S5000x1_S5000 : S5000x1.ShapeCasts S5000
  slices_S5000x6_S5000x1_0_1 : S5000x6.Slices ![0, 1] S5000x1
  bcast_S_S5000 : S_.BroadcastsInDim S5000 (![] : Fin 0 → Fin S5000.rank)
  slices_S5000x6_S5000x1_0_2 : S5000x6.Slices ![0, 2] S5000x1
  bcast_S_S64x1x160x160 : S_.BroadcastsInDim S64x1x160x160 (![] : Fin 0 → Fin S64x1x160x160.rank)
  bcast_S5000_S5000x1_0 : S5000.BroadcastsInDim S5000x1 (![0] : Fin 1 → Fin S5000x1.rank)
  concatenates_S5000x1_S5000x1_S5000x1_S5000x1_S5000x4_d1 : Shape.Concatenates [S5000x1, S5000x1, S5000x1, S5000x1] S5000x4 1
  bcast_S_S64x1x80x80 : S_.BroadcastsInDim S64x1x80x80 (![] : Fin 0 → Fin S64x1x80x80.rank)
  bcast_S_S64x1x40x40 : S_.BroadcastsInDim S64x1x40x40 (![] : Fin 0 → Fin S64x1x40x40.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x1x160x160_S16x1x160x160_0_0_0_0 : ∀ a, (![0, 0, 0, 0] : Fin 4 → Nat) a + S16x1x160x160.size a ≤ S16x1x160x160.size a
  h_S16x1x160x160 : 0 < S16x1x160x160.numel
  shapeCasts_S16x1x160x160_S16x1x160x160 : S16x1x160x160.ShapeCasts S16x1x160x160
  shapeCasts_S16x1x160x160_S1x16x1x160x160 : S16x1x160x160.ShapeCasts S1x16x1x160x160
  reduces_S1x16x1x160x160_S1 : S1x16x1x160x160.Reduces [1, 2, 3, 4] S1
  shapeCasts_S1_S1x1x1x1x1 : S1.ShapeCasts S1x1x1x1x1
  inpos_S1x1x1x1x1_p0_0_0_0_0 : ∀ a, (![0, 0, 0, 0, 0] : Fin 5 → Nat) a < S1x1x1x1x1.size a
  shapeCasts_S1x1_S_ : S1x1.ShapeCasts S_
  inb_S32x1x80x80_S32x1x80x80_0_0_0_0 : ∀ a, (![0, 0, 0, 0] : Fin 4 → Nat) a + S32x1x80x80.size a ≤ S32x1x80x80.size a
  h_S32x1x80x80 : 0 < S32x1x80x80.numel
  shapeCasts_S32x1x80x80_S32x1x80x80 : S32x1x80x80.ShapeCasts S32x1x80x80
  shapeCasts_S32x1x80x80_S1x32x1x80x80 : S32x1x80x80.ShapeCasts S1x32x1x80x80
  reduces_S1x32x1x80x80_S1 : S1x32x1x80x80.Reduces [1, 2, 3, 4] S1
  inb_S64x1x40x40_S64x1x40x40_0_0_0_0 : ∀ a, (![0, 0, 0, 0] : Fin 4 → Nat) a + S64x1x40x40.size a ≤ S64x1x40x40.size a
  h_S64x1x40x40 : 0 < S64x1x40x40.numel
  shapeCasts_S64x1x40x40_S64x1x40x40 : S64x1x40x40.ShapeCasts S64x1x40x40
  shapeCasts_S64x1x40x40_S1x64x1x40x40 : S64x1x40x40.ShapeCasts S1x64x1x40x40
  reduces_S1x64x1x40x40_S1 : S1x64x1x40x40.Reduces [1, 2, 3, 4] S1
  scatter_S64x1x160x160_S5000x4_S5000_n_0123_0123_1_wf : ScatterDims.WF S64x1x160x160 S5000x4 S5000 [] [0, 1, 2, 3] [0, 1, 2, 3] 1
  scatter_S64x1x80x80_S5000x4_S5000_n_0123_0123_1_wf : ScatterDims.WF S64x1x80x80 S5000x4 S5000 [] [0, 1, 2, 3] [0, 1, 2, 3] 1
  scatter_S64x1x40x40_S5000x4_S5000_n_0123_0123_1_wf : ScatterDims.WF S64x1x40x40 S5000x4 S5000 [] [0, 1, 2, 3] [0, 1, 2, 3] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1x160x160.size a ≤ S64x11x160x160.size a
  hwx0_0 : ∀ i : grid0.Coords, EltTy.bits .f32 = 32 ∨ (Rect.block (s := S64x11x160x160) S16x1x160x160.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1x160x160.size a ≤ S64x1x160x160.size a
  hwx0_1 : ∀ i : grid0.Coords, EltTy.bits .f32 = 32 ∨ (Rect.block (s := S64x1x160x160) S16x1x160x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x1x80x80.size a ≤ S64x11x80x80.size a
  hwx1_0 : ∀ i : grid1.Coords, EltTy.bits .f32 = 32 ∨ (Rect.block (s := S64x11x80x80) S32x1x80x80.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S32x1x80x80.size a ≤ S64x1x80x80.size a
  hwx1_1 : ∀ i : grid1.Coords, EltTy.bits .f32 = 32 ∨ (Rect.block (s := S64x1x80x80) S32x1x80x80.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S64x1x40x40.size a ≤ S64x11x40x40.size a
  hwx2_0 : ∀ i : grid2.Coords, EltTy.bits .f32 = 32 ∨ (Rect.block (s := S64x11x40x40) S64x1x40x40.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S64x1x40x40.size a ≤ S64x1x40x40.size a
  hwx2_1 : ∀ i : grid2.Coords, EltTy.bits .f32 = 32 ∨ (Rect.block (s := S64x1x40x40) S64x1x40x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def scatter_S64x1x160x160_S5000x4_S5000_n_0123_0123_1 : ScatterDims S64x1x160x160 S5000x4 S5000 where
  updateWindowDims := []
  insertedWindowDims := [0, 1, 2, 3]
  scatterDimsToOperandDims := [0, 1, 2, 3]
  indexVectorDim := 1
  wf := scatter_S64x1x160x160_S5000x4_S5000_n_0123_0123_1_wf
def scatter_S64x1x80x80_S5000x4_S5000_n_0123_0123_1 : ScatterDims S64x1x80x80 S5000x4 S5000 where
  updateWindowDims := []
  insertedWindowDims := [0, 1, 2, 3]
  scatterDimsToOperandDims := [0, 1, 2, 3]
  indexVectorDim := 1
  wf := scatter_S64x1x80x80_S5000x4_S5000_n_0123_0123_1_wf
def scatter_S64x1x40x40_S5000x4_S5000_n_0123_0123_1 : ScatterDims S64x1x40x40 S5000x4 S5000 where
  updateWindowDims := []
  insertedWindowDims := [0, 1, 2, 3]
  scatterDimsToOperandDims := [0, 1, 2, 3]
  indexVectorDim := 1
  wf := scatter_S64x1x40x40_S5000x4_S5000_n_0123_0123_1_wf

abbrev win0_0 : Pipeline.Window sig grid0 :=
  Pipeline.Window.ofSpec (Memref.whole main_arg0) S16x1x160x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S16x1x160x160.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v159) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S32x1x80x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v105) S32x1x80x80.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v162) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_arg2) S64x1x40x40.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v158) S64x1x40x40.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v165) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S64x11x160x160 : Shape := ⟨4, ![64, 11, 160, 160]⟩
abbrev S64x11x80x80 : Shape := ⟨4, ![64, 11, 80, 80]⟩
abbrev S64x11x40x40 : Shape := ⟨4, ![64, 11, 40, 40]⟩
abbrev S5000x6 : Shape := ⟨2, ![5000, 6]⟩
abbrev S64x1x160x160 : Shape := ⟨4, ![64, 1, 160, 160]⟩
abbrev S_ : Shape := ⟨0, ![]⟩
abbrev S5000x1 : Shape := ⟨2, ![5000, 1]⟩
abbrev S5000 : Shape := ⟨1, ![5000]⟩
abbrev S5000x4 : Shape := ⟨2, ![5000, 4]⟩
abbrev S64x1x80x80 : Shape := ⟨4, ![64, 1, 80, 80]⟩
abbrev S64x1x40x40 : Shape := ⟨4, ![64, 1, 40, 40]⟩

abbrev nBuf : Space → Nat
  | .hbm => 311
  | .vmem => 0
  | .smem => 0
  | _ => 0

abbrev hbmTy0_0 (i : Nat) : BufTy := match i % 128 with
  | 0 => ⟨S64x11x160x160, .f32⟩
  | 1 => ⟨S64x11x80x80, .f32⟩
  | 2 => ⟨S64x11x40x40, .f32⟩
  | 3 => ⟨S5000x6, .f32⟩
  | 4 => ⟨S64x1x160x160, .f32⟩
  | 5 => ⟨S64x1x160x160, .f32⟩
  | 6 => ⟨S64x1x160x160, .f32⟩
  | 7 => ⟨S_, .f32⟩
  | 8 => ⟨S64x1x160x160, .f32⟩
  | 9 => ⟨S64x1x160x160, .f32⟩
  | 10 => ⟨S_, .f32⟩
  | 11 => ⟨S64x1x160x160, .f32⟩
  | 12 => ⟨S64x1x160x160, .f32⟩
  | 13 => ⟨S5000x1, .f32⟩
  | 14 => ⟨S5000, .f32⟩
  | 15 => ⟨S5000x1, .f32⟩
  | 16 => ⟨S5000, .f32⟩
  | 17 => ⟨S_, .f32⟩
  | 18 => ⟨S5000, .f32⟩
  | 19 => ⟨S5000, .f32⟩
  | 20 => ⟨S5000, .i32⟩
  | 21 => ⟨S5000x1, .f32⟩
  | 22 => ⟨S5000, .f32⟩
  | 23 => ⟨S_, .f32⟩
  | 24 => ⟨S5000, .f32⟩
  | 25 => ⟨S5000, .f32⟩
  | 26 => ⟨S5000, .i32⟩
  | 27 => ⟨S_, .f32⟩
  | 28 => ⟨S5000, .f32⟩
  | 29 => ⟨S5000, .i1⟩
  | 30 => ⟨S_, .i32⟩
  | 31 => ⟨S5000, .i32⟩
  | 32 => ⟨S5000, .i1⟩
  | 33 => ⟨S5000, .i1⟩
  | 34 => ⟨S_, .i32⟩
  | 35 => ⟨S5000, .i32⟩
  | 36 => ⟨S5000, .i1⟩
  | 37 => ⟨S5000, .i1⟩
  | 38 => ⟨S_, .i32⟩
  | 39 => ⟨S5000, .i32⟩
  | 40 => ⟨S5000, .i1⟩
  | 41 => ⟨S5000, .i1⟩
  | 42 => ⟨S_, .i32⟩
  | 43 => ⟨S5000, .i32⟩
  | 44 => ⟨S5000, .i1⟩
  | 45 => ⟨S5000, .i1⟩
  | 46 => ⟨S5000, .i32⟩
  | 47 => ⟨S_, .i32⟩
  | 48 => ⟨S_, .i32⟩
  | 49 => ⟨S5000, .i32⟩
  | 50 => ⟨S5000, .i32⟩
  | 51 => ⟨S_, .f32⟩
  | 52 => ⟨S64x1x160x160, .f32⟩
  | 53 => ⟨S_, .i32⟩
  | 54 => ⟨S5000, .i32⟩
  | 55 => ⟨S5000, .i1⟩
  | 56 => ⟨S_, .i32⟩
  | 57 => ⟨S5000, .i32⟩
  | 58 => ⟨S5000, .i32⟩
  | 59 => ⟨S5000, .i32⟩
  | 60 => ⟨S_, .i32⟩
  | 61 => ⟨S5000, .i32⟩
  | 62 => ⟨S5000, .i1⟩
  | 63 => ⟨S_, .i32⟩
  | 64 => ⟨S5000, .i32⟩
  | 65 => ⟨S5000, .i32⟩
  | 66 => ⟨S5000, .i32⟩
  | 67 => ⟨S_, .i32⟩
  | 68 => ⟨S5000, .i32⟩
  | 69 => ⟨S5000, .i1⟩
  | 70 => ⟨S_, .i32⟩
  | 71 => ⟨S5000, .i32⟩
  | 72 => ⟨S5000, .i32⟩
  | 73 => ⟨S5000, .i32⟩
  | 74 => ⟨S_, .i32⟩
  | 75 => ⟨S5000, .i32⟩
  | 76 => ⟨S5000, .i32⟩
  | 77 => ⟨S5000x1, .i32⟩
  | 78 => ⟨S5000x1, .i32⟩
  | 79 => ⟨S5000x1, .i32⟩
  | 80 => ⟨S5000x1, .i32⟩
  | 81 => ⟨S5000x4, .i32⟩
  | 82 => ⟨S_, .f32⟩
  | 83 => ⟨S5000, .f32⟩
  | 84 => ⟨S64x1x160x160, .f32⟩
  | 85 => ⟨S64x1x160x160, .f32⟩
  | 86 => ⟨S_, .f32⟩
  | 87 => ⟨S64x1x160x160, .f32⟩
  | 88 => ⟨S64x1x160x160, .f32⟩
  | 89 => ⟨S64x1x160x160, .f32⟩
  | 90 => ⟨S64x1x160x160, .f32⟩
  | 91 => ⟨S_, .f32⟩
  | 92 => ⟨S64x1x160x160, .f32⟩
  | 93 => ⟨S64x1x160x160, .f32⟩
  | 94 => ⟨S64x1x160x160, .f32⟩
  | 95 => ⟨S_, .f32⟩
  | 96 => ⟨S64x1x160x160, .f32⟩
  | 97 => ⟨S64x1x160x160, .f32⟩
  | 98 => ⟨S64x1x160x160, .f32⟩
  | 99 => ⟨S64x1x160x160, .f32⟩
  | 100 => ⟨S64x1x160x160, .f32⟩
  | 101 => ⟨S_, .f32⟩
  | 102 => ⟨S_, .f32⟩
  | 103 => ⟨S_, .f32⟩
  | 104 => ⟨S_, .f32⟩
  | 105 => ⟨S64x1x80x80, .f32⟩
  | 106 => ⟨S64x1x80x80, .f32⟩
  | 107 => ⟨S64x1x80x80, .f32⟩
  | 108 => ⟨S_, .f32⟩
  | 109 => ⟨S64x1x80x80, .f32⟩
  | 110 => ⟨S64x1x80x80, .f32⟩
  | 111 => ⟨S_, .f32⟩
  | 112 => ⟨S64x1x80x80, .f32⟩
  | 113 => ⟨S64x1x80x80, .f32⟩
  | 114 => ⟨S5000x1, .f32⟩
  | 115 => ⟨S5000, .f32⟩
  | 116 => ⟨S5000x1, .f32⟩
  | 117 => ⟨S5000, .f32⟩
  | 118 => ⟨S_, .f32⟩
  | 119 => ⟨S5000, .f32⟩
  | 120 => ⟨S5000, .f32⟩
  | 121 => ⟨S5000, .i32⟩
  | 122 => ⟨S5000x1, .f32⟩
  | 123 => ⟨S5000, .f32⟩
  | 124 => ⟨S_, .f32⟩
  | 125 => ⟨S5000, .f32⟩
  | 126 => ⟨S5000, .f32⟩
  | 127 => ⟨S5000, .i32⟩
  | _ => ⟨S64x11x160x160, .f32⟩

abbrev hbmTy0_1 (i : Nat) : BufTy := match i % 128 with
  | 0 => ⟨S_, .f32⟩
  | 1 => ⟨S5000, .f32⟩
  | 2 => ⟨S5000, .i1⟩
  | 3 => ⟨S_, .i32⟩
  | 4 => ⟨S5000, .i32⟩
  | 5 => ⟨S5000, .i1⟩
  | 6 => ⟨S5000, .i1⟩
  | 7 => ⟨S_, .i32⟩
  | 8 => ⟨S5000, .i32⟩
  | 9 => ⟨S5000, .i1⟩
  | 10 => ⟨S5000, .i1⟩
  | 11 => ⟨S_, .i32⟩
  | 12 => ⟨S5000, .i32⟩
  | 13 => ⟨S5000, .i1⟩
  | 14 => ⟨S5000, .i1⟩
  | 15 => ⟨S_, .i32⟩
  | 16 => ⟨S5000, .i32⟩
  | 17 => ⟨S5000, .i1⟩
  | 18 => ⟨S5000, .i1⟩
  | 19 => ⟨S5000, .i32⟩
  | 20 => ⟨S_, .i32⟩
  | 21 => ⟨S_, .i32⟩
  | 22 => ⟨S5000, .i32⟩
  | 23 => ⟨S5000, .i32⟩
  | 24 => ⟨S_, .f32⟩
  | 25 => ⟨S64x1x80x80, .f32⟩
  | 26 => ⟨S_, .i32⟩
  | 27 => ⟨S5000, .i32⟩
  | 28 => ⟨S5000, .i1⟩
  | 29 => ⟨S_, .i32⟩
  | 30 => ⟨S5000, .i32⟩
  | 31 => ⟨S5000, .i32⟩
  | 32 => ⟨S5000, .i32⟩
  | 33 => ⟨S_, .i32⟩
  | 34 => ⟨S5000, .i32⟩
  | 35 => ⟨S5000, .i1⟩
  | 36 => ⟨S_, .i32⟩
  | 37 => ⟨S5000, .i32⟩
  | 38 => ⟨S5000, .i32⟩
  | 39 => ⟨S5000, .i32⟩
  | 40 => ⟨S_, .i32⟩
  | 41 => ⟨S5000, .i32⟩
  | 42 => ⟨S5000, .i1⟩
  | 43 => ⟨S_, .i32⟩
  | 44 => ⟨S5000, .i32⟩
  | 45 => ⟨S5000, .i32⟩
  | 46 => ⟨S5000, .i32⟩
  | 47 => ⟨S_, .i32⟩
  | 48 => ⟨S5000, .i32⟩
  | 49 => ⟨S5000, .i32⟩
  | 50 => ⟨S5000x1, .i32⟩
  | 51 => ⟨S5000x1, .i32⟩
  | 52 => ⟨S5000x1, .i32⟩
  | 53 => ⟨S5000x1, .i32⟩
  | 54 => ⟨S5000x4, .i32⟩
  | 55 => ⟨S_, .f32⟩
  | 56 => ⟨S5000, .f32⟩
  | 57 => ⟨S64x1x80x80, .f32⟩
  | 58 => ⟨S64x1x80x80, .f32⟩
  | 59 => ⟨S_, .f32⟩
  | 60 => ⟨S64x1x80x80, .f32⟩
  | 61 => ⟨S64x1x80x80, .f32⟩
  | 62 => ⟨S64x1x80x80, .f32⟩
  | 63 => ⟨S64x1x80x80, .f32⟩
  | 64 => ⟨S_, .f32⟩
  | 65 => ⟨S64x1x80x80, .f32⟩
  | 66 => ⟨S64x1x80x80, .f32⟩
  | 67 => ⟨S64x1x80x80, .f32⟩
  | 68 => ⟨S_, .f32⟩
  | 69 => ⟨S64x1x80x80, .f32⟩
  | 70 => ⟨S64x1x80x80, .f32⟩
  | 71 => ⟨S64x1x80x80, .f32⟩
  | 72 => ⟨S64x1x80x80, .f32⟩
  | 73 => ⟨S64x1x80x80, .f32⟩
  | 74 => ⟨S_, .f32⟩
  | 75 => ⟨S_, .f32⟩
  | 76 => ⟨S_, .f32⟩
  | 77 => ⟨S_, .f32⟩
  | 78 => ⟨S_, .f32⟩
  | 79 => ⟨S64x1x40x40, .f32⟩
  | 80 => ⟨S64x1x40x40, .f32⟩
  | 81 => ⟨S64x1x40x40, .f32⟩
  | 82 => ⟨S_, .f32⟩
  | 83 => ⟨S64x1x40x40, .f32⟩
  | 84 => ⟨S64x1x40x40, .f32⟩
  | 85 => ⟨S_, .f32⟩
  | 86 => ⟨S64x1x40x40, .f32⟩
  | 87 => ⟨S64x1x40x40, .f32⟩
  | 88 => ⟨S5000x1, .f32⟩
  | 89 => ⟨S5000, .f32⟩
  | 90 => ⟨S5000x1, .f32⟩
  | 91 => ⟨S5000, .f32⟩
  | 92 => ⟨S_, .f32⟩
  | 93 => ⟨S5000, .f32⟩
  | 94 => ⟨S5000, .f32⟩
  | 95 => ⟨S5000, .i32⟩
  | 96 => ⟨S5000x1, .f32⟩
  | 97 => ⟨S5000, .f32⟩
  | 98 => ⟨S_, .f32⟩
  | 99 => ⟨S5000, .f32⟩
  | 100 => ⟨S5000, .f32⟩
  | 101 => ⟨S5000, .i32⟩
  | 102 => ⟨S_, .f32⟩
  | 103 => ⟨S5000, .f32⟩
  | 104 => ⟨S5000, .i1⟩
  | 105 => ⟨S_, .i32⟩
  | 106 => ⟨S5000, .i32⟩
  | 107 => ⟨S5000, .i1⟩
  | 108 => ⟨S5000, .i1⟩
  | 109 => ⟨S_, .i32⟩
  | 110 => ⟨S5000, .i32⟩
  | 111 => ⟨S5000, .i1⟩
  | 112 => ⟨S5000, .i1⟩
  | 113 => ⟨S_, .i32⟩
  | 114 => ⟨S5000, .i32⟩
  | 115 => ⟨S5000, .i1⟩
  | 116 => ⟨S5000, .i1⟩
  | 117 => ⟨S_, .i32⟩
  | 118 => ⟨S5000, .i32⟩
  | 119 => ⟨S5000, .i1⟩
  | 120 => ⟨S5000, .i1⟩
  | 121 => ⟨S5000, .i32⟩
  | 122 => ⟨S_, .i32⟩
  | 123 => ⟨S_, .i32⟩
  | 124 => ⟨S5000, .i32⟩
  | 125 => ⟨S5000, .i32⟩
  | 126 => ⟨S_, .f32⟩
  | 127 => ⟨S64x1x40x40, .f32⟩
  | _ => ⟨S64x11x160x160, .f32⟩

abbrev hbmTy0_2 (i : Nat) : BufTy := match i % 128 with
  | 0 => ⟨S_, .i32⟩
  | 1 => ⟨S5000, .i32⟩
  | 2 => ⟨S5000, .i1⟩
  | 3 => ⟨S_, .i32⟩
  | 4 => ⟨S5000, .i32⟩
  | 5 => ⟨S5000, .i32⟩
  | 6 => ⟨S5000, .i32⟩
  | 7 => ⟨S_, .i32⟩
  | 8 => ⟨S5000, .i32⟩
  | 9 => ⟨S5000, .i1⟩
  | 10 => ⟨S_, .i32⟩
  | 11 => ⟨S5000, .i32⟩
  | 12 => ⟨S5000, .i32⟩
  | 13 => ⟨S5000, .i32⟩
  | 14 => ⟨S_, .i32⟩
  | 15 => ⟨S5000, .i32⟩
  | 16 => ⟨S5000, .i1⟩
  | 17 => ⟨S_, .i32⟩
  | 18 => ⟨S5000, .i32⟩
  | 19 => ⟨S5000, .i32⟩
  | 20 => ⟨S5000, .i32⟩
  | 21 => ⟨S_, .i32⟩
  | 22 => ⟨S5000, .i32⟩
  | 23 => ⟨S5000, .i32⟩
  | 24 => ⟨S5000x1, .i32⟩
  | 25 => ⟨S5000x1, .i32⟩
  | 26 => ⟨S5000x1, .i32⟩
  | 27 => ⟨S5000x1, .i32⟩
  | 28 => ⟨S5000x4, .i32⟩
  | 29 => ⟨S_, .f32⟩
  | 30 => ⟨S5000, .f32⟩
  | 31 => ⟨S64x1x40x40, .f32⟩
  | 32 => ⟨S64x1x40x40, .f32⟩
  | 33 => ⟨S_, .f32⟩
  | 34 => ⟨S64x1x40x40, .f32⟩
  | 35 => ⟨S64x1x40x40, .f32⟩
  | 36 => ⟨S64x1x40x40, .f32⟩
  | 37 => ⟨S64x1x40x40, .f32⟩
  | 38 => ⟨S_, .f32⟩
  | 39 => ⟨S64x1x40x40, .f32⟩
  | 40 => ⟨S64x1x40x40, .f32⟩
  | 41 => ⟨S64x1x40x40, .f32⟩
  | 42 => ⟨S_, .f32⟩
  | 43 => ⟨S64x1x40x40, .f32⟩
  | 44 => ⟨S64x1x40x40, .f32⟩
  | 45 => ⟨S64x1x40x40, .f32⟩
  | 46 => ⟨S64x1x40x40, .f32⟩
  | 47 => ⟨S64x1x40x40, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | _ => ⟨S64x11x160x160, .f32⟩

abbrev hbmTy (i : Nat) : BufTy := match i / 128 with
  | 0 => hbmTy0_0 i
  | 1 => hbmTy0_1 i
  | 2 => hbmTy0_2 i
  | _ => ⟨S64x11x160x160, .f32⟩

abbrev bufTy : (tb : Table) → Fin (tcTables nBuf tb) → BufTy
  | .hbm, ⟨i, _⟩ => hbmTy i
  | _, _ => ⟨S64x11x160x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_c_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_7 : Ref sig .tc := ⟨.hbm, 47, rfl⟩
abbrev main_call0_v0 : Ref sig .tc := ⟨.hbm, 48, rfl⟩
abbrev main_call0_v1 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_c_9 : Ref sig .tc := ⟨.hbm, 53, rfl⟩
abbrev main_v36 : Ref sig .tc := ⟨.hbm, 54, rfl⟩
abbrev main_v37 : Ref sig .tc := ⟨.hbm, 55, rfl⟩
abbrev main_c_10 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_11 : Ref sig .tc := ⟨.hbm, 60, rfl⟩
abbrev main_v41 : Ref sig .tc := ⟨.hbm, 61, rfl⟩
abbrev main_v42 : Ref sig .tc := ⟨.hbm, 62, rfl⟩
abbrev main_c_12 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_13 : Ref sig .tc := ⟨.hbm, 67, rfl⟩
abbrev main_v46 : Ref sig .tc := ⟨.hbm, 68, rfl⟩
abbrev main_v47 : Ref sig .tc := ⟨.hbm, 69, rfl⟩
abbrev main_c_14 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_15 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_16 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_17 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_18 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_19 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_20 : Ref sig .tc := ⟨.hbm, 101, rfl⟩
abbrev main_v73 : Ref sig .tc := ⟨.hbm, 102, rfl⟩
abbrev main_cst_21 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_22 : Ref sig .tc := ⟨.hbm, 108, rfl⟩
abbrev main_v78 : Ref sig .tc := ⟨.hbm, 109, rfl⟩
abbrev main_v79 : Ref sig .tc := ⟨.hbm, 110, rfl⟩
abbrev main_cst_23 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_24 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_25 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_26 : Ref sig .tc := ⟨.hbm, 128, rfl⟩
abbrev main_v94 : Ref sig .tc := ⟨.hbm, 129, rfl⟩
abbrev main_v95 : Ref sig .tc := ⟨.hbm, 130, rfl⟩
abbrev main_c_27 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_c_28 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_29 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_c_30 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_31 : Ref sig .tc := ⟨.hbm, 148, rfl⟩
abbrev main_call1_v0 : Ref sig .tc := ⟨.hbm, 149, rfl⟩
abbrev main_call1_v1 : Ref sig .tc := ⟨.hbm, 150, rfl⟩
abbrev main_v109 : Ref sig .tc := ⟨.hbm, 151, rfl⟩
abbrev main_cst_32 : Ref sig .tc := ⟨.hbm, 152, rfl⟩
abbrev main_v110 : Ref sig .tc := ⟨.hbm, 153, rfl⟩
abbrev main_c_33 : Ref sig .tc := ⟨.hbm, 154, rfl⟩
abbrev main_v111 : Ref sig .tc := ⟨.hbm, 155, rfl⟩
abbrev main_v112 : Ref sig .tc := ⟨.hbm, 156, rfl⟩
abbrev main_c_34 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c_35 : Ref sig .tc := ⟨.hbm, 161, rfl⟩
abbrev main_v116 : Ref sig .tc := ⟨.hbm, 162, rfl⟩
abbrev main_v117 : Ref sig .tc := ⟨.hbm, 163, rfl⟩
abbrev main_c_36 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_c_37 : Ref sig .tc := ⟨.hbm, 168, rfl⟩
abbrev main_v121 : Ref sig .tc := ⟨.hbm, 169, rfl⟩
abbrev main_v122 : Ref sig .tc := ⟨.hbm, 170, rfl⟩
abbrev main_c_38 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_c_39 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_cst_40 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_cst_41 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_cst_42 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_43 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_cst_44 : Ref sig .tc := ⟨.hbm, 202, rfl⟩
abbrev main_v148 : Ref sig .tc := ⟨.hbm, 203, rfl⟩
abbrev main_cst_45 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_cst_46 : Ref sig .tc := ⟨.hbm, 210, rfl⟩
abbrev main_v154 : Ref sig .tc := ⟨.hbm, 211, rfl⟩
abbrev main_v155 : Ref sig .tc := ⟨.hbm, 212, rfl⟩
abbrev main_cst_47 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_48 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_cst_49 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_cst_50 : Ref sig .tc := ⟨.hbm, 230, rfl⟩
abbrev main_v170 : Ref sig .tc := ⟨.hbm, 231, rfl⟩
abbrev main_v171 : Ref sig .tc := ⟨.hbm, 232, rfl⟩
abbrev main_c_51 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_c_52 : Ref sig .tc := ⟨.hbm, 237, rfl⟩
abbrev main_v175 : Ref sig .tc := ⟨.hbm, 238, rfl⟩
abbrev main_v176 : Ref sig .tc := ⟨.hbm, 239, rfl⟩
abbrev main_v177 : Ref sig .tc := ⟨.hbm, 240, rfl⟩
abbrev main_c_53 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_c_54 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_c_55 : Ref sig .tc := ⟨.hbm, 250, rfl⟩
abbrev main_call2_v0 : Ref sig .tc := ⟨.hbm, 251, rfl⟩
abbrev main_call2_v1 : Ref sig .tc := ⟨.hbm, 252, rfl⟩
abbrev main_v185 : Ref sig .tc := ⟨.hbm, 253, rfl⟩
abbrev main_cst_56 : Ref sig .tc := ⟨.hbm, 254, rfl⟩
abbrev main_v186 : Ref sig .tc := ⟨.hbm, 255, rfl⟩
abbrev main_c_57 : Ref sig .tc := ⟨.hbm, 256, rfl⟩
abbrev main_v187 : Ref sig .tc := ⟨.hbm, 257, rfl⟩
abbrev main_v188 : Ref sig .tc := ⟨.hbm, 258, rfl⟩
abbrev main_c_58 : Ref sig .tc := ⟨.hbm, 259, rfl⟩
abbrev main_v189 : Ref sig .tc := ⟨.hbm, 260, rfl⟩
abbrev main_v190 : Ref sig .tc := ⟨.hbm, 261, rfl⟩
abbrev main_v191 : Ref sig .tc := ⟨.hbm, 262, rfl⟩
abbrev main_c_59 : Ref sig .tc := ⟨.hbm, 263, rfl⟩
abbrev main_v192 : Ref sig .tc := ⟨.hbm, 264, rfl⟩
abbrev main_v193 : Ref sig .tc := ⟨.hbm, 265, rfl⟩
abbrev main_c_60 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_c_61 : Ref sig .tc := ⟨.hbm, 270, rfl⟩
abbrev main_v197 : Ref sig .tc := ⟨.hbm, 271, rfl⟩
abbrev main_v198 : Ref sig .tc := ⟨.hbm, 272, rfl⟩
abbrev main_c_62 : Ref sig .tc := ⟨.hbm, 273, rfl⟩
abbrev main_v199 : Ref sig .tc := ⟨.hbm, 274, rfl⟩
abbrev main_v200 : Ref sig .tc := ⟨.hbm, 275, rfl⟩
abbrev main_v201 : Ref sig .tc := ⟨.hbm, 276, rfl⟩
abbrev main_c_63 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_cst_64 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_cst_65 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_cst_66 : Ref sig .tc := ⟨.hbm, 294, rfl⟩
abbrev main_v216 : Ref sig .tc := ⟨.hbm, 295, rfl⟩
abbrev main_v217 : Ref sig .tc := ⟨.hbm, 296, rfl⟩
abbrev main_v218 : Ref sig .tc := ⟨.hbm, 297, rfl⟩
abbrev main_cst_67 : Ref sig .tc := ⟨.hbm, 298, rfl⟩
abbrev main_v219 : Ref sig .tc := ⟨.hbm, 299, rfl⟩
abbrev main_v220 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_cst_68 : Ref sig .tc := ⟨.hbm, 304, rfl⟩
abbrev main_v224 : Ref sig .tc := ⟨.hbm, 305, rfl⟩
abbrev main_cst_69 : Ref sig .tc := ⟨.hbm, 306, rfl⟩
abbrev main_v225 : Ref sig .tc := ⟨.hbm, 307, rfl⟩
abbrev main_v226 : Ref sig .tc := ⟨.hbm, 308, rfl⟩
abbrev main_cst_70 : Ref sig .tc := ⟨.hbm, 309, rfl⟩
abbrev main_v227 : Ref sig .tc := ⟨.hbm, 310, rfl⟩

abbrev nD : Nat := 1
abbrev τ : Topo := Topo.v7x

variable {F : FTy → Type} [FloatOps F]

class Facts₀ : Prop where
  slices_S64x11x160x160_S64x1x160x160_0_4_0_0 : S64x11x160x160.Slices ![0, 4, 0, 0] S64x1x160x160
  bcast_S_S64x1x160x160 : S_.BroadcastsInDim S64x1x160x160 (![] : Fin 0 → Fin S64x1x160x160.rank)
  slices_S5000x6_S5000x1_0_0 : S5000x6.Slices ![0, 0] S5000x1
  shapeCasts_S5000x1_S5000 : S5000x1.ShapeCasts S5000
  slices_S5000x6_S5000x1_0_1 : S5000x6.Slices ![0, 1] S5000x1
  bcast_S_S5000 : S_.BroadcastsInDim S5000 (![] : Fin 0 → Fin S5000.rank)
  slices_S5000x6_S5000x1_0_2 : S5000x6.Slices ![0, 2] S5000x1
  bcast_S5000_S5000x1_0 : S5000.BroadcastsInDim S5000x1 (![0] : Fin 1 → Fin S5000x1.rank)
  concatenates_S5000x1_S5000x1_S5000x1_S5000x1_S5000x4_d1 : Shape.Concatenates [S5000x1, S5000x1, S5000x1, S5000x1] S5000x4 1
  reducesTo_S64x1x160x160_S_d0_1_2_3 : S64x1x160x160.ReducesTo [0, 1, 2, 3] S_
  h_S_ : 0 < S_.numel
  slices_S64x11x80x80_S64x1x80x80_0_4_0_0 : S64x11x80x80.Slices ![0, 4, 0, 0] S64x1x80x80
  bcast_S_S64x1x80x80 : S_.BroadcastsInDim S64x1x80x80 (![] : Fin 0 → Fin S64x1x80x80.rank)
  reducesTo_S64x1x80x80_S_d0_1_2_3 : S64x1x80x80.ReducesTo [0, 1, 2, 3] S_
  slices_S64x11x40x40_S64x1x40x40_0_4_0_0 : S64x11x40x40.Slices ![0, 4, 0, 0] S64x1x40x40
  bcast_S_S64x1x40x40 : S_.BroadcastsInDim S64x1x40x40 (![] : Fin 0 → Fin S64x1x40x40.rank)
  reducesTo_S64x1x40x40_S_d0_1_2_3 : S64x1x40x40.ReducesTo [0, 1, 2, 3] S_
  scatter_S64x1x160x160_S5000x4_S5000_n_0123_0123_1_wf : ScatterDims.WF S64x1x160x160 S5000x4 S5000 [] [0, 1, 2, 3] [0, 1, 2, 3] 1
  scatter_S64x1x80x80_S5000x4_S5000_n_0123_0123_1_wf : ScatterDims.WF S64x1x80x80 S5000x4 S5000 [] [0, 1, 2, 3] [0, 1, 2, 3] 1
  scatter_S64x1x40x40_S5000x4_S5000_n_0123_0123_1_wf : ScatterDims.WF S64x1x40x40 S5000x4 S5000 [] [0, 1, 2, 3] [0, 1, 2, 3] 1

variable [Facts₀]

def scatter_S64x1x160x160_S5000x4_S5000_n_0123_0123_1 : ScatterDims S64x1x160x160 S5000x4 S5000 where
  updateWindowDims := []
  insertedWindowDims := [0, 1, 2, 3]
  scatterDimsToOperandDims := [0, 1, 2, 3]
  indexVectorDim := 1
  wf := scatter_S64x1x160x160_S5000x4_S5000_n_0123_0123_1_wf
def scatter_S64x1x80x80_S5000x4_S5000_n_0123_0123_1 : ScatterDims S64x1x80x80 S5000x4 S5000 where
  updateWindowDims := []
  insertedWindowDims := [0, 1, 2, 3]
  scatterDimsToOperandDims := [0, 1, 2, 3]
  indexVectorDim := 1
  wf := scatter_S64x1x80x80_S5000x4_S5000_n_0123_0123_1_wf
def scatter_S64x1x40x40_S5000x4_S5000_n_0123_0123_1 : ScatterDims S64x1x40x40 S5000x4 S5000 where
  updateWindowDims := []
  insertedWindowDims := [0, 1, 2, 3]
  scatterDimsToOperandDims := [0, 1, 2, 3]
  indexVectorDim := 1
  wf := scatter_S64x1x40x40_S5000x4_S5000_n_0123_0123_1_wf

class Facts : Prop extends Facts₀ where

variable [Facts]
-- ==== Proof.KB.Cell.lean ====
import proofs.«153644_j35845797053068_1_alg».proof.Proof.Gen.Kernel.Launch
import proofs.«153644_j35845797053068_1_alg».proof.Proof.Gen.Kernel.Skeleton
import proofs.«153644_j35845797053068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # A one-cell buffer: what a whole-cell store leaves, and what a whole-cell load then reads

The kernels' scratch accumulator and output block are single `f32` cells of shape `[1, 1]`, always accessed whole. -/

/-- The whole-cell rectangle's offsets are all zero. -/
theorem hz_cell : (![0, 0] : Fin S1x1.rank → Nat) = fun _ => 0 :=
  funext fun a => by match a with | ⟨0, _⟩ => rfl | ⟨1, _⟩ => rfl

/-- The rectangle every access of a cell goes through: the whole cell. -/
abbrev rCell : Rect S1x1 := Rect.unit (s := S1x1) ![0, 0] S1x1.size inb_S1x1_S1x1_0_0

theorem cell_mem (y : S1x1.Idx) : y ∈ rCell.set := View.mem_set_unit_zero hz_cell inb_S1x1_S1x1_0_0 y

/-- A whole-cell store made last leaves its value, whatever the earlier stores were. -/
theorem cell_read_writes {κ : Kind} {sp : Space} (v : View sig κ sp S1x1 .f32) (f : v.ty.Contents (Elt F)) (w : Vec F S1x1 .f32)
    (L : List (View.Piece (Elt F) S1x1 .f32)) :
    v.read (Elt F) (v.writes (Elt F) f (⟨rCell, w⟩ :: L)) = w := by
  rw [View.read_writes_eq_canon _ _ _ (fun y => ⟨(⟨rCell, w⟩ : View.Piece (Elt F) S1x1 .f32), List.mem_cons.mpr (Or.inl rfl), cell_mem y⟩), View.canon_cons_unit_zero hz_cell]

/-- A whole-cell load after such a store reads the stored value. -/
theorem cell_readCov {κ : Kind} {sp : Space} (v : View sig κ sp S1x1 .f32) (w : Vec F S1x1 .f32)
    (L : List (View.Piece (Elt F) S1x1 .f32)) :
    v.readCov (⟨rCell, w⟩ :: L) rCell.toLoadRect = w := by
  rw [View.readCov_eq_canon_ld _ _ _ (fun y => ⟨(⟨rCell, w⟩ : View.Piece (Elt F) S1x1 .f32), List.mem_cons.mpr (Or.inl rfl), cell_mem y⟩), View.canon_cons_unit_zero hz_cell,
    View.ld_unit_zero hz_cell]

end Cert.Kernel.Hand
end
-- ==== Proof.KB.Body0.lean ====
import proofs.«153644_j35845797053068_1_alg».proof.Proof.Gen.Kernel.Launch
import proofs.«153644_j35845797053068_1_alg».proof.Proof.Gen.Kernel.Skeleton
import proofs.«153644_j35845797053068_1_alg».proof.Proof.Gen.Kernel.Points
import proofs.«153644_j35845797053068_1_alg».proof.Proof.KB.Cell
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the kernel body run at each kind of grid point

The body clears its scratch cell when the point is the first, adds the block's sum to the cell, and copies the cell to
the output block when the point is the last. Each theorem below runs the body under one assignment of those two tests,
on whole buffers: the two input blocks at contents `x` and `y`, the output block and the cell as stated. -/

/-- The first test of the body: the point is the grid's first. -/
abbrev cond0_0 (i : grid0.Coords) : Prop := (Scalar.cmpi .ne (Scalar.extui (Scalar.cmpi .eq (BitVec.ofNat 32 (i 0).val) 0#32)) 0#32) = 1#1
/-- The second test: the point is the grid's last. -/
abbrev cond0_1 (i : grid0.Coords) : Prop := k0_cond2 i = 1#1

set_option maxHeartbeats 2000000 in
/-- At the first point, when it is not the last: the cell, whatever it held, ends at the block's sum added to zero; the
    output block is not touched. -/
theorem run0_first (c : Dev nD) (i : grid0.Coords)
    (arg1 : Memref sig .tc .vmem S16x1x160x160 .f32) (harg1 : arg1.IsWhole) (arg2 : Memref sig .tc .vmem S16x1x160x160 .f32) (harg2 : arg2.IsWhole)
    (arg3 : Memref sig .tc .vmem S1x1 .f32) (harg3 : arg3.IsWhole) (arg4 : Memref sig .tc .vmem S1x1 .f32) (harg4 : arg4.IsWhole)
    (hc0 : cond0_0 i) (hc1 : ¬cond0_1 i)
    (x y : Vec F S16x1x160x160 .f32) (o : Vec F S1x1 .f32) (E : Set ℕ) (K : PUnit → sProp 𝕄) :
    iprop(owns (c : Thread nD τ) arg1 fullShare x ∗ owns (c : Thread nD τ) arg2 fullShare y ∗ owns (c : Thread nD τ) arg3 fullShare o
        ∗ (∃ d, owns (c : Thread nD τ) arg4 fullShare d)
        ∗ (iprop(owns (c : Thread nD τ) arg1 fullShare x ∗ owns (c : Thread nD τ) arg2 fullShare y ∗ owns (c : Thread nD τ) arg3 fullShare o
            ∗ owns (c : Thread nD τ) arg4 fullShare (k0_pay2 x y k0_pay1)) -∗ K ⟨⟩))
      ⊢ wp frame (wpE (defs₀ (F := F)) Variants.none c none) E (cc0__bce_sum_kernel i arg1 harg1 arg2 harg2 arg3 harg3 arg4 harg4) K := by
  have hz4 : (![0, 0, 0, 0] : Fin S16x1x160x160.rank → Nat) = fun _ => 0 := funext fun a => by match a with | ⟨0, _⟩ => rfl | ⟨1, _⟩ => rfl | ⟨2, _⟩ => rfl | ⟨3, _⟩ => rfl
  simp only [cc0__bce_sum_kernel_eq_skeleton]; unfold cc0__bce_sum_kernel_skel
  simp only [k0_part1_eq_skeleton]
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  try sl_unfold_run_names
  refine (cell_read_writes _ _ _ _).trans ?_
  refine (congrArg (k0_pay2 _ _) (cell_readCov arg4.view (k0_pay1 (F := F)) [])).trans ?_
  simp only [View.readAt_eq_ld, harg1.read_unread, harg2.read_unread, harg4.read_unread, View.ld_unit_zero (S := S16x1x160x160) hz4, View.ld_unit_zero (S := S1x1) hz_cell]

set_option maxHeartbeats 2000000 in
/-- At a point that is neither first nor last: the block's sum is added to the cell; the output block is not touched. -/
theorem run0_mid (c : Dev nD) (i : grid0.Coords)
    (arg1 : Memref sig .tc .vmem S16x1x160x160 .f32) (harg1 : arg1.IsWhole) (arg2 : Memref sig .tc .vmem S16x1x160x160 .f32) (harg2 : arg2.IsWhole)
    (arg3 : Memref sig .tc .vmem S1x1 .f32) (harg3 : arg3.IsWhole) (arg4 : Memref sig .tc .vmem S1x1 .f32) (harg4 : arg4.IsWhole)
    (hc0 : ¬cond0_0 i) (hc1 : ¬cond0_1 i)
    (x y : Vec F S16x1x160x160 .f32) (o a : Vec F S1x1 .f32) (E : Set ℕ) (K : PUnit → sProp 𝕄) :
    iprop(owns (c : Thread nD τ) arg1 fullShare x ∗ owns (c : Thread nD τ) arg2 fullShare y ∗ owns (c : Thread nD τ) arg3 fullShare o
        ∗ owns (c : Thread nD τ) arg4 fullShare a
        ∗ (iprop(owns (c : Thread nD τ) arg1 fullShare x ∗ owns (c : Thread nD τ) arg2 fullShare y ∗ owns (c : Thread nD τ) arg3 fullShare o
            ∗ owns (c : Thread nD τ) arg4 fullShare (k0_pay2 x y a)) -∗ K ⟨⟩))
      ⊢ wp frame (wpE (defs₀ (F := F)) Variants.none c none) E (cc0__bce_sum_kernel i arg1 harg1 arg2 harg2 arg3 harg3 arg4 harg4) K := by
  have hz4 : (![0, 0, 0, 0] : Fin S16x1x160x160.rank → Nat) = fun _ => 0 := funext fun a => by match a with | ⟨0, _⟩ => rfl | ⟨1, _⟩ => rfl | ⟨2, _⟩ => rfl | ⟨3, _⟩ => rfl
  simp only [cc0__bce_sum_kernel_eq_skeleton]; unfold cc0__bce_sum_kernel_skel
  simp only [k0_part1_eq_skeleton]
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  try sl_unfold_run_names
  refine (cell_read_writes _ _ _ _).trans ?_
  simp only [View.readAt_eq_ld, harg1.read_unread, harg2.read_unread, harg4.read_unread, View.ld_unit_zero (S := S16x1x160x160) hz4, View.ld_unit_zero (S := S1x1) hz_cell]

set_option maxHeartbeats 2000000 in
/-- At the last point, when it is not the first: the block's sum is added to the cell, and the output block, whatever it
    held, receives the cell. -/
theorem run0_last (c : Dev nD) (i : grid0.Coords)
    (arg1 : Memref sig .tc .vmem S16x1x160x160 .f32) (harg1 : arg1.IsWhole) (arg2 : Memref sig .tc .vmem S16x1x160x160 .f32) (harg2 : arg2.IsWhole)
    (arg3 : Memref sig .tc .vmem S1x1 .f32) (harg3 : arg3.IsWhole) (arg4 : Memref sig .tc .vmem S1x1 .f32) (harg4 : arg4.IsWhole)
    (hc0 : ¬cond0_0 i) (hc1 : cond0_1 i)
    (x y : Vec F S16x1x160x160 .f32) (a : Vec F S1x1 .f32) (E : Set ℕ) (K : PUnit → sProp 𝕄) :
    iprop(owns (c : Thread nD τ) arg1 fullShare x ∗ owns (c : Thread nD τ) arg2 fullShare y ∗ (∃ d, owns (c : Thread nD τ) arg3 fullShare d)
        ∗ owns (c : Thread nD τ) arg4 fullShare a
        ∗ (iprop(owns (c : Thread nD τ) arg1 fullShare x ∗ owns (c : Thread nD τ) arg2 fullShare y ∗ owns (c : Thread nD τ) arg3 fullShare (k0_pay2 x y a)
            ∗ owns (c : Thread nD τ) arg4 fullShare (k0_pay2 x y a)) -∗ K ⟨⟩))
      ⊢ wp frame (wpE (defs₀ (F := F)) Variants.none c none) E (cc0__bce_sum_kernel i arg1 harg1 arg2 harg2 arg3 harg3 arg4 harg4) K := by
  have hz4 : (![0, 0, 0, 0] : Fin S16x1x160x160.rank → Nat) = fun _ => 0 := funext fun a => by match a with | ⟨0, _⟩ => rfl | ⟨1, _⟩ => rfl | ⟨2, _⟩ => rfl | ⟨3, _⟩ => rfl
  simp only [cc0__bce_sum_kernel_eq_skeleton]; unfold cc0__bce_sum_kernel_skel
  simp only [k0_part1_eq_skeleton]
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    try sl_unfold_run_names
    refine (cell_read_writes _ _ _ _).trans ?_
    refine (cell_readCov _ _ _).trans ?_
    simp only [View.readAt_eq_ld, harg1.read_unread, harg2.read_unread, harg4.read_unread, View.ld_unit_zero (S := S16x1x160x160) hz4, View.ld_unit_zero (S := S1x1) hz_cell]
  iexists _; isplitr
  swap; · iexact H4
  ipureintro
  try sl_unfold_run_names
  refine (cell_read_writes _ _ _ _).trans ?_
  simp only [View.readAt_eq_ld, harg1.read_unread, harg2.read_unread, harg4.read_unread, View.ld_unit_zero (S := S16x1x160x160) hz4, View.ld_unit_zero (S := S1x1) hz_cell]

end Cert.Kernel.Hand
end
-- ==== Proof.KB.Region0.lean ====
import proofs.«153644_j35845797053068_1_alg».proof.Proof.Gen.Kernel.Launch
import proofs.«153644_j35845797053068_1_alg».proof.Proof.Gen.Kernel.Skeleton
import proofs.«153644_j35845797053068_1_alg».proof.Proof.Gen.Kernel.Points
import proofs.«153644_j35845797053068_1_alg».proof.Proof.KB.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the accumulator, the proof data and the body obligation

The body keeps one running sum in its scratch cell: it clears the cell at the first point, adds the block's sum of
per-element losses at every point, and copies the cell to the output block at the last point. The invariant between
points therefore names the cell's contents: the block sums of the points so far, added to zero in order. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two tests over the grid, and where the output window is idle -/

/-- The first test holds exactly at point 0. -/
theorem hcond0_0 : ∀ t : Fin cfg0.N, cond0_0 (grid0.coords t) ↔ t.val = 0 :=
  (by decide +kernel : ∀ t : Fin grid0.N, cond0_0 (grid0.coords t) ↔ t.val = 0)
/-- The second test holds exactly at point 3. -/
theorem hcond0_1 : ∀ t : Fin cfg0.N, cond0_1 (grid0.coords t) ↔ t.val = 3 :=
  (by decide +kernel : ∀ t : Fin grid0.N, cond0_1 (grid0.coords t) ↔ t.val = 3)

theorem liveAt0_0 : ∀ t : Fin cfg0.N, cfg0.idle 0 (grid0.coords t) = false := by decide +kernel
theorem liveAt0_1 : ∀ t : Fin cfg0.N, cfg0.idle 1 (grid0.coords t) = false := by decide +kernel
/-- Where the second test fails the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where it holds the body stores into the output window. -/
theorem liveAt0_2 : ∀ t : Fin cfg0.N, cond0_1 (grid0.coords t) → cfg0.idle 2 (grid0.coords t) = false := by decide +kernel

/-- Each window's current staging memref at point `t`, as the pipeline passes it to the body. -/
abbrev ms0_0 (t : Fin cfg0.N) : Memref sig .tc .vmem S16x1x160x160 .f32 := win0_0.stage (cfg0.slots t 0)
abbrev ms0_1 (t : Fin cfg0.N) : Memref sig .tc .vmem S16x1x160x160 .f32 := win0_1.stage (cfg0.slots t 1)
abbrev ms0_2 (t : Fin cfg0.N) : Memref sig .tc .vmem S1x1 .f32 := win0_2.stage (cfg0.slots t 2)
/-- The scratch cell as a memref. -/
abbrev scM0 : Memref sig .tc .vmem S1x1 .f32 := Memref.whole cc0_scratch0

/-! ## The accumulator -/

/-- The scratch cell after point `n`: the block sums of points `0 … n` added to zero, in order. -/
def acc0 (c : Dev nD) : (n : ℕ) → n < cfg0.N → Vec F S1x1 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩) (acc0 c n (Nat.lt_of_succ_lt hn))

theorem acc0_first (c : Dev nD) (t : Fin cfg0.N) (h : t.val = 0) :
    acc0 V c t.val t.isLt = k0_pay2 (iblk0 V c 0 t) (iblk0 V c 1 t) k0_pay1 := by
  obtain ⟨n, hn⟩ := t
  cases n with
  | zero => rfl
  | succ n => exact absurd h (Nat.succ_ne_zero n)

theorem acc0_step (c : Dev nD) (t : Fin cfg0.N) (h : t.val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl h
  | succ n => rfl

/-! ## The invariant between points -/

/-- The class's invariant with the scratch cell split off: the cell at some contents, every other scoped buffer that is
    no staging buffer of this call unopened, and the generator register. -/
theorem PhiA_eq0 (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole]; try rfl

/-- Before the first point the class's invariant; afterwards the scratch cell at the running sum, the other scoped
    buffers unopened. -/
def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; the inputs' buffers at their blocks, the output's at the running sum; the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms of the two tests say which run
    applies; the invariant hands the body the scratch cell at the running sum so far (at anything before the first
    point) and takes it back at the running sum including this point; where the output window is idle its buffer is
    handed back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 4 := lt_of_lt_of_eq t.isLt (show cfg0.N = 4 from N_0)
  by_cases h0 : t.val = 0
  ·
    have h1 : ¬t.val = 3 := by omega
    rw [Dat.leavesExact_idle (dat0 V c) 2 t (idleAt0_2 t (fun h => h1 ((hcond0_1 t).mp h))) (noFlush0_2 t (fun h => h1 ((hcond0_1 t).mp h)))]
    rw [PhiS0_castSucc V c t, PhiS0_zero V c _ _ h0, PhiA_eq0, acc0_first V c t h0]
    iintro ⟨⟨⟨HS, HR⟩, Hg⟩, Ho, ⟨%d0, H0⟩, ⟨%d1, H1⟩, ⟨%d2, H2⟩⟩
    iapply (run0_first c (grid0.coords t) _ _ _ _ _ _ _ _ ((hcond0_0 t).mpr h0) (fun h => h1 ((hcond0_1 t).mp h)) (iblk0 V c 0 t) (iblk0 V c 1 t) ((dat0 V c).before 2 t d2) Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h1 : t.val = 3
    ·
      rw [show (dat0 V c).leavesExact 2 t = owns (c : Thread nD τ) (ms0_2 t) fullShare ((dat0 V c).after 2 t) from by
        unfold Dat.leavesExact; rw [liveAt0_2 t ((hcond0_1 t).mpr h1)], after0_2]
      rw [PhiS0_castSucc V c t, PhiS0_pos V c _ _ h0, acc0_step V c t h0]
      iintro ⟨⟨⟨HS, HR⟩, Hg⟩, Ho, ⟨%d0, H0⟩, ⟨%d1, H1⟩, ⟨%d2, H2⟩⟩
      iapply (run0_last c (grid0.coords t) _ _ _ _ _ _ _ _ (fun h => h0 ((hcond0_0 t).mp h)) ((hcond0_1 t).mpr h1) (iblk0 V c 0 t) (iblk0 V c 1 t) (acc0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    ·
      rw [Dat.leavesExact_idle (dat0 V c) 2 t (idleAt0_2 t (fun h => h1 ((hcond0_1 t).mp h))) (noFlush0_2 t (fun h => h1 ((hcond0_1 t).mp h)))]
      rw [PhiS0_castSucc V c t, PhiS0_pos V c _ _ h0, acc0_step V c t h0]
      iintro ⟨⟨⟨HS, HR⟩, Hg⟩, Ho, ⟨%d0, H0⟩, ⟨%d1, H1⟩, ⟨%d2, H2⟩⟩
      iapply (run0_mid c (grid0.coords t) _ _ _ _ _ _ _ _ (fun h => h0 ((hcond0_0 t).mp h)) (fun h => h1 ((hcond0_1 t).mp h)) (iblk0 V c 0 t) (iblk0 V c 1 t) ((dat0 V c).before 2 t d2) (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch cell's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 4 := N_0; omega), PhiA_eq0]
  iintro ⟨⟨HS, HR⟩, Hg⟩
  isplitl [HS HR]
  · isplitl [HS]
    · iexists _; iexact HS
    iexact HR
  iexact Hg

end

end Cert.Kernel.Hand
end
-- ==== Proof.KB.Body1.lean ====
import proofs.«153644_j35845797053068_1_alg».proof.Proof.Gen.Kernel.Launch
import proofs.«153644_j35845797053068_1_alg».proof.Proof.Gen.Kernel.Skeleton
import proofs.«153644_j35845797053068_1_alg».proof.Proof.Gen.Kernel.Points
import proofs.«153644_j35845797053068_1_alg».proof.Proof.KB.Cell
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the kernel body run at each kind of grid point

The body clears its scratch cell when the point is the first, adds the block's sum to the cell, and copies the cell to
the output block when the point is the last. Each theorem below runs the body under one assignment of those two tests,
on whole buffers: the two input blocks at contents `x` and `y`, the output block and the cell as stated. -/

/-- The first test of the body: the point is the grid's first. -/
abbrev cond1_0 (i : grid1.Coords) : Prop := (Scalar.cmpi .ne (Scalar.extui (Scalar.cmpi .eq (BitVec.ofNat 32 (i 0).val) 0#32)) 0#32) = 1#1
/-- The second test: the point is the grid's last. -/
abbrev cond1_1 (i : grid1.Coords) : Prop := k1_cond2 i = 1#1

set_option maxHeartbeats 2000000 in
/-- At the first point, when it is not the last: the cell, whatever it held, ends at the block's sum added to zero; the
    output block is not touched. -/
theorem run1_first (c : Dev nD) (i : grid1.Coords)
    (arg1 : Memref sig .tc .vmem S32x1x80x80 .f32) (harg1 : arg1.IsWhole) (arg2 : Memref sig .tc .vmem S32x1x80x80 .f32) (harg2 : arg2.IsWhole)
    (arg3 : Memref sig .tc .vmem S1x1 .f32) (harg3 : arg3.IsWhole) (arg4 : Memref sig .tc .vmem S1x1 .f32) (harg4 : arg4.IsWhole)
    (hc0 : cond1_0 i) (hc1 : ¬cond1_1 i)
    (x y : Vec F S32x1x80x80 .f32) (o : Vec F S1x1 .f32) (E : Set ℕ) (K : PUnit → sProp 𝕄) :
    iprop(owns (c : Thread nD τ) arg1 fullShare x ∗ owns (c : Thread nD τ) arg2 fullShare y ∗ owns (c : Thread nD τ) arg3 fullShare o
        ∗ (∃ d, owns (c : Thread nD τ) arg4 fullShare d)
        ∗ (iprop(owns (c : Thread nD τ) arg1 fullShare x ∗ owns (c : Thread nD τ) arg2 fullShare y ∗ owns (c : Thread nD τ) arg3 fullShare o
            ∗ owns (c : Thread nD τ) arg4 fullShare (k1_pay2 x y k1_pay1)) -∗ K ⟨⟩))
      ⊢ wp frame (wpE (defs₀ (F := F)) Variants.none c none) E (cc1__bce_sum_kernel i arg1 harg1 arg2 harg2 arg3 harg3 arg4 harg4) K := by
  have hz4 : (![0, 0, 0, 0] : Fin S32x1x80x80.rank → Nat) = fun _ => 0 := funext fun a => by match a with | ⟨0, _⟩ => rfl | ⟨1, _⟩ => rfl | ⟨2, _⟩ => rfl | ⟨3, _⟩ => rfl
  simp only [cc1__bce_sum_kernel_eq_skeleton]; unfold cc1__bce_sum_kernel_skel
  simp only [k1_part1_eq_skeleton]
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  try sl_unfold_run_names
  refine (cell_read_writes _ _ _ _).trans ?_
  refine (congrArg (k1_pay2 _ _) (cell_readCov arg4.view (k1_pay1 (F := F)) [])).trans ?_
  simp only [View.readAt_eq_ld, harg1.read_unread, harg2.read_unread, harg4.read_unread, View.ld_unit_zero (S := S32x1x80x80) hz4, View.ld_unit_zero (S := S1x1) hz_cell]

set_option maxHeartbeats 2000000 in
/-- At the last point, when it is not the first: the block's sum is added to the cell, and the output block, whatever it
    held, receives the cell. -/
theorem run1_last (c : Dev nD) (i : grid1.Coords)
    (arg1 : Memref sig .tc .vmem S32x1x80x80 .f32) (harg1 : arg1.IsWhole) (arg2 : Memref sig .tc .vmem S32x1x80x80 .f32) (harg2 : arg2.IsWhole)
    (arg3 : Memref sig .tc .vmem S1x1 .f32) (harg3 : arg3.IsWhole) (arg4 : Memref sig .tc .vmem S1x1 .f32) (harg4 : arg4.IsWhole)
    (hc0 : ¬cond1_0 i) (hc1 : cond1_1 i)
    (x y : Vec F S32x1x80x80 .f32) (a : Vec F S1x1 .f32) (E : Set ℕ) (K : PUnit → sProp 𝕄) :
    iprop(owns (c : Thread nD τ) arg1 fullShare x ∗ owns (c : Thread nD τ) arg2 fullShare y ∗ (∃ d, owns (c : Thread nD τ) arg3 fullShare d)
        ∗ owns (c : Thread nD τ) arg4 fullShare a
        ∗ (iprop(owns (c : Thread nD τ) arg1 fullShare x ∗ owns (c : Thread nD τ) arg2 fullShare y ∗ owns (c : Thread nD τ) arg3 fullShare (k1_pay2 x y a)
            ∗ owns (c : Thread nD τ) arg4 fullShare (k1_pay2 x y a)) -∗ K ⟨⟩))
      ⊢ wp frame (wpE (defs₀ (F := F)) Variants.none c none) E (cc1__bce_sum_kernel i arg1 harg1 arg2 harg2 arg3 harg3 arg4 harg4) K := by
  have hz4 : (![0, 0, 0, 0] : Fin S32x1x80x80.rank → Nat) = fun _ => 0 := funext fun a => by match a with | ⟨0, _⟩ => rfl | ⟨1, _⟩ => rfl | ⟨2, _⟩ => rfl | ⟨3, _⟩ => rfl
  simp only [cc1__bce_sum_kernel_eq_skeleton]; unfold cc1__bce_sum_kernel_skel
  simp only [k1_part1_eq_skeleton]
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    try sl_unfold_run_names
    refine (cell_read_writes _ _ _ _).trans ?_
    refine (cell_readCov _ _ _).trans ?_
    simp only [View.readAt_eq_ld, harg1.read_unread, harg2.read_unread, harg4.read_unread, View.ld_unit_zero (S := S32x1x80x80) hz4, View.ld_unit_zero (S := S1x1) hz_cell]
  iexists _; isplitr
  swap; · iexact H4
  ipureintro
  try sl_unfold_run_names
  refine (cell_read_writes _ _ _ _).trans ?_
  simp only [View.readAt_eq_ld, harg1.read_unread, harg2.read_unread, harg4.read_unread, View.ld_unit_zero (S := S32x1x80x80) hz4, View.ld_unit_zero (S := S1x1) hz_cell]

end Cert.Kernel.Hand
end
-- ==== Proof.KB.Region1.lean ====
import proofs.«153644_j35845797053068_1_alg».proof.Proof.Gen.Kernel.Launch
import proofs.«153644_j35845797053068_1_alg».proof.Proof.Gen.Kernel.Skeleton
import proofs.«153644_j35845797053068_1_alg».proof.Proof.Gen.Kernel.Points
import proofs.«153644_j35845797053068_1_alg».proof.Proof.KB.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the accumulator, the proof data and the body obligation

The body keeps one running sum in its scratch cell: it clears the cell at the first point, adds the block's sum of
per-element losses at every point, and copies the cell to the output block at the last point. The invariant between
points therefore names the cell's contents: the block sums of the points so far, added to zero in order. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two tests over the grid, and where the output window is idle -/

/-- The first test holds exactly at point 0. -/
theorem hcond1_0 : ∀ t : Fin cfg1.N, cond1_0 (grid1.coords t) ↔ t.val = 0 :=
  (by decide +kernel : ∀ t : Fin grid1.N, cond1_0 (grid1.coords t) ↔ t.val = 0)
/-- The second test holds exactly at point 1. -/
theorem hcond1_1 : ∀ t : Fin cfg1.N, cond1_1 (grid1.coords t) ↔ t.val = 1 :=
  (by decide +kernel : ∀ t : Fin grid1.N, cond1_1 (grid1.coords t) ↔ t.val = 1)

theorem liveAt1_0 : ∀ t : Fin cfg1.N, cfg1.idle 0 (grid1.coords t) = false := by decide +kernel
theorem liveAt1_1 : ∀ t : Fin cfg1.N, cfg1.idle 1 (grid1.coords t) = false := by decide +kernel
/-- Where the second test fails the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it holds the body stores into the output window. -/
theorem liveAt1_2 : ∀ t : Fin cfg1.N, cond1_1 (grid1.coords t) → cfg1.idle 2 (grid1.coords t) = false := by decide +kernel

/-- Each window's current staging memref at point `t`, as the pipeline passes it to the body. -/
abbrev ms1_0 (t : Fin cfg1.N) : Memref sig .tc .vmem S32x1x80x80 .f32 := win1_0.stage (cfg1.slots t 0)
abbrev ms1_1 (t : Fin cfg1.N) : Memref sig .tc .vmem S32x1x80x80 .f32 := win1_1.stage (cfg1.slots t 1)
abbrev ms1_2 (t : Fin cfg1.N) : Memref sig .tc .vmem S1x1 .f32 := win1_2.stage (cfg1.slots t 2)
/-- The scratch cell as a memref. -/
abbrev scM1 : Memref sig .tc .vmem S1x1 .f32 := Memref.whole cc1_scratch0

/-! ## The accumulator -/

/-- The scratch cell after point `n`: the block sums of points `0 … n` added to zero, in order. -/
def acc1 (c : Dev nD) : (n : ℕ) → n < cfg1.N → Vec F S1x1 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩) (acc1 c n (Nat.lt_of_succ_lt hn))

theorem acc1_first (c : Dev nD) (t : Fin cfg1.N) (h : t.val = 0) :
    acc1 V c t.val t.isLt = k1_pay2 (iblk1 V c 0 t) (iblk1 V c 1 t) k1_pay1 := by
  obtain ⟨n, hn⟩ := t
  cases n with
  | zero => rfl
  | succ n => exact absurd h (Nat.succ_ne_zero n)

theorem acc1_step (c : Dev nD) (t : Fin cfg1.N) (h : t.val ≠ 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h
  | succ n => rfl

/-! ## The invariant between points -/

/-- The class's invariant with the scratch cell split off: the cell at some contents, every other scoped buffer that is
    no staging buffer of this call unopened, and the generator register. -/
theorem PhiA_eq1 (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]; try rfl

/-- Before the first point the class's invariant; afterwards the scratch cell at the running sum, the other scoped
    buffers unopened. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; the inputs' buffers at their blocks, the output's at the running sum; the
    invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms of the two tests say which run
    applies; the invariant hands the body the scratch cell at the running sum so far (at anything before the first
    point) and takes it back at the running sum including this point; where the output window is idle its buffer is
    handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 2 := lt_of_lt_of_eq t.isLt (show cfg1.N = 2 from N_1)
  by_cases h0 : t.val = 0
  ·
    have h1 : ¬t.val = 1 := by omega
    rw [Dat.leavesExact_idle (dat1 V c) 2 t (idleAt1_2 t (fun h => h1 ((hcond1_1 t).mp h))) (noFlush1_2 t (fun h => h1 ((hcond1_1 t).mp h)))]
    rw [PhiS1_castSucc V c t, PhiS1_zero V c _ _ h0, PhiA_eq1, acc1_first V c t h0]
    iintro ⟨⟨⟨HS, HR⟩, Hg⟩, Ho, ⟨%d0, H0⟩, ⟨%d1, H1⟩, ⟨%d2, H2⟩⟩
    iapply (run1_first c (grid1.coords t) _ _ _ _ _ _ _ _ ((hcond1_0 t).mpr h0) (fun h => h1 ((hcond1_1 t).mp h)) (iblk1 V c 0 t) (iblk1 V c 1 t) ((dat1 V c).before 2 t d2) Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have h1 : t.val = 1 := by omega
    ·
      rw [show (dat1 V c).leavesExact 2 t = owns (c : Thread nD τ) (ms1_2 t) fullShare ((dat1 V c).after 2 t) from by
        unfold Dat.leavesExact; rw [liveAt1_2 t ((hcond1_1 t).mpr h1)], after1_2]
      rw [PhiS1_castSucc V c t, PhiS1_pos V c _ _ h0, acc1_step V c t h0]
      iintro ⟨⟨⟨HS, HR⟩, Hg⟩, Ho, ⟨%d0, H0⟩, ⟨%d1, H1⟩, ⟨%d2, H2⟩⟩
      iapply (run1_last c (grid1.coords t) _ _ _ _ _ _ _ _ (fun h => h0 ((hcond1_0 t).mp h)) ((hcond1_1 t).mpr h1) (iblk1 V c 0 t) (iblk1 V c 1 t) (acc1 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch cell's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 2 := N_1; omega), PhiA_eq1]
  iintro ⟨⟨HS, HR⟩, Hg⟩
  isplitl [HS HR]
  · isplitl [HS]
    · iexists _; iexact HS
    iexact HR
  iexact Hg

end

end Cert.Kernel.Hand
end
-- ==== Proof.KB.Body2.lean ====
import proofs.«153644_j35845797053068_1_alg».proof.Proof.Gen.Kernel.Launch
import proofs.«153644_j35845797053068_1_alg».proof.Proof.Gen.Kernel.Skeleton
import proofs.«153644_j35845797053068_1_alg».proof.Proof.Gen.Kernel.Points
import proofs.«153644_j35845797053068_1_alg».proof.Proof.KB.Cell
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: the kernel body run at each kind of grid point

The body clears its scratch cell when the point is the first, adds the block's sum to the cell, and copies the cell to
the output block when the point is the last. Each theorem below runs the body under one assignment of those two tests,
on whole buffers: the two input blocks at contents `x` and `y`, the output block and the cell as stated. -/

/-- The first test of the body: the point is the grid's first. -/
abbrev cond2_0 (i : grid2.Coords) : Prop := (Scalar.cmpi .ne (Scalar.extui (Scalar.cmpi .eq (BitVec.ofNat 32 (i 0).val) 0#32)) 0#32) = 1#1
/-- The second test: the point is the grid's last. -/
abbrev cond2_1 (i : grid2.Coords) : Prop := k2_cond2 i = 1#1

set_option maxHeartbeats 2000000 in
/-- At a point that is both first and last: the cell, whatever it held, ends at the block's sum added to zero, and the
    output block, whatever it held, receives the cell. -/
theorem run2_only (c : Dev nD) (i : grid2.Coords)
    (arg1 : Memref sig .tc .vmem S64x1x40x40 .f32) (harg1 : arg1.IsWhole) (arg2 : Memref sig .tc .vmem S64x1x40x40 .f32) (harg2 : arg2.IsWhole)
    (arg3 : Memref sig .tc .vmem S1x1 .f32) (harg3 : arg3.IsWhole) (arg4 : Memref sig .tc .vmem S1x1 .f32) (harg4 : arg4.IsWhole)
    (hc0 : cond2_0 i) (hc1 : cond2_1 i)
    (x y : Vec F S64x1x40x40 .f32) (E : Set ℕ) (K : PUnit → sProp 𝕄) :
    iprop(owns (c : Thread nD τ) arg1 fullShare x ∗ owns (c : Thread nD τ) arg2 fullShare y ∗ (∃ d, owns (c : Thread nD τ) arg3 fullShare d)
        ∗ (∃ d, owns (c : Thread nD τ) arg4 fullShare d)
        ∗ (iprop(owns (c : Thread nD τ) arg1 fullShare x ∗ owns (c : Thread nD τ) arg2 fullShare y ∗ owns (c : Thread nD τ) arg3 fullShare (k2_pay2 x y k2_pay1)
            ∗ owns (c : Thread nD τ) arg4 fullShare (k2_pay2 x y k2_pay1)) -∗ K ⟨⟩))
      ⊢ wp frame (wpE (defs₀ (F := F)) Variants.none c none) E (cc2__bce_sum_kernel i arg1 harg1 arg2 harg2 arg3 harg3 arg4 harg4) K := by
  have hz4 : (![0, 0, 0, 0] : Fin S64x1x40x40.rank → Nat) = fun _ => 0 := funext fun a => by match a with | ⟨0, _⟩ => rfl | ⟨1, _⟩ => rfl | ⟨2, _⟩ => rfl | ⟨3, _⟩ => rfl
  simp only [cc2__bce_sum_kernel_eq_skeleton]; unfold cc2__bce_sum_kernel_skel
  simp only [k2_part1_eq_skeleton]
  unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    try sl_unfold_run_names
    refine (cell_read_writes _ _ _ _).trans ?_
    refine (cell_readCov _ _ _).trans ?_
    refine (congrArg (k2_pay2 _ _) (cell_readCov arg4.view (k2_pay1 (F := F)) [])).trans ?_
    simp only [View.readAt_eq_ld, harg1.read_unread, harg2.read_unread, harg4.read_unread, View.ld_unit_zero (S := S64x1x40x40) hz4, View.ld_unit_zero (S := S1x1) hz_cell]
  iexists _; isplitr
  swap; · iexact H4
  ipureintro
  try sl_unfold_run_names
  refine (cell_read_writes _ _ _ _).trans ?_
  refine (congrArg (k2_pay2 _ _) (cell_readCov arg4.view (k2_pay1 (F := F)) [])).trans ?_
  simp only [View.readAt_eq_ld, harg1.read_unread, harg2.read_unread, harg4.read_unread, View.ld_unit_zero (S := S64x1x40x40) hz4, View.ld_unit_zero (S := S1x1) hz_cell]

end Cert.Kernel.Hand
end
-- ==== Proof.KB.Region2.lean ====
import proofs.«153644_j35845797053068_1_alg».proof.Proof.Gen.Kernel.Launch
import proofs.«153644_j35845797053068_1_alg».proof.Proof.Gen.Kernel.Skeleton
import proofs.«153644_j35845797053068_1_alg».proof.Proof.Gen.Kernel.Points
import proofs.«153644_j35845797053068_1_alg».proof.Proof.KB.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: the accumulator, the proof data and the body obligation

The body keeps one running sum in its scratch cell: it clears the cell at the first point, adds the block's sum of
per-element losses at every point, and copies the cell to the output block at the last point. The invariant between
points therefore names the cell's contents: the block sums of the points so far, added to zero in order. -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two tests over the grid, and where the output window is idle -/

/-- The first test holds exactly at point 0. -/
theorem hcond2_0 : ∀ t : Fin cfg2.N, cond2_0 (grid2.coords t) ↔ t.val = 0 :=
  (by decide +kernel : ∀ t : Fin grid2.N, cond2_0 (grid2.coords t) ↔ t.val = 0)
/-- The second test holds exactly at point 0. -/
theorem hcond2_1 : ∀ t : Fin cfg2.N, cond2_1 (grid2.coords t) ↔ t.val = 0 :=
  (by decide +kernel : ∀ t : Fin grid2.N, cond2_1 (grid2.coords t) ↔ t.val = 0)

theorem liveAt2_0 : ∀ t : Fin cfg2.N, cfg2.idle 0 (grid2.coords t) = false := by decide +kernel
theorem liveAt2_1 : ∀ t : Fin cfg2.N, cfg2.idle 1 (grid2.coords t) = false := by decide +kernel
/-- Where the second test fails the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it holds the body stores into the output window. -/
theorem liveAt2_2 : ∀ t : Fin cfg2.N, cond2_1 (grid2.coords t) → cfg2.idle 2 (grid2.coords t) = false := by decide +kernel

/-- Each window's current staging memref at point `t`, as the pipeline passes it to the body. -/
abbrev ms2_0 (t : Fin cfg2.N) : Memref sig .tc .vmem S64x1x40x40 .f32 := win2_0.stage (cfg2.slots t 0)
abbrev ms2_1 (t : Fin cfg2.N) : Memref sig .tc .vmem S64x1x40x40 .f32 := win2_1.stage (cfg2.slots t 1)
abbrev ms2_2 (t : Fin cfg2.N) : Memref sig .tc .vmem S1x1 .f32 := win2_2.stage (cfg2.slots t 2)
/-- The scratch cell as a memref. -/
abbrev scM2 : Memref sig .tc .vmem S1x1 .f32 := Memref.whole cc2_scratch0

/-! ## The accumulator -/

/-- The scratch cell after point `n`: the block sums of points `0 … n` added to zero, in order. -/
def acc2 (c : Dev nD) : (n : ℕ) → n < cfg2.N → Vec F S1x1 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩) (acc2 c n (Nat.lt_of_succ_lt hn))

theorem acc2_first (c : Dev nD) (t : Fin cfg2.N) (h : t.val = 0) :
    acc2 V c t.val t.isLt = k2_pay2 (iblk2 V c 0 t) (iblk2 V c 1 t) k2_pay1 := by
  obtain ⟨n, hn⟩ := t
  cases n with
  | zero => rfl
  | succ n => exact absurd h (Nat.succ_ne_zero n)

theorem acc2_step (c : Dev nD) (t : Fin cfg2.N) (h : t.val ≠ 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl h
  | succ n => rfl

/-! ## The invariant between points -/

/-- The class's invariant with the scratch cell split off: the cell at some contents, every other scoped buffer that is
    no staging buffer of this call unopened, and the generator register. -/
theorem PhiA_eq2 (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole]; try rfl

/-- Before the first point the class's invariant; afterwards the scratch cell at the running sum, the other scoped
    buffers unopened. -/
def PhiS2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; the inputs' buffers at their blocks, the output's at the running sum; the
    invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms of the two tests say which run
    applies; the invariant hands the body the scratch cell at the running sum so far (at anything before the first
    point) and takes it back at the running sum including this point; where the output window is idle its buffer is
    handed back as it was found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 1 := lt_of_lt_of_eq t.isLt (show cfg2.N = 1 from N_2)
  have h0 : t.val = 0 := by omega
  have h1 : t.val = 0 := by omega
  rw [show (dat2 V c).leavesExact 2 t = owns (c : Thread nD τ) (ms2_2 t) fullShare ((dat2 V c).after 2 t) from by
    unfold Dat.leavesExact; rw [liveAt2_2 t ((hcond2_1 t).mpr h1)], after2_2]
  rw [PhiS2_castSucc V c t, PhiS2_zero V c _ _ h0, PhiA_eq2, acc2_first V c t h0]
  iintro ⟨⟨⟨HS, HR⟩, Hg⟩, Ho, ⟨%d0, H0⟩, ⟨%d1, H1⟩, ⟨%d2, H2⟩⟩
  iapply (run2_only c (grid2.coords t) _ _ _ _ _ _ _ _ ((hcond2_0 t).mpr h0) ((hcond2_1 t).mpr h1) (iblk2 V c 0 t) (iblk2 V c 1 t) Set.univ _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch cell's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 1 := N_2; omega), PhiA_eq2]
  iintro ⟨⟨HS, HR⟩, Hg⟩
  isplitl [HS HR]
  · isplitl [HS]
    · iexists _; iexact HS
    iexact HR
  iexact Hg

end

end Cert.Kernel.Hand
end
-- ==== Proof.KB.RunHost.lean ====
import proofs.«153644_j35845797053068_1_alg».proof.Proof.Gen.Kernel.Launch
import proofs.«153644_j35845797053068_1_alg».proof.Proof.Gen.Kernel.Skeleton
import proofs.«153644_j35845797053068_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The host stretches of the program: none allocates a buffer, none writes an argument array

The program's host operations are cut into thirteen stretches. Each operation writes exactly one buffer, its result,
and no result buffer is one of the four argument arrays. -/

/-- The operation writes none of the four argument arrays. -/
def KeepsArgs (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes

/-- A line of operations none of which writes an argument leaves each argument's buffer as it was. -/
theorem after_arg0 {ops : List (HloOp τ sig (Elt F))} (h : ops.Forall KeepsArgs) (V : Valuation τ sig (Elt F)) :
    StableHlo.after ops V (Proc.devRef .tc main_arg0) = V (Proc.devRef .tc main_arg0) :=
  StableHlo.after_of_forall_not_mem _ _ fun op hop => ((List.forall_iff_forall_mem.mp h) op hop).1
theorem after_arg1 {ops : List (HloOp τ sig (Elt F))} (h : ops.Forall KeepsArgs) (V : Valuation τ sig (Elt F)) :
    StableHlo.after ops V (Proc.devRef .tc main_arg1) = V (Proc.devRef .tc main_arg1) :=
  StableHlo.after_of_forall_not_mem _ _ fun op hop => ((List.forall_iff_forall_mem.mp h) op hop).2.1
theorem after_arg2 {ops : List (HloOp τ sig (Elt F))} (h : ops.Forall KeepsArgs) (V : Valuation τ sig (Elt F)) :
    StableHlo.after ops V (Proc.devRef .tc main_arg2) = V (Proc.devRef .tc main_arg2) :=
  StableHlo.after_of_forall_not_mem _ _ fun op hop => ((List.forall_iff_forall_mem.mp h) op hop).2.2.1
theorem after_arg3 {ops : List (HloOp τ sig (Elt F))} (h : ops.Forall KeepsArgs) (V : Valuation τ sig (Elt F)) :
    StableHlo.after ops V (Proc.devRef .tc main_arg3) = V (Proc.devRef .tc main_arg3) :=
  StableHlo.after_of_forall_not_mem _ _ fun op hop => ((List.forall_iff_forall_mem.mp h) op hop).2.2.2

/-- No operation of `main_part0_ops0` allocates a buffer. -/
theorem main_part0_ops0_fresh : (main_part0_ops0 : List (HloOp τ sig (Elt F))).Forall fun op => op.fresh = ∅ := by
  simp only [List.Forall]; repeat' constructor
/-- No operation of `main_part0_ops0` writes an argument array: each writes its own result buffer, a different reference. -/
theorem main_part0_ops0_keeps : (main_part0_ops0 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part0_ops1` allocates a buffer. -/
theorem main_part0_ops1_fresh : (main_part0_ops1 : List (HloOp τ sig (Elt F))).Forall fun op => op.fresh = ∅ := by
  simp only [List.Forall]; repeat' constructor
/-- No operation of `main_part0_ops1` writes an argument array: each writes its own result buffer, a different reference. -/
theorem main_part0_ops1_keeps : (main_part0_ops1 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part0_ops2` allocates a buffer. -/
theorem main_part0_ops2_fresh : (main_part0_ops2 : List (HloOp τ sig (Elt F))).Forall fun op => op.fresh = ∅ := by
  simp only [List.Forall]; repeat' constructor
/-- No operation of `main_part0_ops2` writes an argument array: each writes its own result buffer, a different reference. -/
theorem main_part0_ops2_keeps : (main_part0_ops2 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part1_ops0` allocates a buffer. -/
theorem main_part1_ops0_fresh : (main_part1_ops0 : List (HloOp τ sig (Elt F))).Forall fun op => op.fresh = ∅ := by
  simp only [List.Forall]; repeat' constructor
/-- No operation of `main_part1_ops0` writes an argument array: each writes its own result buffer, a different reference. -/
theorem main_part1_ops0_keeps : (main_part1_ops0 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part1_ops1` allocates a buffer. -/
theorem main_part1_ops1_fresh : (main_part1_ops1 : List (HloOp τ sig (Elt F))).Forall fun op => op.fresh = ∅ := by
  simp only [List.Forall]; repeat' constructor
/-- No operation of `main_part1_ops1` writes an argument array: each writes its own result buffer, a different reference. -/
theorem main_part1_ops1_keeps : (main_part1_ops1 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part1_ops2` allocates a buffer. -/
theorem main_part1_ops2_fresh : (main_part1_ops2 : List (HloOp τ sig (Elt F))).Forall fun op => op.fresh = ∅ := by
  simp only [List.Forall]; repeat' constructor
/-- No operation of `main_part1_ops2` writes an argument array: each writes its own result buffer, a different reference. -/
theorem main_part1_ops2_keeps : (main_part1_ops2 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part2_ops0` allocates a buffer. -/
theorem main_part2_ops0_fresh : (main_part2_ops0 : List (HloOp τ sig (Elt F))).Forall fun op => op.fresh = ∅ := by
  simp only [List.Forall]; repeat' constructor
/-- No operation of `main_part2_ops0` writes an argument array: each writes its own result buffer, a different reference. -/
theorem main_part2_ops0_keeps : (main_part2_ops0 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part2_ops1` allocates a buffer. -/
theorem main_part2_ops1_fresh : (main_part2_ops1 : List (HloOp τ sig (Elt F))).Forall fun op => op.fresh = ∅ := by
  simp only [List.Forall]; repeat' constructor
/-- No operation of `main_part2_ops1` writes an argument array: each writes its own result buffer, a different reference. -/
theorem main_part2_ops1_keeps : (main_part2_ops1 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part2_ops2` allocates a buffer. -/
theorem main_part2_ops2_fresh : (main_part2_ops2 : List (HloOp τ sig (Elt F))).Forall fun op => op.fresh = ∅ := by
  simp only [List.Forall]; repeat' constructor
/-- No operation of `main_part2_ops2` writes an argument array: each writes its own result buffer, a different reference. -/
theorem main_part2_ops2_keeps : (main_part2_ops2 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part3_ops0` allocates a buffer. -/
theorem main_part3_ops0_fresh : (main_part3_ops0 : List (HloOp τ sig (Elt F))).Forall fun op => op.fresh = ∅ := by
  simp only [List.Forall]; repeat' constructor
/-- No operation of `main_part3_ops0` writes an argument array: each writes its own result buffer, a different reference. -/
theorem main_part3_ops0_keeps : (main_part3_ops0 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part3_ops1` allocates a buffer. -/
theorem main_part3_ops1_fresh : (main_part3_ops1 : List (HloOp τ sig (Elt F))).Forall fun op => op.fresh = ∅ := by
  simp only [List.Forall]; repeat' constructor
/-- No operation of `main_part3_ops1` writes an argument array: each writes its own result buffer, a different reference. -/
theorem main_part3_ops1_keeps : (main_part3_ops1 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part3_ops2` allocates a buffer. -/
theorem main_part3_ops2_fresh : (main_part3_ops2 : List (HloOp τ sig (Elt F))).Forall fun op => op.fresh = ∅ := by
  simp only [List.Forall]; repeat' constructor
/-- No operation of `main_part3_ops2` writes an argument array: each writes its own result buffer, a different reference. -/
theorem main_part3_ops2_keeps : (main_part3_ops2 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part3_ops3` allocates a buffer. -/
theorem main_part3_ops3_fresh : (main_part3_ops3 : List (HloOp τ sig (Elt F))).Forall fun op => op.fresh = ∅ := by
  simp only [List.Forall]; repeat' constructor
/-- No operation of `main_part3_ops3` writes an argument array: each writes its own result buffer, a different reference. -/
theorem main_part3_ops3_keeps : (main_part3_ops3 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

end Cert.Kernel.Hand
end
-- ==== Proof.KB.RunVals.lean ====
import proofs.«153644_j35845797053068_1_alg».proof.Proof.Gen.Kernel.Launch
import proofs.«153644_j35845797053068_1_alg».proof.Proof.Gen.Kernel.Skeleton
import proofs.«153644_j35845797053068_1_alg».proof.Proof.Gen.Kernel.Points
import proofs.«153644_j35845797053068_1_alg».proof.Proof.KB.Region0
import proofs.«153644_j35845797053068_1_alg».proof.Proof.KB.Region1
import proofs.«153644_j35845797053068_1_alg».proof.Proof.KB.Region2
import proofs.«153644_j35845797053068_1_alg».proof.Proof.KB.RunHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two segments of the program: a fold from the launch memory

The program is sixteen segments: ten stretches of host operations, then three kernel regions each followed by a
stretch. A stretch takes the contents to `StableHlo.after` of its operations; a region takes each of its windows'
arrays to what its write-backs leave and keeps every other buffer. -/

/-- Core `c`'s buffers at launch. -/
abbrev W0 : Dev nD → Valuation τ sig (Elt F) := fun c b => (s₀ m ρ).mem ((c : Dev nD), b)
/-- After the stretch `main_part0_ops0`. -/
abbrev W1 : Dev nD → Valuation τ sig (Elt F) := fun c => StableHlo.after main_part0_ops0 (W0 m ρ c)
/-- After the stretch `main_part0_ops1`. -/
abbrev W2 : Dev nD → Valuation τ sig (Elt F) := fun c => StableHlo.after main_part0_ops1 (W1 m ρ c)
/-- After the stretch `main_part0_ops2`. -/
abbrev W3 : Dev nD → Valuation τ sig (Elt F) := fun c => StableHlo.after main_part0_ops2 (W2 m ρ c)
/-- After the stretch `main_part1_ops0`. -/
abbrev W4 : Dev nD → Valuation τ sig (Elt F) := fun c => StableHlo.after main_part1_ops0 (W3 m ρ c)
/-- After the stretch `main_part1_ops1`. -/
abbrev W5 : Dev nD → Valuation τ sig (Elt F) := fun c => StableHlo.after main_part1_ops1 (W4 m ρ c)
/-- After the stretch `main_part1_ops2`. -/
abbrev W6 : Dev nD → Valuation τ sig (Elt F) := fun c => StableHlo.after main_part1_ops2 (W5 m ρ c)
/-- After the stretch `main_part2_ops0`. -/
abbrev W7 : Dev nD → Valuation τ sig (Elt F) := fun c => StableHlo.after main_part2_ops0 (W6 m ρ c)
/-- After the stretch `main_part2_ops1`. -/
abbrev W8 : Dev nD → Valuation τ sig (Elt F) := fun c => StableHlo.after main_part2_ops1 (W7 m ρ c)
/-- After the stretch `main_part2_ops2`. -/
abbrev W9 : Dev nD → Valuation τ sig (Elt F) := fun c => StableHlo.after main_part2_ops2 (W8 m ρ c)
/-- After the stretch `main_part3_ops0`. -/
abbrev W10 : Dev nD → Valuation τ sig (Elt F) := fun c => StableHlo.after main_part3_ops0 (W9 m ρ c)
/-- The contents region 0 is entered from, read at the TensorCore's references. -/
abbrev V10 : (c : Dev nD) → (b : Ref sig .tc) → Buf (Elt F) ((c : Thread nD τ).loc b) := fun c b => W10 m ρ c b
/-- At region 0's exit: its arrays at what the pipeline leaves (the inputs as entered, the output's write-backs
    folded), every other buffer as entered. -/
def W11 (c : Dev nD) : Valuation τ sig (Elt F) :=
  Pipeline.withArrays spec0 c (W10 m ρ c) fun w => (dat0 (V10 m ρ) c).arrAt w cfg0.N
theorem W11_arr (c : Dev nD) (w : Fin cfg0.W) :
    W11 m ρ c (Proc.devRef .tc (Pipeline.arrRef spec0 w)) = (dat0 (V10 m ρ) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m ρ c (Proc.devRef .tc b) = W10 m ρ c (Proc.devRef .tc b) := by
  unfold W11; exact Pipeline.withArrays_of_ne spec0 c _ _ b hb
/-- The same read at the TensorCore's references (region 0's exit contents). -/
abbrev V11 : (c : Dev nD) → (b : Ref sig .tc) → Buf (Elt F) ((c : Thread nD τ).loc b) := fun c b => W11 m ρ c b
/-- At region 0's exit each of its arrays holds what the pipeline leaves, and every other buffer what it held at
    entry. -/
theorem hF0 (c : Dev nD) (w : Fin cfg0.W) : (dat0 (V10 m ρ) c).arrAt w cfg0.N = V11 m ρ c (Pipeline.arrRef spec0 w) :=
  (W11_arr m ρ c w).symm
theorem hrest0 (c : Dev nD) : ∀ b, b ∉ Finset.univ.image (Pipeline.arrRef spec0) → V11 m ρ c b = V10 m ρ c b :=
  fun b hb => W11_of_ne m ρ c b fun w e => hb (Finset.mem_image.mpr ⟨w, Finset.mem_univ _, e⟩)
/-- After the stretch `main_part3_ops1`. -/
abbrev W12 : Dev nD → Valuation τ sig (Elt F) := fun c => StableHlo.after main_part3_ops1 (W11 m ρ c)
/-- The contents region 1 is entered from, read at the TensorCore's references. -/
abbrev V12 : (c : Dev nD) → (b : Ref sig .tc) → Buf (Elt F) ((c : Thread nD τ).loc b) := fun c b => W12 m ρ c b
/-- At region 1's exit: its arrays at what the pipeline leaves (the inputs as entered, the output's write-backs
    folded), every other buffer as entered. -/
def W13 (c : Dev nD) : Valuation τ sig (Elt F) :=
  Pipeline.withArrays spec1 c (W12 m ρ c) fun w => (dat1 (V12 m ρ) c).arrAt w cfg1.N
theorem W13_arr (c : Dev nD) (w : Fin cfg1.W) :
    W13 m ρ c (Proc.devRef .tc (Pipeline.arrRef spec1 w)) = (dat1 (V12 m ρ) c).arrAt w cfg1.N := by
  unfold W13; exact Pipeline.withArrays_arr spec1 launch1.win.arr_inj c _ _ w
theorem W13_of_ne (c : Dev nD) (b : Ref sig .tc) (hb : ∀ w, Pipeline.arrRef spec1 w ≠ b) :
    W13 m ρ c (Proc.devRef .tc b) = W12 m ρ c (Proc.devRef .tc b) := by
  unfold W13; exact Pipeline.withArrays_of_ne spec1 c _ _ b hb
/-- The same read at the TensorCore's references (region 1's exit contents). -/
abbrev V13 : (c : Dev nD) → (b : Ref sig .tc) → Buf (Elt F) ((c : Thread nD τ).loc b) := fun c b => W13 m ρ c b
/-- At region 1's exit each of its arrays holds what the pipeline leaves, and every other buffer what it held at
    entry. -/
theorem hF1 (c : Dev nD) (w : Fin cfg1.W) : (dat1 (V12 m ρ) c).arrAt w cfg1.N = V13 m ρ c (Pipeline.arrRef spec1 w) :=
  (W13_arr m ρ c w).symm
theorem hrest1 (c : Dev nD) : ∀ b, b ∉ Finset.univ.image (Pipeline.arrRef spec1) → V13 m ρ c b = V12 m ρ c b :=
  fun b hb => W13_of_ne m ρ c b fun w e => hb (Finset.mem_image.mpr ⟨w, Finset.mem_univ _, e⟩)
/-- After the stretch `main_part3_ops2`. -/
abbrev W14 : Dev nD → Valuation τ sig (Elt F) := fun c => StableHlo.after main_part3_ops2 (W13 m ρ c)
/-- The contents region 2 is entered from, read at the TensorCore's references. -/
abbrev V14 : (c : Dev nD) → (b : Ref sig .tc) → Buf (Elt F) ((c : Thread nD τ).loc b) := fun c b => W14 m ρ c b
/-- At region 2's exit: its arrays at what the pipeline leaves (the inputs as entered, the output's write-backs
    folded), every other buffer as entered. -/
def W15 (c : Dev nD) : Valuation τ sig (Elt F) :=
  Pipeline.withArrays spec2 c (W14 m ρ c) fun w => (dat2 (V14 m ρ) c).arrAt w cfg2.N
theorem W15_arr (c : Dev nD) (w : Fin cfg2.W) :
    W15 m ρ c (Proc.devRef .tc (Pipeline.arrRef spec2 w)) = (dat2 (V14 m ρ) c).arrAt w cfg2.N := by
  unfold W15; exact Pipeline.withArrays_arr spec2 launch2.win.arr_inj c _ _ w
theorem W15_of_ne (c : Dev nD) (b : Ref sig .tc) (hb : ∀ w, Pipeline.arrRef spec2 w ≠ b) :
    W15 m ρ c (Proc.devRef .tc b) = W14 m ρ c (Proc.devRef .tc b) := by
  unfold W15; exact Pipeline.withArrays_of_ne spec2 c _ _ b hb
/-- The same read at the TensorCore's references (region 2's exit contents). -/
abbrev V15 : (c : Dev nD) → (b : Ref sig .tc) → Buf (Elt F) ((c : Thread nD τ).loc b) := fun c b => W15 m ρ c b
/-- At region 2's exit each of its arrays holds what the pipeline leaves, and every other buffer what it held at
    entry. -/
theorem hF2 (c : Dev nD) (w : Fin cfg2.W) : (dat2 (V14 m ρ) c).arrAt w cfg2.N = V15 m ρ c (Pipeline.arrRef spec2 w) :=
  (W15_arr m ρ c w).symm
theorem hrest2 (c : Dev nD) : ∀ b, b ∉ Finset.univ.image (Pipeline.arrRef spec2) → V15 m ρ c b = V14 m ρ c b :=
  fun b hb => W15_of_ne m ρ c b fun w e => hb (Finset.mem_image.mpr ⟨w, Finset.mem_univ _, e⟩)
/-- After the stretch `main_part3_ops3`. -/
abbrev W16 : Dev nD → Valuation τ sig (Elt F) := fun c => StableHlo.after main_part3_ops3 (W15 m ρ c)

/-! ## The arguments end as launched

No host operation writes an argument array (`…_keeps`); a region reads `main_arg0`, `main_arg1`, `main_arg2` through
input window 0 of regions 0, 1, 2 (an input window's array is left as entered) and touches no other argument. So
the fold at an argument's buffer walks back to the launch memory. -/

theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := after_arg0 main_part3_ops3_keeps _
    _ = W14 m ρ c (Proc.devRef .tc main_arg0) := W15_of_ne m ρ c main_arg0 (by decide)
    _ = W13 m ρ c (Proc.devRef .tc main_arg0) := after_arg0 main_part3_ops2_keeps _
    _ = W12 m ρ c (Proc.devRef .tc main_arg0) := W13_of_ne m ρ c main_arg0 (by decide)
    _ = W11 m ρ c (Proc.devRef .tc main_arg0) := after_arg0 main_part3_ops1_keeps _
    _ = W10 m ρ c (Proc.devRef .tc main_arg0) := (W11_arr m ρ c 0).trans (((dat0 (V10 m ρ) c).arrAt_in 0 rfl _).trans (A_eq0 (V10 m ρ) c 0))
    _ = W9 m ρ c (Proc.devRef .tc main_arg0) := after_arg0 main_part3_ops0_keeps _
    _ = W8 m ρ c (Proc.devRef .tc main_arg0) := after_arg0 main_part2_ops2_keeps _
    _ = W7 m ρ c (Proc.devRef .tc main_arg0) := after_arg0 main_part2_ops1_keeps _
    _ = W6 m ρ c (Proc.devRef .tc main_arg0) := after_arg0 main_part2_ops0_keeps _
    _ = W5 m ρ c (Proc.devRef .tc main_arg0) := after_arg0 main_part1_ops2_keeps _
    _ = W4 m ρ c (Proc.devRef .tc main_arg0) := after_arg0 main_part1_ops1_keeps _
    _ = W3 m ρ c (Proc.devRef .tc main_arg0) := after_arg0 main_part1_ops0_keeps _
    _ = W2 m ρ c (Proc.devRef .tc main_arg0) := after_arg0 main_part0_ops2_keeps _
    _ = W1 m ρ c (Proc.devRef .tc main_arg0) := after_arg0 main_part0_ops1_keeps _
    _ = W0 m ρ c (Proc.devRef .tc main_arg0) := after_arg0 main_part0_ops0_keeps _
    _ = m ((c : Thread nD τ).loc main_arg0) := rfl

theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := after_arg1 main_part3_ops3_keeps _
    _ = W14 m ρ c (Proc.devRef .tc main_arg1) := W15_of_ne m ρ c main_arg1 (by decide)
    _ = W13 m ρ c (Proc.devRef .tc main_arg1) := after_arg1 main_part3_ops2_keeps _
    _ = W12 m ρ c (Proc.devRef .tc main_arg1) := (W13_arr m ρ c 0).trans (((dat1 (V12 m ρ) c).arrAt_in 0 rfl _).trans (A_eq1 (V12 m ρ) c 0))
    _ = W11 m ρ c (Proc.devRef .tc main_arg1) := after_arg1 main_part3_ops1_keeps _
    _ = W10 m ρ c (Proc.devRef .tc main_arg1) := W11_of_ne m ρ c main_arg1 (by decide)
    _ = W9 m ρ c (Proc.devRef .tc main_arg1) := after_arg1 main_part3_ops0_keeps _
    _ = W8 m ρ c (Proc.devRef .tc main_arg1) := after_arg1 main_part2_ops2_keeps _
    _ = W7 m ρ c (Proc.devRef .tc main_arg1) := after_arg1 main_part2_ops1_keeps _
    _ = W6 m ρ c (Proc.devRef .tc main_arg1) := after_arg1 main_part2_ops0_keeps _
    _ = W5 m ρ c (Proc.devRef .tc main_arg1) := after_arg1 main_part1_ops2_keeps _
    _ = W4 m ρ c (Proc.devRef .tc main_arg1) := after_arg1 main_part1_ops1_keeps _
    _ = W3 m ρ c (Proc.devRef .tc main_arg1) := after_arg1 main_part1_ops0_keeps _
    _ = W2 m ρ c (Proc.devRef .tc main_arg1) := after_arg1 main_part0_ops2_keeps _
    _ = W1 m ρ c (Proc.devRef .tc main_arg1) := after_arg1 main_part0_ops1_keeps _
    _ = W0 m ρ c (Proc.devRef .tc main_arg1) := after_arg1 main_part0_ops0_keeps _
    _ = m ((c : Thread nD τ).loc main_arg1) := rfl

theorem W16_main_arg2 (c : Dev nD) : W16 m ρ c (Proc.devRef .tc main_arg2) = m ((c : Thread nD τ).loc main_arg2) :=
  calc W16 m ρ c (Proc.devRef .tc main_arg2)
    _ = W15 m ρ c (Proc.devRef .tc main_arg2) := after_arg2 main_part3_ops3_keeps _
    _ = W14 m ρ c (Proc.devRef .tc main_arg2) := (W15_arr m ρ c 0).trans (((dat2 (V14 m ρ) c).arrAt_in 0 rfl _).trans (A_eq2 (V14 m ρ) c 0))
    _ = W13 m ρ c (Proc.devRef .tc main_arg2) := after_arg2 main_part3_ops2_keeps _
    _ = W12 m ρ c (Proc.devRef .tc main_arg2) := W13_of_ne m ρ c main_arg2 (by decide)
    _ = W11 m ρ c (Proc.devRef .tc main_arg2) := after_arg2 main_part3_ops1_keeps _
    _ = W10 m ρ c (Proc.devRef .tc main_arg2) := W11_of_ne m ρ c main_arg2 (by decide)
    _ = W9 m ρ c (Proc.devRef .tc main_arg2) := after_arg2 main_part3_ops0_keeps _
    _ = W8 m ρ c (Proc.devRef .tc main_arg2) := after_arg2 main_part2_ops2_keeps _
    _ = W7 m ρ c (Proc.devRef .tc main_arg2) := after_arg2 main_part2_ops1_keeps _
    _ = W6 m ρ c (Proc.devRef .tc main_arg2) := after_arg2 main_part2_ops0_keeps _
    _ = W5 m ρ c (Proc.devRef .tc main_arg2) := after_arg2 main_part1_ops2_keeps _
    _ = W4 m ρ c (Proc.devRef .tc main_arg2) := after_arg2 main_part1_ops1_keeps _
    _ = W3 m ρ c (Proc.devRef .tc main_arg2) := after_arg2 main_part1_ops0_keeps _
    _ = W2 m ρ c (Proc.devRef .tc main_arg2) := after_arg2 main_part0_ops2_keeps _
    _ = W1 m ρ c (Proc.devRef .tc main_arg2) := after_arg2 main_part0_ops1_keeps _
    _ = W0 m ρ c (Proc.devRef .tc main_arg2) := after_arg2 main_part0_ops0_keeps _
    _ = m ((c : Thread nD τ).loc main_arg2) := rfl

theorem W16_main_arg3 (c : Dev nD) : W16 m ρ c (Proc.devRef .tc main_arg3) = m ((c : Thread nD τ).loc main_arg3) :=
  calc W16 m ρ c (Proc.devRef .tc main_arg3)
    _ = W15 m ρ c (Proc.devRef .tc main_arg3) := after_arg3 main_part3_ops3_keeps _
    _ = W14 m ρ c (Proc.devRef .tc main_arg3) := W15_of_ne m ρ c main_arg3 (by decide)
    _ = W13 m ρ c (Proc.devRef .tc main_arg3) := after_arg3 main_part3_ops2_keeps _
    _ = W12 m ρ c (Proc.devRef .tc main_arg3) := W13_of_ne m ρ c main_arg3 (by decide)
    _ = W11 m ρ c (Proc.devRef .tc main_arg3) := after_arg3 main_part3_ops1_keeps _
    _ = W10 m ρ c (Proc.devRef .tc main_arg3) := W11_of_ne m ρ c main_arg3 (by decide)
    _ = W9 m ρ c (Proc.devRef .tc main_arg3) := after_arg3 main_part3_ops0_keeps _
    _ = W8 m ρ c (Proc.devRef .tc main_arg3) := after_arg3 main_part2_ops2_keeps _
    _ = W7 m ρ c (Proc.devRef .tc main_arg3) := after_arg3 main_part2_ops1_keeps _
    _ = W6 m ρ c (Proc.devRef .tc main_arg3) := after_arg3 main_part2_ops0_keeps _
    _ = W5 m ρ c (Proc.devRef .tc main_arg3) := after_arg3 main_part1_ops2_keeps _
    _ = W4 m ρ c (Proc.devRef .tc main_arg3) := after_arg3 main_part1_ops1_keeps _
    _ = W3 m ρ c (Proc.devRef .tc main_arg3) := after_arg3 main_part1_ops0_keeps _
    _ = W2 m ρ c (Proc.devRef .tc main_arg3) := after_arg3 main_part0_ops2_keeps _
    _ = W1 m ρ c (Proc.devRef .tc main_arg3) := after_arg3 main_part0_ops1_keeps _
    _ = W0 m ρ c (Proc.devRef .tc main_arg3) := after_arg3 main_part0_ops0_keeps _
    _ = m ((c : Thread nD τ).loc main_arg3) := rfl

end Cert.Kernel.Hand
end
-- ==== Proof.KB.Run.lean ====
import proofs.«153644_j35845797053068_1_alg».proof.Proof.Gen.Kernel.Launch
import proofs.«153644_j35845797053068_1_alg».proof.Proof.Gen.Kernel.Skeleton
import proofs.«153644_j35845797053068_1_alg».proof.Proof.Gen.Kernel.Points
import proofs.«153644_j35845797053068_1_alg».proof.Proof.KB.Region0
import proofs.«153644_j35845797053068_1_alg».proof.Proof.KB.Region1
import proofs.«153644_j35845797053068_1_alg».proof.Proof.KB.Region2
import proofs.«153644_j35845797053068_1_alg».proof.Proof.KB.RunHost
import proofs.«153644_j35845797053068_1_alg».proof.Proof.KB.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the program over its sixteen segments

## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V10 m ρ) c
  | ⟨1, _⟩ => fun c => dat1 (V12 m ρ) c
  | ⟨2, _⟩ => fun c => dat2 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W16`, the
    generator register at some state. -/
abbrev Tₙ (c : Dev nD) : sProp 𝕄 := iprop(StableHlo.held (c : Thread nD τ) (Pipeline.ucRefs τ sig) (W16 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at `W10`, left at `W11`. Its arrays are split out
    of the unscoped buffers and put back at the exit contents; the generator register and the scoped buffers go into the
    invariant before the first point and come back from the invariant after the last; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V10 m ρ) c).loose
  hwaits := Pipeline.hwaits_of_owed_zero _ _ _ _ L lv 0 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec0 c (V10 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V10 m ρ) c)
    unfold Pipeline.ΦA
    iintro ⟨Hp, -, Hr⟩
    isplitl [Hr]; · iexact Hr
    iexact Hp
  hout c := by
    rw [Pipeline.ownSems0_none]
    refine BIBase.Entails.trans (hout0 (V10 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V10 m ρ c) (V11 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W12`, left at `W13`. Its arrays are split out
    of the unscoped buffers and put back at the exit contents; the generator register and the scoped buffers go into the
    invariant before the first point and come back from the invariant after the last; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V12 m ρ) c).loose
  hwaits := Pipeline.hwaits_of_owed_zero _ _ _ _ L lv 1 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec1 c (V12 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V12 m ρ) c)
    unfold Pipeline.ΦA
    iintro ⟨Hp, -, Hr⟩
    isplitl [Hr]; · iexact Hr
    iexact Hp
  hout c := by
    rw [Pipeline.ownSems0_none]
    refine BIBase.Entails.trans (hout1 (V12 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V12 m ρ c) (V13 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W14`, left at `W15`. Its arrays are split out
    of the unscoped buffers and put back at the exit contents; the generator register and the scoped buffers go into the
    invariant before the first point and come back from the invariant after the last; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V14 m ρ) c).loose
  hwaits := Pipeline.hwaits_of_owed_zero _ _ _ _ L lv 2 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec2 c (V14 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V14 m ρ) c)
    unfold Pipeline.ΦA
    iintro ⟨Hp, -, Hr⟩
    isplitl [Hr]; · iexact Hr
    iexact Hp
  hout c := by
    rw [Pipeline.ownSems0_none]
    refine BIBase.Entails.trans (hout2 (V14 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V14 m ρ c) (V15 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 16 segments in order: a host segment per stretch from its boundary's contents, a region per kernel call. -/
abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .host (hseg main_part1_ops1 main_part1_ops1_sub main_part1_ops1_fresh (W4 m ρ)),
    .host (hseg main_part1_ops2 main_part1_ops2_sub main_part1_ops2_fresh (W5 m ρ)),
    .host (hseg main_part2_ops0 main_part2_ops0_sub main_part2_ops0_fresh (W6 m ρ)),
    .host (hseg main_part2_ops1 main_part2_ops1_sub main_part2_ops1_fresh (W7 m ρ)),
    .host (hseg main_part2_ops2 main_part2_ops2_sub main_part2_ops2_fresh (W8 m ρ)),
    .host (hseg main_part3_ops0 main_part3_ops0_sub main_part3_ops0_fresh (W9 m ρ)),
    .region (reg0 m ρ),
    .host (hseg main_part3_ops1 main_part3_ops1_sub main_part3_ops1_fresh (W11 m ρ)),
    .region (reg1 m ρ),
    .host (hseg main_part3_ops2 main_part3_ops2_sub main_part3_ops2_fresh (W13 m ρ)),
    .region (reg2 m ρ),
    .host (hseg main_part3_ops3 main_part3_ops3_sub main_part3_ops3_fresh (W15 m ρ)) ]
/-- The program IS the run of the segments: it is the chain of its items, and the segments' run is that chain. -/
theorem main_run (c : Dev nD) : main (F := F) c = Pipeline.Seg.run (segs m ρ) := (main_chain_windows c).trans (by chain_rfl)

-- the launch theorem's implicit arguments are found by unifying its conclusion with this one, which takes unfolding
-- plain definitions in a metavariable's type
set_option backward.isDefEq.respectTransparency.types false in
/-- THE RUN. From any memory with zero counters, every weakly fair execution of the program on the TensorCores
    terminates, nothing faulting, and in every final state each unscoped buffer of each core holds the last boundary's
    contents `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W16 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

end Cert.Kernel.Hand
end
-- ==== Proof.KB.Frame.lean ====
import proofs.«153644_j35845797053068_1_alg».proof.Proof.Gen.Kernel.Launch
import proofs.«153644_j35845797053068_1_alg».proof.Proof.Gen.Kernel.Skeleton
import proofs.«153644_j35845797053068_1_alg».proof.Proof.Gen.Kernel.Points
import proofs.«153644_j35845797053068_1_alg».proof.Proof.KB.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The frame, and the run with the result named

Every execution of the program's entry point terminates without a fault; at the end each unscoped buffer holds what the
last boundary valuation says. An argument array is written by no host operation and by no region, so it ends as launched. -/

variable (m : (ℓ : Loc nD τ sig) → Buf (Elt F) ℓ) (ρ : Dev nD → PrngReg)

/-- The four argument arrays end holding their launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c)⟩) (run_all m ρ)

/-- The same run with the returned scalar named: it ends at what the last boundary valuation holds for it. -/
theorem run_value : θ_run defs (onTc (τ := τ) (main (F := F))) ⟨m, fun _ => 0, ρ⟩ (fun r => ∀ c : Dev nD,
      r.2.mem ((c.tc : Thread nD τ).loc main_v170) = W16 m ρ c (Proc.devRef .tc main_v170)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v170 (by decide)),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c)⟩) (run_all m ρ)

end Cert.Kernel.Hand
end
-- ==== Proof.KI.Cell.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # A one-cell buffer: what a whole-cell store leaves, and what a whole-cell load then reads

The kernels' scratch accumulator and output block are single `f32` cells of shape `[1, 1]`, always accessed whole. -/

/-- The whole-cell rectangle's offsets are all zero. -/
theorem hz_cell : (![0, 0] : Fin S1x1.rank → Nat) = fun _ => 0 :=
  funext fun a => by match a with | ⟨0, _⟩ => rfl | ⟨1, _⟩ => rfl

/-- The rectangle every access of a cell goes through: the whole cell. -/
abbrev rCell : Rect S1x1 := Rect.unit (s := S1x1) ![0, 0] S1x1.size inb_S1x1_S1x1_0_0

theorem cell_mem (y : S1x1.Idx) : y ∈ rCell.set := View.mem_set_unit_zero hz_cell inb_S1x1_S1x1_0_0 y

/-- A whole-cell store made last leaves its value, whatever the earlier stores were. -/
theorem cell_read_writes {κ : Kind} {sp : Space} (v : View sig κ sp S1x1 .f32) (f : v.ty.Contents (Elt F)) (w : Vec F S1x1 .f32)
    (L : List (View.Piece (Elt F) S1x1 .f32)) :
    v.read (Elt F) (v.writes (Elt F) f (⟨rCell, w⟩ :: L)) = w := by
  rw [View.read_writes_eq_canon _ _ _ (fun y => ⟨(⟨rCell, w⟩ : View.Piece (Elt F) S1x1 .f32), List.mem_cons.mpr (Or.inl rfl), cell_mem y⟩), View.canon_cons_unit_zero hz_cell]

/-- A whole-cell load after such a store reads the stored value. -/
theorem cell_readCov {κ : Kind} {sp : Space} (v : View sig κ sp S1x1 .f32) (w : Vec F S1x1 .f32)
    (L : List (View.Piece (Elt F) S1x1 .f32)) :
    v.readCov (⟨rCell, w⟩ :: L) rCell.toLoadRect = w := by
  rw [View.readCov_eq_canon_ld _ _ _ (fun y => ⟨(⟨rCell, w⟩ : View.Piece (Elt F) S1x1 .f32), List.mem_cons.mpr (Or.inl rfl), cell_mem y⟩), View.canon_cons_unit_zero hz_cell,
    View.ld_unit_zero hz_cell]

end Cert.KernelIdeal.Hand
end
-- ==== Proof.KI.Body0.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.Cell
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the kernel body run at each kind of grid point

The body clears its scratch cell when the point is the first, adds the block's sum to the cell, and copies the cell to
the output block when the point is the last. Each theorem below runs the body under one assignment of those two tests,
on whole buffers: the two input blocks at contents `x` and `y`, the output block and the cell as stated. -/

/-- The first test of the body: the point is the grid's first. -/
abbrev cond0_0 (i : grid0.Coords) : Prop := (Scalar.cmpi .ne (Scalar.extui (Scalar.cmpi .eq (BitVec.ofNat 32 (i 0).val) 0#32)) 0#32) = 1#1
/-- The second test: the point is the grid's last. -/
abbrev cond0_1 (i : grid0.Coords) : Prop := k0_cond2 i = 1#1

set_option maxHeartbeats 2000000 in
/-- At the first point, when it is not the last: the cell, whatever it held, ends at the block's sum added to zero; the
    output block is not touched. -/
theorem run0_first (c : Dev nD) (i : grid0.Coords)
    (arg1 : Memref sig .tc .vmem S16x1x160x160 .f32) (harg1 : arg1.IsWhole) (arg2 : Memref sig .tc .vmem S16x1x160x160 .f32) (harg2 : arg2.IsWhole)
    (arg3 : Memref sig .tc .vmem S1x1 .f32) (harg3 : arg3.IsWhole) (arg4 : Memref sig .tc .vmem S1x1 .f32) (harg4 : arg4.IsWhole)
    (hc0 : cond0_0 i) (hc1 : ¬cond0_1 i)
    (x y : Vec F S16x1x160x160 .f32) (o : Vec F S1x1 .f32) (E : Set ℕ) (K : PUnit → sProp 𝕄) :
    iprop(owns (c : Thread nD τ) arg1 fullShare x ∗ owns (c : Thread nD τ) arg2 fullShare y ∗ owns (c : Thread nD τ) arg3 fullShare o
        ∗ (∃ d, owns (c : Thread nD τ) arg4 fullShare d)
        ∗ (iprop(owns (c : Thread nD τ) arg1 fullShare x ∗ owns (c : Thread nD τ) arg2 fullShare y ∗ owns (c : Thread nD τ) arg3 fullShare o
            ∗ owns (c : Thread nD τ) arg4 fullShare (k0_pay2 x y k0_pay1)) -∗ K ⟨⟩))
      ⊢ wp frame (wpE (defs₀ (F := F)) Variants.none c none) E (cc0__bce_sum_kernel i arg1 harg1 arg2 harg2 arg3 harg3 arg4 harg4) K := by
  have hz4 : (![0, 0, 0, 0] : Fin S16x1x160x160.rank → Nat) = fun _ => 0 := funext fun a => by match a with | ⟨0, _⟩ => rfl | ⟨1, _⟩ => rfl | ⟨2, _⟩ => rfl | ⟨3, _⟩ => rfl
  simp only [cc0__bce_sum_kernel_eq_skeleton]; unfold cc0__bce_sum_kernel_skel
  simp only [k0_part1_eq_skeleton]
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  try sl_unfold_run_names
  refine (cell_read_writes _ _ _ _).trans ?_
  refine (congrArg (k0_pay2 _ _) (cell_readCov arg4.view (k0_pay1 (F := F)) [])).trans ?_
  simp only [View.readAt_eq_ld, harg1.read_unread, harg2.read_unread, harg4.read_unread, View.ld_unit_zero (S := S16x1x160x160) hz4, View.ld_unit_zero (S := S1x1) hz_cell]

set_option maxHeartbeats 2000000 in
/-- At a point that is neither first nor last: the block's sum is added to the cell; the output block is not touched. -/
theorem run0_mid (c : Dev nD) (i : grid0.Coords)
    (arg1 : Memref sig .tc .vmem S16x1x160x160 .f32) (harg1 : arg1.IsWhole) (arg2 : Memref sig .tc .vmem S16x1x160x160 .f32) (harg2 : arg2.IsWhole)
    (arg3 : Memref sig .tc .vmem S1x1 .f32) (harg3 : arg3.IsWhole) (arg4 : Memref sig .tc .vmem S1x1 .f32) (harg4 : arg4.IsWhole)
    (hc0 : ¬cond0_0 i) (hc1 : ¬cond0_1 i)
    (x y : Vec F S16x1x160x160 .f32) (o a : Vec F S1x1 .f32) (E : Set ℕ) (K : PUnit → sProp 𝕄) :
    iprop(owns (c : Thread nD τ) arg1 fullShare x ∗ owns (c : Thread nD τ) arg2 fullShare y ∗ owns (c : Thread nD τ) arg3 fullShare o
        ∗ owns (c : Thread nD τ) arg4 fullShare a
        ∗ (iprop(owns (c : Thread nD τ) arg1 fullShare x ∗ owns (c : Thread nD τ) arg2 fullShare y ∗ owns (c : Thread nD τ) arg3 fullShare o
            ∗ owns (c : Thread nD τ) arg4 fullShare (k0_pay2 x y a)) -∗ K ⟨⟩))
      ⊢ wp frame (wpE (defs₀ (F := F)) Variants.none c none) E (cc0__bce_sum_kernel i arg1 harg1 arg2 harg2 arg3 harg3 arg4 harg4) K := by
  have hz4 : (![0, 0, 0, 0] : Fin S16x1x160x160.rank → Nat) = fun _ => 0 := funext fun a => by match a with | ⟨0, _⟩ => rfl | ⟨1, _⟩ => rfl | ⟨2, _⟩ => rfl | ⟨3, _⟩ => rfl
  simp only [cc0__bce_sum_kernel_eq_skeleton]; unfold cc0__bce_sum_kernel_skel
  simp only [k0_part1_eq_skeleton]
  unfold owns
  iintro ⟨⟨%f1, %hf1, H1⟩, ⟨%f2, %hf2, H2⟩, ⟨%f3, %hf3, H3⟩, ⟨%f4, %hf4, H4⟩, Hk⟩
  obtain rfl := harg1.eq_unread hf1; obtain rfl := harg2.eq_unread hf2; obtain rfl := harg3.eq_unread hf3; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  try sl_unfold_run_names
  refine (cell_read_writes _ _ _ _).trans ?_
  simp only [View.readAt_eq_ld, harg1.read_unread, harg2.read_unread, harg4.read_unread, View.ld_unit_zero (S := S16x1x160x160) hz4, View.ld_unit_zero (S := S1x1) hz_cell]

set_option maxHeartbeats 2000000 in
/-- At the last point, when it is not the first: the block's sum is added to the cell, and the output block, whatever it
    held, receives the cell. -/
theorem run0_last (c : Dev nD) (i : grid0.Coords)
    (arg1 : Memref sig .tc .vmem S16x1x160x160 .f32) (harg1 : arg1.IsWhole) (arg2 : Memref sig .tc .vmem S16x1x160x160 .f32) (harg2 : arg2.IsWhole)
    (arg3 : Memref sig .tc .vmem S1x1 .f32) (harg3 : arg3.IsWhole) (arg4 : Memref sig .tc .vmem S1x1 .f32) (harg4 : arg4.IsWhole)
    (hc0 : ¬cond0_0 i) (hc1 : cond0_1 i)
    (x y : Vec F S16x1x160x160 .f32) (a : Vec F S1x1 .f32) (E : Set ℕ) (K : PUnit → sProp 𝕄) :
    iprop(owns (c : Thread nD τ) arg1 fullShare x ∗ owns (c : Thread nD τ) arg2 fullShare y ∗ (∃ d, owns (c : Thread nD τ) arg3 fullShare d)
        ∗ owns (c : Thread nD τ) arg4 fullShare a
        ∗ (iprop(owns (c : Thread nD τ) arg1 fullShare x ∗ owns (c : Thread nD τ) arg2 fullShare y ∗ owns (c : Thread nD τ) arg3 fullShare (k0_pay2 x y a)
            ∗ owns (c : Thread nD τ) arg4 fullShare (k0_pay2 x y a)) -∗ K ⟨⟩))
      ⊢ wp frame (wpE (defs₀ (F := F)) Variants.none c none) E (cc0__bce_sum_kernel i arg1 harg1 arg2 harg2 arg3 harg3 arg4 harg4) K := by
  have hz4 : (![0, 0, 0, 0] : Fin S16x1x160x160.rank → Nat) = fun _ => 0 := funext fun a => by match a with | ⟨0, _⟩ => rfl | ⟨1, _⟩ => rfl | ⟨2, _⟩ => rfl | ⟨3, _⟩ => rfl
  simp only [cc0__bce_sum_kernel_eq_skeleton]; unfold cc0__bce_sum_kernel_skel
  simp only [k0_part1_eq_skeleton]
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    try sl_unfold_run_names
    refine (cell_read_writes _ _ _ _).trans ?_
    refine (cell_readCov _ _ _).trans ?_
    simp only [View.readAt_eq_ld, harg1.read_unread, harg2.read_unread, harg4.read_unread, View.ld_unit_zero (S := S16x1x160x160) hz4, View.ld_unit_zero (S := S1x1) hz_cell]
  iexists _; isplitr
  swap; · iexact H4
  ipureintro
  try sl_unfold_run_names
  refine (cell_read_writes _ _ _ _).trans ?_
  simp only [View.readAt_eq_ld, harg1.read_unread, harg2.read_unread, harg4.read_unread, View.ld_unit_zero (S := S16x1x160x160) hz4, View.ld_unit_zero (S := S1x1) hz_cell]

end Cert.KernelIdeal.Hand
end
-- ==== Proof.KI.Region0.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the accumulator, the proof data and the body obligation

The body keeps one running sum in its scratch cell: it clears the cell at the first point, adds the block's sum of
per-element losses at every point, and copies the cell to the output block at the last point. The invariant between
points therefore names the cell's contents: the block sums of the points so far, added to zero in order. -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: where it is not
    fetched the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The two tests over the grid, and where the output window is idle -/

/-- The first test holds exactly at point 0. -/
theorem hcond0_0 : ∀ t : Fin cfg0.N, cond0_0 (grid0.coords t) ↔ t.val = 0 :=
  (by decide +kernel : ∀ t : Fin grid0.N, cond0_0 (grid0.coords t) ↔ t.val = 0)
/-- The second test holds exactly at point 3. -/
theorem hcond0_1 : ∀ t : Fin cfg0.N, cond0_1 (grid0.coords t) ↔ t.val = 3 :=
  (by decide +kernel : ∀ t : Fin grid0.N, cond0_1 (grid0.coords t) ↔ t.val = 3)

theorem liveAt0_0 : ∀ t : Fin cfg0.N, cfg0.idle 0 (grid0.coords t) = false := by decide +kernel
theorem liveAt0_1 : ∀ t : Fin cfg0.N, cfg0.idle 1 (grid0.coords t) = false := by decide +kernel
/-- Where the second test fails the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
/-- Where it holds the body stores into the output window. -/
theorem liveAt0_2 : ∀ t : Fin cfg0.N, cond0_1 (grid0.coords t) → cfg0.idle 2 (grid0.coords t) = false := by decide +kernel

/-- Each window's current staging memref at point `t`, as the pipeline passes it to the body. -/
abbrev ms0_0 (t : Fin cfg0.N) : Memref sig .tc .vmem S16x1x160x160 .f32 := win0_0.stage (cfg0.slots t 0)
abbrev ms0_1 (t : Fin cfg0.N) : Memref sig .tc .vmem S16x1x160x160 .f32 := win0_1.stage (cfg0.slots t 1)
abbrev ms0_2 (t : Fin cfg0.N) : Memref sig .tc .vmem S1x1 .f32 := win0_2.stage (cfg0.slots t 2)
/-- The scratch cell as a memref. -/
abbrev scM0 : Memref sig .tc .vmem S1x1 .f32 := Memref.whole cc0_scratch0

/-! ## The accumulator -/

/-- The scratch cell after point `n`: the block sums of points `0 … n` added to zero, in order. -/
def acc0 (c : Dev nD) : (n : ℕ) → n < cfg0.N → Vec F S1x1 .f32
  | 0, hn => k0_pay2 (iblk0 V c 0 ⟨0, hn⟩) (iblk0 V c 1 ⟨0, hn⟩) k0_pay1
  | n + 1, hn => k0_pay2 (iblk0 V c 0 ⟨n + 1, hn⟩) (iblk0 V c 1 ⟨n + 1, hn⟩) (acc0 c n (Nat.lt_of_succ_lt hn))

theorem acc0_first (c : Dev nD) (t : Fin cfg0.N) (h : t.val = 0) :
    acc0 V c t.val t.isLt = k0_pay2 (iblk0 V c 0 t) (iblk0 V c 1 t) k0_pay1 := by
  obtain ⟨n, hn⟩ := t
  cases n with
  | zero => rfl
  | succ n => exact absurd h (Nat.succ_ne_zero n)

theorem acc0_step (c : Dev nD) (t : Fin cfg0.N) (h : t.val ≠ 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd rfl h
  | succ n => rfl

/-! ## The invariant between points -/

/-- The class's invariant with the scratch cell split off: the cell at some contents, every other scoped buffer that is
    no staging buffer of this call unopened, and the generator register. -/
theorem PhiA_eq0 (c : Dev nD) :
    (Pipeline.ΦA spec0 c : sProp 𝕄)
      = iprop(iprop((∃ d, owns (c : Thread nD τ) scM0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [scM0, owns_whole]; try rfl

/-- Before the first point the class's invariant; afterwards the scratch cell at the running sum, the other scoped
    buffers unopened. -/
def PhiS0 (c : Dev nD) : (n : ℕ) → n ≤ cfg0.N → sProp 𝕄
  | 0, _ => Pipeline.ΦA spec0 c
  | n + 1, hn => iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega))
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The arrays as the region finds them; the inputs' buffers at their blocks, the output's at the running sum; the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = acc0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms of the two tests say which run
    applies; the invariant hands the body the scratch cell at the running sum so far (at anything before the first
    point) and takes it back at the running sum including this point; where the output window is idle its buffer is
    handed back as it was found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 4 := lt_of_lt_of_eq t.isLt (show cfg0.N = 4 from N_0)
  by_cases h0 : t.val = 0
  ·
    have h1 : ¬t.val = 3 := by omega
    rw [Dat.leavesExact_idle (dat0 V c) 2 t (idleAt0_2 t (fun h => h1 ((hcond0_1 t).mp h))) (noFlush0_2 t (fun h => h1 ((hcond0_1 t).mp h)))]
    rw [PhiS0_castSucc V c t, PhiS0_zero V c _ _ h0, PhiA_eq0, acc0_first V c t h0]
    iintro ⟨⟨⟨HS, HR⟩, Hg⟩, Ho, ⟨%d0, H0⟩, ⟨%d1, H1⟩, ⟨%d2, H2⟩⟩
    iapply (run0_first c (grid0.coords t) _ _ _ _ _ _ _ _ ((hcond0_0 t).mpr h0) (fun h => h1 ((hcond0_1 t).mp h)) (iblk0 V c 0 t) (iblk0 V c 1 t) ((dat0 V c).before 2 t d2) Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · by_cases h1 : t.val = 3
    ·
      rw [show (dat0 V c).leavesExact 2 t = owns (c : Thread nD τ) (ms0_2 t) fullShare ((dat0 V c).after 2 t) from by
        unfold Dat.leavesExact; rw [liveAt0_2 t ((hcond0_1 t).mpr h1)], after0_2]
      rw [PhiS0_castSucc V c t, PhiS0_pos V c _ _ h0, acc0_step V c t h0]
      iintro ⟨⟨⟨HS, HR⟩, Hg⟩, Ho, ⟨%d0, H0⟩, ⟨%d1, H1⟩, ⟨%d2, H2⟩⟩
      iapply (run0_last c (grid0.coords t) _ _ _ _ _ _ _ _ (fun h => h0 ((hcond0_0 t).mp h)) ((hcond0_1 t).mpr h1) (iblk0 V c 0 t) (iblk0 V c 1 t) (acc0 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    ·
      rw [Dat.leavesExact_idle (dat0 V c) 2 t (idleAt0_2 t (fun h => h1 ((hcond0_1 t).mp h))) (noFlush0_2 t (fun h => h1 ((hcond0_1 t).mp h)))]
      rw [PhiS0_castSucc V c t, PhiS0_pos V c _ _ h0, acc0_step V c t h0]
      iintro ⟨⟨⟨HS, HR⟩, Hg⟩, Ho, ⟨%d0, H0⟩, ⟨%d1, H1⟩, ⟨%d2, H2⟩⟩
      iapply (run0_mid c (grid0.coords t) _ _ _ _ _ _ _ _ (fun h => h0 ((hcond0_0 t).mp h)) (fun h => h1 ((hcond0_1 t).mp h)) (iblk0 V c 0 t) (iblk0 V c 1 t) ((dat0 V c).before 2 t d2) (acc0 V c (t.val - 1) (Nat.lt_of_le_of_lt (Nat.sub_le _ _) t.isLt)) Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the scratch cell's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 4 := N_0; omega), PhiA_eq0]
  iintro ⟨⟨HS, HR⟩, Hg⟩
  isplitl [HS HR]
  · isplitl [HS]
    · iexists _; iexact HS
    iexact HR
  iexact Hg

end

end Cert.KernelIdeal.Hand
end
-- ==== Proof.KI.Body1.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.Cell
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the kernel body run at each kind of grid point

The body clears its scratch cell when the point is the first, adds the block's sum to the cell, and copies the cell to
the output block when the point is the last. Each theorem below runs the body under one assignment of those two tests,
on whole buffers: the two input blocks at contents `x` and `y`, the output block and the cell as stated. -/

/-- The first test of the body: the point is the grid's first. -/
abbrev cond1_0 (i : grid1.Coords) : Prop := (Scalar.cmpi .ne (Scalar.extui (Scalar.cmpi .eq (BitVec.ofNat 32 (i 0).val) 0#32)) 0#32) = 1#1
/-- The second test: the point is the grid's last. -/
abbrev cond1_1 (i : grid1.Coords) : Prop := k1_cond2 i = 1#1

set_option maxHeartbeats 2000000 in
/-- At the first point, when it is not the last: the cell, whatever it held, ends at the block's sum added to zero; the
    output block is not touched. -/
theorem run1_first (c : Dev nD) (i : grid1.Coords)
    (arg1 : Memref sig .tc .vmem S32x1x80x80 .f32) (harg1 : arg1.IsWhole) (arg2 : Memref sig .tc .vmem S32x1x80x80 .f32) (harg2 : arg2.IsWhole)
    (arg3 : Memref sig .tc .vmem S1x1 .f32) (harg3 : arg3.IsWhole) (arg4 : Memref sig .tc .vmem S1x1 .f32) (harg4 : arg4.IsWhole)
    (hc0 : cond1_0 i) (hc1 : ¬cond1_1 i)
    (x y : Vec F S32x1x80x80 .f32) (o : Vec F S1x1 .f32) (E : Set ℕ) (K : PUnit → sProp 𝕄) :
    iprop(owns (c : Thread nD τ) arg1 fullShare x ∗ owns (c : Thread nD τ) arg2 fullShare y ∗ owns (c : Thread nD τ) arg3 fullShare o
        ∗ (∃ d, owns (c : Thread nD τ) arg4 fullShare d)
        ∗ (iprop(owns (c : Thread nD τ) arg1 fullShare x ∗ owns (c : Thread nD τ) arg2 fullShare y ∗ owns (c : Thread nD τ) arg3 fullShare o
            ∗ owns (c : Thread nD τ) arg4 fullShare (k1_pay2 x y k1_pay1)) -∗ K ⟨⟩))
      ⊢ wp frame (wpE (defs₀ (F := F)) Variants.none c none) E (cc1__bce_sum_kernel i arg1 harg1 arg2 harg2 arg3 harg3 arg4 harg4) K := by
  have hz4 : (![0, 0, 0, 0] : Fin S32x1x80x80.rank → Nat) = fun _ => 0 := funext fun a => by match a with | ⟨0, _⟩ => rfl | ⟨1, _⟩ => rfl | ⟨2, _⟩ => rfl | ⟨3, _⟩ => rfl
  simp only [cc1__bce_sum_kernel_eq_skeleton]; unfold cc1__bce_sum_kernel_skel
  simp only [k1_part1_eq_skeleton]
  unfold owns
  iintro ⟨⟨%f1, %hf1, H1⟩, ⟨%f2, %hf2, H2⟩, ⟨%f3, %hf3, H3⟩, ⟨%d4, %f4, -, H4⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr
  swap; · iexact H4
  ipureintro
  try sl_unfold_run_names
  refine (cell_read_writes _ _ _ _).trans ?_
  refine (congrArg (k1_pay2 _ _) (cell_readCov arg4.view (k1_pay1 (F := F)) [])).trans ?_
  simp only [View.readAt_eq_ld, harg1.read_unread, harg2.read_unread, harg4.read_unread, View.ld_unit_zero (S := S32x1x80x80) hz4, View.ld_unit_zero (S := S1x1) hz_cell]

set_option maxHeartbeats 2000000 in
/-- At the last point, when it is not the first: the block's sum is added to the cell, and the output block, whatever it
    held, receives the cell. -/
theorem run1_last (c : Dev nD) (i : grid1.Coords)
    (arg1 : Memref sig .tc .vmem S32x1x80x80 .f32) (harg1 : arg1.IsWhole) (arg2 : Memref sig .tc .vmem S32x1x80x80 .f32) (harg2 : arg2.IsWhole)
    (arg3 : Memref sig .tc .vmem S1x1 .f32) (harg3 : arg3.IsWhole) (arg4 : Memref sig .tc .vmem S1x1 .f32) (harg4 : arg4.IsWhole)
    (hc0 : ¬cond1_0 i) (hc1 : cond1_1 i)
    (x y : Vec F S32x1x80x80 .f32) (a : Vec F S1x1 .f32) (E : Set ℕ) (K : PUnit → sProp 𝕄) :
    iprop(owns (c : Thread nD τ) arg1 fullShare x ∗ owns (c : Thread nD τ) arg2 fullShare y ∗ (∃ d, owns (c : Thread nD τ) arg3 fullShare d)
        ∗ owns (c : Thread nD τ) arg4 fullShare a
        ∗ (iprop(owns (c : Thread nD τ) arg1 fullShare x ∗ owns (c : Thread nD τ) arg2 fullShare y ∗ owns (c : Thread nD τ) arg3 fullShare (k1_pay2 x y a)
            ∗ owns (c : Thread nD τ) arg4 fullShare (k1_pay2 x y a)) -∗ K ⟨⟩))
      ⊢ wp frame (wpE (defs₀ (F := F)) Variants.none c none) E (cc1__bce_sum_kernel i arg1 harg1 arg2 harg2 arg3 harg3 arg4 harg4) K := by
  have hz4 : (![0, 0, 0, 0] : Fin S32x1x80x80.rank → Nat) = fun _ => 0 := funext fun a => by match a with | ⟨0, _⟩ => rfl | ⟨1, _⟩ => rfl | ⟨2, _⟩ => rfl | ⟨3, _⟩ => rfl
  simp only [cc1__bce_sum_kernel_eq_skeleton]; unfold cc1__bce_sum_kernel_skel
  simp only [k1_part1_eq_skeleton]
  unfold owns
  iintro ⟨⟨%f1, %hf1, H1⟩, ⟨%f2, %hf2, H2⟩, ⟨%d3, %f3, -, H3⟩, ⟨%f4, %hf4, H4⟩, Hk⟩
  obtain rfl := harg1.eq_unread hf1; obtain rfl := harg2.eq_unread hf2; obtain rfl := harg4.eq_unread hf4
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    try sl_unfold_run_names
    refine (cell_read_writes _ _ _ _).trans ?_
    refine (cell_readCov _ _ _).trans ?_
    simp only [View.readAt_eq_ld, harg1.read_unread, harg2.read_unread, harg4.read_unread, View.ld_unit_zero (S := S32x1x80x80) hz4, View.ld_unit_zero (S := S1x1) hz_cell]
  iexists _; isplitr
  swap; · iexact H4
  ipureintro
  try sl_unfold_run_names
  refine (cell_read_writes _ _ _ _).trans ?_
  simp only [View.readAt_eq_ld, harg1.read_unread, harg2.read_unread, harg4.read_unread, View.ld_unit_zero (S := S32x1x80x80) hz4, View.ld_unit_zero (S := S1x1) hz_cell]

end Cert.KernelIdeal.Hand
end
-- ==== Proof.KI.Region1.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the accumulator, the proof data and the body obligation

The body keeps one running sum in its scratch cell: it clears the cell at the first point, adds the block's sum of
per-element losses at every point, and copies the cell to the output block at the last point. The invariant between
points therefore names the cell's contents: the block sums of the points so far, added to zero in order. -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: where it is not
    fetched the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The two tests over the grid, and where the output window is idle -/

/-- The first test holds exactly at point 0. -/
theorem hcond1_0 : ∀ t : Fin cfg1.N, cond1_0 (grid1.coords t) ↔ t.val = 0 :=
  (by decide +kernel : ∀ t : Fin grid1.N, cond1_0 (grid1.coords t) ↔ t.val = 0)
/-- The second test holds exactly at point 1. -/
theorem hcond1_1 : ∀ t : Fin cfg1.N, cond1_1 (grid1.coords t) ↔ t.val = 1 :=
  (by decide +kernel : ∀ t : Fin grid1.N, cond1_1 (grid1.coords t) ↔ t.val = 1)

theorem liveAt1_0 : ∀ t : Fin cfg1.N, cfg1.idle 0 (grid1.coords t) = false := by decide +kernel
theorem liveAt1_1 : ∀ t : Fin cfg1.N, cfg1.idle 1 (grid1.coords t) = false := by decide +kernel
/-- Where the second test fails the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- Where it holds the body stores into the output window. -/
theorem liveAt1_2 : ∀ t : Fin cfg1.N, cond1_1 (grid1.coords t) → cfg1.idle 2 (grid1.coords t) = false := by decide +kernel

/-- Each window's current staging memref at point `t`, as the pipeline passes it to the body. -/
abbrev ms1_0 (t : Fin cfg1.N) : Memref sig .tc .vmem S32x1x80x80 .f32 := win1_0.stage (cfg1.slots t 0)
abbrev ms1_1 (t : Fin cfg1.N) : Memref sig .tc .vmem S32x1x80x80 .f32 := win1_1.stage (cfg1.slots t 1)
abbrev ms1_2 (t : Fin cfg1.N) : Memref sig .tc .vmem S1x1 .f32 := win1_2.stage (cfg1.slots t 2)
/-- The scratch cell as a memref. -/
abbrev scM1 : Memref sig .tc .vmem S1x1 .f32 := Memref.whole cc1_scratch0

/-! ## The accumulator -/

/-- The scratch cell after point `n`: the block sums of points `0 … n` added to zero, in order. -/
def acc1 (c : Dev nD) : (n : ℕ) → n < cfg1.N → Vec F S1x1 .f32
  | 0, hn => k1_pay2 (iblk1 V c 0 ⟨0, hn⟩) (iblk1 V c 1 ⟨0, hn⟩) k1_pay1
  | n + 1, hn => k1_pay2 (iblk1 V c 0 ⟨n + 1, hn⟩) (iblk1 V c 1 ⟨n + 1, hn⟩) (acc1 c n (Nat.lt_of_succ_lt hn))

theorem acc1_first (c : Dev nD) (t : Fin cfg1.N) (h : t.val = 0) :
    acc1 V c t.val t.isLt = k1_pay2 (iblk1 V c 0 t) (iblk1 V c 1 t) k1_pay1 := by
  obtain ⟨n, hn⟩ := t
  cases n with
  | zero => rfl
  | succ n => exact absurd h (Nat.succ_ne_zero n)

theorem acc1_step (c : Dev nD) (t : Fin cfg1.N) (h : t.val ≠ 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd rfl h
  | succ n => rfl

/-! ## The invariant between points -/

/-- The class's invariant with the scratch cell split off: the cell at some contents, every other scoped buffer that is
    no staging buffer of this call unopened, and the generator register. -/
theorem PhiA_eq1 (c : Dev nD) :
    (Pipeline.ΦA spec1 c : sProp 𝕄)
      = iprop(iprop((∃ d, owns (c : Thread nD τ) scM1 fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [scM1, owns_whole]; try rfl

/-- Before the first point the class's invariant; afterwards the scratch cell at the running sum, the other scoped
    buffers unopened. -/
def PhiS1 (c : Dev nD) : (n : ℕ) → n ≤ cfg1.N → sProp 𝕄
  | 0, _ => Pipeline.ΦA spec1 c
  | n + 1, hn => iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn)
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega))
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

/-! ## The proof data -/

/-- The arrays as the region finds them; the inputs' buffers at their blocks, the output's at the running sum; the
    invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the inputs' memrefs hold their blocks; the closed forms of the two tests say which run
    applies; the invariant hands the body the scratch cell at the running sum so far (at anything before the first
    point) and takes it back at the running sum including this point; where the output window is idle its buffer is
    handed back as it was found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  have hN : t.val < 2 := lt_of_lt_of_eq t.isLt (show cfg1.N = 2 from N_1)
  by_cases h0 : t.val = 0
  ·
    have h1 : ¬t.val = 1 := by omega
    rw [Dat.leavesExact_idle (dat1 V c) 2 t (idleAt1_2 t (fun h => h1 ((hcond1_1 t).mp h))) (noFlush1_2 t (fun h => h1 ((hcond1_1 t).mp h)))]
    rw [PhiS1_castSucc V c t, PhiS1_zero V c _ _ h0, PhiA_eq1, acc1_first V c t h0]
    iintro ⟨⟨⟨HS, HR⟩, Hg⟩, Ho, ⟨%d0, H0⟩, ⟨%d1, H1⟩, ⟨%d2, H2⟩⟩
    iapply (run1_first c (grid1.coords t) _ _ _ _ _ _ _ _ ((hcond1_0 t).mpr h0) (fun h => h1 ((hcond1_1 t).mp h)) (iblk1 V c 0 t) (iblk1 V c 1 t) ((dat1 V c).before 2 t d2) Set.univ _)
    isplitl [H0]; · iexact H0
    isplitl [H1]; · iexact H1
    isplitl [H2]; · iexact H2
    isplitl [HS]; · iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have h1 : t.val = 1 := by omega
    ·
      rw [show (dat1 V c).leavesExact 2 t = owns (c : Thread nD τ) (ms1_2 t) fullShare ((dat1 V c).after 2 t) from by
        unfold Dat.leavesExact; rw [liveAt1_2 t ((hcond1_1 t).mpr h1)], after1_2]
      rw [PhiS1_castSucc V c t, PhiS1_pos V c _ _ h0, acc1_step V c t h0]
      iintro ⟨⟨⟨HS, HR⟩, Hg⟩, Ho, ⟨%d0, H0⟩, ⟨%d1, H1⟩, ⟨%d2, H2⟩⟩
      iapply (run1_last c (grid1.coords t) _ _ _ _ _ _ _ _ (fun h => h0 ((hcond1_0 t).mp h)) ((hcond1_1 t).mpr h1) (iblk1 V c 0 t) (iblk1 V c 1 t) (acc1 V c (t.val - 1) (Nat.lt_of_le_of_lt (Nat.sub_le _ _) t.isLt)) Set.univ _)
      isplitl [H0]; · iexact H0
      isplitl [H1]; · iexact H1
      isplitl [H2]; · iexists _; iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2

/-- The body obligation at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the scratch cell's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 2 := N_1; omega), PhiA_eq1]
  iintro ⟨⟨HS, HR⟩, Hg⟩
  isplitl [HS HR]
  · isplitl [HS]
    · iexists _; iexact HS
    iexact HR
  iexact Hg

end

end Cert.KernelIdeal.Hand
end
-- ==== Proof.KI.Body2.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.Cell
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: the kernel body run at each kind of grid point

The body clears its scratch cell when the point is the first, adds the block's sum to the cell, and copies the cell to
the output block when the point is the last. Each theorem below runs the body under one assignment of those two tests,
on whole buffers: the two input blocks at contents `x` and `y`, the output block and the cell as stated. -/

/-- The first test of the body: the point is the grid's first. -/
abbrev cond2_0 (i : grid2.Coords) : Prop := (Scalar.cmpi .ne (Scalar.extui (Scalar.cmpi .eq (BitVec.ofNat 32 (i 0).val) 0#32)) 0#32) = 1#1
/-- The second test: the point is the grid's last. -/
abbrev cond2_1 (i : grid2.Coords) : Prop := k2_cond2 i = 1#1

set_option maxHeartbeats 2000000 in
/-- At a point that is both first and last: the cell, whatever it held, ends at the block's sum added to zero, and the
    output block, whatever it held, receives the cell. -/
theorem run2_only (c : Dev nD) (i : grid2.Coords)
    (arg1 : Memref sig .tc .vmem S64x1x40x40 .f32) (harg1 : arg1.IsWhole) (arg2 : Memref sig .tc .vmem S64x1x40x40 .f32) (harg2 : arg2.IsWhole)
    (arg3 : Memref sig .tc .vmem S1x1 .f32) (harg3 : arg3.IsWhole) (arg4 : Memref sig .tc .vmem S1x1 .f32) (harg4 : arg4.IsWhole)
    (hc0 : cond2_0 i) (hc1 : cond2_1 i)
    (x y : Vec F S64x1x40x40 .f32) (E : Set ℕ) (K : PUnit → sProp 𝕄) :
    iprop(owns (c : Thread nD τ) arg1 fullShare x ∗ owns (c : Thread nD τ) arg2 fullShare y ∗ (∃ d, owns (c : Thread nD τ) arg3 fullShare d)
        ∗ (∃ d, owns (c : Thread nD τ) arg4 fullShare d)
        ∗ (iprop(owns (c : Thread nD τ) arg1 fullShare x ∗ owns (c : Thread nD τ) arg2 fullShare y ∗ owns (c : Thread nD τ) arg3 fullShare (k2_pay2 x y k2_pay1)
            ∗ owns (c : Thread nD τ) arg4 fullShare (k2_pay2 x y k2_pay1)) -∗ K ⟨⟩))
      ⊢ wp frame (wpE (defs₀ (F := F)) Variants.none c none) E (cc2__bce_sum_kernel i arg1 harg1 arg2 harg2 arg3 harg3 arg4 harg4) K := by
  have hz4 : (![0, 0, 0, 0] : Fin S64x1x40x40.rank → Nat) = fun _ => 0 := funext fun a => by match a with | ⟨0, _⟩ => rfl | ⟨1, _⟩ => rfl | ⟨2, _⟩ => rfl | ⟨3, _⟩ => rfl
  simp only [cc2__bce_sum_kernel_eq_skeleton]; unfold cc2__bce_sum_kernel_skel
  simp only [k2_part1_eq_skeleton]
  unfold owns
  iintro ⟨⟨%f1, %hf1, H1⟩, ⟨%f2, %hf2, H2⟩, ⟨%d3, %f3, -, H3⟩, ⟨%d4, %f4, -, H4⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr
    swap; · iexact H3
    ipureintro
    try sl_unfold_run_names
    refine (cell_read_writes _ _ _ _).trans ?_
    refine (cell_readCov _ _ _).trans ?_
    refine (congrArg (k2_pay2 _ _) (cell_readCov arg4.view (k2_pay1 (F := F)) [])).trans ?_
    simp only [View.readAt_eq_ld, harg1.read_unread, harg2.read_unread, harg4.read_unread, View.ld_unit_zero (S := S64x1x40x40) hz4, View.ld_unit_zero (S := S1x1) hz_cell]
  iexists _; isplitr
  swap; · iexact H4
  ipureintro
  try sl_unfold_run_names
  refine (cell_read_writes _ _ _ _).trans ?_
  refine (congrArg (k2_pay2 _ _) (cell_readCov arg4.view (k2_pay1 (F := F)) [])).trans ?_
  simp only [View.readAt_eq_ld, harg1.read_unread, harg2.read_unread, harg4.read_unread, View.ld_unit_zero (S := S64x1x40x40) hz4, View.ld_unit_zero (S := S1x1) hz_cell]

end Cert.KernelIdeal.Hand
end
-- ==== Proof.KI.Region2.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.Body2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: the accumulator, the proof data and the body obligation

The body keeps one running sum in its scratch cell: it clears the cell at the first point, adds the block's sum of
per-element losses at every point, and copies the cell to the output block at the last point. The invariant between
points therefore names the cell's contents: the block sums of the points so far, added to zero in order. -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is not
    fetched the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The two tests over the grid, and where the output window is idle -/

/-- The first test holds exactly at point 0. -/
theorem hcond2_0 : ∀ t : Fin cfg2.N, cond2_0 (grid2.coords t) ↔ t.val = 0 :=
  (by decide +kernel : ∀ t : Fin grid2.N, cond2_0 (grid2.coords t) ↔ t.val = 0)
/-- The second test holds exactly at point 0. -/
theorem hcond2_1 : ∀ t : Fin cfg2.N, cond2_1 (grid2.coords t) ↔ t.val = 0 :=
  (by decide +kernel : ∀ t : Fin grid2.N, cond2_1 (grid2.coords t) ↔ t.val = 0)

theorem liveAt2_0 : ∀ t : Fin cfg2.N, cfg2.idle 0 (grid2.coords t) = false := by decide +kernel
theorem liveAt2_1 : ∀ t : Fin cfg2.N, cfg2.idle 1 (grid2.coords t) = false := by decide +kernel
/-- Where the second test fails the output window is idle and is not written back. -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- Where it holds the body stores into the output window. -/
theorem liveAt2_2 : ∀ t : Fin cfg2.N, cond2_1 (grid2.coords t) → cfg2.idle 2 (grid2.coords t) = false := by decide +kernel

/-- Each window's current staging memref at point `t`, as the pipeline passes it to the body. -/
abbrev ms2_0 (t : Fin cfg2.N) : Memref sig .tc .vmem S64x1x40x40 .f32 := win2_0.stage (cfg2.slots t 0)
abbrev ms2_1 (t : Fin cfg2.N) : Memref sig .tc .vmem S64x1x40x40 .f32 := win2_1.stage (cfg2.slots t 1)
abbrev ms2_2 (t : Fin cfg2.N) : Memref sig .tc .vmem S1x1 .f32 := win2_2.stage (cfg2.slots t 2)
/-- The scratch cell as a memref. -/
abbrev scM2 : Memref sig .tc .vmem S1x1 .f32 := Memref.whole cc2_scratch0

/-! ## The accumulator -/

/-- The scratch cell after point `n`: the block sums of points `0 … n` added to zero, in order. -/
def acc2 (c : Dev nD) : (n : ℕ) → n < cfg2.N → Vec F S1x1 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩) (acc2 c n (Nat.lt_of_succ_lt hn))

theorem acc2_first (c : Dev nD) (t : Fin cfg2.N) (h : t.val = 0) :
    acc2 V c t.val t.isLt = k2_pay2 (iblk2 V c 0 t) (iblk2 V c 1 t) k2_pay1 := by
  obtain ⟨n, hn⟩ := t
  cases n with
  | zero => rfl
  | succ n => exact absurd h (Nat.succ_ne_zero n)

theorem acc2_step (c : Dev nD) (t : Fin cfg2.N) (h : t.val ≠ 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl h
  | succ n => rfl

/-! ## The invariant between points -/

/-- The class's invariant with the scratch cell split off: the cell at some contents, every other scoped buffer that is
    no staging buffer of this call unopened, and the generator register. -/
theorem PhiA_eq2 (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [scM2, owns_whole]; try rfl

/-- Before the first point the class's invariant; afterwards the scratch cell at the running sum, the other scoped
    buffers unopened. -/
def PhiS2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The proof data -/

/-- The arrays as the region finds them; the inputs' buffers at their blocks, the output's at the running sum; the
    invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => acc2 V c t.val t.isLt
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = acc2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms of the two tests say which run
    applies; the invariant hands the body the scratch cell at the running sum so far (at anything before the first
    point) and takes it back at the running sum including this point; where the output window is idle its buffer is
    handed back as it was found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  have hN : t.val < 1 := lt_of_lt_of_eq t.isLt (show cfg2.N = 1 from N_2)
  have h0 : t.val = 0 := by omega
  have h1 : t.val = 0 := by omega
  rw [show (dat2 V c).leavesExact 2 t = owns (c : Thread nD τ) (ms2_2 t) fullShare ((dat2 V c).after 2 t) from by
    unfold Dat.leavesExact; rw [liveAt2_2 t ((hcond2_1 t).mpr h1)], after2_2]
  rw [PhiS2_castSucc V c t, PhiS2_zero V c _ _ h0, PhiA_eq2, acc2_first V c t h0]
  iintro ⟨⟨⟨HS, HR⟩, Hg⟩, Ho, ⟨%d0, H0⟩, ⟨%d1, H1⟩, ⟨%d2, H2⟩⟩
  iapply (run2_only c (grid2.coords t) _ _ _ _ _ _ _ _ ((hcond2_0 t).mpr h0) ((hcond2_1 t).mpr h1) (iblk2 V c 0 t) (iblk2 V c 1 t) Set.univ _)
  isplitl [H0]; · iexact H0
  isplitl [H1]; · iexact H1
  isplitl [H2]; · iexists _; iexact H2
  isplitl [HS]; · iexact HS
  iintro ⟨H0, H1, H2, HS⟩
  isplitl [HS HR Hg]
  · isplitl [HS HR]
    · isplitl [HS]; · iexact HS
      iexact HR
    iexact Hg
  isplitl [Ho]; · iexact Ho
  isplitl [H0]; · iexact H0
  isplitl [H1]; · iexact H1
  iexact H2

/-- The body obligation at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the class's back: the scratch cell's contents are forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 1 := N_2; omega), PhiA_eq2]
  iintro ⟨⟨HS, HR⟩, Hg⟩
  isplitl [HS HR]
  · isplitl [HS]
    · iexists _; iexact HS
    iexact HR
  iexact Hg

end

end Cert.KernelIdeal.Hand
end
-- ==== Proof.KI.RunHost.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The host stretches of the program: none allocates a buffer, none writes an argument array

The program's host operations are cut into thirteen stretches. Each operation writes exactly one buffer, its result,
and no result buffer is one of the four argument arrays. -/

/-- The operation writes none of the four argument arrays. -/
def KeepsArgs (op : HloOp τ sig (Elt F)) : Prop :=
  Proc.devRef .tc main_arg0 ∉ op.writes ∧ Proc.devRef .tc main_arg1 ∉ op.writes
    ∧ Proc.devRef .tc main_arg2 ∉ op.writes ∧ Proc.devRef .tc main_arg3 ∉ op.writes

/-- A line of operations none of which writes an argument leaves each argument's buffer as it was. -/
theorem after_arg0 {ops : List (HloOp τ sig (Elt F))} (h : ops.Forall KeepsArgs) (V : Valuation τ sig (Elt F)) :
    StableHlo.after ops V (Proc.devRef .tc main_arg0) = V (Proc.devRef .tc main_arg0) :=
  StableHlo.after_of_forall_not_mem _ _ fun op hop => ((List.forall_iff_forall_mem.mp h) op hop).1
theorem after_arg1 {ops : List (HloOp τ sig (Elt F))} (h : ops.Forall KeepsArgs) (V : Valuation τ sig (Elt F)) :
    StableHlo.after ops V (Proc.devRef .tc main_arg1) = V (Proc.devRef .tc main_arg1) :=
  StableHlo.after_of_forall_not_mem _ _ fun op hop => ((List.forall_iff_forall_mem.mp h) op hop).2.1
theorem after_arg2 {ops : List (HloOp τ sig (Elt F))} (h : ops.Forall KeepsArgs) (V : Valuation τ sig (Elt F)) :
    StableHlo.after ops V (Proc.devRef .tc main_arg2) = V (Proc.devRef .tc main_arg2) :=
  StableHlo.after_of_forall_not_mem _ _ fun op hop => ((List.forall_iff_forall_mem.mp h) op hop).2.2.1
theorem after_arg3 {ops : List (HloOp τ sig (Elt F))} (h : ops.Forall KeepsArgs) (V : Valuation τ sig (Elt F)) :
    StableHlo.after ops V (Proc.devRef .tc main_arg3) = V (Proc.devRef .tc main_arg3) :=
  StableHlo.after_of_forall_not_mem _ _ fun op hop => ((List.forall_iff_forall_mem.mp h) op hop).2.2.2

/-- No operation of `main_part0_ops0` allocates a buffer. -/
theorem main_part0_ops0_fresh : (main_part0_ops0 : List (HloOp τ sig (Elt F))).Forall fun op => op.fresh = ∅ := by
  simp only [List.Forall]; repeat' constructor
/-- No operation of `main_part0_ops0` writes an argument array: each writes its own result buffer, a different reference. -/
theorem main_part0_ops0_keeps : (main_part0_ops0 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part0_ops1` allocates a buffer. -/
theorem main_part0_ops1_fresh : (main_part0_ops1 : List (HloOp τ sig (Elt F))).Forall fun op => op.fresh = ∅ := by
  simp only [List.Forall]; repeat' constructor
/-- No operation of `main_part0_ops1` writes an argument array: each writes its own result buffer, a different reference. -/
theorem main_part0_ops1_keeps : (main_part0_ops1 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part0_ops2` allocates a buffer. -/
theorem main_part0_ops2_fresh : (main_part0_ops2 : List (HloOp τ sig (Elt F))).Forall fun op => op.fresh = ∅ := by
  simp only [List.Forall]; repeat' constructor
/-- No operation of `main_part0_ops2` writes an argument array: each writes its own result buffer, a different reference. -/
theorem main_part0_ops2_keeps : (main_part0_ops2 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part1_ops0` allocates a buffer. -/
theorem main_part1_ops0_fresh : (main_part1_ops0 : List (HloOp τ sig (Elt F))).Forall fun op => op.fresh = ∅ := by
  simp only [List.Forall]; repeat' constructor
/-- No operation of `main_part1_ops0` writes an argument array: each writes its own result buffer, a different reference. -/
theorem main_part1_ops0_keeps : (main_part1_ops0 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part1_ops1` allocates a buffer. -/
theorem main_part1_ops1_fresh : (main_part1_ops1 : List (HloOp τ sig (Elt F))).Forall fun op => op.fresh = ∅ := by
  simp only [List.Forall]; repeat' constructor
/-- No operation of `main_part1_ops1` writes an argument array: each writes its own result buffer, a different reference. -/
theorem main_part1_ops1_keeps : (main_part1_ops1 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part1_ops2` allocates a buffer. -/
theorem main_part1_ops2_fresh : (main_part1_ops2 : List (HloOp τ sig (Elt F))).Forall fun op => op.fresh = ∅ := by
  simp only [List.Forall]; repeat' constructor
/-- No operation of `main_part1_ops2` writes an argument array: each writes its own result buffer, a different reference. -/
theorem main_part1_ops2_keeps : (main_part1_ops2 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part2_ops0` allocates a buffer. -/
theorem main_part2_ops0_fresh : (main_part2_ops0 : List (HloOp τ sig (Elt F))).Forall fun op => op.fresh = ∅ := by
  simp only [List.Forall]; repeat' constructor
/-- No operation of `main_part2_ops0` writes an argument array: each writes its own result buffer, a different reference. -/
theorem main_part2_ops0_keeps : (main_part2_ops0 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part2_ops1` allocates a buffer. -/
theorem main_part2_ops1_fresh : (main_part2_ops1 : List (HloOp τ sig (Elt F))).Forall fun op => op.fresh = ∅ := by
  simp only [List.Forall]; repeat' constructor
/-- No operation of `main_part2_ops1` writes an argument array: each writes its own result buffer, a different reference. -/
theorem main_part2_ops1_keeps : (main_part2_ops1 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part2_ops2` allocates a buffer. -/
theorem main_part2_ops2_fresh : (main_part2_ops2 : List (HloOp τ sig (Elt F))).Forall fun op => op.fresh = ∅ := by
  simp only [List.Forall]; repeat' constructor
/-- No operation of `main_part2_ops2` writes an argument array: each writes its own result buffer, a different reference. -/
theorem main_part2_ops2_keeps : (main_part2_ops2 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part3_ops0` allocates a buffer. -/
theorem main_part3_ops0_fresh : (main_part3_ops0 : List (HloOp τ sig (Elt F))).Forall fun op => op.fresh = ∅ := by
  simp only [List.Forall]; repeat' constructor
/-- No operation of `main_part3_ops0` writes an argument array: each writes its own result buffer, a different reference. -/
theorem main_part3_ops0_keeps : (main_part3_ops0 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part3_ops1` allocates a buffer. -/
theorem main_part3_ops1_fresh : (main_part3_ops1 : List (HloOp τ sig (Elt F))).Forall fun op => op.fresh = ∅ := by
  simp only [List.Forall]; repeat' constructor
/-- No operation of `main_part3_ops1` writes an argument array: each writes its own result buffer, a different reference. -/
theorem main_part3_ops1_keeps : (main_part3_ops1 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part3_ops2` allocates a buffer. -/
theorem main_part3_ops2_fresh : (main_part3_ops2 : List (HloOp τ sig (Elt F))).Forall fun op => op.fresh = ∅ := by
  simp only [List.Forall]; repeat' constructor
/-- No operation of `main_part3_ops2` writes an argument array: each writes its own result buffer, a different reference. -/
theorem main_part3_ops2_keeps : (main_part3_ops2 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

/-- No operation of `main_part3_ops3` allocates a buffer. -/
theorem main_part3_ops3_fresh : (main_part3_ops3 : List (HloOp τ sig (Elt F))).Forall fun op => op.fresh = ∅ := by
  simp only [List.Forall]; repeat' constructor
/-- No operation of `main_part3_ops3` writes an argument array: each writes its own result buffer, a different reference. -/
theorem main_part3_ops3_keeps : (main_part3_ops3 : List (HloOp τ sig (Elt F))).Forall KeepsArgs := by
  simp only [List.Forall, KeepsArgs, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.mem_singleton]
  repeat' apply And.intro
  all_goals exact StableHlo.devRef_ne_of_ne (by decide)

end Cert.KernelIdeal.Hand
end
-- ==== Proof.KI.RunVals.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.Region0
import proofs.«153644_j35845797053068_1_alg».proof.Proof.KI.Region1
import proofs.«153644_j35845797053068_1_alg».proof.Proof.KI.Region2
import proofs.«153644_j35845797053068_1_alg».proof.Proof.KI.RunHost
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary between two segments of the program: a fold from the launch memory

The program is sixteen segments: ten stretches of host operations, then three kernel regions each followed by a
stretch. A stretch takes the contents to `StableHlo.after` of its operations; a region takes each of its windows'
arrays to what its write-backs leave and keeps every other buffer. -/

/-- Core `c`'s buffers at launch. -/
abbrev W0 : Dev nD → Valuation τ sig (Elt F) := fun c b => (s₀ m ρ).mem ((c : Dev nD), b)
/-- After the stretch `main_part0_ops0`. -/
abbrev W1 : Dev nD → Valuation τ sig (Elt F) := fun c => StableHlo.after main_part0_ops0 (W0 m ρ c)
/-- After the stretch `main_part0_ops1`. -/
abbrev W2 : Dev nD → Valuation τ sig (Elt F) := fun c => StableHlo.after main_part0_ops1 (W1 m ρ c)
/-- After the stretch `main_part0_ops2`. -/
abbrev W3 : Dev nD → Valuation τ sig (Elt F) := fun c => StableHlo.after main_part0_ops2 (W2 m ρ c)
/-- After the stretch `main_part1_ops0`. -/
abbrev W4 : Dev nD → Valuation τ sig (Elt F) := fun c => StableHlo.after main_part1_ops0 (W3 m ρ c)
/-- After the stretch `main_part1_ops1`. -/
abbrev W5 : Dev nD → Valuation τ sig (Elt F) := fun c => StableHlo.after main_part1_ops1 (W4 m ρ c)
/-- After the stretch `main_part1_ops2`. -/
abbrev W6 : Dev nD → Valuation τ sig (Elt F) := fun c => StableHlo.after main_part1_ops2 (W5 m ρ c)
/-- After the stretch `main_part2_ops0`. -/
abbrev W7 : Dev nD → Valuation τ sig (Elt F) := fun c => StableHlo.after main_part2_ops0 (W6 m ρ c)
/-- After the stretch `main_part2_ops1`. -/
abbrev W8 : Dev nD → Valuation τ sig (Elt F) := fun c => StableHlo.after main_part2_ops1 (W7 m ρ c)
/-- After the stretch `main_part2_ops2`. -/
abbrev W9 : Dev nD → Valuation τ sig (Elt F) := fun c => StableHlo.after main_part2_ops2 (W8 m ρ c)
/-- After the stretch `main_part3_ops0`. -/
abbrev W10 : Dev nD → Valuation τ sig (Elt F) := fun c => StableHlo.after main_part3_ops0 (W9 m ρ c)
/-- The contents region 0 is entered from, read at the TensorCore's references. -/
abbrev V10 : (c : Dev nD) → (b : Ref sig .tc) → Buf (Elt F) ((c : Thread nD τ).loc b) := fun c b => W10 m ρ c b
/-- At region 0's exit: its arrays at what the pipeline leaves (the inputs as entered, the output's write-backs
    folded), every other buffer as entered. -/
def W11 (c : Dev nD) : Valuation τ sig (Elt F) :=
  Pipeline.withArrays spec0 c (W10 m ρ c) fun w => (dat0 (V10 m ρ) c).arrAt w cfg0.N
theorem W11_arr (c : Dev nD) (w : Fin cfg0.W) :
    W11 m ρ c (Proc.devRef .tc (Pipeline.arrRef spec0 w)) = (dat0 (V10 m ρ) c).arrAt w cfg0.N := by
  unfold W11; exact Pipeline.withArrays_arr spec0 launch0.win.arr_inj c _ _ w
theorem W11_of_ne (c : Dev nD) (b : Ref sig .tc) (hb : ∀ w, Pipeline.arrRef spec0 w ≠ b) :
    W11 m ρ c (Proc.devRef .tc b) = W10 m ρ c (Proc.devRef .tc b) := by
  unfold W11; exact Pipeline.withArrays_of_ne spec0 c _ _ b hb
/-- The same read at the TensorCore's references (region 0's exit contents). -/
abbrev V11 : (c : Dev nD) → (b : Ref sig .tc) → Buf (Elt F) ((c : Thread nD τ).loc b) := fun c b => W11 m ρ c b
/-- At region 0's exit each of its arrays holds what the pipeline leaves, and every other buffer what it held at
    entry. -/
theorem hF0 (c : Dev nD) (w : Fin cfg0.W) : (dat0 (V10 m ρ) c).arrAt w cfg0.N = V11 m ρ c (Pipeline.arrRef spec0 w) :=
  (W11_arr m ρ c w).symm
theorem hrest0 (c : Dev nD) : ∀ b, b ∉ Finset.univ.image (Pipeline.arrRef spec0) → V11 m ρ c b = V10 m ρ c b :=
  fun b hb => W11_of_ne m ρ c b fun w e => hb (Finset.mem_image.mpr ⟨w, Finset.mem_univ _, e⟩)
/-- After the stretch `main_part3_ops1`. -/
abbrev W12 : Dev nD → Valuation τ sig (Elt F) := fun c => StableHlo.after main_part3_ops1 (W11 m ρ c)
/-- The contents region 1 is entered from, read at the TensorCore's references. -/
abbrev V12 : (c : Dev nD) → (b : Ref sig .tc) → Buf (Elt F) ((c : Thread nD τ).loc b) := fun c b => W12 m ρ c b
/-- At region 1's exit: its arrays at what the pipeline leaves (the inputs as entered, the output's write-backs
    folded), every other buffer as entered. -/
def W13 (c : Dev nD) : Valuation τ sig (Elt F) :=
  Pipeline.withArrays spec1 c (W12 m ρ c) fun w => (dat1 (V12 m ρ) c).arrAt w cfg1.N
theorem W13_arr (c : Dev nD) (w : Fin cfg1.W) :
    W13 m ρ c (Proc.devRef .tc (Pipeline.arrRef spec1 w)) = (dat1 (V12 m ρ) c).arrAt w cfg1.N := by
  unfold W13; exact Pipeline.withArrays_arr spec1 launch1.win.arr_inj c _ _ w
theorem W13_of_ne (c : Dev nD) (b : Ref sig .tc) (hb : ∀ w, Pipeline.arrRef spec1 w ≠ b) :
    W13 m ρ c (Proc.devRef .tc b) = W12 m ρ c (Proc.devRef .tc b) := by
  unfold W13; exact Pipeline.withArrays_of_ne spec1 c _ _ b hb
/-- The same read at the TensorCore's references (region 1's exit contents). -/
abbrev V13 : (c : Dev nD) → (b : Ref sig .tc) → Buf (Elt F) ((c : Thread nD τ).loc b) := fun c b => W13 m ρ c b
/-- At region 1's exit each of its arrays holds what the pipeline leaves, and every other buffer what it held at
    entry. -/
theorem hF1 (c : Dev nD) (w : Fin cfg1.W) : (dat1 (V12 m ρ) c).arrAt w cfg1.N = V13 m ρ c (Pipeline.arrRef spec1 w) :=
  (W13_arr m ρ c w).symm
theorem hrest1 (c : Dev nD) : ∀ b, b ∉ Finset.univ.image (Pipeline.arrRef spec1) → V13 m ρ c b = V12 m ρ c b :=
  fun b hb => W13_of_ne m ρ c b fun w e => hb (Finset.mem_image.mpr ⟨w, Finset.mem_univ _, e⟩)
/-- After the stretch `main_part3_ops2`. -/
abbrev W14 : Dev nD → Valuation τ sig (Elt F) := fun c => StableHlo.after main_part3_ops2 (W13 m ρ c)
/-- The contents region 2 is entered from, read at the TensorCore's references. -/
abbrev V14 : (c : Dev nD) → (b : Ref sig .tc) → Buf (Elt F) ((c : Thread nD τ).loc b) := fun c b => W14 m ρ c b
/-- At region 2's exit: its arrays at what the pipeline leaves (the inputs as entered, the output's write-backs
    folded), every other buffer as entered. -/
def W15 (c : Dev nD) : Valuation τ sig (Elt F) :=
  Pipeline.withArrays spec2 c (W14 m ρ c) fun w => (dat2 (V14 m ρ) c).arrAt w cfg2.N
theorem W15_arr (c : Dev nD) (w : Fin cfg2.W) :
    W15 m ρ c (Proc.devRef .tc (Pipeline.arrRef spec2 w)) = (dat2 (V14 m ρ) c).arrAt w cfg2.N := by
  unfold W15; exact Pipeline.withArrays_arr spec2 launch2.win.arr_inj c _ _ w
theorem W15_of_ne (c : Dev nD) (b : Ref sig .tc) (hb : ∀ w, Pipeline.arrRef spec2 w ≠ b) :
    W15 m ρ c (Proc.devRef .tc b) = W14 m ρ c (Proc.devRef .tc b) := by
  unfold W15; exact Pipeline.withArrays_of_ne spec2 c _ _ b hb
/-- The same read at the TensorCore's references (region 2's exit contents). -/
abbrev V15 : (c : Dev nD) → (b : Ref sig .tc) → Buf (Elt F) ((c : Thread nD τ).loc b) := fun c b => W15 m ρ c b
/-- At region 2's exit each of its arrays holds what the pipeline leaves, and every other buffer what it held at
    entry. -/
theorem hF2 (c : Dev nD) (w : Fin cfg2.W) : (dat2 (V14 m ρ) c).arrAt w cfg2.N = V15 m ρ c (Pipeline.arrRef spec2 w) :=
  (W15_arr m ρ c w).symm
theorem hrest2 (c : Dev nD) : ∀ b, b ∉ Finset.univ.image (Pipeline.arrRef spec2) → V15 m ρ c b = V14 m ρ c b :=
  fun b hb => W15_of_ne m ρ c b fun w e => hb (Finset.mem_image.mpr ⟨w, Finset.mem_univ _, e⟩)
/-- After the stretch `main_part3_ops3`. -/
abbrev W16 : Dev nD → Valuation τ sig (Elt F) := fun c => StableHlo.after main_part3_ops3 (W15 m ρ c)

/-! ## The arguments end as launched

No host operation writes an argument array (`…_keeps`); a region reads `main_arg0`, `main_arg1`, `main_arg2` through
input window 0 of regions 0, 1, 2 (an input window's array is left as entered) and touches no other argument. So
the fold at an argument's buffer walks back to the launch memory. -/

theorem W16_main_arg0 (c : Dev nD) : W16 m ρ c (Proc.devRef .tc main_arg0) = m ((c : Thread nD τ).loc main_arg0) :=
  calc W16 m ρ c (Proc.devRef .tc main_arg0)
    _ = W15 m ρ c (Proc.devRef .tc main_arg0) := after_arg0 main_part3_ops3_keeps _
    _ = W14 m ρ c (Proc.devRef .tc main_arg0) := W15_of_ne m ρ c main_arg0 (by decide)
    _ = W13 m ρ c (Proc.devRef .tc main_arg0) := after_arg0 main_part3_ops2_keeps _
    _ = W12 m ρ c (Proc.devRef .tc main_arg0) := W13_of_ne m ρ c main_arg0 (by decide)
    _ = W11 m ρ c (Proc.devRef .tc main_arg0) := after_arg0 main_part3_ops1_keeps _
    _ = W10 m ρ c (Proc.devRef .tc main_arg0) := (W11_arr m ρ c 0).trans (((dat0 (V10 m ρ) c).arrAt_in 0 rfl _).trans (A_eq0 (V10 m ρ) c 0))
    _ = W9 m ρ c (Proc.devRef .tc main_arg0) := after_arg0 main_part3_ops0_keeps _
    _ = W8 m ρ c (Proc.devRef .tc main_arg0) := after_arg0 main_part2_ops2_keeps _
    _ = W7 m ρ c (Proc.devRef .tc main_arg0) := after_arg0 main_part2_ops1_keeps _
    _ = W6 m ρ c (Proc.devRef .tc main_arg0) := after_arg0 main_part2_ops0_keeps _
    _ = W5 m ρ c (Proc.devRef .tc main_arg0) := after_arg0 main_part1_ops2_keeps _
    _ = W4 m ρ c (Proc.devRef .tc main_arg0) := after_arg0 main_part1_ops1_keeps _
    _ = W3 m ρ c (Proc.devRef .tc main_arg0) := after_arg0 main_part1_ops0_keeps _
    _ = W2 m ρ c (Proc.devRef .tc main_arg0) := after_arg0 main_part0_ops2_keeps _
    _ = W1 m ρ c (Proc.devRef .tc main_arg0) := after_arg0 main_part0_ops1_keeps _
    _ = W0 m ρ c (Proc.devRef .tc main_arg0) := after_arg0 main_part0_ops0_keeps _
    _ = m ((c : Thread nD τ).loc main_arg0) := rfl

theorem W16_main_arg1 (c : Dev nD) : W16 m ρ c (Proc.devRef .tc main_arg1) = m ((c : Thread nD τ).loc main_arg1) :=
  calc W16 m ρ c (Proc.devRef .tc main_arg1)
    _ = W15 m ρ c (Proc.devRef .tc main_arg1) := after_arg1 main_part3_ops3_keeps _
    _ = W14 m ρ c (Proc.devRef .tc main_arg1) := W15_of_ne m ρ c main_arg1 (by decide)
    _ = W13 m ρ c (Proc.devRef .tc main_arg1) := after_arg1 main_part3_ops2_keeps _
    _ = W12 m ρ c (Proc.devRef .tc main_arg1) := (W13_arr m ρ c 0).trans (((dat1 (V12 m ρ) c).arrAt_in 0 rfl _).trans (A_eq1 (V12 m ρ) c 0))
    _ = W11 m ρ c (Proc.devRef .tc main_arg1) := after_arg1 main_part3_ops1_keeps _
    _ = W10 m ρ c (Proc.devRef .tc main_arg1) := W11_of_ne m ρ c main_arg1 (by decide)
    _ = W9 m ρ c (Proc.devRef .tc main_arg1) := after_arg1 main_part3_ops0_keeps _
    _ = W8 m ρ c (Proc.devRef .tc main_arg1) := after_arg1 main_part2_ops2_keeps _
    _ = W7 m ρ c (Proc.devRef .tc main_arg1) := after_arg1 main_part2_ops1_keeps _
    _ = W6 m ρ c (Proc.devRef .tc main_arg1) := after_arg1 main_part2_ops0_keeps _
    _ = W5 m ρ c (Proc.devRef .tc main_arg1) := after_arg1 main_part1_ops2_keeps _
    _ = W4 m ρ c (Proc.devRef .tc main_arg1) := after_arg1 main_part1_ops1_keeps _
    _ = W3 m ρ c (Proc.devRef .tc main_arg1) := after_arg1 main_part1_ops0_keeps _
    _ = W2 m ρ c (Proc.devRef .tc main_arg1) := after_arg1 main_part0_ops2_keeps _
    _ = W1 m ρ c (Proc.devRef .tc main_arg1) := after_arg1 main_part0_ops1_keeps _
    _ = W0 m ρ c (Proc.devRef .tc main_arg1) := after_arg1 main_part0_ops0_keeps _
    _ = m ((c : Thread nD τ).loc main_arg1) := rfl

theorem W16_main_arg2 (c : Dev nD) : W16 m ρ c (Proc.devRef .tc main_arg2) = m ((c : Thread nD τ).loc main_arg2) :=
  calc W16 m ρ c (Proc.devRef .tc main_arg2)
    _ = W15 m ρ c (Proc.devRef .tc main_arg2) := after_arg2 main_part3_ops3_keeps _
    _ = W14 m ρ c (Proc.devRef .tc main_arg2) := (W15_arr m ρ c 0).trans (((dat2 (V14 m ρ) c).arrAt_in 0 rfl _).trans (A_eq2 (V14 m ρ) c 0))
    _ = W13 m ρ c (Proc.devRef .tc main_arg2) := after_arg2 main_part3_ops2_keeps _
    _ = W12 m ρ c (Proc.devRef .tc main_arg2) := W13_of_ne m ρ c main_arg2 (by decide)
    _ = W11 m ρ c (Proc.devRef .tc main_arg2) := after_arg2 main_part3_ops1_keeps _
    _ = W10 m ρ c (Proc.devRef .tc main_arg2) := W11_of_ne m ρ c main_arg2 (by decide)
    _ = W9 m ρ c (Proc.devRef .tc main_arg2) := after_arg2 main_part3_ops0_keeps _
    _ = W8 m ρ c (Proc.devRef .tc main_arg2) := after_arg2 main_part2_ops2_keeps _
    _ = W7 m ρ c (Proc.devRef .tc main_arg2) := after_arg2 main_part2_ops1_keeps _
    _ = W6 m ρ c (Proc.devRef .tc main_arg2) := after_arg2 main_part2_ops0_keeps _
    _ = W5 m ρ c (Proc.devRef .tc main_arg2) := after_arg2 main_part1_ops2_keeps _
    _ = W4 m ρ c (Proc.devRef .tc main_arg2) := after_arg2 main_part1_ops1_keeps _
    _ = W3 m ρ c (Proc.devRef .tc main_arg2) := after_arg2 main_part1_ops0_keeps _
    _ = W2 m ρ c (Proc.devRef .tc main_arg2) := after_arg2 main_part0_ops2_keeps _
    _ = W1 m ρ c (Proc.devRef .tc main_arg2) := after_arg2 main_part0_ops1_keeps _
    _ = W0 m ρ c (Proc.devRef .tc main_arg2) := after_arg2 main_part0_ops0_keeps _
    _ = m ((c : Thread nD τ).loc main_arg2) := rfl

theorem W16_main_arg3 (c : Dev nD) : W16 m ρ c (Proc.devRef .tc main_arg3) = m ((c : Thread nD τ).loc main_arg3) :=
  calc W16 m ρ c (Proc.devRef .tc main_arg3)
    _ = W15 m ρ c (Proc.devRef .tc main_arg3) := after_arg3 main_part3_ops3_keeps _
    _ = W14 m ρ c (Proc.devRef .tc main_arg3) := W15_of_ne m ρ c main_arg3 (by decide)
    _ = W13 m ρ c (Proc.devRef .tc main_arg3) := after_arg3 main_part3_ops2_keeps _
    _ = W12 m ρ c (Proc.devRef .tc main_arg3) := W13_of_ne m ρ c main_arg3 (by decide)
    _ = W11 m ρ c (Proc.devRef .tc main_arg3) := after_arg3 main_part3_ops1_keeps _
    _ = W10 m ρ c (Proc.devRef .tc main_arg3) := W11_of_ne m ρ c main_arg3 (by decide)
    _ = W9 m ρ c (Proc.devRef .tc main_arg3) := after_arg3 main_part3_ops0_keeps _
    _ = W8 m ρ c (Proc.devRef .tc main_arg3) := after_arg3 main_part2_ops2_keeps _
    _ = W7 m ρ c (Proc.devRef .tc main_arg3) := after_arg3 main_part2_ops1_keeps _
    _ = W6 m ρ c (Proc.devRef .tc main_arg3) := after_arg3 main_part2_ops0_keeps _
    _ = W5 m ρ c (Proc.devRef .tc main_arg3) := after_arg3 main_part1_ops2_keeps _
    _ = W4 m ρ c (Proc.devRef .tc main_arg3) := after_arg3 main_part1_ops1_keeps _
    _ = W3 m ρ c (Proc.devRef .tc main_arg3) := after_arg3 main_part1_ops0_keeps _
    _ = W2 m ρ c (Proc.devRef .tc main_arg3) := after_arg3 main_part0_ops2_keeps _
    _ = W1 m ρ c (Proc.devRef .tc main_arg3) := after_arg3 main_part0_ops1_keeps _
    _ = W0 m ρ c (Proc.devRef .tc main_arg3) := after_arg3 main_part0_ops0_keeps _
    _ = m ((c : Thread nD τ).loc main_arg3) := rfl

end Cert.KernelIdeal.Hand
end
-- ==== Proof.KI.Run.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.Region0
import proofs.«153644_j35845797053068_1_alg».proof.Proof.KI.Region1
import proofs.«153644_j35845797053068_1_alg».proof.Proof.KI.Region2
import proofs.«153644_j35845797053068_1_alg».proof.Proof.KI.RunHost
import proofs.«153644_j35845797053068_1_alg».proof.Proof.KI.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run of the program over its sixteen segments

## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the pinned
    configuration at a numeral reduces to the printed one. -/
def pdats : (p : Fin 3) → (c : Dev nD) → Dat τ (Elt F) Unit ℕ (UR sig nD τ) ℕ (Pipeline.pin (pcfgs (F := F)) adm p) c
  | ⟨0, _⟩ => fun c => dat0 (V10 m ρ) c
  | ⟨1, _⟩ => fun c => dat1 (V12 m ρ) c
  | ⟨2, _⟩ => fun c => dat2 (V14 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and what it owes,
    which is nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at the last boundary's contents `W16`, the
    generator register at some state. -/
abbrev Tₙ (c : Dev nD) : sProp 𝕄 := iprop(StableHlo.held (c : Thread nD τ) (Pipeline.ucRefs τ sig) (W16 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- Region 0 over the thread state: entered from every unscoped buffer at `W10`, left at `W11`. Its arrays are split out
    of the unscoped buffers and put back at the exit contents; the generator register and the scoped buffers go into the
    invariant before the first point and come back from the invariant after the last; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V10 m ρ) c).loose
  hwaits := Pipeline.hwaits_of_owed_zero _ _ _ _ L lv 0 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec0 c (V10 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V10 m ρ) c)
    unfold Pipeline.ΦA
    iintro ⟨Hp, -, Hr⟩
    isplitl [Hr]; · iexact Hr
    iexact Hp
  hout c := by
    rw [Pipeline.ownSems0_none]
    refine BIBase.Entails.trans (hout0 (V10 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V10 m ρ c) (V11 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 over the thread state: entered from every unscoped buffer at `W12`, left at `W13`. Its arrays are split out
    of the unscoped buffers and put back at the exit contents; the generator register and the scoped buffers go into the
    invariant before the first point and come back from the invariant after the last; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V12 m ρ) c).loose
  hwaits := Pipeline.hwaits_of_owed_zero _ _ _ _ L lv 1 fun _ _ => rfl
  pre c := iprop(StableHlo.held (c : Thread nD τ) (Pipeline.ucRefs τ sig) (W12 m ρ c) ∗ R c)
  post c := iprop(StableHlo.held (c : Thread nD τ) (Pipeline.ucRefs τ sig) (W13 m ρ c) ∗ R c)
  X c := iprop(∃ r, prngReg c r)
  Y c := iprop(∃ r, prngReg c r)
  Z c := Pipeline.unscopedRest (Ix := Unit) (Name := ℕ) (U := UR sig nD τ) (Lvl := ℕ) spec1 c (V12 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V12 m ρ) c)
    unfold Pipeline.ΦA
    iintro ⟨Hp, -, Hr⟩
    isplitl [Hr]; · iexact Hr
    iexact Hp
  hout c := by
    rw [Pipeline.ownSems0_none]
    refine BIBase.Entails.trans (hout1 (V12 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V12 m ρ c) (V13 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 over the thread state: entered from every unscoped buffer at `W14`, left at `W15`. Its arrays are split out
    of the unscoped buffers and put back at the exit contents; the generator register and the scoped buffers go into the
    invariant before the first point and come back from the invariant after the last; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V14 m ρ) c).loose
  hwaits := Pipeline.hwaits_of_owed_zero _ _ _ _ L lv 2 fun _ _ => rfl
  pre c := iprop(StableHlo.held (c : Thread nD τ) (Pipeline.ucRefs τ sig) (W14 m ρ c) ∗ R c)
  post c := iprop(StableHlo.held (c : Thread nD τ) (Pipeline.ucRefs τ sig) (W15 m ρ c) ∗ R c)
  X c := iprop(∃ r, prngReg c r)
  Y c := iprop(∃ r, prngReg c r)
  Z c := Pipeline.unscopedRest (Ix := Unit) (Name := ℕ) (U := UR sig nD τ) (Lvl := ℕ) spec2 c (V14 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V14 m ρ) c)
    unfold Pipeline.ΦA
    iintro ⟨Hp, -, Hr⟩
    isplitl [Hr]; · iexact Hr
    iexact Hp
  hout c := by
    rw [Pipeline.ownSems0_none]
    refine BIBase.Entails.trans (hout2 (V14 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V14 m ρ c) (V15 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's 16 segments in order: a host segment per stretch from its boundary's contents, a region per kernel call. -/
abbrev segs : List (Pipeline.Seg (pcfgs (F := F)) adm (pdats m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part1_ops0 main_part1_ops0_sub main_part1_ops0_fresh (W3 m ρ)),
    .host (hseg main_part1_ops1 main_part1_ops1_sub main_part1_ops1_fresh (W4 m ρ)),
    .host (hseg main_part1_ops2 main_part1_ops2_sub main_part1_ops2_fresh (W5 m ρ)),
    .host (hseg main_part2_ops0 main_part2_ops0_sub main_part2_ops0_fresh (W6 m ρ)),
    .host (hseg main_part2_ops1 main_part2_ops1_sub main_part2_ops1_fresh (W7 m ρ)),
    .host (hseg main_part2_ops2 main_part2_ops2_sub main_part2_ops2_fresh (W8 m ρ)),
    .host (hseg main_part3_ops0 main_part3_ops0_sub main_part3_ops0_fresh (W9 m ρ)),
    .region (reg0 m ρ),
    .host (hseg main_part3_ops1 main_part3_ops1_sub main_part3_ops1_fresh (W11 m ρ)),
    .region (reg1 m ρ),
    .host (hseg main_part3_ops2 main_part3_ops2_sub main_part3_ops2_fresh (W13 m ρ)),
    .region (reg2 m ρ),
    .host (hseg main_part3_ops3 main_part3_ops3_sub main_part3_ops3_fresh (W15 m ρ)) ]
/-- The program IS the run of the segments: it is the chain of its items, and the segments' run is that chain. -/
theorem main_run (c : Dev nD) : main (F := F) c = Pipeline.Seg.run (segs m ρ) := (main_chain_windows c).trans (by chain_rfl)

-- the launch theorem's implicit arguments are found by unifying its conclusion with this one, which takes unfolding
-- plain definitions in a metavariable's type
set_option backward.isDefEq.respectTransparency.types false in
/-- THE RUN. From any memory with zero counters, every weakly fair execution of the program on the TensorCores
    terminates, nothing faulting, and in every final state each unscoped buffer of each core holds the last boundary's
    contents `W16`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W16 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W16 m ρ c) ∗ R c)
          ⊢ iprop(Tₙ m ρ c ∗ ∃ W, owes (c : Thread nD τ) (0 : CellTallies nD τ sig Unit) W) from by
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h => h)

end Cert.KernelIdeal.Hand
end
-- ==== Proof.KI.Frame.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The frame, and the run with the result named

Every execution of the program's entry point terminates without a fault; at the end each unscoped buffer holds what the
last boundary valuation says. An argument array is written by no host operation and by no region, so it ends as launched. -/

variable (m : (ℓ : Loc nD τ sig) → Buf (Elt F) ℓ) (ρ : Dev nD → PrngReg)

/-- The four argument arrays end holding their launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c)⟩) (run_all m ρ)

/-- The same run with the returned scalar named: it ends at what the last boundary valuation holds for it. -/
theorem run_value : θ_run defs (onTc (τ := τ) (main (F := F))) ⟨m, fun _ => 0, ρ⟩ (fun r => ∀ c : Dev nD,
      r.2.mem ((c.tc : Thread nD τ).loc main_v170) = W16 m ρ c (Proc.devRef .tc main_v170)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨h c _ (mem_uc main_v170 (by decide)),
     (h c _ (mem_uc main_arg0 (by decide))).trans (W16_main_arg0 m ρ c),
     (h c _ (mem_uc main_arg1 (by decide))).trans (W16_main_arg1 m ρ c),
     (h c _ (mem_uc main_arg2 (by decide))).trans (W16_main_arg2 m ρ c),
     (h c _ (mem_uc main_arg3 (by decide))).trans (W16_main_arg3 m ρ c)⟩) (run_all m ρ)

end Cert.KernelIdeal.Hand
end
-- ==== Proof.KI.Result.lean ====
import proofs.«153644_j35845797053068_1_alg».proof.Proof.KI.RunVals
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen Cert.KernelIdeal.Hand

variable {F : FTy → Type} [FloatOps F]

variable (m : (ℓ : Loc nD τ sig) → Buf (Elt F) ℓ) (ρ : Dev nD → PrngReg)

/-! # The program's result: the host operations after the regions, applied to the three regions' output arrays

Each region leaves one number, its running sum, in a [1, 1] array. After each region the host casts that array to a
scalar and divides it by the scale's element count; after the last it adds the three quotients left to right and
multiplies by one. -/

/-- A region's output array cast to a scalar and divided by the constant of bit pattern `k`. -/
def quot (k : BitVec 32) (o : (⟨S1x1, .f32⟩ : BufTy).Contents (Elt F)) : (⟨S_, .f32⟩ : BufTy).Contents (Elt F) :=
  Host.divf (shapeCast S_ o shapeCasts_S1x1_S_) (constant S_ .f32 k)

/-- The last stretch: the third quotient, the two additions, the multiplication by one. -/
def tail3 (q0 q1 : (⟨S_, .f32⟩ : BufTy).Contents (Elt F)) (o2 : (⟨S1x1, .f32⟩ : BufTy).Contents (Elt F)) :
    (⟨S_, .f32⟩ : BufTy).Contents (Elt F) :=
  mulf (addf (addf q0 q1) (quot 0x47C80000#32 o2)) (constant S_ .f32 0x3F800000#32)

/-- The host operations after the regions, as a function of the three regions' output arrays. -/
def tail (o0 o1 o2 : (⟨S1x1, .f32⟩ : BufTy).Contents (Elt F)) : (⟨S_, .f32⟩ : BufTy).Contents (Elt F) :=
  tail3 (quot 0x49C80000#32 o0) (quot 0x48C80000#32 o1) o2

/-- `tail` spelt out. -/
theorem tail_eq (o0 o1 o2 : (⟨S1x1, .f32⟩ : BufTy).Contents (Elt F)) : tail o0 o1 o2 =
    mulf (addf (addf (Host.divf (shapeCast S_ o0 shapeCasts_S1x1_S_) (constant S_ .f32 0x49C80000#32))
          (Host.divf (shapeCast S_ o1 shapeCasts_S1x1_S_) (constant S_ .f32 0x48C80000#32)))
        (Host.divf (shapeCast S_ o2 shapeCasts_S1x1_S_) (constant S_ .f32 0x47C80000#32)))
      (constant S_ .f32 0x3F800000#32) := rfl

/-! ## Each stretch after a region, from any contents -/

/-- The stretch after region 0 leaves the first quotient in `main_v161`. -/
theorem ops1_v161 (V : Valuation τ sig (Elt F)) :
    StableHlo.after main_part3_ops1 V (Proc.devRef .tc main_v161) = quot 0x49C80000#32 (V (Proc.devRef .tc main_v159)) := by
  after_results
  rfl

/-- The stretch after region 1 leaves the second quotient in `main_v164`, -/
theorem ops2_v164 (V : Valuation τ sig (Elt F)) :
    StableHlo.after main_part3_ops2 V (Proc.devRef .tc main_v164) = quot 0x48C80000#32 (V (Proc.devRef .tc main_v162)) := by
  after_results
  rfl

/-- and does not write the first. -/
theorem ops2_v161 (V : Valuation τ sig (Elt F)) :
    StableHlo.after main_part3_ops2 V (Proc.devRef .tc main_v161) = V (Proc.devRef .tc main_v161) := by
  after_results

/-- The last stretch leaves the result in `main_v170`. -/
theorem ops3_v170 (V : Valuation τ sig (Elt F)) :
    StableHlo.after main_part3_ops3 V (Proc.devRef .tc main_v170)
      = tail3 (V (Proc.devRef .tc main_v161)) (V (Proc.devRef .tc main_v164)) (V (Proc.devRef .tc main_v165)) := by
  after_results
  rfl

/-! ## Through the regions -/

/-- The first quotient at the last stretch: region 0's output array cast and divided; no array of region 1 or
    region 2, and not written by the stretch between them. -/
theorem W15_v161 (c : Dev nD) :
    W15 m ρ c (Proc.devRef .tc main_v161) = quot 0x49C80000#32 ((dat0 (V10 m ρ) c).arrAt 2 cfg0.N) :=
  calc W15 m ρ c (Proc.devRef .tc main_v161)
    _ = W14 m ρ c (Proc.devRef .tc main_v161) := W15_of_ne m ρ c main_v161 (by decide)
    _ = W13 m ρ c (Proc.devRef .tc main_v161) := ops2_v161 (W13 m ρ c)
    _ = W12 m ρ c (Proc.devRef .tc main_v161) := W13_of_ne m ρ c main_v161 (by decide)
    _ = quot 0x49C80000#32 (W11 m ρ c (Proc.devRef .tc main_v159)) := ops1_v161 (W11 m ρ c)
    _ = quot 0x49C80000#32 ((dat0 (V10 m ρ) c).arrAt 2 cfg0.N) := congrArg (quot 0x49C80000#32) (W11_arr m ρ c 2)

/-- The second quotient at the last stretch: region 1's output array cast and divided; no array of region 2. -/
theorem W15_v164 (c : Dev nD) :
    W15 m ρ c (Proc.devRef .tc main_v164) = quot 0x48C80000#32 ((dat1 (V12 m ρ) c).arrAt 2 cfg1.N) :=
  calc W15 m ρ c (Proc.devRef .tc main_v164)
    _ = W14 m ρ c (Proc.devRef .tc main_v164) := W15_of_ne m ρ c main_v164 (by decide)
    _ = quot 0x48C80000#32 (W13 m ρ c (Proc.devRef .tc main_v162)) := ops2_v164 (W13 m ρ c)
    _ = quot 0x48C80000#32 ((dat1 (V12 m ρ) c).arrAt 2 cfg1.N) := congrArg (quot 0x48C80000#32) (W13_arr m ρ c 2)

theorem tail3_congr {q0 q0' q1 q1' : (⟨S_, .f32⟩ : BufTy).Contents (Elt F)} {o2 o2' : (⟨S1x1, .f32⟩ : BufTy).Contents (Elt F)}
    (h0 : q0 = q0') (h1 : q1 = q1') (h2 : o2 = o2') : tail3 q0 q1 o2 = tail3 q0' q1' o2' := by
  subst h0 h1 h2; rfl

/-- THE RESULT BUFFER at the end of the program: the host operations after the regions applied to the three regions'
    output arrays as the regions leave them. -/
theorem W16_result (c : Dev nD) : W16 m ρ c (Proc.devRef .tc main_v170)
    = tail ((dat0 (V10 m ρ) c).arrAt 2 cfg0.N) ((dat1 (V12 m ρ) c).arrAt 2 cfg1.N) ((dat2 (V14 m ρ) c).arrAt 2 cfg2.N) :=
  (ops3_v170 (W15 m ρ c)).trans (tail3_congr (W15_v161 m ρ c) (W15_v164 m ρ c) (W15_arr m ρ c 2))

end Cert.KernelIdeal.Val
end
-- ==== Proof.KI.HostTerms.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen

variable {F : FTy → Type} [FloatOps F]

/-! # The objectness targets as the program's host operations compute them from the targets array

Before each region the host builds that scale's objectness target: from three columns of the targets array it takes
the batch index and the two cell coordinates of every row, masks the rows that fall outside the grid, and scatters
ones into a zero array at the cells that remain. One definition per operation, in the program's order, each a
function of the targets array. -/

/-! ## Scale 0 -/

def k_v0 (a3 : (⟨S5000x6, .f32⟩ : BufTy).Contents (Elt F)) : (⟨S5000x1, .f32⟩ : BufTy).Contents (Elt F) :=
  ((extractStridedSlice S5000x1 ![0, 0] · slices_S5000x6_S5000x1_0_0) : (⟨S5000x6, .f32⟩ : BufTy).Contents (Elt F) → (⟨S5000x1, .f32⟩ : BufTy).Contents (Elt F)) a3
def k_v1 (a3 : (⟨S5000x6, .f32⟩ : BufTy).Contents (Elt F)) : (⟨S5000, .f32⟩ : BufTy).Contents (Elt F) :=
  shapeCast _ (k_v0 a3) shapeCasts_S5000x1_S5000
def k_v2 (a3 : (⟨S5000x6, .f32⟩ : BufTy).Contents (Elt F)) : (⟨S5000x1, .f32⟩ : BufTy).Contents (Elt F) :=
  ((extractStridedSlice S5000x1 ![0, 1] · slices_S5000x6_S5000x1_0_1) : (⟨S5000x6, .f32⟩ : BufTy).Contents (Elt F) → (⟨S5000x1, .f32⟩ : BufTy).Contents (Elt F)) a3
def k_v3 (a3 : (⟨S5000x6, .f32⟩ : BufTy).Contents (Elt F)) : (⟨S5000, .f32⟩ : BufTy).Contents (Elt F) :=
  shapeCast _ (k_v2 a3) shapeCasts_S5000x1_S5000
def k_cst (a3 : (⟨S5000x6, .f32⟩ : BufTy).Contents (Elt F)) : (⟨S_, .f32⟩ : BufTy).Contents (Elt F) :=
  (constant S_ .f32 0x43200000#32)
def k_v4 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst a3)
def k_v5 (a3 : (⟨S5000x6, .f32⟩ : BufTy).Contents (Elt F)) : (⟨S5000, .f32⟩ : BufTy).Contents (Elt F) :=
  (mulf : (⟨S5000, .f32⟩ : BufTy).Contents (Elt F) → (⟨S5000, .f32⟩ : BufTy).Contents (Elt F) → (⟨S5000, .f32⟩ : BufTy).Contents (Elt F)) (k_v3 a3) (k_v4 a3)
def k_v6 (a3 : (⟨S5000x6, .f32⟩ : BufTy).Contents (Elt F)) : (⟨S5000, .i32⟩ : BufTy).Contents (Elt F) :=
  (fptosi 32 : (⟨S5000, .f32⟩ : BufTy).Contents (Elt F) → (⟨S5000, .i32⟩ : BufTy).Contents (Elt F)) (k_v5 a3)
def k_v7 (a3 : (⟨S5000x6, .f32⟩ : BufTy).Contents (Elt F)) : (⟨S5000x1, .f32⟩ : BufTy).Contents (Elt F) :=
  ((extractStridedSlice S5000x1 ![0, 2] · slices_S5000x6_S5000x1_0_2) : (⟨S5000x6, .f32⟩ : BufTy).Contents (Elt F) → (⟨S5000x1, .f32⟩ : BufTy).Contents (Elt F)) a3
def k_v8 (a3 : (⟨S5000x6, .f32⟩ : BufTy).Contents (Elt F)) : (⟨S5000, .f32⟩ : BufTy).Contents (Elt F) :=
  shapeCast _ (k_v7 a3) shapeCasts_S5000x1_S5000
def k_cst_0 (a3 : (⟨S5000x6, .f32⟩ : BufTy).Contents (Elt F)) : (⟨S_, .f32⟩ : BufTy).Contents (Elt F) :=
  (constant S_ .f32 0x43200000#32)
def k_v9 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst_0 a3)
def k_v10 (a3 : (⟨S5000x6, .f32⟩ : BufTy).Contents (Elt F)) : (⟨S5000, .f32⟩ : BufTy).Contents (Elt F) :=
  (mulf : (⟨S5000, .f32⟩ : BufTy).Contents (Elt F) → (⟨S5000, .f32⟩ : BufTy).Contents (Elt F) → (⟨S5000, .f32⟩ : BufTy).Contents (Elt F)) (k_v8 a3) (k_v9 a3)
def k_v11 (a3 : (⟨S5000x6, .f32⟩ : BufTy).Contents (Elt F)) : (⟨S5000, .i32⟩ : BufTy).Contents (Elt F) :=
  (fptosi 32 : (⟨S5000, .f32⟩ : BufTy).Contents (Elt F) → (⟨S5000, .i32⟩ : BufTy).Contents (Elt F)) (k_v10 a3)
def k_cst_1 (a3 : (⟨S5000x6, .f32⟩ : BufTy).Contents (Elt F)) : (⟨S_, .f32⟩ : BufTy).Contents (Elt F) :=
  (constant S_ .f32 0x42800000#32)
def k_v12 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst_1 a3)
def k_v13 (a3 : (⟨S5000x6, .f32⟩ : BufTy).Contents (Elt F)) : (⟨S5000, .i1⟩ : BufTy).Contents (Elt F) :=
  (cmpf .olt : (⟨S5000, .f32⟩ : BufTy).Contents (Elt F) → (⟨S5000, .f32⟩ : BufTy).Contents (Elt F) → (⟨S5000, .i1⟩ : BufTy).Contents (Elt F)) (k_v1 a3) (k_v12 a3)
def k_c (a3 : (⟨S5000x6, .f32⟩ : BufTy).Contents (Elt F)) : (⟨S_, .i32⟩ : BufTy).Contents (Elt F) :=
  (constantI S_ 32 0#32)
def k_v14 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c a3)
def k_v15 (a3 : (⟨S5000x6, .f32⟩ : BufTy).Contents (Elt F)) : (⟨S5000, .i1⟩ : BufTy).Contents (Elt F) :=
  (cmpi .sge : (⟨S5000, .i32⟩ : BufTy).Contents (Elt F) → (⟨S5000, .i32⟩ : BufTy).Contents (Elt F) → (⟨S5000, .i1⟩ : BufTy).Contents (Elt F)) (k_v6 a3) (k_v14 a3)
def k_v16 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v13 a3) (k_v15 a3)
def k_c_2 (a3 : (⟨S5000x6, .f32⟩ : BufTy).Contents (Elt F)) : (⟨S_, .i32⟩ : BufTy).Contents (Elt F) :=
  (constantI S_ 32 160#32)
def k_v17 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_2 a3)
def k_v18 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v6 a3) (k_v17 a3)
def k_v19 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v16 a3) (k_v18 a3)
def k_c_3 (a3 : (⟨S5000x6, .f32⟩ : BufTy).Contents (Elt F)) : (⟨S_, .i32⟩ : BufTy).Contents (Elt F) :=
  (constantI S_ 32 0#32)
def k_v20 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_3 a3)
def k_v21 (a3 : (⟨S5000x6, .f32⟩ : BufTy).Contents (Elt F)) : (⟨S5000, .i1⟩ : BufTy).Contents (Elt F) :=
  (cmpi .sge : (⟨S5000, .i32⟩ : BufTy).Contents (Elt F) → (⟨S5000, .i32⟩ : BufTy).Contents (Elt F) → (⟨S5000, .i1⟩ : BufTy).Contents (Elt F)) (k_v11 a3) (k_v20 a3)
def k_v22 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v19 a3) (k_v21 a3)
def k_c_4 (a3 : (⟨S5000x6, .f32⟩ : BufTy).Contents (Elt F)) : (⟨S_, .i32⟩ : BufTy).Contents (Elt F) :=
  (constantI S_ 32 160#32)
def k_v23 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_4 a3)
def k_v24 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v11 a3) (k_v23 a3)
def k_v25 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v22 a3) (k_v24 a3)
def k_v26 (a3 : (⟨S5000x6, .f32⟩ : BufTy).Contents (Elt F)) : (⟨S5000, .i32⟩ : BufTy).Contents (Elt F) :=
  (fptosi 32 : (⟨S5000, .f32⟩ : BufTy).Contents (Elt F) → (⟨S5000, .i32⟩ : BufTy).Contents (Elt F)) (k_v1 a3)
def k_c_5 (a3 : (⟨S5000x6, .f32⟩ : BufTy).Contents (Elt F)) : (⟨S_, .i32⟩ : BufTy).Contents (Elt F) :=
  (constantI S_ 32 64#32)
def k_call0_v0 (a3 : (⟨S5000x6, .f32⟩ : BufTy).Contents (Elt F)) : (⟨S_, .i32⟩ : BufTy).Contents (Elt F) :=
  id (k_c_5 a3)
def k_call0_v1 (a3 : (⟨S5000x6, .f32⟩ : BufTy).Contents (Elt F)) : (⟨S5000, .i32⟩ : BufTy).Contents (Elt F) :=
  (broadcastInDim S5000 ![] bcast_S_S5000) (k_call0_v0 a3)
def k_v27 (a3 : (⟨S5000x6, .f32⟩ : BufTy).Contents (Elt F)) : (⟨S5000, .i32⟩ : BufTy).Contents (Elt F) :=
  select (k_v25 a3) (k_v26 a3) (k_call0_v1 a3)
def k_cst_6 (a3 : (⟨S5000x6, .f32⟩ : BufTy).Contents (Elt F)) : (⟨S_, .f32⟩ : BufTy).Contents (Elt F) :=
  (constant S_ .f32 0x00000000#32)
def k_v28 (a3 : (⟨S5000x6, .f32⟩ : BufTy).Contents (Elt F)) : (⟨S64x1x160x160, .f32⟩ : BufTy).Contents (Elt F) :=
  (broadcastInDim S64x1x160x160 ![] bcast_S_S64x1x160x160 : (⟨S_, .f32⟩ : BufTy).Contents (Elt F) → (⟨S64x1x160x160, .f32⟩ : BufTy).Contents (Elt F)) (k_cst_6 a3)
def k_c_7 (a3 : (⟨S5000x6, .f32⟩ : BufTy).Contents (Elt F)) : (⟨S_, .i32⟩ : BufTy).Contents (Elt F) :=
  (constantI S_ 32 0#32)
def k_v29 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_7 a3)
def k_v30 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v27 a3) (k_v29 a3)
def k_c_8 (a3 : (⟨S5000x6, .f32⟩ : BufTy).Contents (Elt F)) : (⟨S_, .i32⟩ : BufTy).Contents (Elt F) :=
  (constantI S_ 32 64#32)
def k_v31 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_8 a3)
def k_v32 (a3 : (⟨S5000x6, .f32⟩ : BufTy).Contents (Elt F)) : (⟨S5000, .i32⟩ : BufTy).Contents (Elt F) :=
  (addi : (⟨S5000, .i32⟩ : BufTy).Contents (Elt F) → (⟨S5000, .i32⟩ : BufTy).Contents (Elt F) → (⟨S5000, .i32⟩ : BufTy).Contents (Elt F)) (k_v27 a3) (k_v31 a3)
def k_v33 (a3 : (⟨S5000x6, .f32⟩ : BufTy).Contents (Elt F)) : (⟨S5000, .i32⟩ : BufTy).Contents (Elt F) :=
  (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) (k_v30 a3) (k_v32 a3) (k_v27 a3)
def k_c_9 (a3 : (⟨S5000x6, .f32⟩ : BufTy).Contents (Elt F)) : (⟨S_, .i32⟩ : BufTy).Contents (Elt F) :=
  (constantI S_ 32 0#32)
def k_v34 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_9 a3)
def k_v35 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v11 a3) (k_v34 a3)
def k_c_10 (a3 : (⟨S5000x6, .f32⟩ : BufTy).Contents (Elt F)) : (⟨S_, .i32⟩ : BufTy).Contents (Elt F) :=
  (constantI S_ 32 160#32)
def k_v36 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_10 a3)
def k_v37 (a3 : (⟨S5000x6, .f32⟩ : BufTy).Contents (Elt F)) : (⟨S5000, .i32⟩ : BufTy).Contents (Elt F) :=
  (addi : (⟨S5000, .i32⟩ : BufTy).Contents (Elt F) → (⟨S5000, .i32⟩ : BufTy).Contents (Elt F) → (⟨S5000, .i32⟩ : BufTy).Contents (Elt F)) (k_v11 a3) (k_v36 a3)
def k_v38 (a3 : (⟨S5000x6, .f32⟩ : BufTy).Contents (Elt F)) : (⟨S5000, .i32⟩ : BufTy).Contents (Elt F) :=
  (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) (k_v35 a3) (k_v37 a3) (k_v11 a3)
def k_c_11 (a3 : (⟨S5000x6, .f32⟩ : BufTy).Contents (Elt F)) : (⟨S_, .i32⟩ : BufTy).Contents (Elt F) :=
  (constantI S_ 32 0#32)
def k_v39 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_11 a3)
def k_v40 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v6 a3) (k_v39 a3)
def k_c_12 (a3 : (⟨S5000x6, .f32⟩ : BufTy).Contents (Elt F)) : (⟨S_, .i32⟩ : BufTy).Contents (Elt F) :=
  (constantI S_ 32 160#32)
def k_v41 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_12 a3)
def k_v42 (a3 : (⟨S5000x6, .f32⟩ : BufTy).Contents (Elt F)) : (⟨S5000, .i32⟩ : BufTy).Contents (Elt F) :=
  (addi : (⟨S5000, .i32⟩ : BufTy).Contents (Elt F) → (⟨S5000, .i32⟩ : BufTy).Contents (Elt F) → (⟨S5000, .i32⟩ : BufTy).Contents (Elt F)) (k_v6 a3) (k_v41 a3)
def k_v43 (a3 : (⟨S5000x6, .f32⟩ : BufTy).Contents (Elt F)) : (⟨S5000, .i32⟩ : BufTy).Contents (Elt F) :=
  (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) (k_v40 a3) (k_v42 a3) (k_v6 a3)
def k_c_13 (a3 : (⟨S5000x6, .f32⟩ : BufTy).Contents (Elt F)) : (⟨S_, .i32⟩ : BufTy).Contents (Elt F) :=
  (constantI S_ 32 0#32)
def k_v44 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_13 a3)
def k_v45 (a3 : (⟨S5000x6, .f32⟩ : BufTy).Contents (Elt F)) : (⟨S5000, .i32⟩ : BufTy).Contents (Elt F) :=
  (id : (⟨S5000, .i32⟩ : BufTy).Contents (Elt F) → (⟨S5000, .i32⟩ : BufTy).Contents (Elt F)) (k_v44 a3)
def k_v46 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v33 a3)
def k_v47 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v45 a3)
def k_v48 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v38 a3)
def k_v49 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v43 a3)
def k_v50 (a3 : (⟨S5000x6, .f32⟩ : BufTy).Contents (Elt F)) : (⟨S5000x4, .i32⟩ : BufTy).Contents (Elt F) :=
  concatenate S5000x4 1 [⟨S5000x1, (k_v46 a3)⟩, ⟨S5000x1, (k_v47 a3)⟩, ⟨S5000x1, (k_v48 a3)⟩, ⟨S5000x1, (k_v49 a3)⟩] concatenates_S5000x1_S5000x1_S5000x1_S5000x1_S5000x4_d1
def k_cst_14 (a3 : (⟨S5000x6, .f32⟩ : BufTy).Contents (Elt F)) : (⟨S_, .f32⟩ : BufTy).Contents (Elt F) :=
  (constant S_ .f32 0x3F800000#32)
def k_v51 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst_14 a3)
def k_v52 (a3 : (⟨S5000x6, .f32⟩ : BufTy).Contents (Elt F)) : (⟨S64x1x160x160, .f32⟩ : BufTy).Contents (Elt F) :=
  ((fun x i u => Host.scatter scatter_S64x1x160x160_S5000x4_S5000_n_0123_0123_1 (fun _ b => b) x i u) : (⟨S64x1x160x160, .f32⟩ : BufTy).Contents (Elt F) → (⟨S5000x4, .i32⟩ : BufTy).Contents (Elt F) → (⟨S5000, .f32⟩ : BufTy).Contents (Elt F) → (⟨S64x1x160x160, .f32⟩ : BufTy).Contents (Elt F)) (k_v28 a3) (k_v50 a3) (k_v51 a3)

/-- Scale 0's objectness target as a function of the targets array. -/
def kot0 (a3 : (⟨S5000x6, .f32⟩ : BufTy).Contents (Elt F)) : (⟨S64x1x160x160, .f32⟩ : BufTy).Contents (Elt F) := k_v52 a3

/-! ## Scale 1 -/

def k_v53 (a3 : (⟨S5000x6, .f32⟩ : BufTy).Contents (Elt F)) : (⟨S5000x1, .f32⟩ : BufTy).Contents (Elt F) :=
  ((extractStridedSlice S5000x1 ![0, 0] · slices_S5000x6_S5000x1_0_0) : (⟨S5000x6, .f32⟩ : BufTy).Contents (Elt F) → (⟨S5000x1, .f32⟩ : BufTy).Contents (Elt F)) a3
def k_v54 (a3 : (⟨S5000x6, .f32⟩ : BufTy).Contents (Elt F)) : (⟨S5000, .f32⟩ : BufTy).Contents (Elt F) :=
  shapeCast _ (k_v53 a3) shapeCasts_S5000x1_S5000
def k_v55 (a3 : (⟨S5000x6, .f32⟩ : BufTy).Contents (Elt F)) : (⟨S5000x1, .f32⟩ : BufTy).Contents (Elt F) :=
  ((extractStridedSlice S5000x1 ![0, 1] · slices_S5000x6_S5000x1_0_1) : (⟨S5000x6, .f32⟩ : BufTy).Contents (Elt F) → (⟨S5000x1, .f32⟩ : BufTy).Contents (Elt F)) a3
def k_v56 (a3 : (⟨S5000x6, .f32⟩ : BufTy).Contents (Elt F)) : (⟨S5000, .f32⟩ : BufTy).Contents (Elt F) :=
  shapeCast _ (k_v55 a3) shapeCasts_S5000x1_S5000
def k_cst_15 (a3 : (⟨S5000x6, .f32⟩ : BufTy).Contents (Elt F)) : (⟨S_, .f32⟩ : BufTy).Contents (Elt F) :=
  (constant S_ .f32 0x42A00000#32)
def k_v57 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst_15 a3)
def k_v58 (a3 : (⟨S5000x6, .f32⟩ : BufTy).Contents (Elt F)) : (⟨S5000, .f32⟩ : BufTy).Contents (Elt F) :=
  (mulf : (⟨S5000, .f32⟩ : BufTy).Contents (Elt F) → (⟨S5000, .f32⟩ : BufTy).Contents (Elt F) → (⟨S5000, .f32⟩ : BufTy).Contents (Elt F)) (k_v56 a3) (k_v57 a3)
def k_v59 (a3 : (⟨S5000x6, .f32⟩ : BufTy).Contents (Elt F)) : (⟨S5000, .i32⟩ : BufTy).Contents (Elt F) :=
  (fptosi 32 : (⟨S5000, .f32⟩ : BufTy).Contents (Elt F) → (⟨S5000, .i32⟩ : BufTy).Contents (Elt F)) (k_v58 a3)
def k_v60 (a3 : (⟨S5000x6, .f32⟩ : BufTy).Contents (Elt F)) : (⟨S5000x1, .f32⟩ : BufTy).Contents (Elt F) :=
  ((extractStridedSlice S5000x1 ![0, 2] · slices_S5000x6_S5000x1_0_2) : (⟨S5000x6, .f32⟩ : BufTy).Contents (Elt F) → (⟨S5000x1, .f32⟩ : BufTy).Contents (Elt F)) a3
def k_v61 (a3 : (⟨S5000x6, .f32⟩ : BufTy).Contents (Elt F)) : (⟨S5000, .f32⟩ : BufTy).Contents (Elt F) :=
  shapeCast _ (k_v60 a3) shapeCasts_S5000x1_S5000
def k_cst_16 (a3 : (⟨S5000x6, .f32⟩ : BufTy).Contents (Elt F)) : (⟨S_, .f32⟩ : BufTy).Contents (Elt F) :=
  (constant S_ .f32 0x42A00000#32)
def k_v62 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst_16 a3)
def k_v63 (a3 : (⟨S5000x6, .f32⟩ : BufTy).Contents (Elt F)) : (⟨S5000, .f32⟩ : BufTy).Contents (Elt F) :=
  (mulf : (⟨S5000, .f32⟩ : BufTy).Contents (Elt F) → (⟨S5000, .f32⟩ : BufTy).Contents (Elt F) → (⟨S5000, .f32⟩ : BufTy).Contents (Elt F)) (k_v61 a3) (k_v62 a3)
def k_v64 (a3 : (⟨S5000x6, .f32⟩ : BufTy).Contents (Elt F)) : (⟨S5000, .i32⟩ : BufTy).Contents (Elt F) :=
  (fptosi 32 : (⟨S5000, .f32⟩ : BufTy).Contents (Elt F) → (⟨S5000, .i32⟩ : BufTy).Contents (Elt F)) (k_v63 a3)
def k_cst_17 (a3 : (⟨S5000x6, .f32⟩ : BufTy).Contents (Elt F)) : (⟨S_, .f32⟩ : BufTy).Contents (Elt F) :=
  (constant S_ .f32 0x42800000#32)
def k_v65 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst_17 a3)
def k_v66 (a3 : (⟨S5000x6, .f32⟩ : BufTy).Contents (Elt F)) : (⟨S5000, .i1⟩ : BufTy).Contents (Elt F) :=
  (cmpf .olt : (⟨S5000, .f32⟩ : BufTy).Contents (Elt F) → (⟨S5000, .f32⟩ : BufTy).Contents (Elt F) → (⟨S5000, .i1⟩ : BufTy).Contents (Elt F)) (k_v54 a3) (k_v65 a3)
def k_c_18 (a3 : (⟨S5000x6, .f32⟩ : BufTy).Contents (Elt F)) : (⟨S_, .i32⟩ : BufTy).Contents (Elt F) :=
  (constantI S_ 32 0#32)
def k_v67 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_18 a3)
def k_v68 (a3 : (⟨S5000x6, .f32⟩ : BufTy).Contents (Elt F)) : (⟨S5000, .i1⟩ : BufTy).Contents (Elt F) :=
  (cmpi .sge : (⟨S5000, .i32⟩ : BufTy).Contents (Elt F) → (⟨S5000, .i32⟩ : BufTy).Contents (Elt F) → (⟨S5000, .i1⟩ : BufTy).Contents (Elt F)) (k_v59 a3) (k_v67 a3)
def k_v69 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v66 a3) (k_v68 a3)
def k_c_19 (a3 : (⟨S5000x6, .f32⟩ : BufTy).Contents (Elt F)) : (⟨S_, .i32⟩ : BufTy).Contents (Elt F) :=
  (constantI S_ 32 80#32)
def k_v70 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_19 a3)
def k_v71 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v59 a3) (k_v70 a3)
def k_v72 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v69 a3) (k_v71 a3)
def k_c_20 (a3 : (⟨S5000x6, .f32⟩ : BufTy).Contents (Elt F)) : (⟨S_, .i32⟩ : BufTy).Contents (Elt F) :=
  (constantI S_ 32 0#32)
def k_v73 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_20 a3)
def k_v74 (a3 : (⟨S5000x6, .f32⟩ : BufTy).Contents (Elt F)) : (⟨S5000, .i1⟩ : BufTy).Contents (Elt F) :=
  (cmpi .sge : (⟨S5000, .i32⟩ : BufTy).Contents (Elt F) → (⟨S5000, .i32⟩ : BufTy).Contents (Elt F) → (⟨S5000, .i1⟩ : BufTy).Contents (Elt F)) (k_v64 a3) (k_v73 a3)
def k_v75 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v72 a3) (k_v74 a3)
def k_c_21 (a3 : (⟨S5000x6, .f32⟩ : BufTy).Contents (Elt F)) : (⟨S_, .i32⟩ : BufTy).Contents (Elt F) :=
  (constantI S_ 32 80#32)
def k_v76 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_21 a3)
def k_v77 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v64 a3) (k_v76 a3)
def k_v78 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v75 a3) (k_v77 a3)
def k_v79 (a3 : (⟨S5000x6, .f32⟩ : BufTy).Contents (Elt F)) : (⟨S5000, .i32⟩ : BufTy).Contents (Elt F) :=
  (fptosi 32 : (⟨S5000, .f32⟩ : BufTy).Contents (Elt F) → (⟨S5000, .i32⟩ : BufTy).Contents (Elt F)) (k_v54 a3)
def k_c_22 (a3 : (⟨S5000x6, .f32⟩ : BufTy).Contents (Elt F)) : (⟨S_, .i32⟩ : BufTy).Contents (Elt F) :=
  (constantI S_ 32 64#32)
def k_call1_v0 (a3 : (⟨S5000x6, .f32⟩ : BufTy).Contents (Elt F)) : (⟨S_, .i32⟩ : BufTy).Contents (Elt F) :=
  id (k_c_22 a3)
def k_call1_v1 (a3 : (⟨S5000x6, .f32⟩ : BufTy).Contents (Elt F)) : (⟨S5000, .i32⟩ : BufTy).Contents (Elt F) :=
  (broadcastInDim S5000 ![] bcast_S_S5000) (k_call1_v0 a3)
def k_v80 (a3 : (⟨S5000x6, .f32⟩ : BufTy).Contents (Elt F)) : (⟨S5000, .i32⟩ : BufTy).Contents (Elt F) :=
  select (k_v78 a3) (k_v79 a3) (k_call1_v1 a3)
def k_cst_23 (a3 : (⟨S5000x6, .f32⟩ : BufTy).Contents (Elt F)) : (⟨S_, .f32⟩ : BufTy).Contents (Elt F) :=
  (constant S_ .f32 0x00000000#32)
def k_v81 (a3 : (⟨S5000x6, .f32⟩ : BufTy).Contents (Elt F)) : (⟨S64x1x80x80, .f32⟩ : BufTy).Contents (Elt F) :=
  (broadcastInDim S64x1x80x80 ![] bcast_S_S64x1x80x80 : (⟨S_, .f32⟩ : BufTy).Contents (Elt F) → (⟨S64x1x80x80, .f32⟩ : BufTy).Contents (Elt F)) (k_cst_23 a3)
def k_c_24 (a3 : (⟨S5000x6, .f32⟩ : BufTy).Contents (Elt F)) : (⟨S_, .i32⟩ : BufTy).Contents (Elt F) :=
  (constantI S_ 32 0#32)
def k_v82 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_24 a3)
def k_v83 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v80 a3) (k_v82 a3)
def k_c_25 (a3 : (⟨S5000x6, .f32⟩ : BufTy).Contents (Elt F)) : (⟨S_, .i32⟩ : BufTy).Contents (Elt F) :=
  (constantI S_ 32 64#32)
def k_v84 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_25 a3)
def k_v85 (a3 : (⟨S5000x6, .f32⟩ : BufTy).Contents (Elt F)) : (⟨S5000, .i32⟩ : BufTy).Contents (Elt F) :=
  (addi : (⟨S5000, .i32⟩ : BufTy).Contents (Elt F) → (⟨S5000, .i32⟩ : BufTy).Contents (Elt F) → (⟨S5000, .i32⟩ : BufTy).Contents (Elt F)) (k_v80 a3) (k_v84 a3)
def k_v86 (a3 : (⟨S5000x6, .f32⟩ : BufTy).Contents (Elt F)) : (⟨S5000, .i32⟩ : BufTy).Contents (Elt F) :=
  (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) (k_v83 a3) (k_v85 a3) (k_v80 a3)
def k_c_26 (a3 : (⟨S5000x6, .f32⟩ : BufTy).Contents (Elt F)) : (⟨S_, .i32⟩ : BufTy).Contents (Elt F) :=
  (constantI S_ 32 0#32)
def k_v87 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_26 a3)
def k_v88 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v64 a3) (k_v87 a3)
def k_c_27 (a3 : (⟨S5000x6, .f32⟩ : BufTy).Contents (Elt F)) : (⟨S_, .i32⟩ : BufTy).Contents (Elt F) :=
  (constantI S_ 32 80#32)
def k_v89 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_27 a3)
def k_v90 (a3 : (⟨S5000x6, .f32⟩ : BufTy).Contents (Elt F)) : (⟨S5000, .i32⟩ : BufTy).Contents (Elt F) :=
  (addi : (⟨S5000, .i32⟩ : BufTy).Contents (Elt F) → (⟨S5000, .i32⟩ : BufTy).Contents (Elt F) → (⟨S5000, .i32⟩ : BufTy).Contents (Elt F)) (k_v64 a3) (k_v89 a3)
def k_v91 (a3 : (⟨S5000x6, .f32⟩ : BufTy).Contents (Elt F)) : (⟨S5000, .i32⟩ : BufTy).Contents (Elt F) :=
  (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) (k_v88 a3) (k_v90 a3) (k_v64 a3)
def k_c_28 (a3 : (⟨S5000x6, .f32⟩ : BufTy).Contents (Elt F)) : (⟨S_, .i32⟩ : BufTy).Contents (Elt F) :=
  (constantI S_ 32 0#32)
def k_v92 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_28 a3)
def k_v93 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v59 a3) (k_v92 a3)
def k_c_29 (a3 : (⟨S5000x6, .f32⟩ : BufTy).Contents (Elt F)) : (⟨S_, .i32⟩ : BufTy).Contents (Elt F) :=
  (constantI S_ 32 80#32)
def k_v94 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_29 a3)
def k_v95 (a3 : (⟨S5000x6, .f32⟩ : BufTy).Contents (Elt F)) : (⟨S5000, .i32⟩ : BufTy).Contents (Elt F) :=
  (addi : (⟨S5000, .i32⟩ : BufTy).Contents (Elt F) → (⟨S5000, .i32⟩ : BufTy).Contents (Elt F) → (⟨S5000, .i32⟩ : BufTy).Contents (Elt F)) (k_v59 a3) (k_v94 a3)
def k_v96 (a3 : (⟨S5000x6, .f32⟩ : BufTy).Contents (Elt F)) : (⟨S5000, .i32⟩ : BufTy).Contents (Elt F) :=
  (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) (k_v93 a3) (k_v95 a3) (k_v59 a3)
def k_c_30 (a3 : (⟨S5000x6, .f32⟩ : BufTy).Contents (Elt F)) : (⟨S_, .i32⟩ : BufTy).Contents (Elt F) :=
  (constantI S_ 32 0#32)
def k_v97 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_30 a3)
def k_v98 (a3 : (⟨S5000x6, .f32⟩ : BufTy).Contents (Elt F)) : (⟨S5000, .i32⟩ : BufTy).Contents (Elt F) :=
  (id : (⟨S5000, .i32⟩ : BufTy).Contents (Elt F) → (⟨S5000, .i32⟩ : BufTy).Contents (Elt F)) (k_v97 a3)
def k_v99 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v86 a3)
def k_v100 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v98 a3)
def k_v101 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v91 a3)
def k_v102 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v96 a3)
def k_v103 (a3 : (⟨S5000x6, .f32⟩ : BufTy).Contents (Elt F)) : (⟨S5000x4, .i32⟩ : BufTy).Contents (Elt F) :=
  concatenate S5000x4 1 [⟨S5000x1, (k_v99 a3)⟩, ⟨S5000x1, (k_v100 a3)⟩, ⟨S5000x1, (k_v101 a3)⟩, ⟨S5000x1, (k_v102 a3)⟩] concatenates_S5000x1_S5000x1_S5000x1_S5000x1_S5000x4_d1
def k_cst_31 (a3 : (⟨S5000x6, .f32⟩ : BufTy).Contents (Elt F)) : (⟨S_, .f32⟩ : BufTy).Contents (Elt F) :=
  (constant S_ .f32 0x3F800000#32)
def k_v104 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst_31 a3)
def k_v105 (a3 : (⟨S5000x6, .f32⟩ : BufTy).Contents (Elt F)) : (⟨S64x1x80x80, .f32⟩ : BufTy).Contents (Elt F) :=
  ((fun x i u => Host.scatter scatter_S64x1x80x80_S5000x4_S5000_n_0123_0123_1 (fun _ b => b) x i u) : (⟨S64x1x80x80, .f32⟩ : BufTy).Contents (Elt F) → (⟨S5000x4, .i32⟩ : BufTy).Contents (Elt F) → (⟨S5000, .f32⟩ : BufTy).Contents (Elt F) → (⟨S64x1x80x80, .f32⟩ : BufTy).Contents (Elt F)) (k_v81 a3) (k_v103 a3) (k_v104 a3)

/-- Scale 1's objectness target as a function of the targets array. -/
def kot1 (a3 : (⟨S5000x6, .f32⟩ : BufTy).Contents (Elt F)) : (⟨S64x1x80x80, .f32⟩ : BufTy).Contents (Elt F) := k_v105 a3

/-! ## Scale 2 -/

def k_v106 (a3 : (⟨S5000x6, .f32⟩ : BufTy).Contents (Elt F)) : (⟨S5000x1, .f32⟩ : BufTy).Contents (Elt F) :=
  ((extractStridedSlice S5000x1 ![0, 0] · slices_S5000x6_S5000x1_0_0) : (⟨S5000x6, .f32⟩ : BufTy).Contents (Elt F) → (⟨S5000x1, .f32⟩ : BufTy).Contents (Elt F)) a3
def k_v107 (a3 : (⟨S5000x6, .f32⟩ : BufTy).Contents (Elt F)) : (⟨S5000, .f32⟩ : BufTy).Contents (Elt F) :=
  shapeCast _ (k_v106 a3) shapeCasts_S5000x1_S5000
def k_v108 (a3 : (⟨S5000x6, .f32⟩ : BufTy).Contents (Elt F)) : (⟨S5000x1, .f32⟩ : BufTy).Contents (Elt F) :=
  ((extractStridedSlice S5000x1 ![0, 1] · slices_S5000x6_S5000x1_0_1) : (⟨S5000x6, .f32⟩ : BufTy).Contents (Elt F) → (⟨S5000x1, .f32⟩ : BufTy).Contents (Elt F)) a3
def k_v109 (a3 : (⟨S5000x6, .f32⟩ : BufTy).Contents (Elt F)) : (⟨S5000, .f32⟩ : BufTy).Contents (Elt F) :=
  shapeCast _ (k_v108 a3) shapeCasts_S5000x1_S5000
def k_cst_32 (a3 : (⟨S5000x6, .f32⟩ : BufTy).Contents (Elt F)) : (⟨S_, .f32⟩ : BufTy).Contents (Elt F) :=
  (constant S_ .f32 0x42200000#32)
def k_v110 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst_32 a3)
def k_v111 (a3 : (⟨S5000x6, .f32⟩ : BufTy).Contents (Elt F)) : (⟨S5000, .f32⟩ : BufTy).Contents (Elt F) :=
  (mulf : (⟨S5000, .f32⟩ : BufTy).Contents (Elt F) → (⟨S5000, .f32⟩ : BufTy).Contents (Elt F) → (⟨S5000, .f32⟩ : BufTy).Contents (Elt F)) (k_v109 a3) (k_v110 a3)
def k_v112 (a3 : (⟨S5000x6, .f32⟩ : BufTy).Contents (Elt F)) : (⟨S5000, .i32⟩ : BufTy).Contents (Elt F) :=
  (fptosi 32 : (⟨S5000, .f32⟩ : BufTy).Contents (Elt F) → (⟨S5000, .i32⟩ : BufTy).Contents (Elt F)) (k_v111 a3)
def k_v113 (a3 : (⟨S5000x6, .f32⟩ : BufTy).Contents (Elt F)) : (⟨S5000x1, .f32⟩ : BufTy).Contents (Elt F) :=
  ((extractStridedSlice S5000x1 ![0, 2] · slices_S5000x6_S5000x1_0_2) : (⟨S5000x6, .f32⟩ : BufTy).Contents (Elt F) → (⟨S5000x1, .f32⟩ : BufTy).Contents (Elt F)) a3
def k_v114 (a3 : (⟨S5000x6, .f32⟩ : BufTy).Contents (Elt F)) : (⟨S5000, .f32⟩ : BufTy).Contents (Elt F) :=
  shapeCast _ (k_v113 a3) shapeCasts_S5000x1_S5000
def k_cst_33 (a3 : (⟨S5000x6, .f32⟩ : BufTy).Contents (Elt F)) : (⟨S_, .f32⟩ : BufTy).Contents (Elt F) :=
  (constant S_ .f32 0x42200000#32)
def k_v115 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst_33 a3)
def k_v116 (a3 : (⟨S5000x6, .f32⟩ : BufTy).Contents (Elt F)) : (⟨S5000, .f32⟩ : BufTy).Contents (Elt F) :=
  (mulf : (⟨S5000, .f32⟩ : BufTy).Contents (Elt F) → (⟨S5000, .f32⟩ : BufTy).Contents (Elt F) → (⟨S5000, .f32⟩ : BufTy).Contents (Elt F)) (k_v114 a3) (k_v115 a3)
def k_v117 (a3 : (⟨S5000x6, .f32⟩ : BufTy).Contents (Elt F)) : (⟨S5000, .i32⟩ : BufTy).Contents (Elt F) :=
  (fptosi 32 : (⟨S5000, .f32⟩ : BufTy).Contents (Elt F) → (⟨S5000, .i32⟩ : BufTy).Contents (Elt F)) (k_v116 a3)
def k_cst_34 (a3 : (⟨S5000x6, .f32⟩ : BufTy).Contents (Elt F)) : (⟨S_, .f32⟩ : BufTy).Contents (Elt F) :=
  (constant S_ .f32 0x42800000#32)
def k_v118 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst_34 a3)
def k_v119 (a3 : (⟨S5000x6, .f32⟩ : BufTy).Contents (Elt F)) : (⟨S5000, .i1⟩ : BufTy).Contents (Elt F) :=
  (cmpf .olt : (⟨S5000, .f32⟩ : BufTy).Contents (Elt F) → (⟨S5000, .f32⟩ : BufTy).Contents (Elt F) → (⟨S5000, .i1⟩ : BufTy).Contents (Elt F)) (k_v107 a3) (k_v118 a3)
def k_c_35 (a3 : (⟨S5000x6, .f32⟩ : BufTy).Contents (Elt F)) : (⟨S_, .i32⟩ : BufTy).Contents (Elt F) :=
  (constantI S_ 32 0#32)
def k_v120 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_35 a3)
def k_v121 (a3 : (⟨S5000x6, .f32⟩ : BufTy).Contents (Elt F)) : (⟨S5000, .i1⟩ : BufTy).Contents (Elt F) :=
  (cmpi .sge : (⟨S5000, .i32⟩ : BufTy).Contents (Elt F) → (⟨S5000, .i32⟩ : BufTy).Contents (Elt F) → (⟨S5000, .i1⟩ : BufTy).Contents (Elt F)) (k_v112 a3) (k_v120 a3)
def k_v122 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v119 a3) (k_v121 a3)
def k_c_36 (a3 : (⟨S5000x6, .f32⟩ : BufTy).Contents (Elt F)) : (⟨S_, .i32⟩ : BufTy).Contents (Elt F) :=
  (constantI S_ 32 40#32)
def k_v123 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_36 a3)
def k_v124 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v112 a3) (k_v123 a3)
def k_v125 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v122 a3) (k_v124 a3)
def k_c_37 (a3 : (⟨S5000x6, .f32⟩ : BufTy).Contents (Elt F)) : (⟨S_, .i32⟩ : BufTy).Contents (Elt F) :=
  (constantI S_ 32 0#32)
def k_v126 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_37 a3)
def k_v127 (a3 : (⟨S5000x6, .f32⟩ : BufTy).Contents (Elt F)) : (⟨S5000, .i1⟩ : BufTy).Contents (Elt F) :=
  (cmpi .sge : (⟨S5000, .i32⟩ : BufTy).Contents (Elt F) → (⟨S5000, .i32⟩ : BufTy).Contents (Elt F) → (⟨S5000, .i1⟩ : BufTy).Contents (Elt F)) (k_v117 a3) (k_v126 a3)
def k_v128 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v125 a3) (k_v127 a3)
def k_c_38 (a3 : (⟨S5000x6, .f32⟩ : BufTy).Contents (Elt F)) : (⟨S_, .i32⟩ : BufTy).Contents (Elt F) :=
  (constantI S_ 32 40#32)
def k_v129 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_38 a3)
def k_v130 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v117 a3) (k_v129 a3)
def k_v131 (a3 : (⟨S5000x6, .f32⟩ : BufTy).Contents (Elt F)) : (⟨S5000, .i1⟩ : BufTy).Contents (Elt F) :=
  (andi : (⟨S5000, .i1⟩ : BufTy).Contents (Elt F) → (⟨S5000, .i1⟩ : BufTy).Contents (Elt F) → (⟨S5000, .i1⟩ : BufTy).Contents (Elt F)) (k_v128 a3) (k_v130 a3)
def k_v132 (a3 : (⟨S5000x6, .f32⟩ : BufTy).Contents (Elt F)) : (⟨S5000, .i32⟩ : BufTy).Contents (Elt F) :=
  (fptosi 32 : (⟨S5000, .f32⟩ : BufTy).Contents (Elt F) → (⟨S5000, .i32⟩ : BufTy).Contents (Elt F)) (k_v107 a3)
def k_c_39 (a3 : (⟨S5000x6, .f32⟩ : BufTy).Contents (Elt F)) : (⟨S_, .i32⟩ : BufTy).Contents (Elt F) :=
  (constantI S_ 32 64#32)
def k_call2_v0 (a3 : (⟨S5000x6, .f32⟩ : BufTy).Contents (Elt F)) : (⟨S_, .i32⟩ : BufTy).Contents (Elt F) :=
  id (k_c_39 a3)
def k_call2_v1 (a3 : (⟨S5000x6, .f32⟩ : BufTy).Contents (Elt F)) : (⟨S5000, .i32⟩ : BufTy).Contents (Elt F) :=
  (broadcastInDim S5000 ![] bcast_S_S5000) (k_call2_v0 a3)
def k_v133 (a3 : (⟨S5000x6, .f32⟩ : BufTy).Contents (Elt F)) : (⟨S5000, .i32⟩ : BufTy).Contents (Elt F) :=
  select (k_v131 a3) (k_v132 a3) (k_call2_v1 a3)
def k_cst_40 (a3 : (⟨S5000x6, .f32⟩ : BufTy).Contents (Elt F)) : (⟨S_, .f32⟩ : BufTy).Contents (Elt F) :=
  (constant S_ .f32 0x00000000#32)
def k_v134 (a3 : (⟨S5000x6, .f32⟩ : BufTy).Contents (Elt F)) : (⟨S64x1x40x40, .f32⟩ : BufTy).Contents (Elt F) :=
  (broadcastInDim S64x1x40x40 ![] bcast_S_S64x1x40x40 : (⟨S_, .f32⟩ : BufTy).Contents (Elt F) → (⟨S64x1x40x40, .f32⟩ : BufTy).Contents (Elt F)) (k_cst_40 a3)
def k_c_41 (a3 : (⟨S5000x6, .f32⟩ : BufTy).Contents (Elt F)) : (⟨S_, .i32⟩ : BufTy).Contents (Elt F) :=
  (constantI S_ 32 0#32)
def k_v135 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_41 a3)
def k_v136 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v133 a3) (k_v135 a3)
def k_c_42 (a3 : (⟨S5000x6, .f32⟩ : BufTy).Contents (Elt F)) : (⟨S_, .i32⟩ : BufTy).Contents (Elt F) :=
  (constantI S_ 32 64#32)
def k_v137 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_42 a3)
def k_v138 (a3 : (⟨S5000x6, .f32⟩ : BufTy).Contents (Elt F)) : (⟨S5000, .i32⟩ : BufTy).Contents (Elt F) :=
  (addi : (⟨S5000, .i32⟩ : BufTy).Contents (Elt F) → (⟨S5000, .i32⟩ : BufTy).Contents (Elt F) → (⟨S5000, .i32⟩ : BufTy).Contents (Elt F)) (k_v133 a3) (k_v137 a3)
def k_v139 (a3 : (⟨S5000x6, .f32⟩ : BufTy).Contents (Elt F)) : (⟨S5000, .i32⟩ : BufTy).Contents (Elt F) :=
  (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) (k_v136 a3) (k_v138 a3) (k_v133 a3)
def k_c_43 (a3 : (⟨S5000x6, .f32⟩ : BufTy).Contents (Elt F)) : (⟨S_, .i32⟩ : BufTy).Contents (Elt F) :=
  (constantI S_ 32 0#32)
def k_v140 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_43 a3)
def k_v141 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v117 a3) (k_v140 a3)
def k_c_44 (a3 : (⟨S5000x6, .f32⟩ : BufTy).Contents (Elt F)) : (⟨S_, .i32⟩ : BufTy).Contents (Elt F) :=
  (constantI S_ 32 40#32)
def k_v142 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_44 a3)
def k_v143 (a3 : (⟨S5000x6, .f32⟩ : BufTy).Contents (Elt F)) : (⟨S5000, .i32⟩ : BufTy).Contents (Elt F) :=
  (addi : (⟨S5000, .i32⟩ : BufTy).Contents (Elt F) → (⟨S5000, .i32⟩ : BufTy).Contents (Elt F) → (⟨S5000, .i32⟩ : BufTy).Contents (Elt F)) (k_v117 a3) (k_v142 a3)
def k_v144 (a3 : (⟨S5000x6, .f32⟩ : BufTy).Contents (Elt F)) : (⟨S5000, .i32⟩ : BufTy).Contents (Elt F) :=
  (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) (k_v141 a3) (k_v143 a3) (k_v117 a3)
def k_c_45 (a3 : (⟨S5000x6, .f32⟩ : BufTy).Contents (Elt F)) : (⟨S_, .i32⟩ : BufTy).Contents (Elt F) :=
  (constantI S_ 32 0#32)
def k_v145 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_45 a3)
def k_v146 (a3 : (⟨S5000x6, .f32⟩ : BufTy).Contents (Elt F)) : (⟨S5000, .i1⟩ : BufTy).Contents (Elt F) :=
  (cmpi .slt : (⟨S5000, .i32⟩ : BufTy).Contents (Elt F) → (⟨S5000, .i32⟩ : BufTy).Contents (Elt F) → (⟨S5000, .i1⟩ : BufTy).Contents (Elt F)) (k_v112 a3) (k_v145 a3)
def k_c_46 (a3 : (⟨S5000x6, .f32⟩ : BufTy).Contents (Elt F)) : (⟨S_, .i32⟩ : BufTy).Contents (Elt F) :=
  (constantI S_ 32 40#32)
def k_v147 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_46 a3)
def k_v148 (a3 : (⟨S5000x6, .f32⟩ : BufTy).Contents (Elt F)) : (⟨S5000, .i32⟩ : BufTy).Contents (Elt F) :=
  (addi : (⟨S5000, .i32⟩ : BufTy).Contents (Elt F) → (⟨S5000, .i32⟩ : BufTy).Contents (Elt F) → (⟨S5000, .i32⟩ : BufTy).Contents (Elt F)) (k_v112 a3) (k_v147 a3)
def k_v149 (a3 : (⟨S5000x6, .f32⟩ : BufTy).Contents (Elt F)) : (⟨S5000, .i32⟩ : BufTy).Contents (Elt F) :=
  (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)) (k_v146 a3) (k_v148 a3) (k_v112 a3)
def k_c_47 (a3 : (⟨S5000x6, .f32⟩ : BufTy).Contents (Elt F)) : (⟨S_, .i32⟩ : BufTy).Contents (Elt F) :=
  (constantI S_ 32 0#32)
def k_v150 (a3 : (⟨S5000x6, .f32⟩ : BufTy).Contents (Elt F)) : (⟨S5000, .i32⟩ : BufTy).Contents (Elt F) :=
  (broadcastInDim S5000 ![] bcast_S_S5000 : (⟨S_, .i32⟩ : BufTy).Contents (Elt F) → (⟨S5000, .i32⟩ : BufTy).Contents (Elt F)) (k_c_47 a3)
def k_v151 (a3 : (⟨S5000x6, .f32⟩ : BufTy).Contents (Elt F)) : (⟨S5000, .i32⟩ : BufTy).Contents (Elt F) :=
  (id : (⟨S5000, .i32⟩ : BufTy).Contents (Elt F) → (⟨S5000, .i32⟩ : BufTy).Contents (Elt F)) (k_v150 a3)
def k_v152 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v139 a3)
def k_v153 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v151 a3)
def k_v154 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v144 a3)
def k_v155 (a3 : (⟨S5000x6, .f32⟩ : BufTy).Contents (Elt F)) : (⟨S5000x1, .i32⟩ : BufTy).Contents (Elt F) :=
  (broadcastInDim S5000x1 ![0] bcast_S5000_S5000x1_0 : (⟨S5000, .i32⟩ : BufTy).Contents (Elt F) → (⟨S5000x1, .i32⟩ : BufTy).Contents (Elt F)) (k_v149 a3)
def k_v156 (a3 : (⟨S5000x6, .f32⟩ : BufTy).Contents (Elt F)) : (⟨S5000x4, .i32⟩ : BufTy).Contents (Elt F) :=
  concatenate S5000x4 1 [⟨S5000x1, (k_v152 a3)⟩, ⟨S5000x1, (k_v153 a3)⟩, ⟨S5000x1, (k_v154 a3)⟩, ⟨S5000x1, (k_v155 a3)⟩] concatenates_S5000x1_S5000x1_S5000x1_S5000x1_S5000x4_d1
def k_cst_48 (a3 : (⟨S5000x6, .f32⟩ : BufTy).Contents (Elt F)) : (⟨S_, .f32⟩ : BufTy).Contents (Elt F) :=
  (constant S_ .f32 0x3F800000#32)
def k_v157 (a3 : (⟨S5000x6, .f32⟩ : BufTy).Contents (Elt F)) : (⟨S5000, .f32⟩ : BufTy).Contents (Elt F) :=
  (broadcastInDim S5000 ![] bcast_S_S5000 : (⟨S_, .f32⟩ : BufTy).Contents (Elt F) → (⟨S5000, .f32⟩ : BufTy).Contents (Elt F)) (k_cst_48 a3)
def k_v158 (a3 : (⟨S5000x6, .f32⟩ : BufTy).Contents (Elt F)) : (⟨S64x1x40x40, .f32⟩ : BufTy).Contents (Elt F) :=
  ((fun x i u => Host.scatter scatter_S64x1x40x40_S5000x4_S5000_n_0123_0123_1 (fun _ b => b) x i u) : (⟨S64x1x40x40, .f32⟩ : BufTy).Contents (Elt F) → (⟨S5000x4, .i32⟩ : BufTy).Contents (Elt F) → (⟨S5000, .f32⟩ : BufTy).Contents (Elt F) → (⟨S64x1x40x40, .f32⟩ : BufTy).Contents (Elt F)) (k_v134 a3) (k_v156 a3) (k_v157 a3)

/-- Scale 2's objectness target as a function of the targets array. -/
def kot2 (a3 : (⟨S5000x6, .f32⟩ : BufTy).Contents (Elt F)) : (⟨S64x1x40x40, .f32⟩ : BufTy).Contents (Elt F) := k_v158 a3

end Cert.KernelIdeal.Val
end
-- ==== Proof.KI.HostWrites.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.RunVals
import proofs.«153644_j35845797053068_1_alg».proof.Proof.KI.HostTerms
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen Cert.KernelIdeal.Hand

variable {F : FTy → Type} [FloatOps F]

variable (m : (ℓ : Loc nD τ sig) → Buf (Elt F) ℓ) (ρ : Dev nD → PrngReg)

/-! # The host stretches before the regions: what each writes, and what reaches the regions untouched -/

/-- The contents of one buffer after a line of operations, by one rewriting pass: each operation's result at its own
    buffer is its function of its operands' contents, and at any other buffer what was there. -/
macro "host_results" : tactic =>
  `(tactic| (simp (disch := decide) only [StableHlo.after_cons, StableHlo.after_nil,
      StableHlo.nullary_result', StableHlo.unary_result', StableHlo.binary_result', StableHlo.ternary_result',
      StableHlo.quaternary_result', StableHlo.reshape_result', StableHlo.nary4_result',
      StableHlo.nullary_result_ne', StableHlo.unary_result_ne', StableHlo.binary_result_ne', StableHlo.ternary_result_ne',
      StableHlo.quaternary_result_ne', StableHlo.reshape_result_ne', StableHlo.nary_result_ne']))

/-- The same one operation at a time, for what is left under a family of operands. -/
macro "host_finish" : tactic =>
  `(tactic| (repeat (first
      | rw [StableHlo.nullary_result] | rw [StableHlo.unary_result] | rw [StableHlo.binary_result] | rw [StableHlo.ternary_result]
      | rw [StableHlo.reshape_result]
      | (rw [StableHlo.nullary_result_ne]; rotate_left; decide)
      | (rw [StableHlo.unary_result_ne]; rotate_left; decide)
      | (rw [StableHlo.binary_result_ne]; rotate_left; decide)
      | (rw [StableHlo.ternary_result_ne]; rotate_left; decide)
      | (rw [StableHlo.reshape_result_ne]; rotate_left; decide)
      | (rw [StableHlo.nary_result_ne]; rotate_left; decide))))

/-! ## What each stretch writes -/

/-- The references `main_part0_ops0`'s operations write. -/
abbrev main_part0_ops0_W : List (Ref sig .tc) := [main_v0, main_v1, main_v2, main_v3, main_cst, main_v4, main_v5, main_v6, main_v7, main_v8, main_cst_0, main_v9, main_v10, main_v11, main_cst_1, main_v12, main_v13, main_c, main_v14, main_v15, main_v16, main_c_2, main_v17, main_v18, main_v19, main_c_3, main_v20, main_v21, main_v22, main_c_4, main_v23, main_v24, main_v25, main_v26, main_c_5]
theorem main_part0_ops0_writes : (main_part0_ops0 : List (HloOp τ sig (Elt F))).Forall fun op => op.writes ⊆ ((main_part0_ops0_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references `main_part0_ops1`'s operations write. -/
abbrev main_part0_ops1_W : List (Ref sig .tc) := [main_call0_v0, main_call0_v1, main_v27]
theorem main_part0_ops1_writes : (main_part0_ops1 : List (HloOp τ sig (Elt F))).Forall fun op => op.writes ⊆ ((main_part0_ops1_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references `main_part0_ops2`'s operations write. -/
abbrev main_part0_ops2_W : List (Ref sig .tc) := [main_cst_6, main_v28, main_c_7, main_v29, main_v30, main_c_8, main_v31, main_v32, main_v33, main_c_9, main_v34, main_v35, main_c_10, main_v36, main_v37, main_v38, main_c_11, main_v39, main_v40, main_c_12, main_v41, main_v42, main_v43, main_c_13]
theorem main_part0_ops2_writes : (main_part0_ops2 : List (HloOp τ sig (Elt F))).Forall fun op => op.writes ⊆ ((main_part0_ops2_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references `main_part1_ops0`'s operations write. -/
abbrev main_part1_ops0_W : List (Ref sig .tc) := [main_v44, main_v45, main_v46, main_v47, main_v48, main_v49, main_v50, main_cst_14, main_v51, main_v52, main_v53, main_v54, main_v55, main_v56, main_cst_15, main_v57, main_v58, main_v59, main_v60, main_v61, main_cst_16, main_v62, main_v63, main_v64, main_cst_17, main_v65, main_v66, main_c_18, main_v67, main_v68, main_v69, main_c_19, main_v70, main_v71, main_v72, main_c_20, main_v73, main_v74, main_v75, main_c_21, main_v76, main_v77, main_v78, main_v79, main_c_22]
theorem main_part1_ops0_writes : (main_part1_ops0 : List (HloOp τ sig (Elt F))).Forall fun op => op.writes ⊆ ((main_part1_ops0_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references `main_part1_ops1`'s operations write. -/
abbrev main_part1_ops1_W : List (Ref sig .tc) := [main_call1_v0, main_call1_v1, main_v80]
theorem main_part1_ops1_writes : (main_part1_ops1 : List (HloOp τ sig (Elt F))).Forall fun op => op.writes ⊆ ((main_part1_ops1_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references `main_part1_ops2`'s operations write. -/
abbrev main_part1_ops2_W : List (Ref sig .tc) := [main_cst_23, main_v81, main_c_24, main_v82, main_v83, main_c_25, main_v84, main_v85, main_v86, main_c_26, main_v87, main_v88, main_c_27, main_v89]
theorem main_part1_ops2_writes : (main_part1_ops2 : List (HloOp τ sig (Elt F))).Forall fun op => op.writes ⊆ ((main_part1_ops2_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references `main_part2_ops0`'s operations write. -/
abbrev main_part2_ops0_W : List (Ref sig .tc) := [main_v90, main_v91, main_c_28, main_v92, main_v93, main_c_29, main_v94, main_v95, main_v96, main_c_30, main_v97, main_v98, main_v99, main_v100, main_v101, main_v102, main_v103, main_cst_31, main_v104, main_v105, main_v106, main_v107, main_v108, main_v109, main_cst_32, main_v110, main_v111, main_v112, main_v113, main_v114, main_cst_33, main_v115, main_v116, main_v117, main_cst_34, main_v118, main_v119, main_c_35, main_v120, main_v121, main_v122, main_c_36, main_v123, main_v124, main_v125, main_c_37, main_v126, main_v127, main_v128, main_c_38, main_v129, main_v130, main_v131, main_v132, main_c_39]
theorem main_part2_ops0_writes : (main_part2_ops0 : List (HloOp τ sig (Elt F))).Forall fun op => op.writes ⊆ ((main_part2_ops0_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references `main_part2_ops1`'s operations write. -/
abbrev main_part2_ops1_W : List (Ref sig .tc) := [main_call2_v0, main_call2_v1, main_v133]
theorem main_part2_ops1_writes : (main_part2_ops1 : List (HloOp τ sig (Elt F))).Forall fun op => op.writes ⊆ ((main_part2_ops1_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references `main_part2_ops2`'s operations write. -/
abbrev main_part2_ops2_W : List (Ref sig .tc) := [main_cst_40, main_v134, main_c_41, main_v135]
theorem main_part2_ops2_writes : (main_part2_ops2 : List (HloOp τ sig (Elt F))).Forall fun op => op.writes ⊆ ((main_part2_ops2_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references `main_part3_ops0`'s operations write. -/
abbrev main_part3_ops0_W : List (Ref sig .tc) := [main_v136, main_c_42, main_v137, main_v138, main_v139, main_c_43, main_v140, main_v141, main_c_44, main_v142, main_v143, main_v144, main_c_45, main_v145, main_v146, main_c_46, main_v147, main_v148, main_v149, main_c_47, main_v150, main_v151, main_v152, main_v153, main_v154, main_v155, main_v156, main_cst_48, main_v157, main_v158]
theorem main_part3_ops0_writes : (main_part3_ops0 : List (HloOp τ sig (Elt F))).Forall fun op => op.writes ⊆ ((main_part3_ops0_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references `main_part3_ops1`'s operations write. -/
abbrev main_part3_ops1_W : List (Ref sig .tc) := [main_v160, main_cst_49, main_v161]
theorem main_part3_ops1_writes : (main_part3_ops1 : List (HloOp τ sig (Elt F))).Forall fun op => op.writes ⊆ ((main_part3_ops1_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-- The references `main_part3_ops2`'s operations write. -/
abbrev main_part3_ops2_W : List (Ref sig .tc) := [main_v163, main_cst_50, main_v164]
theorem main_part3_ops2_writes : (main_part3_ops2 : List (HloOp τ sig (Elt F))).Forall fun op => op.writes ⊆ ((main_part3_ops2_W).map (Proc.devRef (τ := τ) .tc)).toFinset := by
  simp only [List.Forall, StableHlo.nullary_writes, StableHlo.unary_writes, StableHlo.binary_writes, StableHlo.ternary_writes,
    StableHlo.quaternary_writes, StableHlo.reshape_writes, StableHlo.binaryIndexed_writes, StableHlo.unaryIndexed_writes, StableHlo.nary_writes,
    Finset.singleton_subset_iff, List.mem_toFinset]
  repeat' apply And.intro
  all_goals exact List.mem_map_of_mem (by decide)

/-! ## The targets array reaches every stretch as launched -/

theorem W0_arg3 (c : Dev nD) : W0 m ρ c (Proc.devRef .tc main_arg3) = m ((c : Thread nD τ).loc main_arg3) := rfl
theorem W1_arg3 (c : Dev nD) : W1 m ρ c (Proc.devRef .tc main_arg3) = m ((c : Thread nD τ).loc main_arg3) :=
  (after_arg3 main_part0_ops0_keeps _).trans (W0_arg3 m ρ c)
theorem W2_arg3 (c : Dev nD) : W2 m ρ c (Proc.devRef .tc main_arg3) = m ((c : Thread nD τ).loc main_arg3) :=
  (after_arg3 main_part0_ops1_keeps _).trans (W1_arg3 m ρ c)
theorem W3_arg3 (c : Dev nD) : W3 m ρ c (Proc.devRef .tc main_arg3) = m ((c : Thread nD τ).loc main_arg3) :=
  (after_arg3 main_part0_ops2_keeps _).trans (W2_arg3 m ρ c)
theorem W4_arg3 (c : Dev nD) : W4 m ρ c (Proc.devRef .tc main_arg3) = m ((c : Thread nD τ).loc main_arg3) :=
  (after_arg3 main_part1_ops0_keeps _).trans (W3_arg3 m ρ c)
theorem W5_arg3 (c : Dev nD) : W5 m ρ c (Proc.devRef .tc main_arg3) = m ((c : Thread nD τ).loc main_arg3) :=
  (after_arg3 main_part1_ops1_keeps _).trans (W4_arg3 m ρ c)
theorem W6_arg3 (c : Dev nD) : W6 m ρ c (Proc.devRef .tc main_arg3) = m ((c : Thread nD τ).loc main_arg3) :=
  (after_arg3 main_part1_ops2_keeps _).trans (W5_arg3 m ρ c)
theorem W7_arg3 (c : Dev nD) : W7 m ρ c (Proc.devRef .tc main_arg3) = m ((c : Thread nD τ).loc main_arg3) :=
  (after_arg3 main_part2_ops0_keeps _).trans (W6_arg3 m ρ c)
theorem W8_arg3 (c : Dev nD) : W8 m ρ c (Proc.devRef .tc main_arg3) = m ((c : Thread nD τ).loc main_arg3) :=
  (after_arg3 main_part2_ops1_keeps _).trans (W7_arg3 m ρ c)
theorem W9_arg3 (c : Dev nD) : W9 m ρ c (Proc.devRef .tc main_arg3) = m ((c : Thread nD τ).loc main_arg3) :=
  (after_arg3 main_part2_ops2_keeps _).trans (W8_arg3 m ρ c)

/-! ## Each region finds its prediction array as launched -/

/-- Region 0 finds the prediction array `main_arg0` as launched. -/
theorem V10_arg0 (c : Dev nD) : V10 m ρ c main_arg0 = m ((c : Thread nD τ).loc main_arg0) :=
  calc W10 m ρ c (Proc.devRef .tc main_arg0)
    _ = W9 m ρ c (Proc.devRef .tc main_arg0) := after_arg0 main_part3_ops0_keeps _
    _ = W8 m ρ c (Proc.devRef .tc main_arg0) := after_arg0 main_part2_ops2_keeps _
    _ = W7 m ρ c (Proc.devRef .tc main_arg0) := after_arg0 main_part2_ops1_keeps _
    _ = W6 m ρ c (Proc.devRef .tc main_arg0) := after_arg0 main_part2_ops0_keeps _
    _ = W5 m ρ c (Proc.devRef .tc main_arg0) := after_arg0 main_part1_ops2_keeps _
    _ = W4 m ρ c (Proc.devRef .tc main_arg0) := after_arg0 main_part1_ops1_keeps _
    _ = W3 m ρ c (Proc.devRef .tc main_arg0) := after_arg0 main_part1_ops0_keeps _
    _ = W2 m ρ c (Proc.devRef .tc main_arg0) := after_arg0 main_part0_ops2_keeps _
    _ = W1 m ρ c (Proc.devRef .tc main_arg0) := after_arg0 main_part0_ops1_keeps _
    _ = W0 m ρ c (Proc.devRef .tc main_arg0) := after_arg0 main_part0_ops0_keeps _
    _ = m ((c : Thread nD τ).loc main_arg0) := rfl
/-- Region 1 finds the prediction array `main_arg1` as launched. -/
theorem V12_arg1 (c : Dev nD) : V12 m ρ c main_arg1 = m ((c : Thread nD τ).loc main_arg1) :=
  calc W12 m ρ c (Proc.devRef .tc main_arg1)
    _ = W11 m ρ c (Proc.devRef .tc main_arg1) := after_arg1 main_part3_ops1_keeps _
    _ = W10 m ρ c (Proc.devRef .tc main_arg1) := W11_of_ne m ρ c main_arg1 (by decide)
    _ = W9 m ρ c (Proc.devRef .tc main_arg1) := after_arg1 main_part3_ops0_keeps _
    _ = W8 m ρ c (Proc.devRef .tc main_arg1) := after_arg1 main_part2_ops2_keeps _
    _ = W7 m ρ c (Proc.devRef .tc main_arg1) := after_arg1 main_part2_ops1_keeps _
    _ = W6 m ρ c (Proc.devRef .tc main_arg1) := after_arg1 main_part2_ops0_keeps _
    _ = W5 m ρ c (Proc.devRef .tc main_arg1) := after_arg1 main_part1_ops2_keeps _
    _ = W4 m ρ c (Proc.devRef .tc main_arg1) := after_arg1 main_part1_ops1_keeps _
    _ = W3 m ρ c (Proc.devRef .tc main_arg1) := after_arg1 main_part1_ops0_keeps _
    _ = W2 m ρ c (Proc.devRef .tc main_arg1) := after_arg1 main_part0_ops2_keeps _
    _ = W1 m ρ c (Proc.devRef .tc main_arg1) := after_arg1 main_part0_ops1_keeps _
    _ = W0 m ρ c (Proc.devRef .tc main_arg1) := after_arg1 main_part0_ops0_keeps _
    _ = m ((c : Thread nD τ).loc main_arg1) := rfl
/-- Region 2 finds the prediction array `main_arg2` as launched. -/
theorem V14_arg2 (c : Dev nD) : V14 m ρ c main_arg2 = m ((c : Thread nD τ).loc main_arg2) :=
  calc W14 m ρ c (Proc.devRef .tc main_arg2)
    _ = W13 m ρ c (Proc.devRef .tc main_arg2) := after_arg2 main_part3_ops2_keeps _
    _ = W12 m ρ c (Proc.devRef .tc main_arg2) := W13_of_ne m ρ c main_arg2 (by decide)
    _ = W11 m ρ c (Proc.devRef .tc main_arg2) := after_arg2 main_part3_ops1_keeps _
    _ = W10 m ρ c (Proc.devRef .tc main_arg2) := W11_of_ne m ρ c main_arg2 (by decide)
    _ = W9 m ρ c (Proc.devRef .tc main_arg2) := after_arg2 main_part3_ops0_keeps _
    _ = W8 m ρ c (Proc.devRef .tc main_arg2) := after_arg2 main_part2_ops2_keeps _
    _ = W7 m ρ c (Proc.devRef .tc main_arg2) := after_arg2 main_part2_ops1_keeps _
    _ = W6 m ρ c (Proc.devRef .tc main_arg2) := after_arg2 main_part2_ops0_keeps _
    _ = W5 m ρ c (Proc.devRef .tc main_arg2) := after_arg2 main_part1_ops2_keeps _
    _ = W4 m ρ c (Proc.devRef .tc main_arg2) := after_arg2 main_part1_ops1_keeps _
    _ = W3 m ρ c (Proc.devRef .tc main_arg2) := after_arg2 main_part1_ops0_keeps _
    _ = W2 m ρ c (Proc.devRef .tc main_arg2) := after_arg2 main_part0_ops2_keeps _
    _ = W1 m ρ c (Proc.devRef .tc main_arg2) := after_arg2 main_part0_ops1_keeps _
    _ = W0 m ρ c (Proc.devRef .tc main_arg2) := after_arg2 main_part0_ops0_keeps _
    _ = m ((c : Thread nD τ).loc main_arg2) := rfl

end Cert.KernelIdeal.Val
end
-- ==== Proof.KI.HostVals0.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.RunVals
import proofs.«153644_j35845797053068_1_alg».proof.Proof.KI.HostTerms
import proofs.«153644_j35845797053068_1_alg».proof.Proof.KI.HostWrites
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen Cert.KernelIdeal.Hand

variable {F : FTy → Type} [FloatOps F]

variable (m : (ℓ : Loc nD τ sig) → Buf (Elt F) ℓ) (ρ : Dev nD → PrngReg)

/-! # Scale 0's objectness target as region 0 finds it

Stretch by stretch, every buffer of the computation of `main_v52` that a later stretch reads holds its definition's
value (`k_…`) at the launch contents of the targets array; then `main_v52` itself is carried, unwritten, to the
region's entry. -/

theorem st_v6 (V : Valuation τ sig (Elt F)) (a3 : (⟨S5000x6, .f32⟩ : BufTy).Contents (Elt F)) (h3 : V (Proc.devRef .tc main_arg3) = a3) :
    StableHlo.after main_part0_ops0 V (Proc.devRef .tc main_v6) = k_v6 a3 := by
  host_results
  simp only [h3]
  rfl
theorem W1_v6 (c : Dev nD) : W1 m ρ c (Proc.devRef .tc main_v6) = k_v6 (m ((c : Thread nD τ).loc main_arg3)) :=
  st_v6 (W0 m ρ c) _ (W0_arg3 m ρ c)
theorem st_v11 (V : Valuation τ sig (Elt F)) (a3 : (⟨S5000x6, .f32⟩ : BufTy).Contents (Elt F)) (h3 : V (Proc.devRef .tc main_arg3) = a3) :
    StableHlo.after main_part0_ops0 V (Proc.devRef .tc main_v11) = k_v11 a3 := by
  host_results
  simp only [h3]
  rfl
theorem W1_v11 (c : Dev nD) : W1 m ρ c (Proc.devRef .tc main_v11) = k_v11 (m ((c : Thread nD τ).loc main_arg3)) :=
  st_v11 (W0 m ρ c) _ (W0_arg3 m ρ c)
theorem st_v25 (V : Valuation τ sig (Elt F)) (a3 : (⟨S5000x6, .f32⟩ : BufTy).Contents (Elt F)) (h3 : V (Proc.devRef .tc main_arg3) = a3) :
    StableHlo.after main_part0_ops0 V (Proc.devRef .tc main_v25) = k_v25 a3 := by
  host_results
  simp only [h3]
  rfl
theorem W1_v25 (c : Dev nD) : W1 m ρ c (Proc.devRef .tc main_v25) = k_v25 (m ((c : Thread nD τ).loc main_arg3)) :=
  st_v25 (W0 m ρ c) _ (W0_arg3 m ρ c)
theorem st_v26 (V : Valuation τ sig (Elt F)) (a3 : (⟨S5000x6, .f32⟩ : BufTy).Contents (Elt F)) (h3 : V (Proc.devRef .tc main_arg3) = a3) :
    StableHlo.after main_part0_ops0 V (Proc.devRef .tc main_v26) = k_v26 a3 := by
  host_results
  simp only [h3]
  rfl
theorem W1_v26 (c : Dev nD) : W1 m ρ c (Proc.devRef .tc main_v26) = k_v26 (m ((c : Thread nD τ).loc main_arg3)) :=
  st_v26 (W0 m ρ c) _ (W0_arg3 m ρ c)
theorem st_c_5 (V : Valuation τ sig (Elt F)) (a3 : (⟨S5000x6, .f32⟩ : BufTy).Contents (Elt F)) :
    StableHlo.after main_part0_ops0 V (Proc.devRef .tc main_c_5) = k_c_5 a3 := by
  host_results
  rfl
theorem W1_c_5 (c : Dev nD) : W1 m ρ c (Proc.devRef .tc main_c_5) = k_c_5 (m ((c : Thread nD τ).loc main_arg3)) :=
  st_c_5 (W0 m ρ c) _
theorem W2_v6 (c : Dev nD) : W2 m ρ c (Proc.devRef .tc main_v6) = k_v6 (m ((c : Thread nD τ).loc main_arg3)) :=
  (StableHlo.after_of_writes_sub main_part0_ops1 (W1 m ρ c) main_part0_ops1_writes (by decide)).trans (W1_v6 m ρ c)
theorem W2_v11 (c : Dev nD) : W2 m ρ c (Proc.devRef .tc main_v11) = k_v11 (m ((c : Thread nD τ).loc main_arg3)) :=
  (StableHlo.after_of_writes_sub main_part0_ops1 (W1 m ρ c) main_part0_ops1_writes (by decide)).trans (W1_v11 m ρ c)
theorem st_v27 (V : Valuation τ sig (Elt F)) (a3 : (⟨S5000x6, .f32⟩ : BufTy).Contents (Elt F)) (h_v25 : V (Proc.devRef .tc main_v25) = k_v25 a3) (h_v26 : V (Proc.devRef .tc main_v26) = k_v26 a3) (h_c_5 : V (Proc.devRef .tc main_c_5) = k_c_5 a3) :
    StableHlo.after main_part0_ops1 V (Proc.devRef .tc main_v27) = k_v27 a3 := by
  host_results
  simp only [h_v25, h_v26, h_c_5]
  rfl
theorem W2_v27 (c : Dev nD) : W2 m ρ c (Proc.devRef .tc main_v27) = k_v27 (m ((c : Thread nD τ).loc main_arg3)) :=
  st_v27 (W1 m ρ c) _ (W1_v25 m ρ c) (W1_v26 m ρ c) (W1_c_5 m ρ c)
theorem st_v28 (V : Valuation τ sig (Elt F)) (a3 : (⟨S5000x6, .f32⟩ : BufTy).Contents (Elt F)) :
    StableHlo.after main_part0_ops2 V (Proc.devRef .tc main_v28) = k_v28 a3 := by
  host_results
  rfl
theorem W3_v28 (c : Dev nD) : W3 m ρ c (Proc.devRef .tc main_v28) = k_v28 (m ((c : Thread nD τ).loc main_arg3)) :=
  st_v28 (W2 m ρ c) _
theorem st_v33 (V : Valuation τ sig (Elt F)) (a3 : (⟨S5000x6, .f32⟩ : BufTy).Contents (Elt F)) (h_v27 : V (Proc.devRef .tc main_v27) = k_v27 a3) :
    StableHlo.after main_part0_ops2 V (Proc.devRef .tc main_v33) = k_v33 a3 := by
  host_results
  simp only [h_v27]
  rfl
theorem W3_v33 (c : Dev nD) : W3 m ρ c (Proc.devRef .tc main_v33) = k_v33 (m ((c : Thread nD τ).loc main_arg3)) :=
  st_v33 (W2 m ρ c) _ (W2_v27 m ρ c)
theorem st_v38 (V : Valuation τ sig (Elt F)) (a3 : (⟨S5000x6, .f32⟩ : BufTy).Contents (Elt F)) (h_v11 : V (Proc.devRef .tc main_v11) = k_v11 a3) :
    StableHlo.after main_part0_ops2 V (Proc.devRef .tc main_v38) = k_v38 a3 := by
  host_results
  simp only [h_v11]
  rfl
theorem W3_v38 (c : Dev nD) : W3 m ρ c (Proc.devRef .tc main_v38) = k_v38 (m ((c : Thread nD τ).loc main_arg3)) :=
  st_v38 (W2 m ρ c) _ (W2_v11 m ρ c)
theorem st_v43 (V : Valuation τ sig (Elt F)) (a3 : (⟨S5000x6, .f32⟩ : BufTy).Contents (Elt F)) (h_v6 : V (Proc.devRef .tc main_v6) = k_v6 a3) :
    StableHlo.after main_part0_ops2 V (Proc.devRef .tc main_v43) = k_v43 a3 := by
  host_results
  simp only [h_v6]
  rfl
theorem W3_v43 (c : Dev nD) : W3 m ρ c (Proc.devRef .tc main_v43) = k_v43 (m ((c : Thread nD τ).loc main_arg3)) :=
  st_v43 (W2 m ρ c) _ (W2_v6 m ρ c)
theorem st_c_13 (V : Valuation τ sig (Elt F)) (a3 : (⟨S5000x6, .f32⟩ : BufTy).Contents (Elt F)) :
    StableHlo.after main_part0_ops2 V (Proc.devRef .tc main_c_13) = k_c_13 a3 := by
  host_results
  rfl
theorem W3_c_13 (c : Dev nD) : W3 m ρ c (Proc.devRef .tc main_c_13) = k_c_13 (m ((c : Thread nD τ).loc main_arg3)) :=
  st_c_13 (W2 m ρ c) _
theorem st_v52 (V : Valuation τ sig (Elt F)) (a3 : (⟨S5000x6, .f32⟩ : BufTy).Contents (Elt F)) (h_v28 : V (Proc.devRef .tc main_v28) = k_v28 a3) (h_v33 : V (Proc.devRef .tc main_v33) = k_v33 a3) (h_v38 : V (Proc.devRef .tc main_v38) = k_v38 a3) (h_v43 : V (Proc.devRef .tc main_v43) = k_v43 a3) (h_c_13 : V (Proc.devRef .tc main_c_13) = k_c_13 a3) :
    StableHlo.after main_part1_ops0 V (Proc.devRef .tc main_v52) = k_v52 a3 := by
  host_results
  host_finish
  rw [h_v28, h_v33, h_v38, h_v43, h_c_13]
  rfl
theorem W4_v52 (c : Dev nD) : W4 m ρ c (Proc.devRef .tc main_v52) = k_v52 (m ((c : Thread nD τ).loc main_arg3)) :=
  st_v52 (W3 m ρ c) _ (W3_v28 m ρ c) (W3_v33 m ρ c) (W3_v38 m ρ c) (W3_v43 m ρ c) (W3_c_13 m ρ c)
theorem W5_v52 (c : Dev nD) : W5 m ρ c (Proc.devRef .tc main_v52) = k_v52 (m ((c : Thread nD τ).loc main_arg3)) :=
  (StableHlo.after_of_writes_sub main_part1_ops1 (W4 m ρ c) main_part1_ops1_writes (by decide)).trans (W4_v52 m ρ c)
theorem W6_v52 (c : Dev nD) : W6 m ρ c (Proc.devRef .tc main_v52) = k_v52 (m ((c : Thread nD τ).loc main_arg3)) :=
  (StableHlo.after_of_writes_sub main_part1_ops2 (W5 m ρ c) main_part1_ops2_writes (by decide)).trans (W5_v52 m ρ c)
theorem W7_v52 (c : Dev nD) : W7 m ρ c (Proc.devRef .tc main_v52) = k_v52 (m ((c : Thread nD τ).loc main_arg3)) :=
  (StableHlo.after_of_writes_sub main_part2_ops0 (W6 m ρ c) main_part2_ops0_writes (by decide)).trans (W6_v52 m ρ c)
theorem W8_v52 (c : Dev nD) : W8 m ρ c (Proc.devRef .tc main_v52) = k_v52 (m ((c : Thread nD τ).loc main_arg3)) :=
  (StableHlo.after_of_writes_sub main_part2_ops1 (W7 m ρ c) main_part2_ops1_writes (by decide)).trans (W7_v52 m ρ c)
theorem W9_v52 (c : Dev nD) : W9 m ρ c (Proc.devRef .tc main_v52) = k_v52 (m ((c : Thread nD τ).loc main_arg3)) :=
  (StableHlo.after_of_writes_sub main_part2_ops2 (W8 m ρ c) main_part2_ops2_writes (by decide)).trans (W8_v52 m ρ c)
theorem W10_v52 (c : Dev nD) : W10 m ρ c (Proc.devRef .tc main_v52) = k_v52 (m ((c : Thread nD τ).loc main_arg3)) :=
  (StableHlo.after_of_writes_sub main_part3_ops0 (W9 m ρ c) main_part3_ops0_writes (by decide)).trans (W9_v52 m ρ c)

/-- Region 0 finds scale 0's objectness target, as the host operations compute it from the launch contents of the
    targets array, in the array its window 1 reads. -/
theorem V10_v52 (c : Dev nD) : V10 m ρ c main_v52 = kot0 (m ((c : Thread nD τ).loc main_arg3)) := W10_v52 m ρ c

end Cert.KernelIdeal.Val
end
-- ==== Proof.KI.HostVals1.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.RunVals
import proofs.«153644_j35845797053068_1_alg».proof.Proof.KI.HostTerms
import proofs.«153644_j35845797053068_1_alg».proof.Proof.KI.HostWrites
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen Cert.KernelIdeal.Hand

variable {F : FTy → Type} [FloatOps F]

variable (m : (ℓ : Loc nD τ sig) → Buf (Elt F) ℓ) (ρ : Dev nD → PrngReg)

/-! # Scale 1's objectness target as region 1 finds it

Stretch by stretch, every buffer of the computation of `main_v105` that a later stretch reads holds its definition's
value (`k_…`) at the launch contents of the targets array; then `main_v105` itself is carried, unwritten, to the
region's entry. -/

theorem st_v59 (V : Valuation τ sig (Elt F)) (a3 : (⟨S5000x6, .f32⟩ : BufTy).Contents (Elt F)) (h3 : V (Proc.devRef .tc main_arg3) = a3) :
    StableHlo.after main_part1_ops0 V (Proc.devRef .tc main_v59) = k_v59 a3 := by
  host_results
  simp only [h3]
  rfl
theorem W4_v59 (c : Dev nD) : W4 m ρ c (Proc.devRef .tc main_v59) = k_v59 (m ((c : Thread nD τ).loc main_arg3)) :=
  st_v59 (W3 m ρ c) _ (W3_arg3 m ρ c)
theorem st_v64 (V : Valuation τ sig (Elt F)) (a3 : (⟨S5000x6, .f32⟩ : BufTy).Contents (Elt F)) (h3 : V (Proc.devRef .tc main_arg3) = a3) :
    StableHlo.after main_part1_ops0 V (Proc.devRef .tc main_v64) = k_v64 a3 := by
  host_results
  simp only [h3]
  rfl
theorem W4_v64 (c : Dev nD) : W4 m ρ c (Proc.devRef .tc main_v64) = k_v64 (m ((c : Thread nD τ).loc main_arg3)) :=
  st_v64 (W3 m ρ c) _ (W3_arg3 m ρ c)
theorem st_v78 (V : Valuation τ sig (Elt F)) (a3 : (⟨S5000x6, .f32⟩ : BufTy).Contents (Elt F)) (h3 : V (Proc.devRef .tc main_arg3) = a3) :
    StableHlo.after main_part1_ops0 V (Proc.devRef .tc main_v78) = k_v78 a3 := by
  host_results
  simp only [h3]
  rfl
theorem W4_v78 (c : Dev nD) : W4 m ρ c (Proc.devRef .tc main_v78) = k_v78 (m ((c : Thread nD τ).loc main_arg3)) :=
  st_v78 (W3 m ρ c) _ (W3_arg3 m ρ c)
theorem st_v79 (V : Valuation τ sig (Elt F)) (a3 : (⟨S5000x6, .f32⟩ : BufTy).Contents (Elt F)) (h3 : V (Proc.devRef .tc main_arg3) = a3) :
    StableHlo.after main_part1_ops0 V (Proc.devRef .tc main_v79) = k_v79 a3 := by
  host_results
  simp only [h3]
  rfl
theorem W4_v79 (c : Dev nD) : W4 m ρ c (Proc.devRef .tc main_v79) = k_v79 (m ((c : Thread nD τ).loc main_arg3)) :=
  st_v79 (W3 m ρ c) _ (W3_arg3 m ρ c)
theorem st_c_22 (V : Valuation τ sig (Elt F)) (a3 : (⟨S5000x6, .f32⟩ : BufTy).Contents (Elt F)) :
    StableHlo.after main_part1_ops0 V (Proc.devRef .tc main_c_22) = k_c_22 a3 := by
  host_results
  rfl
theorem W4_c_22 (c : Dev nD) : W4 m ρ c (Proc.devRef .tc main_c_22) = k_c_22 (m ((c : Thread nD τ).loc main_arg3)) :=
  st_c_22 (W3 m ρ c) _
theorem W5_v59 (c : Dev nD) : W5 m ρ c (Proc.devRef .tc main_v59) = k_v59 (m ((c : Thread nD τ).loc main_arg3)) :=
  (StableHlo.after_of_writes_sub main_part1_ops1 (W4 m ρ c) main_part1_ops1_writes (by decide)).trans (W4_v59 m ρ c)
theorem W5_v64 (c : Dev nD) : W5 m ρ c (Proc.devRef .tc main_v64) = k_v64 (m ((c : Thread nD τ).loc main_arg3)) :=
  (StableHlo.after_of_writes_sub main_part1_ops1 (W4 m ρ c) main_part1_ops1_writes (by decide)).trans (W4_v64 m ρ c)
theorem st_v80 (V : Valuation τ sig (Elt F)) (a3 : (⟨S5000x6, .f32⟩ : BufTy).Contents (Elt F)) (h_v78 : V (Proc.devRef .tc main_v78) = k_v78 a3) (h_v79 : V (Proc.devRef .tc main_v79) = k_v79 a3) (h_c_22 : V (Proc.devRef .tc main_c_22) = k_c_22 a3) :
    StableHlo.after main_part1_ops1 V (Proc.devRef .tc main_v80) = k_v80 a3 := by
  host_results
  simp only [h_v78, h_v79, h_c_22]
  rfl
theorem W5_v80 (c : Dev nD) : W5 m ρ c (Proc.devRef .tc main_v80) = k_v80 (m ((c : Thread nD τ).loc main_arg3)) :=
  st_v80 (W4 m ρ c) _ (W4_v78 m ρ c) (W4_v79 m ρ c) (W4_c_22 m ρ c)
theorem W6_v59 (c : Dev nD) : W6 m ρ c (Proc.devRef .tc main_v59) = k_v59 (m ((c : Thread nD τ).loc main_arg3)) :=
  (StableHlo.after_of_writes_sub main_part1_ops2 (W5 m ρ c) main_part1_ops2_writes (by decide)).trans (W5_v59 m ρ c)
theorem W6_v64 (c : Dev nD) : W6 m ρ c (Proc.devRef .tc main_v64) = k_v64 (m ((c : Thread nD τ).loc main_arg3)) :=
  (StableHlo.after_of_writes_sub main_part1_ops2 (W5 m ρ c) main_part1_ops2_writes (by decide)).trans (W5_v64 m ρ c)
theorem st_v81 (V : Valuation τ sig (Elt F)) (a3 : (⟨S5000x6, .f32⟩ : BufTy).Contents (Elt F)) :
    StableHlo.after main_part1_ops2 V (Proc.devRef .tc main_v81) = k_v81 a3 := by
  host_results
  rfl
theorem W6_v81 (c : Dev nD) : W6 m ρ c (Proc.devRef .tc main_v81) = k_v81 (m ((c : Thread nD τ).loc main_arg3)) :=
  st_v81 (W5 m ρ c) _
theorem st_v86 (V : Valuation τ sig (Elt F)) (a3 : (⟨S5000x6, .f32⟩ : BufTy).Contents (Elt F)) (h_v80 : V (Proc.devRef .tc main_v80) = k_v80 a3) :
    StableHlo.after main_part1_ops2 V (Proc.devRef .tc main_v86) = k_v86 a3 := by
  host_results
  simp only [h_v80]
  rfl
theorem W6_v86 (c : Dev nD) : W6 m ρ c (Proc.devRef .tc main_v86) = k_v86 (m ((c : Thread nD τ).loc main_arg3)) :=
  st_v86 (W5 m ρ c) _ (W5_v80 m ρ c)
theorem st_v88 (V : Valuation τ sig (Elt F)) (a3 : (⟨S5000x6, .f32⟩ : BufTy).Contents (Elt F)) (h_v64 : V (Proc.devRef .tc main_v64) = k_v64 a3) :
    StableHlo.after main_part1_ops2 V (Proc.devRef .tc main_v88) = k_v88 a3 := by
  host_results
  simp only [h_v64]
  rfl
theorem W6_v88 (c : Dev nD) : W6 m ρ c (Proc.devRef .tc main_v88) = k_v88 (m ((c : Thread nD τ).loc main_arg3)) :=
  st_v88 (W5 m ρ c) _ (W5_v64 m ρ c)
theorem st_v89 (V : Valuation τ sig (Elt F)) (a3 : (⟨S5000x6, .f32⟩ : BufTy).Contents (Elt F)) :
    StableHlo.after main_part1_ops2 V (Proc.devRef .tc main_v89) = k_v89 a3 := by
  host_results
  rfl
theorem W6_v89 (c : Dev nD) : W6 m ρ c (Proc.devRef .tc main_v89) = k_v89 (m ((c : Thread nD τ).loc main_arg3)) :=
  st_v89 (W5 m ρ c) _
/-- `main_part2_ops0` up to the operation that joins the four index columns, -/
abbrev main_part2_ops0_a : List (HloOp τ sig (Elt F)) :=
  [ StableHlo.binary main_v64 main_v89 main_v90 (addi : (⟨S5000, .i32⟩ : BufTy).Contents (Elt F) → (⟨S5000, .i32⟩ : BufTy).Contents (Elt F) → (⟨S5000, .i32⟩ : BufTy).Contents (Elt F)),
    StableHlo.ternary main_v88 main_v90 main_v64 main_v91 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.nullary main_c_28 (constantI S_ 32 0#32),
    StableHlo.unary main_c_28 main_v92 (broadcastInDim S5000 ![] bcast_S_S5000 : (⟨S_, .i32⟩ : BufTy).Contents (Elt F) → (⟨S5000, .i32⟩ : BufTy).Contents (Elt F)),
    StableHlo.binary main_v59 main_v92 main_v93 (cmpi .slt : (⟨S5000, .i32⟩ : BufTy).Contents (Elt F) → (⟨S5000, .i32⟩ : BufTy).Contents (Elt F) → (⟨S5000, .i1⟩ : BufTy).Contents (Elt F)),
    StableHlo.nullary main_c_29 (constantI S_ 32 80#32),
    StableHlo.unary main_c_29 main_v94 (broadcastInDim S5000 ![] bcast_S_S5000 : (⟨S_, .i32⟩ : BufTy).Contents (Elt F) → (⟨S5000, .i32⟩ : BufTy).Contents (Elt F)),
    StableHlo.binary main_v59 main_v94 main_v95 (addi : (⟨S5000, .i32⟩ : BufTy).Contents (Elt F) → (⟨S5000, .i32⟩ : BufTy).Contents (Elt F) → (⟨S5000, .i32⟩ : BufTy).Contents (Elt F)),
    StableHlo.ternary main_v93 main_v95 main_v59 main_v96 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.nullary main_c_30 (constantI S_ 32 0#32),
    StableHlo.unary main_c_30 main_v97 (broadcastInDim S5000 ![] bcast_S_S5000 : (⟨S_, .i32⟩ : BufTy).Contents (Elt F) → (⟨S5000, .i32⟩ : BufTy).Contents (Elt F)),
    StableHlo.unary main_v97 main_v98 (id : (⟨S5000, .i32⟩ : BufTy).Contents (Elt F) → (⟨S5000, .i32⟩ : BufTy).Contents (Elt F)),
    StableHlo.unary main_v86 main_v99 (broadcastInDim S5000x1 ![0] bcast_S5000_S5000x1_0 : (⟨S5000, .i32⟩ : BufTy).Contents (Elt F) → (⟨S5000x1, .i32⟩ : BufTy).Contents (Elt F)),
    StableHlo.unary main_v98 main_v100 (broadcastInDim S5000x1 ![0] bcast_S5000_S5000x1_0 : (⟨S5000, .i32⟩ : BufTy).Contents (Elt F) → (⟨S5000x1, .i32⟩ : BufTy).Contents (Elt F)),
    StableHlo.unary main_v91 main_v101 (broadcastInDim S5000x1 ![0] bcast_S5000_S5000x1_0 : (⟨S5000, .i32⟩ : BufTy).Contents (Elt F) → (⟨S5000x1, .i32⟩ : BufTy).Contents (Elt F)),
    StableHlo.unary main_v96 main_v102 (broadcastInDim S5000x1 ![0] bcast_S5000_S5000x1_0 : (⟨S5000, .i32⟩ : BufTy).Contents (Elt F) → (⟨S5000x1, .i32⟩ : BufTy).Contents (Elt F)) ]
/-- and from it on. -/
abbrev main_part2_ops0_b : List (HloOp τ sig (Elt F)) :=
  [ StableHlo.nary ![main_v99, main_v100, main_v101, main_v102] main_v103 (fun u => concatenate S5000x4 1 [⟨S5000x1, u 0⟩, ⟨S5000x1, u 1⟩, ⟨S5000x1, u 2⟩, ⟨S5000x1, u 3⟩] concatenates_S5000x1_S5000x1_S5000x1_S5000x1_S5000x4_d1),
    StableHlo.nullary main_cst_31 (constant S_ .f32 0x3F800000#32),
    StableHlo.unary main_cst_31 main_v104 (broadcastInDim S5000 ![] bcast_S_S5000 : (⟨S_, .f32⟩ : BufTy).Contents (Elt F) → (⟨S5000, .f32⟩ : BufTy).Contents (Elt F)),
    StableHlo.ternary main_v81 main_v103 main_v104 main_v105 ((fun x i u => Host.scatter scatter_S64x1x80x80_S5000x4_S5000_n_0123_0123_1 (fun _ b => b) x i u) : (⟨S64x1x80x80, .f32⟩ : BufTy).Contents (Elt F) → (⟨S5000x4, .i32⟩ : BufTy).Contents (Elt F) → (⟨S5000, .f32⟩ : BufTy).Contents (Elt F) → (⟨S64x1x80x80, .f32⟩ : BufTy).Contents (Elt F)),
    StableHlo.unary main_arg3 main_v106 ((extractStridedSlice S5000x1 ![0, 0] · slices_S5000x6_S5000x1_0_0) : (⟨S5000x6, .f32⟩ : BufTy).Contents (Elt F) → (⟨S5000x1, .f32⟩ : BufTy).Contents (Elt F)),
    StableHlo.reshape main_v106 main_v107 rfl shapeCasts_S5000x1_S5000,
    StableHlo.unary main_arg3 main_v108 ((extractStridedSlice S5000x1 ![0, 1] · slices_S5000x6_S5000x1_0_1) : (⟨S5000x6, .f32⟩ : BufTy).Contents (Elt F) → (⟨S5000x1, .f32⟩ : BufTy).Contents (Elt F)),
    StableHlo.reshape main_v108 main_v109 rfl shapeCasts_S5000x1_S5000,
    StableHlo.nullary main_cst_32 (constant S_ .f32 0x42200000#32),
    StableHlo.unary main_cst_32 main_v110 (broadcastInDim S5000 ![] bcast_S_S5000 : (⟨S_, .f32⟩ : BufTy).Contents (Elt F) → (⟨S5000, .f32⟩ : BufTy).Contents (Elt F)),
    StableHlo.binary main_v109 main_v110 main_v111 (mulf : (⟨S5000, .f32⟩ : BufTy).Contents (Elt F) → (⟨S5000, .f32⟩ : BufTy).Contents (Elt F) → (⟨S5000, .f32⟩ : BufTy).Contents (Elt F)),
    StableHlo.unary main_v111 main_v112 (fptosi 32 : (⟨S5000, .f32⟩ : BufTy).Contents (Elt F) → (⟨S5000, .i32⟩ : BufTy).Contents (Elt F)),
    StableHlo.unary main_arg3 main_v113 ((extractStridedSlice S5000x1 ![0, 2] · slices_S5000x6_S5000x1_0_2) : (⟨S5000x6, .f32⟩ : BufTy).Contents (Elt F) → (⟨S5000x1, .f32⟩ : BufTy).Contents (Elt F)),
    StableHlo.reshape main_v113 main_v114 rfl shapeCasts_S5000x1_S5000,
    StableHlo.nullary main_cst_33 (constant S_ .f32 0x42200000#32),
    StableHlo.unary main_cst_33 main_v115 (broadcastInDim S5000 ![] bcast_S_S5000 : (⟨S_, .f32⟩ : BufTy).Contents (Elt F) → (⟨S5000, .f32⟩ : BufTy).Contents (Elt F)),
    StableHlo.binary main_v114 main_v115 main_v116 (mulf : (⟨S5000, .f32⟩ : BufTy).Contents (Elt F) → (⟨S5000, .f32⟩ : BufTy).Contents (Elt F) → (⟨S5000, .f32⟩ : BufTy).Contents (Elt F)),
    StableHlo.unary main_v116 main_v117 (fptosi 32 : (⟨S5000, .f32⟩ : BufTy).Contents (Elt F) → (⟨S5000, .i32⟩ : BufTy).Contents (Elt F)),
    StableHlo.nullary main_cst_34 (constant S_ .f32 0x42800000#32),
    StableHlo.unary main_cst_34 main_v118 (broadcastInDim S5000 ![] bcast_S_S5000 : (⟨S_, .f32⟩ : BufTy).Contents (Elt F) → (⟨S5000, .f32⟩ : BufTy).Contents (Elt F)),
    StableHlo.binary main_v107 main_v118 main_v119 (cmpf .olt : (⟨S5000, .f32⟩ : BufTy).Contents (Elt F) → (⟨S5000, .f32⟩ : BufTy).Contents (Elt F) → (⟨S5000, .i1⟩ : BufTy).Contents (Elt F)),
    StableHlo.nullary main_c_35 (constantI S_ 32 0#32),
    StableHlo.unary main_c_35 main_v120 (broadcastInDim S5000 ![] bcast_S_S5000 : (⟨S_, .i32⟩ : BufTy).Contents (Elt F) → (⟨S5000, .i32⟩ : BufTy).Contents (Elt F)),
    StableHlo.binary main_v112 main_v120 main_v121 (cmpi .sge : (⟨S5000, .i32⟩ : BufTy).Contents (Elt F) → (⟨S5000, .i32⟩ : BufTy).Contents (Elt F) → (⟨S5000, .i1⟩ : BufTy).Contents (Elt F)),
    StableHlo.binary main_v119 main_v121 main_v122 (andi : (⟨S5000, .i1⟩ : BufTy).Contents (Elt F) → (⟨S5000, .i1⟩ : BufTy).Contents (Elt F) → (⟨S5000, .i1⟩ : BufTy).Contents (Elt F)),
    StableHlo.nullary main_c_36 (constantI S_ 32 40#32),
    StableHlo.unary main_c_36 main_v123 (broadcastInDim S5000 ![] bcast_S_S5000 : (⟨S_, .i32⟩ : BufTy).Contents (Elt F) → (⟨S5000, .i32⟩ : BufTy).Contents (Elt F)),
    StableHlo.binary main_v112 main_v123 main_v124 (cmpi .slt : (⟨S5000, .i32⟩ : BufTy).Contents (Elt F) → (⟨S5000, .i32⟩ : BufTy).Contents (Elt F) → (⟨S5000, .i1⟩ : BufTy).Contents (Elt F)),
    StableHlo.binary main_v122 main_v124 main_v125 (andi : (⟨S5000, .i1⟩ : BufTy).Contents (Elt F) → (⟨S5000, .i1⟩ : BufTy).Contents (Elt F) → (⟨S5000, .i1⟩ : BufTy).Contents (Elt F)),
    StableHlo.nullary main_c_37 (constantI S_ 32 0#32),
    StableHlo.unary main_c_37 main_v126 (broadcastInDim S5000 ![] bcast_S_S5000 : (⟨S_, .i32⟩ : BufTy).Contents (Elt F) → (⟨S5000, .i32⟩ : BufTy).Contents (Elt F)),
    StableHlo.binary main_v117 main_v126 main_v127 (cmpi .sge : (⟨S5000, .i32⟩ : BufTy).Contents (Elt F) → (⟨S5000, .i32⟩ : BufTy).Contents (Elt F) → (⟨S5000, .i1⟩ : BufTy).Contents (Elt F)),
    StableHlo.binary main_v125 main_v127 main_v128 (andi : (⟨S5000, .i1⟩ : BufTy).Contents (Elt F) → (⟨S5000, .i1⟩ : BufTy).Contents (Elt F) → (⟨S5000, .i1⟩ : BufTy).Contents (Elt F)),
    StableHlo.nullary main_c_38 (constantI S_ 32 40#32),
    StableHlo.unary main_c_38 main_v129 (broadcastInDim S5000 ![] bcast_S_S5000 : (⟨S_, .i32⟩ : BufTy).Contents (Elt F) → (⟨S5000, .i32⟩ : BufTy).Contents (Elt F)),
    StableHlo.binary main_v117 main_v129 main_v130 (cmpi .slt : (⟨S5000, .i32⟩ : BufTy).Contents (Elt F) → (⟨S5000, .i32⟩ : BufTy).Contents (Elt F) → (⟨S5000, .i1⟩ : BufTy).Contents (Elt F)),
    StableHlo.binary main_v128 main_v130 main_v131 (andi : (⟨S5000, .i1⟩ : BufTy).Contents (Elt F) → (⟨S5000, .i1⟩ : BufTy).Contents (Elt F) → (⟨S5000, .i1⟩ : BufTy).Contents (Elt F)),
    StableHlo.unary main_v107 main_v132 (fptosi 32 : (⟨S5000, .f32⟩ : BufTy).Contents (Elt F) → (⟨S5000, .i32⟩ : BufTy).Contents (Elt F)),
    StableHlo.nullary main_c_39 (constantI S_ 32 64#32) ]
theorem main_part2_ops0_split : (main_part2_ops0 : List (HloOp τ sig (Elt F))) = main_part2_ops0_a ++ main_part2_ops0_b := rfl
theorem sa_v81 (V : Valuation τ sig (Elt F)) (a3 : (⟨S5000x6, .f32⟩ : BufTy).Contents (Elt F)) (h_v81 : V (Proc.devRef .tc main_v81) = k_v81 a3) :
    StableHlo.after main_part2_ops0_a V (Proc.devRef .tc main_v81) = k_v81 a3 := by
  host_results
  simp only [h_v81]
theorem sa_v99 (V : Valuation τ sig (Elt F)) (a3 : (⟨S5000x6, .f32⟩ : BufTy).Contents (Elt F)) (h_v86 : V (Proc.devRef .tc main_v86) = k_v86 a3) :
    StableHlo.after main_part2_ops0_a V (Proc.devRef .tc main_v99) = k_v99 a3 := by
  host_results
  simp only [h_v86]
  rfl
theorem sa_v100 (V : Valuation τ sig (Elt F)) (a3 : (⟨S5000x6, .f32⟩ : BufTy).Contents (Elt F)) :
    StableHlo.after main_part2_ops0_a V (Proc.devRef .tc main_v100) = k_v100 a3 := by
  host_results
  rfl
theorem sa_v101 (V : Valuation τ sig (Elt F)) (a3 : (⟨S5000x6, .f32⟩ : BufTy).Contents (Elt F)) (h_v64 : V (Proc.devRef .tc main_v64) = k_v64 a3) (h_v88 : V (Proc.devRef .tc main_v88) = k_v88 a3) (h_v89 : V (Proc.devRef .tc main_v89) = k_v89 a3) :
    StableHlo.after main_part2_ops0_a V (Proc.devRef .tc main_v101) = k_v101 a3 := by
  host_results
  simp only [h_v64, h_v88, h_v89]
  rfl
theorem sa_v102 (V : Valuation τ sig (Elt F)) (a3 : (⟨S5000x6, .f32⟩ : BufTy).Contents (Elt F)) (h_v59 : V (Proc.devRef .tc main_v59) = k_v59 a3) :
    StableHlo.after main_part2_ops0_a V (Proc.devRef .tc main_v102) = k_v102 a3 := by
  host_results
  simp only [h_v59]
  rfl
theorem sb_v105 (V : Valuation τ sig (Elt F)) (a3 : (⟨S5000x6, .f32⟩ : BufTy).Contents (Elt F)) (h_v81 : V (Proc.devRef .tc main_v81) = k_v81 a3) (h_v99 : V (Proc.devRef .tc main_v99) = k_v99 a3) (h_v100 : V (Proc.devRef .tc main_v100) = k_v100 a3) (h_v101 : V (Proc.devRef .tc main_v101) = k_v101 a3) (h_v102 : V (Proc.devRef .tc main_v102) = k_v102 a3) :
    StableHlo.after main_part2_ops0_b V (Proc.devRef .tc main_v105) = k_v105 a3 := by
  host_results
  host_finish
  rw [h_v81, h_v99, h_v100, h_v101, h_v102]
  rfl
theorem st_v105 (V : Valuation τ sig (Elt F)) (a3 : (⟨S5000x6, .f32⟩ : BufTy).Contents (Elt F)) (h_v59 : V (Proc.devRef .tc main_v59) = k_v59 a3) (h_v64 : V (Proc.devRef .tc main_v64) = k_v64 a3) (h_v81 : V (Proc.devRef .tc main_v81) = k_v81 a3) (h_v86 : V (Proc.devRef .tc main_v86) = k_v86 a3) (h_v88 : V (Proc.devRef .tc main_v88) = k_v88 a3) (h_v89 : V (Proc.devRef .tc main_v89) = k_v89 a3) :
    StableHlo.after main_part2_ops0 V (Proc.devRef .tc main_v105) = k_v105 a3 := by
  rw [main_part2_ops0_split, StableHlo.after_append]
  exact sb_v105 _ a3 (sa_v81 V a3 h_v81) (sa_v99 V a3 h_v86) (sa_v100 V a3) (sa_v101 V a3 h_v64 h_v88 h_v89) (sa_v102 V a3 h_v59)
theorem W7_v105 (c : Dev nD) : W7 m ρ c (Proc.devRef .tc main_v105) = k_v105 (m ((c : Thread nD τ).loc main_arg3)) :=
  st_v105 (W6 m ρ c) _ (W6_v59 m ρ c) (W6_v64 m ρ c) (W6_v81 m ρ c) (W6_v86 m ρ c) (W6_v88 m ρ c) (W6_v89 m ρ c)
theorem W8_v105 (c : Dev nD) : W8 m ρ c (Proc.devRef .tc main_v105) = k_v105 (m ((c : Thread nD τ).loc main_arg3)) :=
  (StableHlo.after_of_writes_sub main_part2_ops1 (W7 m ρ c) main_part2_ops1_writes (by decide)).trans (W7_v105 m ρ c)
theorem W9_v105 (c : Dev nD) : W9 m ρ c (Proc.devRef .tc main_v105) = k_v105 (m ((c : Thread nD τ).loc main_arg3)) :=
  (StableHlo.after_of_writes_sub main_part2_ops2 (W8 m ρ c) main_part2_ops2_writes (by decide)).trans (W8_v105 m ρ c)
theorem W10_v105 (c : Dev nD) : W10 m ρ c (Proc.devRef .tc main_v105) = k_v105 (m ((c : Thread nD τ).loc main_arg3)) :=
  (StableHlo.after_of_writes_sub main_part3_ops0 (W9 m ρ c) main_part3_ops0_writes (by decide)).trans (W9_v105 m ρ c)
theorem W11_v105 (c : Dev nD) : W11 m ρ c (Proc.devRef .tc main_v105) = k_v105 (m ((c : Thread nD τ).loc main_arg3)) :=
  (W11_of_ne m ρ c main_v105 (by decide)).trans (W10_v105 m ρ c)
theorem W12_v105 (c : Dev nD) : W12 m ρ c (Proc.devRef .tc main_v105) = k_v105 (m ((c : Thread nD τ).loc main_arg3)) :=
  (StableHlo.after_of_writes_sub main_part3_ops1 (W11 m ρ c) main_part3_ops1_writes (by decide)).trans (W11_v105 m ρ c)

/-- Region 1 finds scale 1's objectness target, as the host operations compute it from the launch contents of the
    targets array, in the array its window 1 reads. -/
theorem V12_v105 (c : Dev nD) : V12 m ρ c main_v105 = kot1 (m ((c : Thread nD τ).loc main_arg3)) := W12_v105 m ρ c

end Cert.KernelIdeal.Val
end
-- ==== Proof.KI.HostVals2.lean ====
import proofs.«153644_j35845797053068_1_alg».proof.Proof.Gen.KernelIdeal.Launch
import proofs.«153644_j35845797053068_1_alg».proof.Proof.Gen.KernelIdeal.Skeleton
import proofs.«153644_j35845797053068_1_alg».proof.Proof.Gen.KernelIdeal.Points
import proofs.«153644_j35845797053068_1_alg».proof.Proof.KI.RunVals
import proofs.«153644_j35845797053068_1_alg».proof.Proof.KI.HostTerms
import proofs.«153644_j35845797053068_1_alg».proof.Proof.KI.HostWrites
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)
open Cert.KernelIdeal Cert.KernelIdeal.Gen Cert.KernelIdeal.Hand

variable {F : FTy → Type} [FloatOps F]

variable (m : (ℓ : Loc nD τ sig) → Buf (Elt F) ℓ) (ρ : Dev nD → PrngReg)

/-! # Scale 2's objectness target as region 2 finds it

Stretch by stretch, every buffer of the computation of `main_v158` that a later stretch reads holds its definition's
value (`k_…`) at the launch contents of the targets array; then `main_v158` itself is carried, unwritten, to the
region's entry. -/

theorem st_v112 (V : Valuation τ sig (Elt F)) (a3 : (⟨S5000x6, .f32⟩ : BufTy).Contents (Elt F)) (h3 : V (Proc.devRef .tc main_arg3) = a3) :
    StableHlo.after main_part2_ops0 V (Proc.devRef .tc main_v112) = k_v112 a3 := by
  host_results
  simp only [h3]
  rfl
theorem W7_v112 (c : Dev nD) : W7 m ρ c (Proc.devRef .tc main_v112) = k_v112 (m ((c : Thread nD τ).loc main_arg3)) :=
  st_v112 (W6 m ρ c) _ (W6_arg3 m ρ c)
theorem st_v117 (V : Valuation τ sig (Elt F)) (a3 : (⟨S5000x6, .f32⟩ : BufTy).Contents (Elt F)) (h3 : V (Proc.devRef .tc main_arg3) = a3) :
    StableHlo.after main_part2_ops0 V (Proc.devRef .tc main_v117) = k_v117 a3 := by
  host_results
  simp only [h3]
  rfl
theorem W7_v117 (c : Dev nD) : W7 m ρ c (Proc.devRef .tc main_v117) = k_v117 (m ((c : Thread nD τ).loc main_arg3)) :=
  st_v117 (W6 m ρ c) _ (W6_arg3 m ρ c)
theorem st_v131 (V : Valuation τ sig (Elt F)) (a3 : (⟨S5000x6, .f32⟩ : BufTy).Contents (Elt F)) (h3 : V (Proc.devRef .tc main_arg3) = a3) :
    StableHlo.after main_part2_ops0 V (Proc.devRef .tc main_v131) = k_v131 a3 := by
  host_results
  simp only [h3]
  rfl
theorem W7_v131 (c : Dev nD) : W7 m ρ c (Proc.devRef .tc main_v131) = k_v131 (m ((c : Thread nD τ).loc main_arg3)) :=
  st_v131 (W6 m ρ c) _ (W6_arg3 m ρ c)
theorem st_v132 (V : Valuation τ sig (Elt F)) (a3 : (⟨S5000x6, .f32⟩ : BufTy).Contents (Elt F)) (h3 : V (Proc.devRef .tc main_arg3) = a3) :
    StableHlo.after main_part2_ops0 V (Proc.devRef .tc main_v132) = k_v132 a3 := by
  host_results
  simp only [h3]
  rfl
theorem W7_v132 (c : Dev nD) : W7 m ρ c (Proc.devRef .tc main_v132) = k_v132 (m ((c : Thread nD τ).loc main_arg3)) :=
  st_v132 (W6 m ρ c) _ (W6_arg3 m ρ c)
theorem st_c_39 (V : Valuation τ sig (Elt F)) (a3 : (⟨S5000x6, .f32⟩ : BufTy).Contents (Elt F)) :
    StableHlo.after main_part2_ops0 V (Proc.devRef .tc main_c_39) = k_c_39 a3 := by
  host_results
  rfl
theorem W7_c_39 (c : Dev nD) : W7 m ρ c (Proc.devRef .tc main_c_39) = k_c_39 (m ((c : Thread nD τ).loc main_arg3)) :=
  st_c_39 (W6 m ρ c) _
theorem W8_v112 (c : Dev nD) : W8 m ρ c (Proc.devRef .tc main_v112) = k_v112 (m ((c : Thread nD τ).loc main_arg3)) :=
  (StableHlo.after_of_writes_sub main_part2_ops1 (W7 m ρ c) main_part2_ops1_writes (by decide)).trans (W7_v112 m ρ c)
theorem W8_v117 (c : Dev nD) : W8 m ρ c (Proc.devRef .tc main_v117) = k_v117 (m ((c : Thread nD τ).loc main_arg3)) :=
  (StableHlo.after_of_writes_sub main_part2_ops1 (W7 m ρ c) main_part2_ops1_writes (by decide)).trans (W7_v117 m ρ c)
theorem st_v133 (V : Valuation τ sig (Elt F)) (a3 : (⟨S5000x6, .f32⟩ : BufTy).Contents (Elt F)) (h_v131 : V (Proc.devRef .tc main_v131) = k_v131 a3) (h_v132 : V (Proc.devRef .tc main_v132) = k_v132 a3) (h_c_39 : V (Proc.devRef .tc main_c_39) = k_c_39 a3) :
    StableHlo.after main_part2_ops1 V (Proc.devRef .tc main_v133) = k_v133 a3 := by
  host_results
  simp only [h_v131, h_v132, h_c_39]
  rfl
theorem W8_v133 (c : Dev nD) : W8 m ρ c (Proc.devRef .tc main_v133) = k_v133 (m ((c : Thread nD τ).loc main_arg3)) :=
  st_v133 (W7 m ρ c) _ (W7_v131 m ρ c) (W7_v132 m ρ c) (W7_c_39 m ρ c)
theorem W9_v112 (c : Dev nD) : W9 m ρ c (Proc.devRef .tc main_v112) = k_v112 (m ((c : Thread nD τ).loc main_arg3)) :=
  (StableHlo.after_of_writes_sub main_part2_ops2 (W8 m ρ c) main_part2_ops2_writes (by decide)).trans (W8_v112 m ρ c)
theorem W9_v117 (c : Dev nD) : W9 m ρ c (Proc.devRef .tc main_v117) = k_v117 (m ((c : Thread nD τ).loc main_arg3)) :=
  (StableHlo.after_of_writes_sub main_part2_ops2 (W8 m ρ c) main_part2_ops2_writes (by decide)).trans (W8_v117 m ρ c)
theorem W9_v133 (c : Dev nD) : W9 m ρ c (Proc.devRef .tc main_v133) = k_v133 (m ((c : Thread nD τ).loc main_arg3)) :=
  (StableHlo.after_of_writes_sub main_part2_ops2 (W8 m ρ c) main_part2_ops2_writes (by decide)).trans (W8_v133 m ρ c)
theorem st_v134 (V : Valuation τ sig (Elt F)) (a3 : (⟨S5000x6, .f32⟩ : BufTy).Contents (Elt F)) :
    StableHlo.after main_part2_ops2 V (Proc.devRef .tc main_v134) = k_v134 a3 := by
  host_results
  rfl
theorem W9_v134 (c : Dev nD) : W9 m ρ c (Proc.devRef .tc main_v134) = k_v134 (m ((c : Thread nD τ).loc main_arg3)) :=
  st_v134 (W8 m ρ c) _
theorem st_v135 (V : Valuation τ sig (Elt F)) (a3 : (⟨S5000x6, .f32⟩ : BufTy).Contents (Elt F)) :
    StableHlo.after main_part2_ops2 V (Proc.devRef .tc main_v135) = k_v135 a3 := by
  host_results
  rfl
theorem W9_v135 (c : Dev nD) : W9 m ρ c (Proc.devRef .tc main_v135) = k_v135 (m ((c : Thread nD τ).loc main_arg3)) :=
  st_v135 (W8 m ρ c) _
/-- `main_part3_ops0` up to the operation that joins the four index columns, -/
abbrev main_part3_ops0_a : List (HloOp τ sig (Elt F)) :=
  [ StableHlo.binary main_v133 main_v135 main_v136 (cmpi .slt : (⟨S5000, .i32⟩ : BufTy).Contents (Elt F) → (⟨S5000, .i32⟩ : BufTy).Contents (Elt F) → (⟨S5000, .i1⟩ : BufTy).Contents (Elt F)),
    StableHlo.nullary main_c_42 (constantI S_ 32 64#32),
    StableHlo.unary main_c_42 main_v137 (broadcastInDim S5000 ![] bcast_S_S5000 : (⟨S_, .i32⟩ : BufTy).Contents (Elt F) → (⟨S5000, .i32⟩ : BufTy).Contents (Elt F)),
    StableHlo.binary main_v133 main_v137 main_v138 (addi : (⟨S5000, .i32⟩ : BufTy).Contents (Elt F) → (⟨S5000, .i32⟩ : BufTy).Contents (Elt F) → (⟨S5000, .i32⟩ : BufTy).Contents (Elt F)),
    StableHlo.ternary main_v136 main_v138 main_v133 main_v139 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.nullary main_c_43 (constantI S_ 32 0#32),
    StableHlo.unary main_c_43 main_v140 (broadcastInDim S5000 ![] bcast_S_S5000 : (⟨S_, .i32⟩ : BufTy).Contents (Elt F) → (⟨S5000, .i32⟩ : BufTy).Contents (Elt F)),
    StableHlo.binary main_v117 main_v140 main_v141 (cmpi .slt : (⟨S5000, .i32⟩ : BufTy).Contents (Elt F) → (⟨S5000, .i32⟩ : BufTy).Contents (Elt F) → (⟨S5000, .i1⟩ : BufTy).Contents (Elt F)),
    StableHlo.nullary main_c_44 (constantI S_ 32 40#32),
    StableHlo.unary main_c_44 main_v142 (broadcastInDim S5000 ![] bcast_S_S5000 : (⟨S_, .i32⟩ : BufTy).Contents (Elt F) → (⟨S5000, .i32⟩ : BufTy).Contents (Elt F)),
    StableHlo.binary main_v117 main_v142 main_v143 (addi : (⟨S5000, .i32⟩ : BufTy).Contents (Elt F) → (⟨S5000, .i32⟩ : BufTy).Contents (Elt F) → (⟨S5000, .i32⟩ : BufTy).Contents (Elt F)),
    StableHlo.ternary main_v141 main_v143 main_v117 main_v144 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.nullary main_c_45 (constantI S_ 32 0#32),
    StableHlo.unary main_c_45 main_v145 (broadcastInDim S5000 ![] bcast_S_S5000 : (⟨S_, .i32⟩ : BufTy).Contents (Elt F) → (⟨S5000, .i32⟩ : BufTy).Contents (Elt F)),
    StableHlo.binary main_v112 main_v145 main_v146 (cmpi .slt : (⟨S5000, .i32⟩ : BufTy).Contents (Elt F) → (⟨S5000, .i32⟩ : BufTy).Contents (Elt F) → (⟨S5000, .i1⟩ : BufTy).Contents (Elt F)),
    StableHlo.nullary main_c_46 (constantI S_ 32 40#32),
    StableHlo.unary main_c_46 main_v147 (broadcastInDim S5000 ![] bcast_S_S5000 : (⟨S_, .i32⟩ : BufTy).Contents (Elt F) → (⟨S5000, .i32⟩ : BufTy).Contents (Elt F)),
    StableHlo.binary main_v112 main_v147 main_v148 (addi : (⟨S5000, .i32⟩ : BufTy).Contents (Elt F) → (⟨S5000, .i32⟩ : BufTy).Contents (Elt F) → (⟨S5000, .i32⟩ : BufTy).Contents (Elt F)),
    StableHlo.ternary main_v146 main_v148 main_v112 main_v149 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    StableHlo.nullary main_c_47 (constantI S_ 32 0#32),
    StableHlo.unary main_c_47 main_v150 (broadcastInDim S5000 ![] bcast_S_S5000 : (⟨S_, .i32⟩ : BufTy).Contents (Elt F) → (⟨S5000, .i32⟩ : BufTy).Contents (Elt F)),
    StableHlo.unary main_v150 main_v151 (id : (⟨S5000, .i32⟩ : BufTy).Contents (Elt F) → (⟨S5000, .i32⟩ : BufTy).Contents (Elt F)),
    StableHlo.unary main_v139 main_v152 (broadcastInDim S5000x1 ![0] bcast_S5000_S5000x1_0 : (⟨S5000, .i32⟩ : BufTy).Contents (Elt F) → (⟨S5000x1, .i32⟩ : BufTy).Contents (Elt F)),
    StableHlo.unary main_v151 main_v153 (broadcastInDim S5000x1 ![0] bcast_S5000_S5000x1_0 : (⟨S5000, .i32⟩ : BufTy).Contents (Elt F) → (⟨S5000x1, .i32⟩ : BufTy).Contents (Elt F)),
    StableHlo.unary main_v144 main_v154 (broadcastInDim S5000x1 ![0] bcast_S5000_S5000x1_0 : (⟨S5000, .i32⟩ : BufTy).Contents (Elt F) → (⟨S5000x1, .i32⟩ : BufTy).Contents (Elt F)),
    StableHlo.unary main_v149 main_v155 (broadcastInDim S5000x1 ![0] bcast_S5000_S5000x1_0 : (⟨S5000, .i32⟩ : BufTy).Contents (Elt F) → (⟨S5000x1, .i32⟩ : BufTy).Contents (Elt F)) ]
/-- and from it on. -/
abbrev main_part3_ops0_b : List (HloOp τ sig (Elt F)) :=
  [ StableHlo.nary ![main_v152, main_v153, main_v154, main_v155] main_v156 (fun u => concatenate S5000x4 1 [⟨S5000x1, u 0⟩, ⟨S5000x1, u 1⟩, ⟨S5000x1, u 2⟩, ⟨S5000x1, u 3⟩] concatenates_S5000x1_S5000x1_S5000x1_S5000x1_S5000x4_d1),
    StableHlo.nullary main_cst_48 (constant S_ .f32 0x3F800000#32),
    StableHlo.unary main_cst_48 main_v157 (broadcastInDim S5000 ![] bcast_S_S5000 : (⟨S_, .f32⟩ : BufTy).Contents (Elt F) → (⟨S5000, .f32⟩ : BufTy).Contents (Elt F)),
    StableHlo.ternary main_v134 main_v156 main_v157 main_v158 ((fun x i u => Host.scatter scatter_S64x1x40x40_S5000x4_S5000_n_0123_0123_1 (fun _ b => b) x i u) : (⟨S64x1x40x40, .f32⟩ : BufTy).Contents (Elt F) → (⟨S5000x4, .i32⟩ : BufTy).Contents (Elt F) → (⟨S5000, .f32⟩ : BufTy).Contents (Elt F) → (⟨S64x1x40x40, .f32⟩ : BufTy).Contents (Elt F)) ]
theorem main_part3_ops0_split : (main_part3_ops0 : List (HloOp τ sig (Elt F))) = main_part3_ops0_a ++ main_part3_ops0_b := rfl
theorem sa_v134 (V : Valuation τ sig (Elt F)) (a3 : (⟨S5000x6, .f32⟩ : BufTy).Contents (Elt F)) (h_v134 : V (Proc.devRef .tc main_v134) = k_v134 a3) :
    StableHlo.after main_part3_ops0_a V (Proc.devRef .tc main_v134) = k_v134 a3 := by
  host_results
  simp only [h_v134]
theorem sa_v152 (V : Valuation τ sig (Elt F)) (a3 : (⟨S5000x6, .f32⟩ : BufTy).Contents (Elt F)) (h_v133 : V (Proc.devRef .tc main_v133) = k_v133 a3) (h_v135 : V (Proc.devRef .tc main_v135) = k_v135 a3) :
    StableHlo.after main_part3_ops0_a V (Proc.devRef .tc main_v152) = k_v152 a3 := by
  host_results
  simp only [h_v133, h_v135]
  rfl
theorem sa_v153 (V : Valuation τ sig (Elt F)) (a3 : (⟨S5000x6, .f32⟩ : BufTy).Contents (Elt F)) :
    StableHlo.after main_part3_ops0_a V (Proc.devRef .tc main_v153) = k_v153 a3 := by
  host_results
  rfl
theorem sa_v154 (V : Valuation τ sig (Elt F)) (a3 : (⟨S5000x6, .f32⟩ : BufTy).Contents (Elt F)) (h_v117 : V (Proc.devRef .tc main_v117) = k_v117 a3) :
    StableHlo.after main_part3_ops0_a V (Proc.devRef .tc main_v154) = k_v154 a3 := by
  host_results
  simp only [h_v117]
  rfl
theorem sa_v155 (V : Valuation τ sig (Elt F)) (a3 : (⟨S5000x6, .f32⟩ : BufTy).Contents (Elt F)) (h_v112 : V (Proc.devRef .tc main_v112) = k_v112 a3) :
    StableHlo.after main_part3_ops0_a V (Proc.devRef .tc main_v155) = k_v155 a3 := by
  host_results
  simp only [h_v112]
  rfl
theorem sb_v158 (V : Valuation τ sig (Elt F)) (a3 : (⟨S5000x6, .f32⟩ : BufTy).Contents (Elt F)) (h_v134 : V (Proc.devRef .tc main_v134) = k_v134 a3) (h_v152 : V (Proc.devRef .tc main_v152) = k_v152 a3) (h_v153 : V (Proc.devRef .tc main_v153) = k_v153 a3) (h_v154 : V (Proc.devRef .tc main_v154) = k_v154 a3) (h_v155 : V (Proc.devRef .tc main_v155) = k_v155 a3) :
    StableHlo.after main_part3_ops0_b V (Proc.devRef .tc main_v158) = k_v158 a3 := by
  host_results
  host_finish
  rw [h_v134, h_v152, h_v153, h_v154, h_v155]
  rfl
theorem st_v158 (V : Valuation τ sig (Elt F)) (a3 : (⟨S5000x6, .f32⟩ : BufTy).Contents (Elt F)) (h_v112 : V (Proc.devRef .tc main_v112) = k_v112 a3) (h_v117 : V (Proc.devRef .tc main_v117) = k_v117 a3) (h_v133 : V (Proc.devRef .tc main_v133) = k_v133 a3) (h_v134 : V (Proc.devRef .tc main_v134) = k_v134 a3) (h_v135 : V (Proc.devRef .tc main_v135) = k_v135 a3) :
    StableHlo.after main_part3_ops0 V (Proc.devRef .tc main_v158) = k_v158 a3 := by
  rw [main_part3_ops0_split, StableHlo.after_append]
  exact sb_v158 _ a3 (sa_v134 V a3 h_v134) (sa_v152 V a3 h_v133 h_v135) (sa_v153 V a3) (sa_v154 V a3 h_v117) (sa_v155 V a3 h_v112)
theorem W10_v158 (c : Dev nD) : W10 m ρ c (Proc.devRef .tc main_v158) = k_v158 (m ((c : Thread nD τ).loc main_arg3)) :=
  st_v158 (W9 m ρ c) _ (W9_v112 m ρ c) (W9_v117 m ρ c) (W9_v133 m ρ c) (W9_v134 m ρ c) (W9_v135 m ρ c)
theorem W11_v158 (c : Dev nD) : W11 m ρ c (Proc.devRef .tc main_v158) = k_v158 (m ((c : Thread nD τ).loc main_arg3)) :=
  (W11_of_ne m ρ c main_v158 (by decide)).trans (W10_v158 m ρ c)
theorem W12_v158 (c : Dev nD) : W12 m ρ c (Proc.devRef .tc main_v158) = k_v158 (m ((c : Thread nD τ).loc main_arg3)) :=
  (StableHlo.after_of_writes_sub main_part3_ops1 (W11 m ρ c) main_part3_ops1_writes (by decide)).trans (W11_v158 m ρ c)
theorem W13_v158 (c : Dev nD) : W13 m ρ c (Proc.devRef .tc main_v158) = k_v158 (m ((c : Thread nD τ).loc main_arg3)) :=
  (W13_of_ne m ρ c main_v158 (by decide)).trans (W12_v158 m ρ c)
theorem W14_v158 (c : Dev nD) : W14 m ρ c (Proc.devRef .tc main_v158) = k_v158 (m ((c : Thread nD τ).loc main_arg3)) :=
  (StableHlo.after_of_writes_sub main_part3_ops2 (W13 m ρ c) main_part3_ops2_writes (by decide)).trans (W13_v158 m ρ c)

/-- Region 2 finds scale 2's objectness target, as the host operations compute it from the launch contents of the
    targets array, in the array its window 1 reads. -/
theorem V14_v158 (c : Dev nD) : V14 m ρ c main_v158 = kot2 (m ((c : Thread nD τ).loc main_arg3)) := W14_v158 m ρ c

end Cert.KernelIdeal.Val
end
-- ==== Proof.Spec.lean ====
/- The specification both programs are proved against: one element's binary-cross-entropy loss on the
   extended reals, its total over an index set, the fixed function that combines the three scales' totals,
   and the law that a sum over a [T*n, 1, H, W] index set is the sum over its T leading blocks of the sums
   over each [n, 1, H, W] block. No program is imported here. -/
import Idealize.ShloMosaic.PureOps.Ideal
import Idealize.ShloMosaic.PureOps.Ideal.Laws
import Idealize.ShloMosaic.Lib.ValueIdx
import Mathlib.Algebra.BigOperators.Fin
import Mathlib.Logic.Equiv.Fin.Basic

noncomputable section

open scoped BigOperators

namespace Cert.BceSpec

open Idealize.ShloMosaic Idealize.ShloMosaic.ValueIdx

/-! ## One element's loss -/

/-- The logistic function as the quotient 1 / (1 + e^(-x)), the constant 1 spelt by its f32 word. -/
def sig (x : EReal) : EReal :=
  Ideal.div (Ideal.ofBits .f32 0x3F800000#32) (Ideal.ofBits .f32 0x3F800000#32 + Ideal.exp (-x))

/-- One element's loss at logit x and target t:
    -(t * max (log p) (-100) + (1 - t) * max (log (1 + (-p))) (-100)) with p = sig x. -/
def term (x t : EReal) : EReal :=
  -(t * max (Ideal.log (sig x)) (Ideal.ofBits .f32 0xC2C80000#32)
      + (Ideal.ofBits .f32 0x3F800000#32 - t) * max (Ideal.log1p (-(sig x))) (Ideal.ofBits .f32 0xC2C80000#32))

/-- The total loss over an index set. -/
def total {S : Shape} (pred tgt : S.Idx → EReal) : EReal := ∑ i : S.Idx, term (pred i) (tgt i)

/-- The three scales' totals, each divided by its element count (1638400, 409600, 102400), added left to
    right, times one. -/
def combine (T0 T1 T2 : EReal) : EReal :=
  ((Ideal.div T0 (Ideal.ofBits .f32 0x49C80000#32) + Ideal.div T1 (Ideal.ofBits .f32 0x48C80000#32))
      + Ideal.div T2 (Ideal.ofBits .f32 0x47C80000#32)) * Ideal.ofBits .f32 0x3F800000#32

/-! ## Sums over a rank-4 index set -/

/-- A rank-4 index set is the product of its four coordinate ranges … -/
def idxEquiv4 {n0 n1 n2 n3 : ℕ} :
    (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : ℕ}
    (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-! ## The block-sum law -/

/-- Element a of block t, blocks of n, lies below T * n. -/
theorem lt_block {T n : ℕ} (t : Fin T) (a : Fin n) : t.val * n + a.val < T * n := by
  have h1 : (t.val + 1) * n ≤ T * n := Nat.mul_le_mul_right n t.isLt
  have h2 := a.isLt
  rw [Nat.add_mul, Nat.one_mul] at h1
  omega

/-- The whole-array index of element j of leading block t: coordinate 0 is t * n + j 0, the others are j's. -/
def glue {T n H W : ℕ} (t : Fin T) (j : (⟨4, ![n, 1, H, W]⟩ : Shape).Idx) :
    (⟨4, ![T * n, 1, H, W]⟩ : Shape).Idx :=
  ix4 (n0 := T * n) ⟨t.val * n + (j 0).val, lt_block t (j 0)⟩ (j 1) (j 2) (j 3)

theorem glue_val0 {T n H W : ℕ} (t : Fin T) (j : (⟨4, ![n, 1, H, W]⟩ : Shape).Idx) :
    (glue t j 0).val = t.val * n + (j 0).val := rfl
theorem glue_val1 {T n H W : ℕ} (t : Fin T) (j : (⟨4, ![n, 1, H, W]⟩ : Shape).Idx) :
    (glue t j 1).val = (j 1).val := rfl
theorem glue_val2 {T n H W : ℕ} (t : Fin T) (j : (⟨4, ![n, 1, H, W]⟩ : Shape).Idx) :
    (glue t j 2).val = (j 2).val := rfl
theorem glue_val3 {T n H W : ℕ} (t : Fin T) (j : (⟨4, ![n, 1, H, W]⟩ : Shape).Idx) :
    (glue t j 3).val = (j 3).val := rfl

/-- A sum over a [T * n, 1, H, W] index set is the sum over the T leading blocks of the sums over each
    [n, 1, H, W] block: the leading coordinate a < T * n is t * n + j₀ for exactly one pair (t, j₀). -/
theorem sum_blocks {M : Type*} [AddCommMonoid M] {T n H W : ℕ}
    (f : (⟨4, ![T * n, 1, H, W]⟩ : Shape).Idx → M) :
    ∑ i, f i = ∑ t : Fin T, ∑ j : (⟨4, ![n, 1, H, W]⟩ : Shape).Idx, f (glue t j) := by
  rw [sum_idx4]
  have hin : ∀ t : Fin T, ∑ j : (⟨4, ![n, 1, H, W]⟩ : Shape).Idx, f (glue t j)
      = ∑ a : Fin n, ∑ b : Fin 1, ∑ c : Fin H, ∑ d : Fin W, f (glue t (ix4 a b c d)) := fun t => sum_idx4 _
  simp only [hin]
  rw [← Equiv.sum_comp (finProdFinEquiv (m := T) (n := n)), Fintype.sum_prod_type]
  refine Finset.sum_congr rfl fun t _ => Finset.sum_congr rfl fun a _ => ?_
  have ha : finProdFinEquiv (t, a) = (⟨t.val * n + a.val, lt_block t a⟩ : Fin (T * n)) :=
    Fin.ext (by simp [finProdFinEquiv, Nat.mul_comm, Nat.add_comm])
  rw [ha]
  rfl

/-! ## The three literal instances: 64 = 4 * 16 = 2 * 32 = 1 * 64 -/

/-- Scale 0: element j of block t of 16 leading rows, in the [64, 1, 160, 160] array. -/
def glue0 (t : Fin 4) (j : (⟨4, ![16, 1, 160, 160]⟩ : Shape).Idx) : (⟨4, ![64, 1, 160, 160]⟩ : Shape).Idx :=
  glue (T := 4) (n := 16) t j
/-- Scale 1: element j of block t of 32 leading rows, in the [64, 1, 80, 80] array. -/
def glue1 (t : Fin 2) (j : (⟨4, ![32, 1, 80, 80]⟩ : Shape).Idx) : (⟨4, ![64, 1, 80, 80]⟩ : Shape).Idx :=
  glue (T := 2) (n := 32) t j
/-- Scale 2: element j of the one block of 64 leading rows, in the [64, 1, 40, 40] array. -/
def glue2 (t : Fin 1) (j : (⟨4, ![64, 1, 40, 40]⟩ : Shape).Idx) : (⟨4, ![64, 1, 40, 40]⟩ : Shape).Idx :=
  glue (T := 1) (n := 64) t j

theorem glue0_val (t : Fin 4) (j : (⟨4, ![16, 1, 160, 160]⟩ : Shape).Idx) :
    (glue0 t j 0).val = t.val * 16 + (j 0).val ∧ (glue0 t j 1).val = (j 1).val
      ∧ (glue0 t j 2).val = (j 2).val ∧ (glue0 t j 3).val = (j 3).val := ⟨rfl, rfl, rfl, rfl⟩
theorem glue1_val (t : Fin 2) (j : (⟨4, ![32, 1, 80, 80]⟩ : Shape).Idx) :
    (glue1 t j 0).val = t.val * 32 + (j 0).val ∧ (glue1 t j 1).val = (j 1).val
      ∧ (glue1 t j 2).val = (j 2).val ∧ (glue1 t j 3).val = (j 3).val := ⟨rfl, rfl, rfl, rfl⟩
theorem glue2_val (t : Fin 1) (j : (⟨4, ![64, 1, 40, 40]⟩ : Shape).Idx) :
    (glue2 t j 0).val = t.val * 64 + (j 0).val ∧ (glue2 t j 1).val = (j 1).val
      ∧ (glue2 t j 2).val = (j 2).val ∧ (glue2 t j 3).val = (j 3).val := ⟨rfl, rfl, rfl, rfl⟩

theorem sum_blocks0 {M : Type*} [AddCommMonoid M] (f : (⟨4, ![64, 1, 160, 160]⟩ : Shape).Idx → M) :
    ∑ i, f i = ∑ t : Fin 4, ∑ j : (⟨4, ![16, 1, 160, 160]⟩ : Shape).Idx, f (glue0 t j) :=
  sum_blocks (T := 4) (n := 16) f
theorem sum_blocks1 {M : Type*} [AddCommMonoid M] (f : (⟨4, ![64, 1, 80, 80]⟩ : Shape).Idx → M) :
    ∑ i, f i = ∑ t : Fin 2, ∑ j : (⟨4, ![32, 1, 80, 80]⟩ : Shape).Idx, f (glue1 t j) :=
  sum_blocks (T := 2) (n := 32) f
theorem sum_blocks2 {M : Type*} [AddCommMonoid M] (f : (⟨4, ![64, 1, 40, 40]⟩ : Shape).Idx → M) :
    ∑ i, f i = ∑ t : Fin 1, ∑ j : (⟨4, ![64, 1, 40, 40]⟩ : Shape).Idx, f (glue2 t j) :=
  sum_blocks (T := 1) (n := 64) f

/-- The totals by blocks, as the three scales use them. -/
theorem total_blocks0 (pred tgt : (⟨4, ![64, 1, 160, 160]⟩ : Shape).Idx → EReal) :
    total pred tgt = ∑ t : Fin 4, ∑ j : (⟨4, ![16, 1, 160, 160]⟩ : Shape).Idx,
      term (pred (glue0 t j)) (tgt (glue0 t j)) := sum_blocks0 _
theorem total_blocks1 (pred tgt : (⟨4, ![64, 1, 80, 80]⟩ : Shape).Idx → EReal) :
    total pred tgt = ∑ t : Fin 2, ∑ j : (⟨4, ![32, 1, 80, 80]⟩ : Shape).Idx,
      term (pred (glue1 t j)) (tgt (glue1 t j)) := sum_blocks1 _
theorem total_blocks2 (pred tgt : (⟨4, ![64, 1, 40, 40]⟩ : Shape).Idx → EReal) :
    total pred tgt = ∑ t : Fin 1, ∑ j : (⟨4, ![64, 1, 40, 40]⟩ : Shape).Idx,
      term (pred (glue2 t j)) (tgt (glue2 t j)) := sum_blocks2 _

/-! ## Channel 4 of a [64, 11, H, W] array -/

/-- The index (i 0, 4, i 2, i 3) of the [64, 11, H, W] array: channel 4 at the position of an index of the
    [64, 1, H, W] array. -/
def chan4 {H W : ℕ} (i : (⟨4, ![64, 1, H, W]⟩ : Shape).Idx) : (⟨4, ![64, 11, H, W]⟩ : Shape).Idx :=
  ix4 (n1 := 11) (i 0) ⟨4, by decide⟩ (i 2) (i 3)

/-- An index of the [64, 11, H, W] array whose coordinates are (i 0, 4 + i 1, i 2, i 3) is chan4 i: the unit
    axis's coordinate i 1 is 0. -/
theorem eq_chan4 {H W : ℕ} (i : (⟨4, ![64, 1, H, W]⟩ : Shape).Idx) (k : (⟨4, ![64, 11, H, W]⟩ : Shape).Idx)
    (h0 : (k 0).val = (i 0).val) (h1 : (k 1).val = 4 + (i 1).val) (h2 : (k 2).val = (i 2).val)
    (h3 : (k 3).val = (i 3).val) : k = chan4 i := by
  funext a
  match a with
  | ⟨0, _⟩ => exact Fin.ext h0
  | ⟨1, _⟩ =>
    have hi : (i 1).val < 1 := (i 1).isLt
    exact Fin.ext (by show (k 1).val = 4; omega)
  | ⟨2, _⟩ => exact Fin.ext h2
  | ⟨3, _⟩ => exact Fin.ext h3

/-! ## The constants' words, and the logistic function -/

theorem ofBits_one_f32 : Ideal.ofBits .f32 0x3F800000#32 = 1 := IdealRules.sign_bit.ideal_onePat .f32

/-- sig is the library's logistic function. -/
theorem sig_eq_logistic (x : EReal) : sig x = Ideal.logistic x := by
  unfold sig Ideal.logistic
  rw [ofBits_one_f32]

/-- The same loss spelt with the library's logistic function and with each negation written as a subtraction
    from the word 0 (0 - a = -a on the extended reals). -/
theorem term_eq_sub (x t : EReal) :
    Ideal.ofBits .f32 0x00000000#32
        - (t * max (Ideal.log (Ideal.logistic x)) (Ideal.ofBits .f32 0xC2C80000#32)
          + (Ideal.ofBits .f32 0x3F800000#32 - t)
            * max (Ideal.log1p (Ideal.ofBits .f32 0x00000000#32 - Ideal.logistic x)) (Ideal.ofBits .f32 0xC2C80000#32))
      = term x t := by
  unfold term
  rw [sig_eq_logistic, Ideal.ofBits_zero_f32, zero_sub, zero_sub]

end Cert.BceSpec

end
-- ==== Proof.RefSide.lean ====
/- The reference's result as one closed formula: the three scales' totals of the specification's one-element
   loss, combined by the specification's fixed function. The objectness targets stay the reference's own
   scatter results, named here as functions of the targets array. -/
import proofs.«153644_j35845797053068_1_alg».proof.Proof.Gen.ReferenceIdeal.Read
import proofs.«153644_j35845797053068_1_alg».proof.Proof.Spec

noncomputable section

open scoped BigOperators

namespace Cert.RefSide

open Cert.ReferenceIdeal Cert.ReferenceIdeal.Gen Cert.ReferenceIdeal.Read Idealize.ShloMosaic Idealize.ShloMosaic.TcCoe Idealize.SL.Sem Idealize.ShloMosaic.StableHlo

/-! ## The objectness targets -/

/-- Scale 0's objectness target [64, 1, 160, 160] as a function of the targets array: the generated stage of the
    reference's scatter (zeros, overwritten by 1 at the rows' cells), not opened here. -/
def ot0 (a3 : (⟨S5000x6, .f32⟩ : BufTy).Contents (Elt Ideal)) : (⟨S64x1x160x160, .f32⟩ : BufTy).Contents (Elt Ideal) :=
  val_main_v59 (F := Ideal) a3
/-- Scale 1's objectness target [64, 1, 80, 80]. -/
def ot1 (a3 : (⟨S5000x6, .f32⟩ : BufTy).Contents (Elt Ideal)) : (⟨S64x1x80x80, .f32⟩ : BufTy).Contents (Elt Ideal) :=
  val_main_v134 (F := Ideal) a3
/-- Scale 2's objectness target [64, 1, 40, 40]. -/
def ot2 (a3 : (⟨S5000x6, .f32⟩ : BufTy).Contents (Elt Ideal)) : (⟨S64x1x40x40, .f32⟩ : BufTy).Contents (Elt Ideal) :=
  val_main_v210 (F := Ideal) a3

/-! ## One element, and the sum, at each scale -/

/-- Scale 0, one element: the negated sum of the two products is the specification's term at the logit
    (channel 4 of the prediction) and the objectness target there. -/
theorem elem0 (x0 : (⟨S64x11x160x160, .f32⟩ : BufTy).Contents (Elt Ideal)) (x3 : (⟨S5000x6, .f32⟩ : BufTy).Contents (Elt Ideal))
    (j : S64x1x160x160.Idx) :
    val_main_v72 (F := Ideal) x0 x3 j = Cert.BceSpec.term (x0 (Cert.BceSpec.chan4 j)) (ot0 x3 j) := by
  have hj : idx_main_v0 j = Cert.BceSpec.chan4 j := Cert.BceSpec.eq_chan4 j _ rfl rfl rfl rfl
  simp only [
    val_main_v72_apply, val_main_v71_apply, val_main_v70_apply, val_main_v69_apply, val_main_v68_apply,
    val_main_v67_apply, val_main_v66_apply, val_main_v65_apply, val_main_v64_apply, val_main_v63_apply,
    val_main_v62_apply, val_main_v61_apply, val_main_v60_apply, val_main_v6_apply, val_main_v5_apply,
    val_main_v4_apply, val_main_v3_apply, val_main_v2_apply, val_main_v1_apply, val_main_v0_apply, val_main_cst_apply,
    val_main_cst_0_apply, val_main_cst_17_apply, val_main_cst_18_apply, val_main_cst_19_apply,
    hj]
  rfl

/-- Scale 0: the sum over the whole [64, 1, H, W] index set is the specification's total. -/
theorem sum0 (x0 : (⟨S64x11x160x160, .f32⟩ : BufTy).Contents (Elt Ideal)) (x3 : (⟨S5000x6, .f32⟩ : BufTy).Contents (Elt Ideal)) :
    ∑ j : S64x1x160x160.Idx, val_main_v72 (F := Ideal) x0 x3 j
      = Cert.BceSpec.total (S := S64x1x160x160) (fun i => x0 (Cert.BceSpec.chan4 i)) (ot0 x3) :=
  Finset.sum_congr rfl fun j _ => elem0 x0 x3 j

/-- Scale 1, one element: the negated sum of the two products is the specification's term at the logit
    (channel 4 of the prediction) and the objectness target there. -/
theorem elem1 (x1 : (⟨S64x11x80x80, .f32⟩ : BufTy).Contents (Elt Ideal)) (x3 : (⟨S5000x6, .f32⟩ : BufTy).Contents (Elt Ideal))
    (j : S64x1x80x80.Idx) :
    val_main_v147 (F := Ideal) x1 x3 j = Cert.BceSpec.term (x1 (Cert.BceSpec.chan4 j)) (ot1 x3 j) := by
  have hj : idx_main_v75 j = Cert.BceSpec.chan4 j := Cert.BceSpec.eq_chan4 j _ rfl rfl rfl rfl
  simp only [
    val_main_v147_apply, val_main_v146_apply, val_main_v145_apply, val_main_v144_apply, val_main_v143_apply,
    val_main_v142_apply, val_main_v141_apply, val_main_v140_apply, val_main_v139_apply, val_main_v138_apply,
    val_main_v137_apply, val_main_v136_apply, val_main_v135_apply, val_main_v81_apply, val_main_v80_apply,
    val_main_v79_apply, val_main_v78_apply, val_main_v77_apply, val_main_v76_apply, val_main_v75_apply,
    val_main_cst_22_apply, val_main_cst_23_apply, val_main_cst_41_apply, val_main_cst_42_apply, val_main_cst_43_apply,
    hj]
  rfl

/-- Scale 1: the sum over the whole [64, 1, H, W] index set is the specification's total. -/
theorem sum1 (x1 : (⟨S64x11x80x80, .f32⟩ : BufTy).Contents (Elt Ideal)) (x3 : (⟨S5000x6, .f32⟩ : BufTy).Contents (Elt Ideal)) :
    ∑ j : S64x1x80x80.Idx, val_main_v147 (F := Ideal) x1 x3 j
      = Cert.BceSpec.total (S := S64x1x80x80) (fun i => x1 (Cert.BceSpec.chan4 i)) (ot1 x3) :=
  Finset.sum_congr rfl fun j _ => elem1 x1 x3 j

/-- Scale 2, one element: the negated sum of the two products is the specification's term at the logit
    (channel 4 of the prediction) and the objectness target there. -/
theorem elem2 (x2 : (⟨S64x11x40x40, .f32⟩ : BufTy).Contents (Elt Ideal)) (x3 : (⟨S5000x6, .f32⟩ : BufTy).Contents (Elt Ideal))
    (j : S64x1x40x40.Idx) :
    val_main_v223 (F := Ideal) x2 x3 j = Cert.BceSpec.term (x2 (Cert.BceSpec.chan4 j)) (ot2 x3 j) := by
  have hj : idx_main_v151 j = Cert.BceSpec.chan4 j := Cert.BceSpec.eq_chan4 j _ rfl rfl rfl rfl
  simp only [
    val_main_v223_apply, val_main_v222_apply, val_main_v221_apply, val_main_v220_apply, val_main_v219_apply,
    val_main_v218_apply, val_main_v217_apply, val_main_v216_apply, val_main_v215_apply, val_main_v214_apply,
    val_main_v213_apply, val_main_v212_apply, val_main_v211_apply, val_main_v157_apply, val_main_v156_apply,
    val_main_v155_apply, val_main_v154_apply, val_main_v153_apply, val_main_v152_apply, val_main_v151_apply,
    val_main_cst_46_apply, val_main_cst_47_apply, val_main_cst_65_apply, val_main_cst_66_apply, val_main_cst_67_apply,
    hj]
  rfl

/-- Scale 2: the sum over the whole [64, 1, H, W] index set is the specification's total. -/
theorem sum2 (x2 : (⟨S64x11x40x40, .f32⟩ : BufTy).Contents (Elt Ideal)) (x3 : (⟨S5000x6, .f32⟩ : BufTy).Contents (Elt Ideal)) :
    ∑ j : S64x1x40x40.Idx, val_main_v223 (F := Ideal) x2 x3 j
      = Cert.BceSpec.total (S := S64x1x40x40) (fun i => x2 (Cert.BceSpec.chan4 i)) (ot2 x3) :=
  Finset.sum_congr rfl fun j _ => elem2 x2 x3 j

/-! ## The result -/

/-- The reference's value, from its four argument arrays: each scale's sum starts from 0, is divided by the
    element count, and the three quotients are added and multiplied by 1. -/
theorem ref_value (x0 : (⟨S64x11x160x160, .f32⟩ : BufTy).Contents (Elt Ideal)) (x1 : (⟨S64x11x80x80, .f32⟩ : BufTy).Contents (Elt Ideal))
    (x2 : (⟨S64x11x40x40, .f32⟩ : BufTy).Contents (Elt Ideal)) (x3 : (⟨S5000x6, .f32⟩ : BufTy).Contents (Elt Ideal)) (i : S_.Idx) :
    val_main_v227 (F := Ideal) x0 x1 x2 x3 i
      = Cert.BceSpec.combine
          (Cert.BceSpec.total (S := S64x1x160x160) (fun i => x0 (Cert.BceSpec.chan4 i)) (ot0 x3))
          (Cert.BceSpec.total (S := S64x1x80x80) (fun i => x1 (Cert.BceSpec.chan4 i)) (ot1 x3))
          (Cert.BceSpec.total (S := S64x1x40x40) (fun i => x2 (Cert.BceSpec.chan4 i)) (ot2 x3)) := by
  rw [val_main_v227_apply, val_main_v226_apply, val_main_v150_apply, val_main_v74_apply, val_main_v149_apply,
    val_main_v225_apply, val_main_v73_apply, val_main_v148_apply, val_main_v224_apply, sum0, sum1, sum2]
  simp only [val_main_cst_70_apply, val_main_cst_21_apply, val_main_cst_45_apply, val_main_cst_69_apply,
    val_main_cst_20_apply, val_main_cst_44_apply, val_main_cst_68_apply, Ideal.ofBits_def, Ideal.mulf_def,
    Ideal.addf_def, Ideal.hostDivf_def, Ideal.ofBits_zero_f32, zero_add]
  rfl

/-- Every run of the reference ends with its result buffer holding this value, whatever the index. -/
theorem ref_result (m : (ℓ : Loc nD τ sig) → Buf (Elt Ideal) ℓ) (c : Dev nD) :
    Cert.ReferenceIdeal.Value.res_out0 (F := Ideal) m c = fun _ =>
      Cert.BceSpec.combine
        (Cert.BceSpec.total (S := S64x1x160x160)
          (fun i => m ((c.tc : Thread nD τ).loc main_arg0) (Cert.BceSpec.chan4 i)) (ot0 (m ((c.tc : Thread nD τ).loc main_arg3))))
        (Cert.BceSpec.total (S := S64x1x80x80)
          (fun i => m ((c.tc : Thread nD τ).loc main_arg1) (Cert.BceSpec.chan4 i)) (ot1 (m ((c.tc : Thread nD τ).loc main_arg3))))
        (Cert.BceSpec.total (S := S64x1x40x40)
          (fun i => m ((c.tc : Thread nD τ).loc main_arg2) (Cert.BceSpec.chan4 i)) (ot2 (m ((c.tc : Thread nD τ).loc main_arg3)))) := by
  funext i
  show Cert.ReferenceIdeal.Value.res_main_v227 (F := Ideal) m c i = _
  rw [val_main_v227_eq]
  exact ref_value _ _ _ _ i

end Cert.RefSide

end
-- ==== Proof.KI.HostEq.lean ====
import proofs.«153644_j35845797053068_1_alg».proof.Proof.KI.HostTerms
import proofs.«153644_j35845797053068_1_alg».proof.Proof.RefSide

set_option maxRecDepth 16384

noncomputable section

namespace Cert.KernelIdeal.Val

open Idealize.ShloMosaic Idealize.ShloMosaic.TcCoe Idealize.ShloMosaic.StableHlo
open Cert.KernelIdeal Cert.KernelIdeal.Gen

/-! # The program's objectness targets are the reference's

Both programs build each scale's objectness target from the targets array by the same operations in the same order;
the two printed texts differ only in the namespace of the shapes' names. -/

theorem kot0_eq (a3 : (⟨S5000x6, .f32⟩ : BufTy).Contents (Elt Ideal)) : kot0 (F := Ideal) a3 = Cert.RefSide.ot0 a3 := rfl
theorem kot1_eq (a3 : (⟨S5000x6, .f32⟩ : BufTy).Contents (Elt Ideal)) : kot1 (F := Ideal) a3 = Cert.RefSide.ot1 a3 := rfl
theorem kot2_eq (a3 : (⟨S5000x6, .f32⟩ : BufTy).Contents (Elt Ideal)) : kot2 (F := Ideal) a3 = Cert.RefSide.ot2 a3 := rfl

end Cert.KernelIdeal.Val
end
-- ==== Proof.KI.PayValue.lean ====
/- The kernel's payloads on the extended reals: the scratch cell starts at zero, and each grid point adds to
   it the sum, over the point's block, of the specification's one-element loss at the block's logits and
   targets. -/
import proofs.«153644_j35845797053068_1_alg».proof.Proof.Gen.KernelIdeal.Skeleton
import proofs.«153644_j35845797053068_1_alg».proof.Proof.Spec
import Idealize.ShloMosaic.Lib.Pipeline.Value
import Idealize.ShloMosaic.PureOps.Ideal.Laws

noncomputable section

open scoped BigOperators

namespace Cert.KernelIdeal.Val

open Idealize.ShloMosaic Idealize.ShloMosaic.ValueIdx
open Cert.KernelIdeal Cert.KernelIdeal.Gen

/-- A shape cast keeps the elements, so it keeps their sum. -/
theorem sum_shapeCast {s t : Shape} (x : s.Idx → EReal) (h : s.ShapeCasts t) :
    ∑ j : t.Idx, shapeCast t x h j = ∑ k : s.Idx, x k :=
  Equiv.sum_comp (Shape.reshapeEquiv h) x

/-- The one-cell shape [1] has size one on its axis. -/
theorem unit_S1 : ∀ b, S1.size b = 1 := by decide

/-- The [1, 1] cell plus a broadcast scalar, at its index. -/
theorem cell_add (a : Vec Ideal S1x1 .f32) (r : Ideal .f32) (i : S1x1.Idx) : addf a (broadcast S1x1 r) i = a i + r := rfl

/-- The element extracted at position 0 of a [1] vector cast to [1, 1, 1, 1, 1] is an element of the vector. -/
theorem extract_cast (v : FVec Ideal S1 .f32) :
    extractAt ![0, 0, 0, 0, 0] (shapeCast S1x1x1x1x1 v Gen.shapeCasts_S1_S1x1x1x1x1) Gen.inpos_S1x1x1x1x1_p0_0_0_0_0
      = v (Shape.reshapeEquiv Gen.shapeCasts_S1_S1x1x1x1x1 fun a => ⟨![0, 0, 0, 0, 0] a, Gen.inpos_S1x1x1x1x1_p0_0_0_0_0 a⟩) := rfl

/-! ## Call 0: blocks of shape S16x1x160x160 -/

/-- The cell's first value is zero. -/
theorem pay0_1 : Gen.k0_pay1 (F := Ideal) = fun _ => 0 := by
  funext i
  unfold Gen.k0_pay1
  simp only [shapeCast_self]
  exact Ideal.ofBits_zero_f32

/-- The sum of the block's lanes under the leading unit axis is the sum over the block. -/
theorem red0 (v : FVec Ideal S16x1x160x160 .f32) (k : S1.Idx) :
    multiReduction (F := Ideal) .add [1, 2, 3, 4] S1 (shapeCast S1x16x1x160x160 v Gen.shapeCasts_S16x1x160x160_S1x16x1x160x160) 0x00000000#32
        Gen.reduces_S1x16x1x160x160_S1 (.inl rfl) rfl k
      = ∑ j : S16x1x160x160.Idx, v j :=
  (Ideal.multiReduction_add_total _ _ Gen.reduces_S1x16x1x160x160_S1 unit_S1 (.inl rfl) rfl k).trans
    (sum_shapeCast v Gen.shapeCasts_S16x1x160x160_S1x16x1x160x160)

/-- The cell's next value: its value so far plus the block's sum of one-element losses, at logits x and targets y. -/
theorem pay0_2 (x y : Vec Ideal S16x1x160x160 .f32) (a : Vec Ideal S1x1 .f32) :
    Gen.k0_pay2 (F := Ideal) x y a = fun i => a i + ∑ j : S16x1x160x160.Idx, Cert.BceSpec.term (x j) (y j) := by
  funext i
  unfold Gen.k0_pay2
  simp only [shapeCast_self]
  rw [cell_add, extract_cast, red0]
  refine congrArg (a i + ·) (Finset.sum_congr rfl fun j _ => ?_)
  exact Cert.BceSpec.term_eq_sub (x j) (y j)

/-! ## Call 1: blocks of shape S32x1x80x80 -/

/-- The cell's first value is zero. -/
theorem pay1_1 : Gen.k1_pay1 (F := Ideal) = fun _ => 0 := by
  funext i
  unfold Gen.k1_pay1
  simp only [shapeCast_self]
  exact Ideal.ofBits_zero_f32

/-- The sum of the block's lanes under the leading unit axis is the sum over the block. -/
theorem red1 (v : FVec Ideal S32x1x80x80 .f32) (k : S1.Idx) :
    multiReduction (F := Ideal) .add [1, 2, 3, 4] S1 (shapeCast S1x32x1x80x80 v Gen.shapeCasts_S32x1x80x80_S1x32x1x80x80) 0x00000000#32
        Gen.reduces_S1x32x1x80x80_S1 (.inl rfl) rfl k
      = ∑ j : S32x1x80x80.Idx, v j :=
  (Ideal.multiReduction_add_total _ _ Gen.reduces_S1x32x1x80x80_S1 unit_S1 (.inl rfl) rfl k).trans
    (sum_shapeCast v Gen.shapeCasts_S32x1x80x80_S1x32x1x80x80)

/-- The cell's next value: its value so far plus the block's sum of one-element losses, at logits x and targets y. -/
theorem pay1_2 (x y : Vec Ideal S32x1x80x80 .f32) (a : Vec Ideal S1x1 .f32) :
    Gen.k1_pay2 (F := Ideal) x y a = fun i => a i + ∑ j : S32x1x80x80.Idx, Cert.BceSpec.term (x j) (y j) := by
  funext i
  unfold Gen.k1_pay2
  simp only [shapeCast_self]
  rw [cell_add, extract_cast, red1]
  refine congrArg (a i + ·) (Finset.sum_congr rfl fun j _ => ?_)
  exact Cert.BceSpec.term_eq_sub (x j) (y j)

/-! ## Call 2: blocks of shape S64x1x40x40 -/

/-- The cell's first value is zero. -/
theorem pay2_1 : Gen.k2_pay1 (F := Ideal) = fun _ => 0 := by
  funext i
  unfold Gen.k2_pay1
  simp only [shapeCast_self]
  exact Ideal.ofBits_zero_f32

/-- The sum of the block's lanes under the leading unit axis is the sum over the block. -/
theorem red2 (v : FVec Ideal S64x1x40x40 .f32) (k : S1.Idx) :
    multiReduction (F := Ideal) .add [1, 2, 3, 4] S1 (shapeCast S1x64x1x40x40 v Gen.shapeCasts_S64x1x40x40_S1x64x1x40x40) 0x00000000#32
        Gen.reduces_S1x64x1x40x40_S1 (.inl rfl) rfl k
      = ∑ j : S64x1x40x40.Idx, v j :=
  (Ideal.multiReduction_add_total _ _ Gen.reduces_S1x64x1x40x40_S1 unit_S1 (.inl rfl) rfl k).trans
    (sum_shapeCast v Gen.shapeCasts_S64x1x40x40_S1x64x1x40x40)

/-- The cell's next value: its value so far plus the block's sum of one-element losses, at logits x and targets y. -/
theorem pay2_2 (x y : Vec Ideal S64x1x40x40 .f32) (a : Vec Ideal S1x1 .f32) :
    Gen.k2_pay2 (F := Ideal) x y a = fun i => a i + ∑ j : S64x1x40x40.Idx, Cert.BceSpec.term (x j) (y j) := by
  funext i
  unfold Gen.k2_pay2
  simp only [shapeCast_self]
  rw [cell_add, extract_cast, red2]
  refine congrArg (a i + ·) (Finset.sum_congr rfl fun j _ => ?_)
  exact Cert.BceSpec.term_eq_sub (x j) (y j)

end Cert.KernelIdeal.Val

end
-- ==== Proof.KI.AccValue.lean ====
/- The kernel's running sum on the extended reals, point by point: each block the pipeline hands the body is a
   run of leading rows of its array (channel 4 of the prediction; the objectness target), so the cell after the
   last point holds the specification's total over the whole arrays, and that cell is what the output array ends
   holding. -/
import proofs.«153644_j35845797053068_1_alg».proof.Proof.KI.Region0
import proofs.«153644_j35845797053068_1_alg».proof.Proof.KI.Region1
import proofs.«153644_j35845797053068_1_alg».proof.Proof.KI.Region2
import proofs.«153644_j35845797053068_1_alg».proof.Proof.KI.PayValue
import proofs.«153644_j35845797053068_1_alg».proof.Proof.Spec
import Idealize.ShloMosaic.Lib.Pipeline.Value

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! ## Call 0: 4 points, blocks of 16 leading rows -/

section
variable (V : (c : Dev nD) → (b : Ref sig .tc) → Buf (Elt Ideal) ((c : Thread nD τ).loc b))

/-- The printed index maps, decided over the grid: the prediction's block index is (t, 4, 0, 0), the target's
    (t, 0, 0, 0), the output cell's (0, 0); the output cell's block is the whole [1, 1] array. -/
theorem idx0 : ∀ t : Fin cfg0.N,
    (win0_0.index t (0 : Fin 4) = t.val ∧ win0_0.index t (1 : Fin 4) = 4 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_2.index t (0 : Fin 2) = 0 ∧ win0_2.index t (1 : Fin 2) = 0
        ∧ win0_2.xsize (grid0.coords t) (0 : Fin 2) = 1 ∧ win0_2.xsize (grid0.coords t) (1 : Fin 2) = 1) :=
  (by decide +kernel : ∀ t : Fin grid0.N, _)

/-- The grid has 4 points. -/
theorem lt_N0 (t : Fin cfg0.N) : t.val < 4 := lt_of_lt_of_eq t.isLt N_0

/-- A grid point as a number below 4. -/
def pt0 (t : Fin cfg0.N) : Fin 4 := ⟨t.val, lt_N0 t⟩

/-- The prediction's block at point t holds channel 4 of rows t * 16 … t * 16 + 15. -/
theorem blk0_pred (c : Dev nD) (t : Fin cfg0.N) (j : S16x1x160x160.Idx) :
    (iblk0 V c 0 t : Vec Ideal S16x1x160x160 .f32) j
      = (V c main_arg0 : S64x11x160x160.Idx → EReal) (Cert.BceSpec.chan4 (Cert.BceSpec.glue0 (pt0 t) j)) := by
  obtain ⟨⟨e0, e1, e2, e3⟩, -, -⟩ := idx0 t
  unfold iblk0
  rw [View.read_apply]
  show (V c main_arg0 : S64x11x160x160.Idx → EReal) (((cfg0.win 0).blk t).view.emb j) = _
  refine congrArg _ (Cert.BceSpec.eq_chan4 (Cert.BceSpec.glue0 (pt0 t) j) _ ?_ ?_ ?_ ?_)
  · show win0_0.index t (0 : Fin 4) * 16 + 1 * (j 0).val = t.val * 16 + (j 0).val; rw [e0]; omega
  · show win0_0.index t (1 : Fin 4) * 1 + 1 * (j 1).val = 4 + (j 1).val; rw [e1]; omega
  · show win0_0.index t (2 : Fin 4) * 160 + 1 * (j 2).val = (j 2).val; rw [e2]; omega
  · show win0_0.index t (3 : Fin 4) * 160 + 1 * (j 3).val = (j 3).val; rw [e3]; omega

/-- The target's block at point t holds rows t * 16 … t * 16 + 15 of the objectness target. -/
theorem blk0_tgt (c : Dev nD) (t : Fin cfg0.N) (j : S16x1x160x160.Idx) :
    (iblk0 V c 1 t : Vec Ideal S16x1x160x160 .f32) j
      = (V c main_v52 : S64x1x160x160.Idx → EReal) (Cert.BceSpec.glue0 (pt0 t) j) := by
  obtain ⟨-, ⟨e0, e1, e2, e3⟩, -⟩ := idx0 t
  unfold iblk0
  rw [View.read_apply]
  show (V c main_v52 : S64x1x160x160.Idx → EReal) (((cfg0.win 1).blk t).view.emb j) = _
  refine congrArg _ (funext fun a => Fin.ext ?_)
  match a with
  | ⟨0, _⟩ => show win0_1.index t (0 : Fin 4) * 16 + 1 * (j 0).val = t.val * 16 + (j 0).val; rw [e0]; omega
  | ⟨1, _⟩ => show win0_1.index t (1 : Fin 4) * 1 + 1 * (j 1).val = (j 1).val; rw [e1]; omega
  | ⟨2, _⟩ => show win0_1.index t (2 : Fin 4) * 160 + 1 * (j 2).val = (j 2).val; rw [e2]; omega
  | ⟨3, _⟩ => show win0_1.index t (3 : Fin 4) * 160 + 1 * (j 3).val = (j 3).val; rw [e3]; omega

/-- Block q's sum of one-element losses, read off the two arrays. -/
def bsum0 (c : Dev nD) (q : Fin 4) : EReal :=
  ∑ j : S16x1x160x160.Idx, Cert.BceSpec.term ((V c main_arg0 : S64x11x160x160.Idx → EReal) (Cert.BceSpec.chan4 (Cert.BceSpec.glue0 q j)))
    ((V c main_v52 : S64x1x160x160.Idx → EReal) (Cert.BceSpec.glue0 q j))

/-- After the first point the cell holds the first block's sum. -/
theorem sum0_first (c : Dev nD) (hn : 0 < cfg0.N) (i : S1x1.Idx) :
    acc0 V c 0 hn i = bsum0 V c (pt0 ⟨0, hn⟩) := by
  show k0_pay2 (F := Ideal) (iblk0 V c 0 ⟨0, hn⟩) (iblk0 V c 1 ⟨0, hn⟩) (k0_pay1 (F := Ideal)) i = _
  rw [pay0_2, pay0_1]
  show (0 : EReal) + _ = _
  rw [zero_add]
  exact Finset.sum_congr rfl fun j _ => by rw [blk0_pred, blk0_tgt]

/-- Each later point adds its block's sum. -/
theorem sum0_step (c : Dev nD) (n : ℕ) (hn : n + 1 < cfg0.N) (i : S1x1.Idx) :
    acc0 V c (n + 1) hn i = acc0 V c n (Nat.lt_of_succ_lt hn) i + bsum0 V c (pt0 ⟨n + 1, hn⟩) := by
  show k0_pay2 (F := Ideal) (iblk0 V c 0 ⟨n + 1, hn⟩) (iblk0 V c 1 ⟨n + 1, hn⟩) (acc0 V c n (Nat.lt_of_succ_lt hn)) i = _
  rw [pay0_2]
  exact congrArg (acc0 V c n (Nat.lt_of_succ_lt hn) i + ·) (Finset.sum_congr rfl fun j _ => by rw [blk0_pred, blk0_tgt])

/-- After the last point the cell holds the specification's total over the whole arrays. -/
theorem acc0_total (c : Dev nD) :
    acc0 (F := Ideal) V c 3 (by rw [show cfg0.N = 4 from N_0]; decide)
      = fun _ => Cert.BceSpec.total (S := S64x1x160x160) (fun i => (V c main_arg0 : S64x11x160x160.Idx → EReal) (Cert.BceSpec.chan4 i))
          (V c main_v52 : S64x1x160x160.Idx → EReal) := by
  funext i
  rw [Cert.BceSpec.total_blocks0, Fin.sum_univ_four, sum0_step V c 2, sum0_step V c 1, sum0_step V c 0, sum0_first V c]
  rfl

/-- The output array at the region's exit is the cell after the last point: only the last point writes the
    one-cell block back, and that block is the whole array. -/
theorem out_final0 (c : Dev nD) :
    (dat0 (F := Ideal) V c).arrAt 2 cfg0.N
      = acc0 V c 3 (by rw [show cfg0.N = 4 from N_0]; decide) := by
  have hN : cfg0.N = 4 := N_0
  refine (dat0 (F := Ideal) V c).arrAt_eq_of_cover 2 (acc0 V c 3 (by rw [show cfg0.N = 4 from N_0]; decide)) (fun t hf => ?_) (fun i => ?_)
  · have h3 : t.val = 3 := by have h1 := (flush0_2 t).mp hf; have h2 := lt_N0 t; omega
    obtain ⟨-, -, ⟨z0, z1, -, -⟩⟩ := idx0 t
    obtain ⟨tv, ht⟩ := t
    obtain rfl : tv = 3 := h3
    funext y
    rw [View.read_apply]
    show acc0 V c 3 _ ((cfg0.win 2).xinj (cfg0.grid.coords ⟨3, ht⟩) y)
      = acc0 V c 3 _ (((cfg0.win 2).blk ⟨3, ht⟩).view.emb y)
    refine congrArg _ (funext fun a => Fin.ext ?_)
    match a with
    | ⟨0, _⟩ => show (y 0).val = win0_2.index ⟨3, ht⟩ (0 : Fin 2) * 1 + 1 * (y 0).val; rw [z0]; omega
    | ⟨1, _⟩ => show (y 1).val = win0_2.index ⟨3, ht⟩ (1 : Fin 2) * 1 + 1 * (y 1).val; rw [z1]; omega
  · have hlast : 3 < cfg0.N := by rw [hN]; decide
    obtain ⟨-, -, ⟨z0, z1, x0, x1⟩⟩ := idx0 ⟨3, hlast⟩
    refine ⟨⟨3, hlast⟩, (flush0_2 ⟨3, hlast⟩).mpr rfl, ?_⟩
    show i ∈ ((View.whole main_v159).slice (win0_2.rect ⟨3, hlast⟩)).set
    rw [View.set_slice_whole, Rect.mem_set_unit]
    intro a
    have h0 : (i 0 : Nat) < 1 := (i 0).isLt
    have h1 : (i 1 : Nat) < 1 := (i 1).isLt
    match a with
    | ⟨0, _⟩ =>
      show win0_2.index ⟨3, hlast⟩ (0 : Fin 2) * win0_2.size (0 : Fin 2) ≤ (i 0 : Nat)
        ∧ (i 0 : Nat) < win0_2.index ⟨3, hlast⟩ (0 : Fin 2) * win0_2.size (0 : Fin 2) + win0_2.xsize (grid0.coords ⟨3, hlast⟩) (0 : Fin 2)
      rw [z0, x0]; omega
    | ⟨1, _⟩ =>
      show win0_2.index ⟨3, hlast⟩ (1 : Fin 2) * win0_2.size (1 : Fin 2) ≤ (i 1 : Nat)
        ∧ (i 1 : Nat) < win0_2.index ⟨3, hlast⟩ (1 : Fin 2) * win0_2.size (1 : Fin 2) + win0_2.xsize (grid0.coords ⟨3, hlast⟩) (1 : Fin 2)
      rw [z1, x1]; omega

/-- So the output array ends holding the specification's total. -/
theorem out_total0 (c : Dev nD) :
    (dat0 (F := Ideal) V c).arrAt 2 cfg0.N
      = fun _ => Cert.BceSpec.total (S := S64x1x160x160) (fun i => (V c main_arg0 : S64x11x160x160.Idx → EReal) (Cert.BceSpec.chan4 i))
          (V c main_v52 : S64x1x160x160.Idx → EReal) :=
  (out_final0 V c).trans (acc0_total V c)

end

/-! ## Call 1: 2 points, blocks of 32 leading rows -/

section
variable (V : (c : Dev nD) → (b : Ref sig .tc) → Buf (Elt Ideal) ((c : Thread nD τ).loc b))

/-- The printed index maps, decided over the grid: the prediction's block index is (t, 4, 0, 0), the target's
    (t, 0, 0, 0), the output cell's (0, 0); the output cell's block is the whole [1, 1] array. -/
theorem idx1 : ∀ t : Fin cfg1.N,
    (win1_0.index t (0 : Fin 4) = t.val ∧ win1_0.index t (1 : Fin 4) = 4 ∧ win1_0.index t (2 : Fin 4) = 0 ∧ win1_0.index t (3 : Fin 4) = 0)
    ∧ (win1_1.index t (0 : Fin 4) = t.val ∧ win1_1.index t (1 : Fin 4) = 0 ∧ win1_1.index t (2 : Fin 4) = 0 ∧ win1_1.index t (3 : Fin 4) = 0)
    ∧ (win1_2.index t (0 : Fin 2) = 0 ∧ win1_2.index t (1 : Fin 2) = 0
        ∧ win1_2.xsize (grid1.coords t) (0 : Fin 2) = 1 ∧ win1_2.xsize (grid1.coords t) (1 : Fin 2) = 1) :=
  (by decide +kernel : ∀ t : Fin grid1.N, _)

/-- The grid has 2 points. -/
theorem lt_N1 (t : Fin cfg1.N) : t.val < 2 := lt_of_lt_of_eq t.isLt N_1

/-- A grid point as a number below 2. -/
def pt1 (t : Fin cfg1.N) : Fin 2 := ⟨t.val, lt_N1 t⟩

/-- The prediction's block at point t holds channel 4 of rows t * 32 … t * 32 + 31. -/
theorem blk1_pred (c : Dev nD) (t : Fin cfg1.N) (j : S32x1x80x80.Idx) :
    (iblk1 V c 0 t : Vec Ideal S32x1x80x80 .f32) j
      = (V c main_arg1 : S64x11x80x80.Idx → EReal) (Cert.BceSpec.chan4 (Cert.BceSpec.glue1 (pt1 t) j)) := by
  obtain ⟨⟨e0, e1, e2, e3⟩, -, -⟩ := idx1 t
  unfold iblk1
  rw [View.read_apply]
  show (V c main_arg1 : S64x11x80x80.Idx → EReal) (((cfg1.win 0).blk t).view.emb j) = _
  refine congrArg _ (Cert.BceSpec.eq_chan4 (Cert.BceSpec.glue1 (pt1 t) j) _ ?_ ?_ ?_ ?_)
  · show win1_0.index t (0 : Fin 4) * 32 + 1 * (j 0).val = t.val * 32 + (j 0).val; rw [e0]; omega
  · show win1_0.index t (1 : Fin 4) * 1 + 1 * (j 1).val = 4 + (j 1).val; rw [e1]; omega
  · show win1_0.index t (2 : Fin 4) * 80 + 1 * (j 2).val = (j 2).val; rw [e2]; omega
  · show win1_0.index t (3 : Fin 4) * 80 + 1 * (j 3).val = (j 3).val; rw [e3]; omega

/-- The target's block at point t holds rows t * 32 … t * 32 + 31 of the objectness target. -/
theorem blk1_tgt (c : Dev nD) (t : Fin cfg1.N) (j : S32x1x80x80.Idx) :
    (iblk1 V c 1 t : Vec Ideal S32x1x80x80 .f32) j
      = (V c main_v105 : S64x1x80x80.Idx → EReal) (Cert.BceSpec.glue1 (pt1 t) j) := by
  obtain ⟨-, ⟨e0, e1, e2, e3⟩, -⟩ := idx1 t
  unfold iblk1
  rw [View.read_apply]
  show (V c main_v105 : S64x1x80x80.Idx → EReal) (((cfg1.win 1).blk t).view.emb j) = _
  refine congrArg _ (funext fun a => Fin.ext ?_)
  match a with
  | ⟨0, _⟩ => show win1_1.index t (0 : Fin 4) * 32 + 1 * (j 0).val = t.val * 32 + (j 0).val; rw [e0]; omega
  | ⟨1, _⟩ => show win1_1.index t (1 : Fin 4) * 1 + 1 * (j 1).val = (j 1).val; rw [e1]; omega
  | ⟨2, _⟩ => show win1_1.index t (2 : Fin 4) * 80 + 1 * (j 2).val = (j 2).val; rw [e2]; omega
  | ⟨3, _⟩ => show win1_1.index t (3 : Fin 4) * 80 + 1 * (j 3).val = (j 3).val; rw [e3]; omega

/-- Block q's sum of one-element losses, read off the two arrays. -/
def bsum1 (c : Dev nD) (q : Fin 2) : EReal :=
  ∑ j : S32x1x80x80.Idx, Cert.BceSpec.term ((V c main_arg1 : S64x11x80x80.Idx → EReal) (Cert.BceSpec.chan4 (Cert.BceSpec.glue1 q j)))
    ((V c main_v105 : S64x1x80x80.Idx → EReal) (Cert.BceSpec.glue1 q j))

/-- After the first point the cell holds the first block's sum. -/
theorem sum1_first (c : Dev nD) (hn : 0 < cfg1.N) (i : S1x1.Idx) :
    acc1 V c 0 hn i = bsum1 V c (pt1 ⟨0, hn⟩) := by
  show k1_pay2 (F := Ideal) (iblk1 V c 0 ⟨0, hn⟩) (iblk1 V c 1 ⟨0, hn⟩) (k1_pay1 (F := Ideal)) i = _
  rw [pay1_2, pay1_1]
  show (0 : EReal) + _ = _
  rw [zero_add]
  exact Finset.sum_congr rfl fun j _ => by rw [blk1_pred, blk1_tgt]

/-- Each later point adds its block's sum. -/
theorem sum1_step (c : Dev nD) (n : ℕ) (hn : n + 1 < cfg1.N) (i : S1x1.Idx) :
    acc1 V c (n + 1) hn i = acc1 V c n (Nat.lt_of_succ_lt hn) i + bsum1 V c (pt1 ⟨n + 1, hn⟩) := by
  show k1_pay2 (F := Ideal) (iblk1 V c 0 ⟨n + 1, hn⟩) (iblk1 V c 1 ⟨n + 1, hn⟩) (acc1 V c n (Nat.lt_of_succ_lt hn)) i = _
  rw [pay1_2]
  exact congrArg (acc1 V c n (Nat.lt_of_succ_lt hn) i + ·) (Finset.sum_congr rfl fun j _ => by rw [blk1_pred, blk1_tgt])

/-- After the last point the cell holds the specification's total over the whole arrays. -/
theorem acc1_total (c : Dev nD) :
    acc1 (F := Ideal) V c 1 (by rw [show cfg1.N = 2 from N_1]; decide)
      = fun _ => Cert.BceSpec.total (S := S64x1x80x80) (fun i => (V c main_arg1 : S64x11x80x80.Idx → EReal) (Cert.BceSpec.chan4 i))
          (V c main_v105 : S64x1x80x80.Idx → EReal) := by
  funext i
  rw [Cert.BceSpec.total_blocks1, Fin.sum_univ_two, sum1_step V c 0, sum1_first V c]
  rfl

/-- The output array at the region's exit is the cell after the last point: only the last point writes the
    one-cell block back, and that block is the whole array. -/
theorem out_final1 (c : Dev nD) :
    (dat1 (F := Ideal) V c).arrAt 2 cfg1.N
      = acc1 V c 1 (by rw [show cfg1.N = 2 from N_1]; decide) := by
  have hN : cfg1.N = 2 := N_1
  refine (dat1 (F := Ideal) V c).arrAt_eq_of_cover 2 (acc1 V c 1 (by rw [show cfg1.N = 2 from N_1]; decide)) (fun t hf => ?_) (fun i => ?_)
  · have h3 : t.val = 1 := by have h1 := (flush1_2 t).mp hf; have h2 := lt_N1 t; omega
    obtain ⟨-, -, ⟨z0, z1, -, -⟩⟩ := idx1 t
    obtain ⟨tv, ht⟩ := t
    obtain rfl : tv = 1 := h3
    funext y
    rw [View.read_apply]
    show acc1 V c 1 _ ((cfg1.win 2).xinj (cfg1.grid.coords ⟨1, ht⟩) y)
      = acc1 V c 1 _ (((cfg1.win 2).blk ⟨1, ht⟩).view.emb y)
    refine congrArg _ (funext fun a => Fin.ext ?_)
    match a with
    | ⟨0, _⟩ => show (y 0).val = win1_2.index ⟨1, ht⟩ (0 : Fin 2) * 1 + 1 * (y 0).val; rw [z0]; omega
    | ⟨1, _⟩ => show (y 1).val = win1_2.index ⟨1, ht⟩ (1 : Fin 2) * 1 + 1 * (y 1).val; rw [z1]; omega
  · have hlast : 1 < cfg1.N := by rw [hN]; decide
    obtain ⟨-, -, ⟨z0, z1, x0, x1⟩⟩ := idx1 ⟨1, hlast⟩
    refine ⟨⟨1, hlast⟩, (flush1_2 ⟨1, hlast⟩).mpr rfl, ?_⟩
    show i ∈ ((View.whole main_v162).slice (win1_2.rect ⟨1, hlast⟩)).set
    rw [View.set_slice_whole, Rect.mem_set_unit]
    intro a
    have h0 : (i 0 : Nat) < 1 := (i 0).isLt
    have h1 : (i 1 : Nat) < 1 := (i 1).isLt
    match a with
    | ⟨0, _⟩ =>
      show win1_2.index ⟨1, hlast⟩ (0 : Fin 2) * win1_2.size (0 : Fin 2) ≤ (i 0 : Nat)
        ∧ (i 0 : Nat) < win1_2.index ⟨1, hlast⟩ (0 : Fin 2) * win1_2.size (0 : Fin 2) + win1_2.xsize (grid1.coords ⟨1, hlast⟩) (0 : Fin 2)
      rw [z0, x0]; omega
    | ⟨1, _⟩ =>
      show win1_2.index ⟨1, hlast⟩ (1 : Fin 2) * win1_2.size (1 : Fin 2) ≤ (i 1 : Nat)
        ∧ (i 1 : Nat) < win1_2.index ⟨1, hlast⟩ (1 : Fin 2) * win1_2.size (1 : Fin 2) + win1_2.xsize (grid1.coords ⟨1, hlast⟩) (1 : Fin 2)
      rw [z1, x1]; omega

/-- So the output array ends holding the specification's total. -/
theorem out_total1 (c : Dev nD) :
    (dat1 (F := Ideal) V c).arrAt 2 cfg1.N
      = fun _ => Cert.BceSpec.total (S := S64x1x80x80) (fun i => (V c main_arg1 : S64x11x80x80.Idx → EReal) (Cert.BceSpec.chan4 i))
          (V c main_v105 : S64x1x80x80.Idx → EReal) :=
  (out_final1 V c).trans (acc1_total V c)

end

/-! ## Call 2: 1 point, blocks of 64 leading rows -/

section
variable (V : (c : Dev nD) → (b : Ref sig .tc) → Buf (Elt Ideal) ((c : Thread nD τ).loc b))

/-- The printed index maps, decided over the grid: the prediction's block index is (t, 4, 0, 0), the target's
    (t, 0, 0, 0), the output cell's (0, 0); the output cell's block is the whole [1, 1] array. -/
theorem idx2 : ∀ t : Fin cfg2.N,
    (win2_0.index t (0 : Fin 4) = t.val ∧ win2_0.index t (1 : Fin 4) = 4 ∧ win2_0.index t (2 : Fin 4) = 0 ∧ win2_0.index t (3 : Fin 4) = 0)
    ∧ (win2_1.index t (0 : Fin 4) = t.val ∧ win2_1.index t (1 : Fin 4) = 0 ∧ win2_1.index t (2 : Fin 4) = 0 ∧ win2_1.index t (3 : Fin 4) = 0)
    ∧ (win2_2.index t (0 : Fin 2) = 0 ∧ win2_2.index t (1 : Fin 2) = 0
        ∧ win2_2.xsize (grid2.coords t) (0 : Fin 2) = 1 ∧ win2_2.xsize (grid2.coords t) (1 : Fin 2) = 1) :=
  (by decide +kernel : ∀ t : Fin grid2.N, _)

/-- The grid has 1 point. -/
theorem lt_N2 (t : Fin cfg2.N) : t.val < 1 := lt_of_lt_of_eq t.isLt N_2

/-- A grid point as a number below 1. -/
def pt2 (t : Fin cfg2.N) : Fin 1 := ⟨t.val, lt_N2 t⟩

/-- The prediction's block at point t holds channel 4 of rows t * 64 … t * 64 + 63. -/
theorem blk2_pred (c : Dev nD) (t : Fin cfg2.N) (j : S64x1x40x40.Idx) :
    (iblk2 V c 0 t : Vec Ideal S64x1x40x40 .f32) j
      = (V c main_arg2 : S64x11x40x40.Idx → EReal) (Cert.BceSpec.chan4 (Cert.BceSpec.glue2 (pt2 t) j)) := by
  obtain ⟨⟨e0, e1, e2, e3⟩, -, -⟩ := idx2 t
  unfold iblk2
  rw [View.read_apply]
  show (V c main_arg2 : S64x11x40x40.Idx → EReal) (((cfg2.win 0).blk t).view.emb j) = _
  refine congrArg _ (Cert.BceSpec.eq_chan4 (Cert.BceSpec.glue2 (pt2 t) j) _ ?_ ?_ ?_ ?_)
  · show win2_0.index t (0 : Fin 4) * 64 + 1 * (j 0).val = t.val * 64 + (j 0).val; rw [e0]; omega
  · show win2_0.index t (1 : Fin 4) * 1 + 1 * (j 1).val = 4 + (j 1).val; rw [e1]; omega
  · show win2_0.index t (2 : Fin 4) * 40 + 1 * (j 2).val = (j 2).val; rw [e2]; omega
  · show win2_0.index t (3 : Fin 4) * 40 + 1 * (j 3).val = (j 3).val; rw [e3]; omega

/-- The target's block at point t holds rows t * 64 … t * 64 + 63 of the objectness target. -/
theorem blk2_tgt (c : Dev nD) (t : Fin cfg2.N) (j : S64x1x40x40.Idx) :
    (iblk2 V c 1 t : Vec Ideal S64x1x40x40 .f32) j
      = (V c main_v158 : S64x1x40x40.Idx → EReal) (Cert.BceSpec.glue2 (pt2 t) j) := by
  obtain ⟨-, ⟨e0, e1, e2, e3⟩, -⟩ := idx2 t
  unfold iblk2
  rw [View.read_apply]
  show (V c main_v158 : S64x1x40x40.Idx → EReal) (((cfg2.win 1).blk t).view.emb j) = _
  refine congrArg _ (funext fun a => Fin.ext ?_)
  match a with
  | ⟨0, _⟩ => show win2_1.index t (0 : Fin 4) * 64 + 1 * (j 0).val = t.val * 64 + (j 0).val; rw [e0]; omega
  | ⟨1, _⟩ => show win2_1.index t (1 : Fin 4) * 1 + 1 * (j 1).val = (j 1).val; rw [e1]; omega
  | ⟨2, _⟩ => show win2_1.index t (2 : Fin 4) * 40 + 1 * (j 2).val = (j 2).val; rw [e2]; omega
  | ⟨3, _⟩ => show win2_1.index t (3 : Fin 4) * 40 + 1 * (j 3).val = (j 3).val; rw [e3]; omega

/-- Block q's sum of one-element losses, read off the two arrays. -/
def bsum2 (c : Dev nD) (q : Fin 1) : EReal :=
  ∑ j : S64x1x40x40.Idx, Cert.BceSpec.term ((V c main_arg2 : S64x11x40x40.Idx → EReal) (Cert.BceSpec.chan4 (Cert.BceSpec.glue2 q j)))
    ((V c main_v158 : S64x1x40x40.Idx → EReal) (Cert.BceSpec.glue2 q j))

/-- After the first point the cell holds the first block's sum. -/
theorem sum2_first (c : Dev nD) (hn : 0 < cfg2.N) (i : S1x1.Idx) :
    acc2 V c 0 hn i = bsum2 V c (pt2 ⟨0, hn⟩) := by
  show k2_pay2 (F := Ideal) (iblk2 V c 0 ⟨0, hn⟩) (iblk2 V c 1 ⟨0, hn⟩) (k2_pay1 (F := Ideal)) i = _
  rw [pay2_2, pay2_1]
  show (0 : EReal) + _ = _
  rw [zero_add]
  exact Finset.sum_congr rfl fun j _ => by rw [blk2_pred, blk2_tgt]

/-- Each later point adds its block's sum. -/
theorem sum2_step (c : Dev nD) (n : ℕ) (hn : n + 1 < cfg2.N) (i : S1x1.Idx) :
    acc2 V c (n + 1) hn i = acc2 V c n (Nat.lt_of_succ_lt hn) i + bsum2 V c (pt2 ⟨n + 1, hn⟩) := by
  show k2_pay2 (F := Ideal) (iblk2 V c 0 ⟨n + 1, hn⟩) (iblk2 V c 1 ⟨n + 1, hn⟩) (acc2 V c n (Nat.lt_of_succ_lt hn)) i = _
  rw [pay2_2]
  exact congrArg (acc2 V c n (Nat.lt_of_succ_lt hn) i + ·) (Finset.sum_congr rfl fun j _ => by rw [blk2_pred, blk2_tgt])

/-- After the last point the cell holds the specification's total over the whole arrays. -/
theorem acc2_total (c : Dev nD) :
    acc2 (F := Ideal) V c 0 (by rw [show cfg2.N = 1 from N_2]; decide)
      = fun _ => Cert.BceSpec.total (S := S64x1x40x40) (fun i => (V c main_arg2 : S64x11x40x40.Idx → EReal) (Cert.BceSpec.chan4 i))
          (V c main_v158 : S64x1x40x40.Idx → EReal) := by
  funext i
  rw [Cert.BceSpec.total_blocks2, Fin.sum_univ_one, sum2_first V c]
  rfl

/-- The output array at the region's exit is the cell after the last point: only the last point writes the
    one-cell block back, and that block is the whole array. -/
theorem out_final2 (c : Dev nD) :
    (dat2 (F := Ideal) V c).arrAt 2 cfg2.N
      = acc2 V c 0 (by rw [show cfg2.N = 1 from N_2]; decide) := by
  have hN : cfg2.N = 1 := N_2
  refine (dat2 (F := Ideal) V c).arrAt_eq_of_cover 2 (acc2 V c 0 (by rw [show cfg2.N = 1 from N_2]; decide)) (fun t hf => ?_) (fun i => ?_)
  · have h3 : t.val = 0 := by have h2 := lt_N2 t; omega
    obtain ⟨-, -, ⟨z0, z1, -, -⟩⟩ := idx2 t
    obtain ⟨tv, ht⟩ := t
    obtain rfl : tv = 0 := h3
    funext y
    rw [View.read_apply]
    show acc2 V c 0 _ ((cfg2.win 2).xinj (cfg2.grid.coords ⟨0, ht⟩) y)
      = acc2 V c 0 _ (((cfg2.win 2).blk ⟨0, ht⟩).view.emb y)
    refine congrArg _ (funext fun a => Fin.ext ?_)
    match a with
    | ⟨0, _⟩ => show (y 0).val = win2_2.index ⟨0, ht⟩ (0 : Fin 2) * 1 + 1 * (y 0).val; rw [z0]; omega
    | ⟨1, _⟩ => show (y 1).val = win2_2.index ⟨0, ht⟩ (1 : Fin 2) * 1 + 1 * (y 1).val; rw [z1]; omega
  · have hlast : 0 < cfg2.N := by rw [hN]; decide
    obtain ⟨-, -, ⟨z0, z1, x0, x1⟩⟩ := idx2 ⟨0, hlast⟩
    refine ⟨⟨0, hlast⟩, flush2_2 ⟨0, hlast⟩, ?_⟩
    show i ∈ ((View.whole main_v165).slice (win2_2.rect ⟨0, hlast⟩)).set
    rw [View.set_slice_whole, Rect.mem_set_unit]
    intro a
    have h0 : (i 0 : Nat) < 1 := (i 0).isLt
    have h1 : (i 1 : Nat) < 1 := (i 1).isLt
    match a with
    | ⟨0, _⟩ =>
      show win2_2.index ⟨0, hlast⟩ (0 : Fin 2) * win2_2.size (0 : Fin 2) ≤ (i 0 : Nat)
        ∧ (i 0 : Nat) < win2_2.index ⟨0, hlast⟩ (0 : Fin 2) * win2_2.size (0 : Fin 2) + win2_2.xsize (grid2.coords ⟨0, hlast⟩) (0 : Fin 2)
      rw [z0, x0]; omega
    | ⟨1, _⟩ =>
      show win2_2.index ⟨0, hlast⟩ (1 : Fin 2) * win2_2.size (1 : Fin 2) ≤ (i 1 : Nat)
        ∧ (i 1 : Nat) < win2_2.index ⟨0, hlast⟩ (1 : Fin 2) * win2_2.size (1 : Fin 2) + win2_2.xsize (grid2.coords ⟨0, hlast⟩) (1 : Fin 2)
      rw [z1, x1]; omega

/-- So the output array ends holding the specification's total. -/
theorem out_total2 (c : Dev nD) :
    (dat2 (F := Ideal) V c).arrAt 2 cfg2.N
      = fun _ => Cert.BceSpec.total (S := S64x1x40x40) (fun i => (V c main_arg2 : S64x11x40x40.Idx → EReal) (Cert.BceSpec.chan4 i))
          (V c main_v158 : S64x1x40x40.Idx → EReal) :=
  (out_final2 V c).trans (acc2_total V c)

end

end Cert.KernelIdeal.Val

end
-- ==== Proof.KI.TailValue.lean ====
/- The host operations after the three regions, on the extended reals: applied to three one-cell arrays that
   hold the numbers T0, T1, T2 they give the specification's combination of them, at the result's one index. -/
import proofs.«153644_j35845797053068_1_alg».proof.Proof.KI.Result
import proofs.«153644_j35845797053068_1_alg».proof.Proof.Spec

noncomputable section

namespace Cert.KernelIdeal.Val

open Idealize.ShloMosaic
open Cert.KernelIdeal Cert.KernelIdeal.Gen

/-- A one-cell array holding T everywhere, cast to a scalar and divided by the constant of word k, is the
    quotient of T by that constant. -/
theorem quot_const (k : BitVec 32) (T : EReal) :
    quot (F := Ideal) k (fun _ => T) = fun _ => Ideal.div T (Ideal.ofBits .f32 k) := by
  funext i
  rfl

/-- Each array divided by its scale's element count, the quotients added left to right, times one. -/
theorem tail_combine (T0 T1 T2 : EReal) :
    tail (F := Ideal) (fun _ => T0) (fun _ => T1) (fun _ => T2) = fun _ => Cert.BceSpec.combine T0 T1 T2 := by
  funext i
  unfold tail tail3
  rw [quot_const, quot_const, quot_const]
  rfl

end Cert.KernelIdeal.Val

end
-- ==== Proof.KI.KernelValue.lean ====
import proofs.«153644_j35845797053068_1_alg».proof.Proof.KI.Result
import proofs.«153644_j35845797053068_1_alg».proof.Proof.KI.HostWrites
import proofs.«153644_j35845797053068_1_alg».proof.Proof.KI.HostVals0
import proofs.«153644_j35845797053068_1_alg».proof.Proof.KI.HostVals1
import proofs.«153644_j35845797053068_1_alg».proof.Proof.KI.HostVals2
import proofs.«153644_j35845797053068_1_alg».proof.Proof.KI.HostEq
import proofs.«153644_j35845797053068_1_alg».proof.Proof.KI.AccValue
import proofs.«153644_j35845797053068_1_alg».proof.Proof.KI.TailValue
import proofs.«153644_j35845797053068_1_alg».proof.Proof.RefSide
import proofs.«153644_j35845797053068_1_alg».proof.Proof.Spec

noncomputable section

namespace Cert.KernelIdeal.Val

open Idealize.ShloMosaic Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg)

/-- The idealized kernel's returned scalar, as a function of the arrays it was launched with: the host tail applied to
    the three regions' output cells; each cell is the running sum after its region's last point, which is the total of
    the per-element losses over the whole [64, 1, H, W] slab (the blocks tile the batch axis); the prediction array a
    region reads is the launch array, and the target array it reads is the host chain's scatter of the targets table —
    the same operations the reference applies. -/
theorem kernel_result (c : Dev nD) :
    W16 (F := Ideal) m ρ c (Proc.devRef .tc main_v170)
      = fun _ => Cert.BceSpec.combine
          (Cert.BceSpec.total (S := S64x1x160x160) (fun i => m ((c.tc : Thread nD τ).loc main_arg0) (Cert.BceSpec.chan4 i))
            (Cert.RefSide.ot0 (m ((c.tc : Thread nD τ).loc main_arg3))))
          (Cert.BceSpec.total (S := S64x1x80x80) (fun i => m ((c.tc : Thread nD τ).loc main_arg1) (Cert.BceSpec.chan4 i))
            (Cert.RefSide.ot1 (m ((c.tc : Thread nD τ).loc main_arg3))))
          (Cert.BceSpec.total (S := S64x1x40x40) (fun i => m ((c.tc : Thread nD τ).loc main_arg2) (Cert.BceSpec.chan4 i))
            (Cert.RefSide.ot2 (m ((c.tc : Thread nD τ).loc main_arg3)))) := by
  refine (W16_result m ρ c).trans ?_
  rw [out_total0 (V10 m ρ) c, out_total1 (V12 m ρ) c, out_total2 (V14 m ρ) c]
  refine (tail_combine _ _ _).trans ?_
  rw [V10_arg0 m ρ c, V10_v52 m ρ c, kot0_eq, V12_arg1 m ρ c, V12_v105 m ρ c, kot1_eq, V14_arg2 m ρ c, V14_v158 m ρ c, kot2_eq]
  rfl

end Cert.KernelIdeal.Val

end
-- ==== Proof.lean ====
/-
  Three objectness BCE losses (at 160×160, 80×80 and 40×40), each the mean over a [64, 1, H, W] slab of
  −(t·max(log σ(p), −100) + (1 − t)·max(log1p(−σ(p)), −100)), p the channel-4 slice of a prediction array and t a 0/1
  target array scattered from the targets table, summed and multiplied by one. The reference takes each mean as one
  whole-array sum divided by 64·H·W. The kernel takes each sum block by block along the batch axis: a Pallas call per
  scale whose body keeps a running sum in a one-cell scratch buffer, cleared at the first grid point, increased by the
  block's sum at every point, and copied to the one-cell output at the last point; the host then divides by the same
  count. On the extended reals addition is commutative and associative, so the sum over the whole slab is the sum over
  the blocks of the blocks' sums, in the order the kernel adds them; sigmoid is one function however it is spelt, and
  0 − x is −x; both programs build the target arrays by the same host operations from the same table. No law used here
  needs finiteness, so the precondition is never opened.

  The frames of the two kernel programs (word level and idealized) are one argument written once over any float
  instance: the entry point as sixteen segments (thirteen stretches of host operations, three kernel regions), the
  buffer contents at each boundary folded from the launch memory, each region's body run at each kind of grid point,
  and the invariant between points naming the scratch cell's contents. The reference's frame is its run with the
  result dropped. The ideal pass rewrote nothing, so the idealization claim is trivial.
-/
import proofs.«153644_j35845797053068_1_alg».proof.Defs
import proofs.«153644_j35845797053068_1_alg».proof.Proof.Gen.Kernel
import proofs.«153644_j35845797053068_1_alg».proof.Proof.Gen.KernelIdeal
import proofs.«153644_j35845797053068_1_alg».proof.Proof.Gen.ReferenceIdeal
import proofs.«153644_j35845797053068_1_alg».proof.Proof.Gen.Pre_finite_inputs
import proofs.«153644_j35845797053068_1_alg».proof.Proof.Gen.ReferenceIdeal.Run
import proofs.«153644_j35845797053068_1_alg».proof.Proof.Gen.ReferenceIdeal.Read
import proofs.«153644_j35845797053068_1_alg».proof.Proof.KB.Frame
import proofs.«153644_j35845797053068_1_alg».proof.Proof.KI.Frame
import proofs.«153644_j35845797053068_1_alg».proof.Proof.KI.KernelValue
import proofs.«153644_j35845797053068_1_alg».proof.Proof.RefSide
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end at the same combination of the three scales' totals: the kernel's scalar is that combination of
    the argument arrays it was launched with, the reference's of its own, and the arguments agree. -/
theorem algebraic : Cert.algebraic_KernelIdeal_ReferenceIdeal := by
  intro m ρ m' ρ' _ hagree
  refine ⟨fun c => Cert.KernelIdeal.Hand.W16 (F := Ideal) m ρ c (Proc.devRef .tc Cert.KernelIdeal.main_v170),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.RefSide.ref_result m' c).trans ?_
  rw [(hagree c).1, (hagree c).2.1, (hagree c).2.2.1, (hagree c).2.2.2]
  exact (Cert.KernelIdeal.Val.kernel_result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
